-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14)) (m ((c.tc : Thread Cert.Kernel.nD Cert.Kernel.τ).loc Cert.Kernel.main_arg15)) (m ((c.tc : Thread Cert.Kernel.nD Cert.Kernel.τ).loc Cert.Kernel.main_arg16))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15)
      ∧ r.2.mem ((c.tc : Thread Cert.Kernel.nD Cert.Kernel.τ).loc Cert.Kernel.main_arg16) = m ((c.tc : Thread Cert.Kernel.nD Cert.Kernel.τ).loc Cert.Kernel.main_arg16))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)
      ∧ m' ((c.tc : Thread Cert.ReferenceIdeal.nD Cert.ReferenceIdeal.τ).loc Cert.ReferenceIdeal.main_arg16) = m ((c.tc : Thread Cert.KernelIdeal.nD Cert.KernelIdeal.τ).loc Cert.KernelIdeal.main_arg16)) →
    ∃ (v0 : (c : Dev Cert.KernelIdeal.nD) → Buf (Elt Ideal) ((c.tc : Thread Cert.KernelIdeal.nD Cert.KernelIdeal.τ).loc Cert.KernelIdeal.main_v122)) (v1 : (c : Dev Cert.KernelIdeal.nD) → Buf (Elt Ideal) ((c.tc : Thread Cert.KernelIdeal.nD Cert.KernelIdeal.τ).loc Cert.KernelIdeal.main_v109)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v122) = v0 c
          ∧ r.2.mem ((c.tc : Thread Cert.KernelIdeal.nD Cert.KernelIdeal.τ).loc Cert.KernelIdeal.main_v109) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
          ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v145) = v0 c
          ∧ r.2.mem ((c.tc : Thread Cert.ReferenceIdeal.nD Cert.ReferenceIdeal.τ).loc Cert.ReferenceIdeal.main_v128) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15)
          ∧ r.2.mem ((c.tc : Thread Cert.ReferenceIdeal.nD Cert.ReferenceIdeal.τ).loc Cert.ReferenceIdeal.main_arg16) = m' ((c.tc : Thread Cert.ReferenceIdeal.nD Cert.ReferenceIdeal.τ).loc Cert.ReferenceIdeal.main_arg16))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x128 : Shape := ⟨2, ![50000, 128]⟩
abbrev S2x800000 : Shape := ⟨2, ![2, 800000]⟩
abbrev S800000 : Shape := ⟨1, ![800000]⟩
abbrev S100000x128 : Shape := ⟨2, ![100000, 128]⟩
abbrev S100000 : Shape := ⟨1, ![100000]⟩
abbrev S128x128 : Shape := ⟨2, ![128, 128]⟩
abbrev S128 : Shape := ⟨1, ![128]⟩
abbrev S_ : Shape := ⟨0, ![]⟩
abbrev S50000 : Shape := ⟨1, ![50000]⟩
abbrev S1x800000 : Shape := ⟨2, ![1, 800000]⟩
abbrev S800000x1 : Shape := ⟨2, ![800000, 1]⟩

class Facts : Prop where
  bcast_S_S50000x128 : S_.BroadcastsInDim S50000x128 (![] : Fin 0 → Fin S50000x128.rank)
  reducesTo_S50000x128_S_d0_1 : S50000x128.ReducesTo [0, 1] S_
  h_S_ : 0 < S_.numel
  bcast_S_S800000 : S_.BroadcastsInDim S800000 (![] : Fin 0 → Fin S800000.rank)
  reducesTo_S800000_S_d0 : S800000.ReducesTo [0] S_
  bcast_S_S100000x128 : S_.BroadcastsInDim S100000x128 (![] : Fin 0 → Fin S100000x128.rank)
  reducesTo_S100000x128_S_d0_1 : S100000x128.ReducesTo [0, 1] S_
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_
  bcast_S_S50000 : S_.BroadcastsInDim S50000 (![] : Fin 0 → Fin S50000.rank)
  slices_S2x800000_S1x800000_0_0 : S2x800000.Slices ![0, 0] S1x800000
  shapeCasts_S1x800000_S800000 : S1x800000.ShapeCasts S800000
  bcast_S800000_S800000x1_0 : S800000.BroadcastsInDim S800000x1 (![0] : Fin 1 → Fin S800000x1.rank)
  reducesTo_S50000_S_d0 : S50000.ReducesTo [0] S_
  scatter_S50000_S800000x1_S800000_n_0_0_1_wf : ScatterDims.WF S50000 S800000x1 S800000 [] [0] [0] 1

variable [Facts]

def scatter_S50000_S800000x1_S800000_n_0_0_1 : ScatterDims S50000 S800000x1 S800000 where
  updateWindowDims := []
  insertedWindowDims := [0]
  scatterDimsToOperandDims := [0]
  indexVectorDim := 1
  wf := scatter_S50000_S800000x1_S800000_n_0_0_1_wf
def fn_part4 {F : FTy → Type} [FloatOps F] (main_arg1 : IVec S2x800000 32) (main_arg2 : FVec F S800000 .f32) (main_v63 : IVec S_ 1) (main_v67 : IVec S_ 1) : IVec S_ 1 :=
  let main_v68 : IVec S_ 1 := andi main_v63 main_v67
  let main_cst_26 : FVec F S_ .f32 := constant S_ .f32 0x00000000#32
  let main_v69 : FVec F S50000 .f32 := broadcastInDim S50000 ![] bcast_S_S50000 main_cst_26
  let main_v70 : IVec S1x800000 32 := (extractStridedSlice S1x800000 ![0, 0] · slices_S2x800000_S1x800000_0_0) main_arg1
  let main_v71 : IVec S800000 32 := shapeCast S800000 main_v70 shapeCasts_S1x800000_S800000
  let main_v72 : IVec S800000x1 32 := broadcastInDim S800000x1 ![0] bcast_S800000_S800000x1_0 main_v71
  let main_v73 : FVec F S50000 .f32 := (fun x i u => Host.scatterAdd scatter_S50000_S800000x1_S800000_n_0_0_1 x i u) main_v69 main_v72 main_arg2
  let main_cst_27 : FVec F S_ .f32 := constant S_ .f32 0x3F000000#32
  let main_v74 : FVec F S50000 .f32 := broadcastInDim S50000 ![] bcast_S_S50000 main_cst_27
  let main_v75 : IVec S50000 1 := cmpf .olt main_v73 main_v74
  let main_cst_28 : FVec F S_ .f32 := constant S_ .f32 0x3F800000#32
  let main_v76 : FVec F S50000 .f32 := broadcastInDim S50000 ![] bcast_S_S50000 main_cst_28
  let main_v77 : FVec F S50000 .f32 := addf main_v73 main_v76
  let main_v78 : FVec F S50000 .f32 := select main_v75 main_v77 main_v73
  let main_cst_29 : FVec F S_ .f32 := constant S_ .f32 0x00000000#32
  let main_v79 : FVec F S50000 .f32 := broadcastInDim S50000 ![] bcast_S_S50000 main_cst_29
  let main_v80 : IVec S50000 1 := cmpf .ogt main_v78 main_v79
  let main_c_30 : IVec S_ 1 := constantI S_ 1 1#1
  let main_v81 : IVec S_ 1 := (fun x v => Host.reduce IntOp.andi x v reducesTo_S50000_S_d0 h_S_) main_v80 main_c_30
  let main_v82 : IVec S_ 1 := andi main_v68 main_v81
  main_v82

def fn_part3 {F : FTy → Type} [FloatOps F] (main_arg1 : IVec S2x800000 32) (main_arg2 : FVec F S800000 .f32) (main_arg14 : FVec F S128 .f32) (main_arg15 : FVec F S128 .f32) (main_arg16 : FVec F S128 .f32) (main_v48 : IVec S_ 1) (main_v49 : FVec F S128 .f32) (main_v50 : FVec F S128 .f32) : IVec S_ 1 :=
  let main_v51 : IVec S128 1 := cmpf .olt main_v49 main_v50
  let main_c_19 : IVec S_ 1 := constantI S_ 1 1#1
  let main_v52 : IVec S_ 1 := (fun x v => Host.reduce IntOp.andi x v reducesTo_S128_S_d0 h_S_) main_v51 main_c_19
  let main_v53 : IVec S_ 1 := andi main_v48 main_v52
  let main_v54 : FVec F S128 .f32 := Host.absf main_arg14
  let main_cst_20 : FVec F S_ .f32 := constant S_ .f32 0x7F800000#32
  let main_v55 : FVec F S128 .f32 := broadcastInDim S128 ![] bcast_S_S128 main_cst_20
  let main_v56 : IVec S128 1 := cmpf .olt main_v54 main_v55
  let main_c_21 : IVec S_ 1 := constantI S_ 1 1#1
  let main_v57 : IVec S_ 1 := (fun x v => Host.reduce IntOp.andi x v reducesTo_S128_S_d0 h_S_) main_v56 main_c_21
  let main_v58 : IVec S_ 1 := andi main_v53 main_v57
  let main_v59 : FVec F S128 .f32 := Host.absf main_arg15
  let main_cst_22 : FVec F S_ .f32 := constant S_ .f32 0x7F800000#32
  let main_v60 : FVec F S128 .f32 := broadcastInDim S128 ![] bcast_S_S128 main_cst_22
  let main_v61 : IVec S128 1 := cmpf .olt main_v59 main_v60
  let main_c_23 : IVec S_ 1 := constantI S_ 1 1#1
  let main_v62 : IVec S_ 1 := (fun x v => Host.reduce IntOp.andi x v reducesTo_S128_S_d0 h_S_) main_v61 main_c_23
  let main_v63 : IVec S_ 1 := andi main_v58 main_v62
  let main_v64 : FVec F S128 .f32 := Host.absf main_arg16
  let main_cst_24 : FVec F S_ .f32 := constant S_ .f32 0x7F800000#32
  let main_v65 : FVec F S128 .f32 := broadcastInDim S128 ![] bcast_S_S128 main_cst_24
  let main_v66 : IVec S128 1 := cmpf .olt main_v64 main_v65
  let main_c_25 : IVec S_ 1 := constantI S_ 1 1#1
  let main_v67 : IVec S_ 1 := (fun x v => Host.reduce IntOp.andi x v reducesTo_S128_S_d0 h_S_) main_v66 main_c_25
  fn_part4 (F := F) main_arg1 main_arg2 main_v63 main_v67

def fn_part2 {F : FTy → Type} [FloatOps F] (main_arg1 : IVec S2x800000 32) (main_arg2 : FVec F S800000 .f32) (main_arg10 : FVec F S128 .f32) (main_arg11 : FVec F S128 .f32) (main_arg12 : FVec F S128 .f32) (main_arg13 : FVec F S128 .f32) (main_arg14 : FVec F S128 .f32) (main_arg15 : FVec F S128 .f32) (main_arg16 : FVec F S128 .f32) (main_v33 : IVec S_ 1) : IVec S_ 1 :=
  let main_v34 : FVec F S128 .f32 := Host.absf main_arg10
  let main_cst_12 : FVec F S_ .f32 := constant S_ .f32 0x7F800000#32
  let main_v35 : FVec F S128 .f32 := broadcastInDim S128 ![] bcast_S_S128 main_cst_12
  let main_v36 : IVec S128 1 := cmpf .olt main_v34 main_v35
  let main_c_13 : IVec S_ 1 := constantI S_ 1 1#1
  let main_v37 : IVec S_ 1 := (fun x v => Host.reduce IntOp.andi x v reducesTo_S128_S_d0 h_S_) main_v36 main_c_13
  let main_v38 : IVec S_ 1 := andi main_v33 main_v37
  let main_v39 : FVec F S128 .f32 := Host.absf main_arg11
  let main_cst_14 : FVec F S_ .f32 := constant S_ .f32 0x7F800000#32
  let main_v40 : FVec F S128 .f32 := broadcastInDim S128 ![] bcast_S_S128 main_cst_14
  let main_v41 : IVec S128 1 := cmpf .olt main_v39 main_v40
  let main_c_15 : IVec S_ 1 := constantI S_ 1 1#1
  let main_v42 : IVec S_ 1 := (fun x v => Host.reduce IntOp.andi x v reducesTo_S128_S_d0 h_S_) main_v41 main_c_15
  let main_v43 : IVec S_ 1 := andi main_v38 main_v42
  let main_v44 : FVec F S128 .f32 := Host.absf main_arg12
  let main_cst_16 : FVec F S_ .f32 := constant S_ .f32 0x7F800000#32
  let main_v45 : FVec F S128 .f32 := broadcastInDim S128 ![] bcast_S_S128 main_cst_16
  let main_v46 : IVec S128 1 := cmpf .olt main_v44 main_v45
  let main_c_17 : IVec S_ 1 := constantI S_ 1 1#1
  let main_v47 : IVec S_ 1 := (fun x v => Host.reduce IntOp.andi x v reducesTo_S128_S_d0 h_S_) main_v46 main_c_17
  let main_v48 : IVec S_ 1 := andi main_v43 main_v47
  let main_v49 : FVec F S128 .f32 := Host.absf main_arg13
  let main_cst_18 : FVec F S_ .f32 := constant S_ .f32 0x7F800000#32
  let main_v50 : FVec F S128 .f32 := broadcastInDim S128 ![] bcast_S_S128 main_cst_18
  fn_part3 (F := F) main_arg1 main_arg2 main_arg14 main_arg15 main_arg16 main_v48 main_v49 main_v50

def fn_part1 {F : FTy → Type} [FloatOps F] (main_arg1 : IVec S2x800000 32) (main_arg2 : FVec F S800000 .f32) (main_arg7 : FVec F S128x128 .f32) (main_arg8 : FVec F S128 .f32) (main_arg9 : FVec F S128x128 .f32) (main_arg10 : FVec F S128 .f32) (main_arg11 : FVec F S128 .f32) (main_arg12 : FVec F S128 .f32) (main_arg13 : FVec F S128 .f32) (main_arg14 : FVec F S128 .f32) (main_arg15 : FVec F S128 .f32) (main_arg16 : FVec F S128 .f32) (main_v13 : IVec S_ 1) (main_v16 : IVec S800000 1) : IVec S_ 1 :=
  let main_c_5 : IVec S_ 1 := constantI S_ 1 1#1
  let main_v17 : IVec S_ 1 := (fun x v => Host.reduce IntOp.andi x v reducesTo_S800000_S_d0 h_S_) main_v16 main_c_5
  let main_v18 : IVec S_ 1 := andi main_v13 main_v17
  let main_v19 : FVec F S128x128 .f32 := Host.absf main_arg7
  let main_cst_6 : FVec F S_ .f32 := constant S_ .f32 0x7F800000#32
  let main_v20 : FVec F S128x128 .f32 := broadcastInDim S128x128 ![] bcast_S_S128x128 main_cst_6
  let main_v21 : IVec S128x128 1 := cmpf .olt main_v19 main_v20
  let main_c_7 : IVec S_ 1 := constantI S_ 1 1#1
  let main_v22 : IVec S_ 1 := (fun x v => Host.reduce IntOp.andi x v reducesTo_S128x128_S_d0_1 h_S_) main_v21 main_c_7
  let main_v23 : IVec S_ 1 := andi main_v18 main_v22
  let main_v24 : FVec F S128 .f32 := Host.absf main_arg8
  let main_cst_8 : FVec F S_ .f32 := constant S_ .f32 0x7F800000#32
  let main_v25 : FVec F S128 .f32 := broadcastInDim S128 ![] bcast_S_S128 main_cst_8
  let main_v26 : IVec S128 1 := cmpf .olt main_v24 main_v25
  let main_c_9 : IVec S_ 1 := constantI S_ 1 1#1
  let main_v27 : IVec S_ 1 := (fun x v => Host.reduce IntOp.andi x v reducesTo_S128_S_d0 h_S_) main_v26 main_c_9
  let main_v28 : IVec S_ 1 := andi main_v23 main_v27
  let main_v29 : FVec F S128x128 .f32 := Host.absf main_arg9
  let main_cst_10 : FVec F S_ .f32 := constant S_ .f32 0x7F800000#32
  let main_v30 : FVec F S128x128 .f32 := broadcastInDim S128x128 ![] bcast_S_S128x128 main_cst_10
  let main_v31 : IVec S128x128 1 := cmpf .olt main_v29 main_v30
  let main_c_11 : IVec S_ 1 := constantI S_ 1 1#1
  let main_v32 : IVec S_ 1 := (fun x v => Host.reduce IntOp.andi x v reducesTo_S128x128_S_d0_1 h_S_) main_v31 main_c_11
  let main_v33 : IVec S_ 1 := andi main_v28 main_v32
  fn_part2 (F := F) main_arg1 main_arg2 main_arg10 main_arg11 main_arg12 main_arg13 main_arg14 main_arg15 main_arg16 main_v33

def fn {F : FTy → Type} [FloatOps F] (main_arg0 : FVec F S50000x128 .f32) (main_arg1 : IVec S2x800000 32) (main_arg2 : FVec F S800000 .f32) (main_arg3 : FVec F S100000x128 .f32) (main_arg4 : IVec S2x800000 32) (main_arg5 : FVec F S800000 .f32) (main_arg6 : IVec S100000 32) (main_arg7 : FVec F S128x128 .f32) (main_arg8 : FVec F S128 .f32) (main_arg9 : FVec F S128x128 .f32) (main_arg10 : FVec F S128 .f32) (main_arg11 : FVec F S128 .f32) (main_arg12 : FVec F S128 .f32) (main_arg13 : FVec F S128 .f32) (main_arg14 : FVec F S128 .f32) (main_arg15 : FVec F S128 .f32) (main_arg16 : FVec F S128 .f32) : IVec S_ 1 :=
  let main_v0 : FVec F S50000x128 .f32 := Host.absf main_arg0
  let main_cst : FVec F S_ .f32 := constant S_ .f32 0x7F800000#32
  let main_v1 : FVec F S50000x128 .f32 := broadcastInDim S50000x128 ![] bcast_S_S50000x128 main_cst
  let main_v2 : IVec S50000x128 1 := cmpf .olt main_v0 main_v1
  let main_c : IVec S_ 1 := constantI S_ 1 1#1
  let main_v3 : IVec S_ 1 := (fun x v => Host.reduce IntOp.andi x v reducesTo_S50000x128_S_d0_1 h_S_) main_v2 main_c
  let main_v4 : FVec F S800000 .f32 := Host.absf main_arg2
  let main_cst_0 : FVec F S_ .f32 := constant S_ .f32 0x7F800000#32
  let main_v5 : FVec F S800000 .f32 := broadcastInDim S800000 ![] bcast_S_S800000 main_cst_0
  let main_v6 : IVec S800000 1 := cmpf .olt main_v4 main_v5
  let main_c_1 : IVec S_ 1 := constantI S_ 1 1#1
  let main_v7 : IVec S_ 1 := (fun x v => Host.reduce IntOp.andi x v reducesTo_S800000_S_d0 h_S_) main_v6 main_c_1
  let main_v8 : IVec S_ 1 := andi main_v3 main_v7
  let main_v9 : FVec F S100000x128 .f32 := Host.absf main_arg3
  let main_cst_2 : FVec F S_ .f32 := constant S_ .f32 0x7F800000#32
  let main_v10 : FVec F S100000x128 .f32 := broadcastInDim S100000x128 ![] bcast_S_S100000x128 main_cst_2
  let main_v11 : IVec S100000x128 1 := cmpf .olt main_v9 main_v10
  let main_c_3 : IVec S_ 1 := constantI S_ 1 1#1
  let main_v12 : IVec S_ 1 := (fun x v => Host.reduce IntOp.andi x v reducesTo_S100000x128_S_d0_1 h_S_) main_v11 main_c_3
  let main_v13 : IVec S_ 1 := andi main_v8 main_v12
  let main_v14 : FVec F S800000 .f32 := Host.absf main_arg5
  let main_cst_4 : FVec F S_ .f32 := constant S_ .f32 0x7F800000#32
  let main_v15 : FVec F S800000 .f32 := broadcastInDim S800000 ![] bcast_S_S800000 main_cst_4
  let main_v16 : IVec S800000 1 := cmpf .olt main_v14 main_v15
  fn_part1 (F := F) main_arg1 main_arg2 main_arg7 main_arg8 main_arg9 main_arg10 main_arg11 main_arg12 main_arg13 main_arg14 main_arg15 main_arg16 main_v13 main_v16
-- ==== Kernel.lean ====
abbrev S50000x128 : Shape := ⟨2, ![50000, 128]⟩
abbrev S2x800000 : Shape := ⟨2, ![2, 800000]⟩
abbrev S800000 : Shape := ⟨1, ![800000]⟩
abbrev S100000x128 : Shape := ⟨2, ![100000, 128]⟩
abbrev S100000 : Shape := ⟨1, ![100000]⟩
abbrev S128x128 : Shape := ⟨2, ![128, 128]⟩
abbrev S128 : Shape := ⟨1, ![128]⟩
abbrev S1x800000 : Shape := ⟨2, ![1, 800000]⟩
abbrev S_ : Shape := ⟨0, ![]⟩
abbrev S50000 : Shape := ⟨1, ![50000]⟩
abbrev S800000x1 : Shape := ⟨2, ![800000, 1]⟩
abbrev S1x128 : Shape := ⟨2, ![1, 128]⟩
abbrev S5000x128 : Shape := ⟨2, ![5000, 128]⟩
abbrev S800000x128 : Shape := ⟨2, ![800000, 128]⟩
abbrev S2x1x128 : Shape := ⟨3, ![2, 1, 128]⟩
abbrev S1x1x128 : Shape := ⟨3, ![1, 1, 128]⟩
abbrev S10000x128 : Shape := ⟨2, ![10000, 128]⟩
abbrev S100000x1 : Shape := ⟨2, ![100000, 1]⟩
abbrev S50000x1 : Shape := ⟨2, ![50000, 1]⟩

abbrev nBuf : Space → Nat
  | .hbm => 171
  | .vmem => 50
  | .smem => 0
  | _ => 0

abbrev hbmTy0_0 (i : Nat) : BufTy := match i % 128 with
  | 0 => ⟨S50000x128, .f32⟩
  | 1 => ⟨S2x800000, .i32⟩
  | 2 => ⟨S800000, .f32⟩
  | 3 => ⟨S100000x128, .f32⟩
  | 4 => ⟨S2x800000, .i32⟩
  | 5 => ⟨S800000, .f32⟩
  | 6 => ⟨S100000, .i32⟩
  | 7 => ⟨S128x128, .f32⟩
  | 8 => ⟨S128, .f32⟩
  | 9 => ⟨S128x128, .f32⟩
  | 10 => ⟨S128, .f32⟩
  | 11 => ⟨S128, .f32⟩
  | 12 => ⟨S128, .f32⟩
  | 13 => ⟨S128, .f32⟩
  | 14 => ⟨S128, .f32⟩
  | 15 => ⟨S128, .f32⟩
  | 16 => ⟨S128, .f32⟩
  | 17 => ⟨S1x800000, .i32⟩
  | 18 => ⟨S800000, .i32⟩
  | 19 => ⟨S1x800000, .i32⟩
  | 20 => ⟨S800000, .i32⟩
  | 21 => ⟨S_, .f32⟩
  | 22 => ⟨S50000, .f32⟩
  | 23 => ⟨S800000x1, .i32⟩
  | 24 => ⟨S50000, .f32⟩
  | 25 => ⟨S_, .f32⟩
  | 26 => ⟨S50000, .f32⟩
  | 27 => ⟨S50000, .i1⟩
  | 28 => ⟨S_, .f32⟩
  | 29 => ⟨S50000, .f32⟩
  | 30 => ⟨S50000, .f32⟩
  | 31 => ⟨S50000, .f32⟩
  | 32 => ⟨S50000, .f32⟩
  | 33 => ⟨S_, .i32⟩
  | 34 => ⟨S800000, .i32⟩
  | 35 => ⟨S800000, .i1⟩
  | 36 => ⟨S_, .i32⟩
  | 37 => ⟨S800000, .i32⟩
  | 38 => ⟨S800000, .i32⟩
  | 39 => ⟨S800000, .i32⟩
  | 40 => ⟨S800000x1, .i32⟩
  | 41 => ⟨S800000, .f32⟩
  | 42 => ⟨S800000, .f32⟩
  | 43 => ⟨S_, .i32⟩
  | 44 => ⟨S800000, .i32⟩
  | 45 => ⟨S800000, .i1⟩
  | 46 => ⟨S_, .i32⟩
  | 47 => ⟨S800000, .i32⟩
  | 48 => ⟨S800000, .i32⟩
  | 49 => ⟨S800000, .i32⟩
  | 50 => ⟨S800000x1, .i32⟩
  | 51 => ⟨S800000, .f32⟩
  | 52 => ⟨S800000, .f32⟩
  | 53 => ⟨S128x128, .f32⟩
  | 54 => ⟨S1x128, .f32⟩
  | 55 => ⟨S50000x128, .bf16⟩
  | 56 => ⟨S_, .i32⟩
  | 57 => ⟨S800000, .i32⟩
  | 58 => ⟨S800000, .i1⟩
  | 59 => ⟨S_, .i32⟩
  | 60 => ⟨S800000, .i32⟩
  | 61 => ⟨S800000, .i32⟩
  | 62 => ⟨S800000, .i32⟩
  | 63 => ⟨S800000x1, .i32⟩
  | 64 => ⟨S800000x128, .bf16⟩
  | 65 => ⟨S800000x128, .f32⟩
  | 66 => ⟨S800000x1, .f32⟩
  | 67 => ⟨S800000x128, .f32⟩
  | 68 => ⟨S800000x128, .f32⟩
  | 69 => ⟨S_, .f32⟩
  | 70 => ⟨S50000x128, .f32⟩
  | 71 => ⟨S800000x1, .i32⟩
  | 72 => ⟨S50000x128, .f32⟩
  | 73 => ⟨S2x1x128, .f32⟩
  | 74 => ⟨S2x1x128, .f32⟩
  | 75 => ⟨S_, .f32⟩
  | 76 => ⟨S1x128, .f32⟩
  | 77 => ⟨S_, .f32⟩
  | 78 => ⟨S1x128, .f32⟩
  | 79 => ⟨S_, .f32⟩
  | 80 => ⟨S1x128, .f32⟩
  | 81 => ⟨S1x128, .f32⟩
  | 82 => ⟨S1x128, .f32⟩
  | 83 => ⟨S_, .f32⟩
  | 84 => ⟨S1x128, .f32⟩
  | 85 => ⟨S1x128, .f32⟩
  | 86 => ⟨S1x128, .f32⟩
  | 87 => ⟨S1x128, .f32⟩
  | 88 => ⟨S_, .f32⟩
  | 89 => ⟨S1x128, .f32⟩
  | 90 => ⟨S1x128, .f32⟩
  | 91 => ⟨S1x128, .f32⟩
  | 92 => ⟨S1x128, .f32⟩
  | 93 => ⟨S1x128, .f32⟩
  | 94 => ⟨S1x128, .f32⟩
  | 95 => ⟨S1x128, .f32⟩
  | 96 => ⟨S50000x128, .f32⟩
  | 97 => ⟨S128x128, .f32⟩
  | 98 => ⟨S1x128, .f32⟩
  | 99 => ⟨S100000x128, .bf16⟩
  | 100 => ⟨S1x800000, .i32⟩
  | 101 => ⟨S800000, .i32⟩
  | 102 => ⟨S1x800000, .i32⟩
  | 103 => ⟨S800000, .i32⟩
  | 104 => ⟨S_, .i32⟩
  | 105 => ⟨S800000, .i32⟩
  | 106 => ⟨S800000, .i1⟩
  | 107 => ⟨S_, .i32⟩
  | 108 => ⟨S800000, .i32⟩
  | 109 => ⟨S800000, .i32⟩
  | 110 => ⟨S800000, .i32⟩
  | 111 => ⟨S800000x1, .i32⟩
  | 112 => ⟨S800000x128, .bf16⟩
  | 113 => ⟨S800000x128, .f32⟩
  | 114 => ⟨S800000x1, .f32⟩
  | 115 => ⟨S800000x128, .f32⟩
  | 116 => ⟨S800000x128, .f32⟩
  | 117 => ⟨S_, .f32⟩
  | 118 => ⟨S100000x128, .f32⟩
  | 119 => ⟨S800000x1, .i32⟩
  | 120 => ⟨S100000x128, .f32⟩
  | 121 => ⟨S2x1x128, .f32⟩
  | 122 => ⟨S2x1x128, .f32⟩
  | 123 => ⟨S_, .f32⟩
  | 124 => ⟨S1x128, .f32⟩
  | 125 => ⟨S_, .f32⟩
  | 126 => ⟨S1x128, .f32⟩
  | 127 => ⟨S_, .f32⟩
  | _ => ⟨S50000x128, .f32⟩

abbrev hbmTy0_1 (i : Nat) : BufTy := match i % 128 with
  | 0 => ⟨S1x128, .f32⟩
  | 1 => ⟨S1x128, .f32⟩
  | 2 => ⟨S1x128, .f32⟩
  | 3 => ⟨S_, .f32⟩
  | 4 => ⟨S1x128, .f32⟩
  | 5 => ⟨S1x128, .f32⟩
  | 6 => ⟨S1x128, .f32⟩
  | 7 => ⟨S1x128, .f32⟩
  | 8 => ⟨S_, .f32⟩
  | 9 => ⟨S1x128, .f32⟩
  | 10 => ⟨S1x128, .f32⟩
  | 11 => ⟨S1x128, .f32⟩
  | 12 => ⟨S1x128, .f32⟩
  | 13 => ⟨S_, .i32⟩
  | 14 => ⟨S100000, .i32⟩
  | 15 => ⟨S100000, .i1⟩
  | 16 => ⟨S_, .i32⟩
  | 17 => ⟨S100000, .i32⟩
  | 18 => ⟨S100000, .i32⟩
  | 19 => ⟨S100000, .i32⟩
  | 20 => ⟨S100000x1, .i32⟩
  | 21 => ⟨S100000x128, .f32⟩
  | 22 => ⟨S1x128, .f32⟩
  | 23 => ⟨S1x128, .f32⟩
  | 24 => ⟨S1x128, .f32⟩
  | 25 => ⟨S100000x128, .f32⟩
  | 26 => ⟨S_, .f32⟩
  | 27 => ⟨S100000, .f32⟩
  | 28 => ⟨S_, .f32⟩
  | 29 => ⟨S50000, .f32⟩
  | 30 => ⟨S100000x1, .i32⟩
  | 31 => ⟨S50000, .f32⟩
  | 32 => ⟨S_, .f32⟩
  | 33 => ⟨S50000x128, .f32⟩
  | 34 => ⟨S100000x1, .i32⟩
  | 35 => ⟨S50000x128, .f32⟩
  | 36 => ⟨S_, .f32⟩
  | 37 => ⟨S50000, .f32⟩
  | 38 => ⟨S50000, .f32⟩
  | 39 => ⟨S50000x1, .f32⟩
  | 40 => ⟨S50000x128, .f32⟩
  | 41 => ⟨S50000x128, .f32⟩
  | 42 => ⟨S50000x128, .f32⟩
  | _ => ⟨S50000x128, .f32⟩

abbrev hbmTy (i : Nat) : BufTy := match i / 128 with
  | 0 => hbmTy0_0 i
  | 1 => hbmTy0_1 i
  | _ => ⟨S50000x128, .f32⟩

abbrev bufTy : (tb : Table) → Fin (tcTables nBuf tb) → BufTy
  | .hbm, ⟨i, _⟩ => hbmTy i
  | .local _ .vmem, ⟨0, _⟩ => ⟨S5000x128, .f32⟩
  | .local _ .vmem, ⟨1, _⟩ => ⟨S5000x128, .f32⟩
  | .local _ .vmem, ⟨2, _⟩ => ⟨S128x128, .f32⟩
  | .local _ .vmem, ⟨3, _⟩ => ⟨S1x128, .f32⟩
  | .local _ .vmem, ⟨4, _⟩ => ⟨S5000x128, .bf16⟩
  | .local _ .vmem, ⟨5, _⟩ => ⟨S5000x128, .bf16⟩
  | .local _ .vmem, ⟨6, _⟩ => ⟨S5000x128, .f32⟩
  | .local _ .vmem, ⟨7, _⟩ => ⟨S5000x128, .f32⟩
  | .local _ .vmem, ⟨8, _⟩ => ⟨S1x1x128, .f32⟩
  | .local _ .vmem, ⟨9, _⟩ => ⟨S1x1x128, .f32⟩
  | .local _ .vmem, ⟨10, _⟩ => ⟨S1x1x128, .f32⟩
  | .local _ .vmem, ⟨11, _⟩ => ⟨S1x1x128, .f32⟩
  | .local _ .vmem, ⟨12, _⟩ => ⟨S10000x128, .f32⟩
  | .local _ .vmem, ⟨13, _⟩ => ⟨S10000x128, .f32⟩
  | .local _ .vmem, ⟨14, _⟩ => ⟨S1x128, .f32⟩
  | .local _ .vmem, ⟨15, _⟩ => ⟨S1x128, .f32⟩
  | .local _ .vmem, ⟨16, _⟩ => ⟨S1x128, .f32⟩
  | .local _ .vmem, ⟨17, _⟩ => ⟨S1x128, .f32⟩
  | .local _ .vmem, ⟨18, _⟩ => ⟨S1x128, .f32⟩
  | .local _ .vmem, ⟨19, _⟩ => ⟨S10000x128, .f32⟩
  | .local _ .vmem, ⟨20, _⟩ => ⟨S10000x128, .f32⟩
  | .local _ .vmem, ⟨21, _⟩ => ⟨S5000x128, .f32⟩
  | .local _ .vmem, ⟨22, _⟩ => ⟨S5000x128, .f32⟩
  | .local _ .vmem, ⟨23, _⟩ => ⟨S128x128, .f32⟩
  | .local _ .vmem, ⟨24, _⟩ => ⟨S1x128, .f32⟩
  | .local _ .vmem, ⟨25, _⟩ => ⟨S5000x128, .bf16⟩
  | .local _ .vmem, ⟨26, _⟩ => ⟨S5000x128, .bf16⟩
  | .local _ .vmem, ⟨27, _⟩ => ⟨S5000x128, .f32⟩
  | .local _ .vmem, ⟨28, _⟩ => ⟨S5000x128, .f32⟩
  | .local _ .vmem, ⟨29, _⟩ => ⟨S1x1x128, .f32⟩
  | .local _ .vmem, ⟨30, _⟩ => ⟨S1x1x128, .f32⟩
  | .local _ .vmem, ⟨31, _⟩ => ⟨S1x1x128, .f32⟩
  | .local _ .vmem, ⟨32, _⟩ => ⟨S1x1x128, .f32⟩
  | .local _ .vmem, ⟨33, _⟩ => ⟨S10000x128, .f32⟩
  | .local _ .vmem, ⟨34, _⟩ => ⟨S10000x128, .f32⟩
  | .local _ .vmem, ⟨35, _⟩ => ⟨S1x128, .f32⟩
  | .local _ .vmem, ⟨36, _⟩ => ⟨S1x128, .f32⟩
  | .local _ .vmem, ⟨37, _⟩ => ⟨S1x128, .f32⟩
  | .local _ .vmem, ⟨38, _⟩ => ⟨S1x128, .f32⟩
  | .local _ .vmem, ⟨39, _⟩ => ⟨S1x128, .f32⟩
  | .local _ .vmem, ⟨40, _⟩ => ⟨S10000x128, .f32⟩
  | .local _ .vmem, ⟨41, _⟩ => ⟨S10000x128, .f32⟩
  | .local _ .vmem, ⟨42, _⟩ => ⟨S10000x128, .f32⟩
  | .local _ .vmem, ⟨43, _⟩ => ⟨S10000x128, .f32⟩
  | .local _ .vmem, ⟨44, _⟩ => ⟨S10000x128, .f32⟩
  | .local _ .vmem, ⟨45, _⟩ => ⟨S10000x128, .f32⟩
  | .local _ .vmem, ⟨46, _⟩ => ⟨S10000x128, .f32⟩
  | .local _ .vmem, ⟨47, _⟩ => ⟨S10000x128, .f32⟩
  | .local _ .vmem, ⟨48, _⟩ => ⟨S10000x128, .f32⟩
  | .local _ .vmem, ⟨49, _⟩ => ⟨S10000x128, .f32⟩
  | _, _ => ⟨S50000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | .vmem, ⟨44, _⟩ => true
  | .vmem, ⟨45, _⟩ => true
  | .vmem, ⟨46, _⟩ => true
  | .vmem, ⟨47, _⟩ => true
  | .vmem, ⟨48, _⟩ => true
  | .vmem, ⟨49, _⟩ => true
  | _, _ => false

abbrev semScoped : Fin 0 → Bool
  | ⟨_, h⟩ => absurd h (Nat.not_lt_zero _)

abbrev dmaSemScoped : Fin 50 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | _ => false

abbrev sig : RefSig :=
  ofTc nBuf bufTy 0 50 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_v0 : Ref sig .tc := ⟨.hbm, 17, rfl⟩
abbrev main_v1 : Ref sig .tc := ⟨.hbm, 18, rfl⟩
abbrev main_v2 : Ref sig .tc := ⟨.hbm, 19, rfl⟩
abbrev main_v3 : Ref sig .tc := ⟨.hbm, 20, rfl⟩
abbrev main_cst : Ref sig .tc := ⟨.hbm, 21, rfl⟩
abbrev main_v4 : Ref sig .tc := ⟨.hbm, 22, rfl⟩
abbrev main_v5 : Ref sig .tc := ⟨.hbm, 23, rfl⟩
abbrev main_v6 : Ref sig .tc := ⟨.hbm, 24, rfl⟩
abbrev main_cst_0 : Ref sig .tc := ⟨.hbm, 25, rfl⟩
abbrev main_v7 : Ref sig .tc := ⟨.hbm, 26, rfl⟩
abbrev main_v8 : Ref sig .tc := ⟨.hbm, 27, rfl⟩
abbrev main_cst_1 : Ref sig .tc := ⟨.hbm, 28, rfl⟩
abbrev main_v9 : Ref sig .tc := ⟨.hbm, 29, rfl⟩
abbrev main_v10 : Ref sig .tc := ⟨.hbm, 30, rfl⟩
abbrev main_v11 : Ref sig .tc := ⟨.hbm, 31, rfl⟩
abbrev main_v12 : Ref sig .tc := ⟨.hbm, 32, rfl⟩
abbrev main_c : Ref sig .tc := ⟨.hbm, 33, rfl⟩
abbrev main_v13 : Ref sig .tc := ⟨.hbm, 34, rfl⟩
abbrev main_v14 : Ref sig .tc := ⟨.hbm, 35, rfl⟩
abbrev main_c_2 : Ref sig .tc := ⟨.hbm, 36, rfl⟩
abbrev main_v15 : Ref sig .tc := ⟨.hbm, 37, rfl⟩
abbrev main_v16 : Ref sig .tc := ⟨.hbm, 38, rfl⟩
abbrev main_v17 : Ref sig .tc := ⟨.hbm, 39, rfl⟩
abbrev main_v18 : Ref sig .tc := ⟨.hbm, 40, rfl⟩
abbrev main_v19 : Ref sig .tc := ⟨.hbm, 41, rfl⟩
abbrev main_v20 : Ref sig .tc := ⟨.hbm, 42, rfl⟩
abbrev main_c_3 : Ref sig .tc := ⟨.hbm, 43, rfl⟩
abbrev main_v21 : Ref sig .tc := ⟨.hbm, 44, rfl⟩
abbrev main_v22 : Ref sig .tc := ⟨.hbm, 45, rfl⟩
abbrev main_c_4 : Ref sig .tc := ⟨.hbm, 46, rfl⟩
abbrev main_v23 : Ref sig .tc := ⟨.hbm, 47, rfl⟩
abbrev main_v24 : Ref sig .tc := ⟨.hbm, 48, rfl⟩
abbrev main_v25 : Ref sig .tc := ⟨.hbm, 49, rfl⟩
abbrev main_v26 : Ref sig .tc := ⟨.hbm, 50, rfl⟩
abbrev main_v27 : Ref sig .tc := ⟨.hbm, 51, rfl⟩
abbrev main_v28 : Ref sig .tc := ⟨.hbm, 52, rfl⟩
abbrev main_v29 : Ref sig .tc := ⟨.hbm, 53, rfl⟩
abbrev main_v30 : Ref sig .tc := ⟨.hbm, 54, rfl⟩
abbrev main_v31 : Ref sig .tc := ⟨.hbm, 55, rfl⟩
abbrev main_c_5 : Ref sig .tc := ⟨.hbm, 56, rfl⟩
abbrev main_v32 : Ref sig .tc := ⟨.hbm, 57, rfl⟩
abbrev main_v33 : Ref sig .tc := ⟨.hbm, 58, rfl⟩
abbrev main_c_6 : Ref sig .tc := ⟨.hbm, 59, rfl⟩
abbrev main_v34 : Ref sig .tc := ⟨.hbm, 60, rfl⟩
abbrev main_v35 : Ref sig .tc := ⟨.hbm, 61, rfl⟩
abbrev main_v36 : Ref sig .tc := ⟨.hbm, 62, rfl⟩
abbrev main_v37 : Ref sig .tc := ⟨.hbm, 63, rfl⟩
abbrev main_v38 : Ref sig .tc := ⟨.hbm, 64, rfl⟩
abbrev main_v39 : Ref sig .tc := ⟨.hbm, 65, rfl⟩
abbrev main_v40 : Ref sig .tc := ⟨.hbm, 66, rfl⟩
abbrev main_v41 : Ref sig .tc := ⟨.hbm, 67, rfl⟩
abbrev main_v42 : Ref sig .tc := ⟨.hbm, 68, rfl⟩
abbrev main_cst_7 : Ref sig .tc := ⟨.hbm, 69, rfl⟩
abbrev main_v43 : Ref sig .tc := ⟨.hbm, 70, rfl⟩
abbrev main_v44 : Ref sig .tc := ⟨.hbm, 71, rfl⟩
abbrev main_v45 : Ref sig .tc := ⟨.hbm, 72, rfl⟩
abbrev main_v46_0 : Ref sig .tc := ⟨.hbm, 73, rfl⟩
abbrev main_v46_1 : Ref sig .tc := ⟨.hbm, 74, rfl⟩
abbrev main_cst_8 : Ref sig .tc := ⟨.hbm, 75, rfl⟩
abbrev main_v47 : Ref sig .tc := ⟨.hbm, 76, rfl⟩
abbrev main_cst_9 : Ref sig .tc := ⟨.hbm, 77, rfl⟩
abbrev main_v48 : Ref sig .tc := ⟨.hbm, 78, rfl⟩
abbrev main_cst_10 : Ref sig .tc := ⟨.hbm, 79, rfl⟩
abbrev main_v49 : Ref sig .tc := ⟨.hbm, 80, rfl⟩
abbrev main_v50 : Ref sig .tc := ⟨.hbm, 81, rfl⟩
abbrev main_v51 : Ref sig .tc := ⟨.hbm, 82, rfl⟩
abbrev main_cst_11 : Ref sig .tc := ⟨.hbm, 83, rfl⟩
abbrev main_v52 : Ref sig .tc := ⟨.hbm, 84, rfl⟩
abbrev main_v53 : Ref sig .tc := ⟨.hbm, 85, rfl⟩
abbrev main_v54 : Ref sig .tc := ⟨.hbm, 86, rfl⟩
abbrev main_v55 : Ref sig .tc := ⟨.hbm, 87, rfl⟩
abbrev main_cst_12 : Ref sig .tc := ⟨.hbm, 88, rfl⟩
abbrev main_v56 : Ref sig .tc := ⟨.hbm, 89, rfl⟩
abbrev main_v57 : Ref sig .tc := ⟨.hbm, 90, rfl⟩
abbrev main_v58 : Ref sig .tc := ⟨.hbm, 91, rfl⟩
abbrev main_v59 : Ref sig .tc := ⟨.hbm, 92, rfl⟩
abbrev main_v60 : Ref sig .tc := ⟨.hbm, 93, rfl⟩
abbrev main_v61 : Ref sig .tc := ⟨.hbm, 94, rfl⟩
abbrev main_v62 : Ref sig .tc := ⟨.hbm, 95, rfl⟩
abbrev main_v63 : Ref sig .tc := ⟨.hbm, 96, rfl⟩
abbrev main_v64 : Ref sig .tc := ⟨.hbm, 97, rfl⟩
abbrev main_v65 : Ref sig .tc := ⟨.hbm, 98, rfl⟩
abbrev main_v66 : Ref sig .tc := ⟨.hbm, 99, rfl⟩
abbrev main_v67 : Ref sig .tc := ⟨.hbm, 100, rfl⟩
abbrev main_v68 : Ref sig .tc := ⟨.hbm, 101, rfl⟩
abbrev main_v69 : Ref sig .tc := ⟨.hbm, 102, rfl⟩
abbrev main_v70 : Ref sig .tc := ⟨.hbm, 103, rfl⟩
abbrev main_c_13 : Ref sig .tc := ⟨.hbm, 104, rfl⟩
abbrev main_v71 : Ref sig .tc := ⟨.hbm, 105, rfl⟩
abbrev main_v72 : Ref sig .tc := ⟨.hbm, 106, rfl⟩
abbrev main_c_14 : Ref sig .tc := ⟨.hbm, 107, rfl⟩
abbrev main_v73 : Ref sig .tc := ⟨.hbm, 108, rfl⟩
abbrev main_v74 : Ref sig .tc := ⟨.hbm, 109, rfl⟩
abbrev main_v75 : Ref sig .tc := ⟨.hbm, 110, rfl⟩
abbrev main_v76 : Ref sig .tc := ⟨.hbm, 111, rfl⟩
abbrev main_v77 : Ref sig .tc := ⟨.hbm, 112, rfl⟩
abbrev main_v78 : Ref sig .tc := ⟨.hbm, 113, rfl⟩
abbrev main_v79 : Ref sig .tc := ⟨.hbm, 114, rfl⟩
abbrev main_v80 : Ref sig .tc := ⟨.hbm, 115, rfl⟩
abbrev main_v81 : Ref sig .tc := ⟨.hbm, 116, rfl⟩
abbrev main_cst_15 : Ref sig .tc := ⟨.hbm, 117, rfl⟩
abbrev main_v82 : Ref sig .tc := ⟨.hbm, 118, rfl⟩
abbrev main_v83 : Ref sig .tc := ⟨.hbm, 119, rfl⟩
abbrev main_v84 : Ref sig .tc := ⟨.hbm, 120, rfl⟩
abbrev main_v85_0 : Ref sig .tc := ⟨.hbm, 121, rfl⟩
abbrev main_v85_1 : Ref sig .tc := ⟨.hbm, 122, rfl⟩
abbrev main_cst_16 : Ref sig .tc := ⟨.hbm, 123, rfl⟩
abbrev main_v86 : Ref sig .tc := ⟨.hbm, 124, rfl⟩
abbrev main_cst_17 : Ref sig .tc := ⟨.hbm, 125, rfl⟩
abbrev main_v87 : Ref sig .tc := ⟨.hbm, 126, rfl⟩
abbrev main_cst_18 : Ref sig .tc := ⟨.hbm, 127, rfl⟩
abbrev main_v88 : Ref sig .tc := ⟨.hbm, 128, rfl⟩
abbrev main_v89 : Ref sig .tc := ⟨.hbm, 129, rfl⟩
abbrev main_v90 : Ref sig .tc := ⟨.hbm, 130, rfl⟩
abbrev main_cst_19 : Ref sig .tc := ⟨.hbm, 131, rfl⟩
abbrev main_v91 : Ref sig .tc := ⟨.hbm, 132, rfl⟩
abbrev main_v92 : Ref sig .tc := ⟨.hbm, 133, rfl⟩
abbrev main_v93 : Ref sig .tc := ⟨.hbm, 134, rfl⟩
abbrev main_v94 : Ref sig .tc := ⟨.hbm, 135, rfl⟩
abbrev main_cst_20 : Ref sig .tc := ⟨.hbm, 136, rfl⟩
abbrev main_v95 : Ref sig .tc := ⟨.hbm, 137, rfl⟩
abbrev main_v96 : Ref sig .tc := ⟨.hbm, 138, rfl⟩
abbrev main_v97 : Ref sig .tc := ⟨.hbm, 139, rfl⟩
abbrev main_v98 : Ref sig .tc := ⟨.hbm, 140, rfl⟩
abbrev main_c_21 : Ref sig .tc := ⟨.hbm, 141, rfl⟩
abbrev main_v99 : Ref sig .tc := ⟨.hbm, 142, rfl⟩
abbrev main_v100 : Ref sig .tc := ⟨.hbm, 143, rfl⟩
abbrev main_c_22 : Ref sig .tc := ⟨.hbm, 144, rfl⟩
abbrev main_v101 : Ref sig .tc := ⟨.hbm, 145, rfl⟩
abbrev main_v102 : Ref sig .tc := ⟨.hbm, 146, rfl⟩
abbrev main_v103 : Ref sig .tc := ⟨.hbm, 147, rfl⟩
abbrev main_v104 : Ref sig .tc := ⟨.hbm, 148, rfl⟩
abbrev main_v105 : Ref sig .tc := ⟨.hbm, 149, rfl⟩
abbrev main_v106 : Ref sig .tc := ⟨.hbm, 150, rfl⟩
abbrev main_v107 : Ref sig .tc := ⟨.hbm, 151, rfl⟩
abbrev main_v108 : Ref sig .tc := ⟨.hbm, 152, rfl⟩
abbrev main_v109 : Ref sig .tc := ⟨.hbm, 153, rfl⟩
abbrev main_cst_23 : Ref sig .tc := ⟨.hbm, 154, rfl⟩
abbrev main_v110 : Ref sig .tc := ⟨.hbm, 155, rfl⟩
abbrev main_cst_24 : Ref sig .tc := ⟨.hbm, 156, rfl⟩
abbrev main_v111 : Ref sig .tc := ⟨.hbm, 157, rfl⟩
abbrev main_v112 : Ref sig .tc := ⟨.hbm, 158, rfl⟩
abbrev main_v113 : Ref sig .tc := ⟨.hbm, 159, rfl⟩
abbrev main_cst_25 : Ref sig .tc := ⟨.hbm, 160, rfl⟩
abbrev main_v114 : Ref sig .tc := ⟨.hbm, 161, rfl⟩
abbrev main_v115 : Ref sig .tc := ⟨.hbm, 162, rfl⟩
abbrev main_v116 : Ref sig .tc := ⟨.hbm, 163, rfl⟩
abbrev main_cst_26 : Ref sig .tc := ⟨.hbm, 164, rfl⟩
abbrev main_v117 : Ref sig .tc := ⟨.hbm, 165, rfl⟩
abbrev main_v118 : Ref sig .tc := ⟨.hbm, 166, rfl⟩
abbrev main_v119 : Ref sig .tc := ⟨.hbm, 167, rfl⟩
abbrev main_v120 : Ref sig .tc := ⟨.hbm, 168, rfl⟩
abbrev main_v121 : Ref sig .tc := ⟨.hbm, 169, rfl⟩
abbrev main_v122 : Ref sig .tc := ⟨.hbm, 170, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc1_stg0_0 : Ref sig .tc := ⟨.vmem, 6, rfl⟩
abbrev cc1_stg0_1 : Ref sig .tc := ⟨.vmem, 7, rfl⟩
abbrev cc1_stg1_0 : Ref sig .tc := ⟨.vmem, 8, rfl⟩
abbrev cc1_stg1_1 : Ref sig .tc := ⟨.vmem, 9, rfl⟩
abbrev cc1_stg2_0 : Ref sig .tc := ⟨.vmem, 10, rfl⟩
abbrev cc1_stg2_1 : Ref sig .tc := ⟨.vmem, 11, rfl⟩
abbrev cc2_stg0_0 : Ref sig .tc := ⟨.vmem, 12, rfl⟩
abbrev cc2_stg0_1 : Ref sig .tc := ⟨.vmem, 13, rfl⟩
abbrev cc2_stg1_0 : Ref sig .tc := ⟨.vmem, 14, rfl⟩
abbrev cc2_stg2_0 : Ref sig .tc := ⟨.vmem, 15, rfl⟩
abbrev cc2_stg3_0 : Ref sig .tc := ⟨.vmem, 16, rfl⟩
abbrev cc2_stg4_0 : Ref sig .tc := ⟨.vmem, 17, rfl⟩
abbrev cc2_stg5_0 : Ref sig .tc := ⟨.vmem, 18, rfl⟩
abbrev cc2_stg6_0 : Ref sig .tc := ⟨.vmem, 19, rfl⟩
abbrev cc2_stg6_1 : Ref sig .tc := ⟨.vmem, 20, rfl⟩
abbrev cc3_stg0_0 : Ref sig .tc := ⟨.vmem, 21, rfl⟩
abbrev cc3_stg0_1 : Ref sig .tc := ⟨.vmem, 22, rfl⟩
abbrev cc3_stg1_0 : Ref sig .tc := ⟨.vmem, 23, rfl⟩
abbrev cc3_stg2_0 : Ref sig .tc := ⟨.vmem, 24, rfl⟩
abbrev cc3_stg3_0 : Ref sig .tc := ⟨.vmem, 25, rfl⟩
abbrev cc3_stg3_1 : Ref sig .tc := ⟨.vmem, 26, rfl⟩
abbrev cc4_stg0_0 : Ref sig .tc := ⟨.vmem, 27, rfl⟩
abbrev cc4_stg0_1 : Ref sig .tc := ⟨.vmem, 28, rfl⟩
abbrev cc4_stg1_0 : Ref sig .tc := ⟨.vmem, 29, rfl⟩
abbrev cc4_stg1_1 : Ref sig .tc := ⟨.vmem, 30, rfl⟩
abbrev cc4_stg2_0 : Ref sig .tc := ⟨.vmem, 31, rfl⟩
abbrev cc4_stg2_1 : Ref sig .tc := ⟨.vmem, 32, rfl⟩
abbrev cc5_stg0_0 : Ref sig .tc := ⟨.vmem, 33, rfl⟩
abbrev cc5_stg0_1 : Ref sig .tc := ⟨.vmem, 34, rfl⟩
abbrev cc5_stg1_0 : Ref sig .tc := ⟨.vmem, 35, rfl⟩
abbrev cc5_stg2_0 : Ref sig .tc := ⟨.vmem, 36, rfl⟩
abbrev cc5_stg3_0 : Ref sig .tc := ⟨.vmem, 37, rfl⟩
abbrev cc5_stg4_0 : Ref sig .tc := ⟨.vmem, 38, rfl⟩
abbrev cc5_stg5_0 : Ref sig .tc := ⟨.vmem, 39, rfl⟩
abbrev cc5_stg6_0 : Ref sig .tc := ⟨.vmem, 40, rfl⟩
abbrev cc5_stg6_1 : Ref sig .tc := ⟨.vmem, 41, rfl⟩
abbrev cc5_stg7_0 : Ref sig .tc := ⟨.vmem, 42, rfl⟩
abbrev cc5_stg7_1 : Ref sig .tc := ⟨.vmem, 43, rfl⟩
abbrev cc6_stg0_0 : Ref sig .tc := ⟨.vmem, 44, rfl⟩
abbrev cc6_stg0_1 : Ref sig .tc := ⟨.vmem, 45, rfl⟩
abbrev cc6_stg1_0 : Ref sig .tc := ⟨.vmem, 46, rfl⟩
abbrev cc6_stg1_1 : Ref sig .tc := ⟨.vmem, 47, rfl⟩
abbrev cc6_stg2_0 : Ref sig .tc := ⟨.vmem, 48, rfl⟩
abbrev cc6_stg2_1 : Ref sig .tc := ⟨.vmem, 49, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc1_sem0_0 : DmaSem sig := 6
abbrev cc1_sem0_1 : DmaSem sig := 7
abbrev cc1_sem1_0 : DmaSem sig := 8
abbrev cc1_sem1_1 : DmaSem sig := 9
abbrev cc1_sem2_0 : DmaSem sig := 10
abbrev cc1_sem2_1 : DmaSem sig := 11
abbrev cc2_sem0_0 : DmaSem sig := 12
abbrev cc2_sem0_1 : DmaSem sig := 13
abbrev cc2_sem1_0 : DmaSem sig := 14
abbrev cc2_sem2_0 : DmaSem sig := 15
abbrev cc2_sem3_0 : DmaSem sig := 16
abbrev cc2_sem4_0 : DmaSem sig := 17
abbrev cc2_sem5_0 : DmaSem sig := 18
abbrev cc2_sem6_0 : DmaSem sig := 19
abbrev cc2_sem6_1 : DmaSem sig := 20
abbrev cc3_sem0_0 : DmaSem sig := 21
abbrev cc3_sem0_1 : DmaSem sig := 22
abbrev cc3_sem1_0 : DmaSem sig := 23
abbrev cc3_sem2_0 : DmaSem sig := 24
abbrev cc3_sem3_0 : DmaSem sig := 25
abbrev cc3_sem3_1 : DmaSem sig := 26
abbrev cc4_sem0_0 : DmaSem sig := 27
abbrev cc4_sem0_1 : DmaSem sig := 28
abbrev cc4_sem1_0 : DmaSem sig := 29
abbrev cc4_sem1_1 : DmaSem sig := 30
abbrev cc4_sem2_0 : DmaSem sig := 31
abbrev cc4_sem2_1 : DmaSem sig := 32
abbrev cc5_sem0_0 : DmaSem sig := 33
abbrev cc5_sem0_1 : DmaSem sig := 34
abbrev cc5_sem1_0 : DmaSem sig := 35
abbrev cc5_sem2_0 : DmaSem sig := 36
abbrev cc5_sem3_0 : DmaSem sig := 37
abbrev cc5_sem4_0 : DmaSem sig := 38
abbrev cc5_sem5_0 : DmaSem sig := 39
abbrev cc5_sem6_0 : DmaSem sig := 40
abbrev cc5_sem6_1 : DmaSem sig := 41
abbrev cc5_sem7_0 : DmaSem sig := 42
abbrev cc5_sem7_1 : DmaSem sig := 43
abbrev cc6_sem0_0 : DmaSem sig := 44
abbrev cc6_sem0_1 : DmaSem sig := 45
abbrev cc6_sem1_0 : DmaSem sig := 46
abbrev cc6_sem1_1 : DmaSem sig := 47
abbrev cc6_sem2_0 : DmaSem sig := 48
abbrev cc6_sem2_1 : DmaSem sig := 49

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S5000x128 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev grid1 : Pipeline.Grid := ⟨2, ![2, 5], ![false, false]⟩

def cc1_transform_0 (i : grid1.Coords) : Fin 2 → Nat :=
  let arg0 : BitVec 32 := BitVec.ofNat 32 (i 0).val
  let arg1 : BitVec 32 := BitVec.ofNat 32 (i 1).val
  let c5_i32 : BitVec 32 := 5#32
  let v0 : BitVec 32 := Scalar.muli arg0 c5_i32
  let v1 : BitVec 32 := Scalar.addi v0 arg1
  let c0_i32 : BitVec 32 := 0#32
  let c0_i32_0 : BitVec 32 := 0#32
  ![v1.toNat, c0_i32.toNat]

def cc1_transform_1 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc1_transform_2 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage1_0 : Fin 2 → Memref sig .tc .vmem S5000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, true]

abbrev stage1_1 : Fin 2 → Memref sig .tc .vmem S1x1x128 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true, false]

abbrev stage1_2 : Fin 2 → Memref sig .tc .vmem S1x1x128 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, false]

abbrev grid2 : Pipeline.Grid := ⟨1, ![5], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_5 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_6 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S10000x128 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S1x128 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 1 → Memref sig .tc .vmem S1x128 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 1 → Memref sig .tc .vmem S1x128 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 1 → Memref sig .tc .vmem S1x128 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false]

abbrev stage2_5 : Fin 1 → Memref sig .tc .vmem S1x128 .f32 := fun | 0 => Memref.whole cc2_stg5_0 | ⟨_ + 1, h⟩ => absurd h (Nat.not_lt.2 (Nat.le_add_left _ _))
abbrev sem2_5 : Fin 1 → DmaSem sig := fun | 0 => cc2_sem5_0 | ⟨_ + 1, h⟩ => absurd h (Nat.not_lt.2 (Nat.le_add_left _ _))
abbrev reads2_5 : Fin grid2.rank → Bool := ![false]

abbrev stage2_6 : Fin 2 → Memref sig .tc .vmem S10000x128 .f32 := fun | 0 => Memref.whole cc2_stg6_0 | 1 => Memref.whole cc2_stg6_1 | ⟨_ + 2, h⟩ => absurd h (Nat.not_lt.2 (Nat.le_add_left _ _))
abbrev sem2_6 : Fin 2 → DmaSem sig := fun | 0 => cc2_sem6_0 | 1 => cc2_sem6_1 | ⟨_ + 2, h⟩ => absurd h (Nat.not_lt.2 (Nat.le_add_left _ _))
abbrev reads2_6 : Fin grid2.rank → Bool := ![true]

abbrev grid3 : Pipeline.Grid := ⟨1, ![20], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_2 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_3 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S5000x128 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 1 → Memref sig .tc .vmem S128x128 .f32 := fun | 0 => Memref.whole cc3_stg1_0 | ⟨_ + 1, h⟩ => absurd h (Nat.not_lt.2 (Nat.le_add_left _ _))
abbrev sem3_1 : Fin 1 → DmaSem sig := fun | 0 => cc3_sem1_0 | ⟨_ + 1, h⟩ => absurd h (Nat.not_lt.2 (Nat.le_add_left _ _))
abbrev reads3_1 : Fin grid3.rank → Bool := ![false]

abbrev stage3_2 : Fin 1 → Memref sig .tc .vmem S1x128 .f32 := fun | 0 => Memref.whole cc3_stg2_0 | ⟨_ + 1, h⟩ => absurd h (Nat.not_lt.2 (Nat.le_add_left _ _))
abbrev sem3_2 : Fin 1 → DmaSem sig := fun | 0 => cc3_sem2_0 | ⟨_ + 1, h⟩ => absurd h (Nat.not_lt.2 (Nat.le_add_left _ _))
abbrev reads3_2 : Fin grid3.rank → Bool := ![false]

abbrev stage3_3 : Fin 2 → Memref sig .tc .vmem S5000x128 .bf16 := fun | 0 => Memref.whole cc3_stg3_0 | 1 => Memref.whole cc3_stg3_1 | ⟨_ + 2, h⟩ => absurd h (Nat.not_lt.2 (Nat.le_add_left _ _))
abbrev sem3_3 : Fin 2 → DmaSem sig := fun | 0 => cc3_sem3_0 | 1 => cc3_sem3_1 | ⟨_ + 2, h⟩ => absurd h (Nat.not_lt.2 (Nat.le_add_left _ _))
abbrev reads3_3 : Fin grid3.rank → Bool := ![true]

abbrev grid4 : Pipeline.Grid := ⟨2, ![2, 10], ![false, false]⟩

def cc4_transform_0 (i : grid4.Coords) : Fin 2 → Nat :=
  let arg0 : BitVec 32 := BitVec.ofNat 32 (i 0).val
  let arg1 : BitVec 32 := BitVec.ofNat 32 (i 1).val
  let c10_i32 : BitVec 32 := 10#32
  let v0 : BitVec 32 := Scalar.muli arg0 c10_i32
  let v1 : BitVec 32 := Scalar.addi v0 arg1
  let c0_i32 : BitVec 32 := 0#32
  let c0_i32_0 : BitVec 32 := 0#32
  ![v1.toNat, c0_i32.toNat]

def cc4_transform_1 (i : grid4.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc4_transform_2 (i : grid4.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage4_0 : Fin 2 → Memref sig .tc .vmem S5000x128 .f32 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true, true]

abbrev stage4_1 : Fin 2 → Memref sig .tc .vmem S1x1x128 .f32 := fun | 0 => Memref.whole cc4_stg1_0 | 1 => Memref.whole cc4_stg1_1 | ⟨_ + 2, h⟩ => absurd h (Nat.not_lt.2 (Nat.le_add_left _ _))
abbrev sem4_1 : Fin 2 → DmaSem sig := fun | 0 => cc4_sem1_0 | 1 => cc4_sem1_1 | ⟨_ + 2, h⟩ => absurd h (Nat.not_lt.2 (Nat.le_add_left _ _))
abbrev reads4_1 : Fin grid4.rank → Bool := ![true, false]

abbrev stage4_2 : Fin 2 → Memref sig .tc .vmem S1x1x128 .f32 := fun | 0 => Memref.whole cc4_stg2_0 | 1 => Memref.whole cc4_stg2_1 | ⟨_ + 2, h⟩ => absurd h (Nat.not_lt.2 (Nat.le_add_left _ _))
abbrev sem4_2 : Fin 2 → DmaSem sig := fun | 0 => cc4_sem2_0 | 1 => cc4_sem2_1 | ⟨_ + 2, h⟩ => absurd h (Nat.not_lt.2 (Nat.le_add_left _ _))
abbrev reads4_2 : Fin grid4.rank → Bool := ![true, false]

abbrev grid5 : Pipeline.Grid := ⟨1, ![10], ![false]⟩

def cc5_transform_0 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_1 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_2 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_3 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_4 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_5 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_6 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_7 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage5_0 : Fin 2 → Memref sig .tc .vmem S10000x128 .f32 := fun | 0 => Memref.whole cc5_stg0_0 | 1 => Memref.whole cc5_stg0_1 | ⟨_ + 2, h⟩ => absurd h (Nat.not_lt.2 (Nat.le_add_left _ _))
abbrev sem5_0 : Fin 2 → DmaSem sig := fun | 0 => cc5_sem0_0 | 1 => cc5_sem0_1 | ⟨_ + 2, h⟩ => absurd h (Nat.not_lt.2 (Nat.le_add_left _ _))
abbrev reads5_0 : Fin grid5.rank → Bool := ![true]

abbrev stage5_1 : Fin 1 → Memref sig .tc .vmem S1x128 .f32 := fun | 0 => Memref.whole cc5_stg1_0 | ⟨_ + 1, h⟩ => absurd h (Nat.not_lt.2 (Nat.le_add_left _ _))
abbrev sem5_1 : Fin 1 → DmaSem sig := fun | 0 => cc5_sem1_0 | ⟨_ + 1, h⟩ => absurd h (Nat.not_lt.2 (Nat.le_add_left _ _))
abbrev reads5_1 : Fin grid5.rank → Bool := ![false]

abbrev stage5_2 : Fin 1 → Memref sig .tc .vmem S1x128 .f32 := fun | 0 => Memref.whole cc5_stg2_0 | ⟨_ + 1, h⟩ => absurd h (Nat.not_lt.2 (Nat.le_add_left _ _))
abbrev sem5_2 : Fin 1 → DmaSem sig := fun | 0 => cc5_sem2_0 | ⟨_ + 1, h⟩ => absurd h (Nat.not_lt.2 (Nat.le_add_left _ _))
abbrev reads5_2 : Fin grid5.rank → Bool := ![false]

abbrev stage5_3 : Fin 1 → Memref sig .tc .vmem S1x128 .f32 := fun | 0 => Memref.whole cc5_stg3_0 | ⟨_ + 1, h⟩ => absurd h (Nat.not_lt.2 (Nat.le_add_left _ _))
abbrev sem5_3 : Fin 1 → DmaSem sig := fun | 0 => cc5_sem3_0 | ⟨_ + 1, h⟩ => absurd h (Nat.not_lt.2 (Nat.le_add_left _ _))
abbrev reads5_3 : Fin grid5.rank → Bool := ![false]

abbrev stage5_4 : Fin 1 → Memref sig .tc .vmem S1x128 .f32 := fun | 0 => Memref.whole cc5_stg4_0 | ⟨_ + 1, h⟩ => absurd h (Nat.not_lt.2 (Nat.le_add_left _ _))
abbrev sem5_4 : Fin 1 → DmaSem sig := fun | 0 => cc5_sem4_0 | ⟨_ + 1, h⟩ => absurd h (Nat.not_lt.2 (Nat.le_add_left _ _))
abbrev reads5_4 : Fin grid5.rank → Bool := ![false]

abbrev stage5_5 : Fin 1 → Memref sig .tc .vmem S1x128 .f32 := fun | 0 => Memref.whole cc5_stg5_0 | ⟨_ + 1, h⟩ => absurd h (Nat.not_lt.2 (Nat.le_add_left _ _))
abbrev sem5_5 : Fin 1 → DmaSem sig := fun | 0 => cc5_sem5_0 | ⟨_ + 1, h⟩ => absurd h (Nat.not_lt.2 (Nat.le_add_left _ _))
abbrev reads5_5 : Fin grid5.rank → Bool := ![false]

abbrev stage5_6 : Fin 2 → Memref sig .tc .vmem S10000x128 .f32 := fun | 0 => Memref.whole cc5_stg6_0 | 1 => Memref.whole cc5_stg6_1 | ⟨_ + 2, h⟩ => absurd h (Nat.not_lt.2 (Nat.le_add_left _ _))
abbrev sem5_6 : Fin 2 → DmaSem sig := fun | 0 => cc5_sem6_0 | 1 => cc5_sem6_1 | ⟨_ + 2, h⟩ => absurd h (Nat.not_lt.2 (Nat.le_add_left _ _))
abbrev reads5_6 : Fin grid5.rank → Bool := ![true]

abbrev stage5_7 : Fin 2 → Memref sig .tc .vmem S10000x128 .f32 := fun | 0 => Memref.whole cc5_stg7_0 | 1 => Memref.whole cc5_stg7_1 | ⟨_ + 2, h⟩ => absurd h (Nat.not_lt.2 (Nat.le_add_left _ _))
abbrev sem5_7 : Fin 2 → DmaSem sig := fun | 0 => cc5_sem7_0 | 1 => cc5_sem7_1 | ⟨_ + 2, h⟩ => absurd h (Nat.not_lt.2 (Nat.le_add_left _ _))
abbrev reads5_7 : Fin grid5.rank → Bool := ![true]

abbrev grid6 : Pipeline.Grid := ⟨1, ![5], ![false]⟩

def cc6_transform_0 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

def cc6_transform_1 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

def cc6_transform_2 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage6_0 : Fin 2 → Memref sig .tc .vmem S10000x128 .f32 := fun | 0 => Memref.whole cc6_stg0_0 | 1 => Memref.whole cc6_stg0_1 | ⟨_ + 2, h⟩ => absurd h (Nat.not_lt.2 (Nat.le_add_left _ _))
abbrev sem6_0 : Fin 2 → DmaSem sig := fun | 0 => cc6_sem0_0 | 1 => cc6_sem0_1 | ⟨_ + 2, h⟩ => absurd h (Nat.not_lt.2 (Nat.le_add_left _ _))
abbrev reads6_0 : Fin grid6.rank → Bool := ![true]

abbrev stage6_1 : Fin 2 → Memref sig .tc .vmem S10000x128 .f32 := fun | 0 => Memref.whole cc6_stg1_0 | 1 => Memref.whole cc6_stg1_1 | ⟨_ + 2, h⟩ => absurd h (Nat.not_lt.2 (Nat.le_add_left _ _))
abbrev sem6_1 : Fin 2 → DmaSem sig := fun | 0 => cc6_sem1_0 | 1 => cc6_sem1_1 | ⟨_ + 2, h⟩ => absurd h (Nat.not_lt.2 (Nat.le_add_left _ _))
abbrev reads6_1 : Fin grid6.rank → Bool := ![true]

abbrev stage6_2 : Fin 2 → Memref sig .tc .vmem S10000x128 .f32 := fun | 0 => Memref.whole cc6_stg2_0 | 1 => Memref.whole cc6_stg2_1 | ⟨_ + 2, h⟩ => absurd h (Nat.not_lt.2 (Nat.le_add_left _ _))
abbrev sem6_2 : Fin 2 → DmaSem sig := fun | 0 => cc6_sem2_0 | 1 => cc6_sem2_1 | ⟨_ + 2, h⟩ => absurd h (Nat.not_lt.2 (Nat.le_add_left _ _))
abbrev reads6_2 : Fin grid6.rank → Bool := ![true]

class Facts₀ : Prop where
  slices_S2x800000_S1x800000_0_0 : S2x800000.Slices ![0, 0] S1x800000
  shapeCasts_S1x800000_S800000 : S1x800000.ShapeCasts S800000
  slices_S2x800000_S1x800000_1_0 : S2x800000.Slices ![1, 0] S1x800000
  bcast_S_S50000 : S_.BroadcastsInDim S50000 (![] : Fin 0 → Fin S50000.rank)
  bcast_S800000_S800000x1_0 : S800000.BroadcastsInDim S800000x1 (![0] : Fin 1 → Fin S800000x1.rank)
  bcast_S_S800000 : S_.BroadcastsInDim S800000 (![] : Fin 0 → Fin S800000.rank)
  transposes_S128x128_S128x128_1_0 : S128x128.Transposes [1, 0] S128x128
  shapeCasts_S128_S1x128 : S128.ShapeCasts S1x128
  inb_S5000x128_S5000x128_0_0 : ∀ a, (![0, 0] : Fin 2 → Nat) a + S5000x128.size a ≤ S5000x128.size a
  h_S5000x128 : 0 < S5000x128.numel
  bitsLt_bf16_f32 : FTy.bits .bf16 < FTy.bits .f32
  inb_S128x128_S128x128_0_0 : ∀ a, (![0, 0] : Fin 2 → Nat) a + S128x128.size a ≤ S128x128.size a
  h_S128x128 : 0 < S128x128.numel
  shapeCasts_S128x128_S128x128 : S128x128.ShapeCasts S128x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S5000x128 : S1x128.Broadcasts S5000x128
  packedbf16_S5000x128_S5000x128_0_0 : (Rect.unit (s := S5000x128) ![0, 0] S5000x128.size inb_S5000x128_S5000x128_0_0).PackedRows (EltTy.packing .bf16)
  bcast_S800000x1_S800000x128_0_1 : S800000x1.BroadcastsInDim S800000x128 (![0, 1] : Fin 2 → Fin S800000x128.rank)
  bcast_S_S50000x128 : S_.BroadcastsInDim S50000x128 (![] : Fin 0 → Fin S50000x128.rank)
  inb_S1x1x128_S1x1x128_0_0_0 : ∀ a, (![0, 0, 0] : Fin 3 → Nat) a + S1x1x128.size a ≤ S1x1x128.size a
  h_S1x1x128 : 0 < S1x1x128.numel
  shapeCasts_S5000x128_S5000x128 : S5000x128.ShapeCasts S5000x128
  reduces_S5000x128_S128 : S5000x128.Reduces [0] S128
  shapeCasts_S1x128_S1x1x128 : S1x128.ShapeCasts S1x1x128
  shapeCasts_S1x1x128_S1x1x128 : S1x1x128.ShapeCasts S1x1x128
  reducesTo_S2x1x128_S1x128_d0 : S2x1x128.ReducesTo [0] S1x128
  h_S_ : 0 < S_.numel
  bcast_S_S1x128 : S_.BroadcastsInDim S1x128 (![] : Fin 0 → Fin S1x128.rank)
  inb_S10000x128_S10000x128_0_0 : ∀ a, (![0, 0] : Fin 2 → Nat) a + S10000x128.size a ≤ S10000x128.size a
  h_S10000x128 : 0 < S10000x128.numel
  shapeCasts_S10000x128_S10000x128 : S10000x128.ShapeCasts S10000x128
  broadcasts_S1x128_S10000x128 : S1x128.Broadcasts S10000x128
  bcast_S_S100000x128 : S_.BroadcastsInDim S100000x128 (![] : Fin 0 → Fin S100000x128.rank)
  bcast_S_S100000 : S_.BroadcastsInDim S100000 (![] : Fin 0 → Fin S100000.rank)
  bcast_S100000_S100000x1_0 : S100000.BroadcastsInDim S100000x1 (![0] : Fin 1 → Fin S100000x1.rank)
  bcast_S50000_S50000x1_0 : S50000.BroadcastsInDim S50000x1 (![0] : Fin 1 → Fin S50000x1.rank)
  bcast_S50000x1_S50000x128_0_1 : S50000x1.BroadcastsInDim S50000x128 (![0, 1] : Fin 2 → Fin S50000x128.rank)
  scatter_S50000_S800000x1_S800000_n_0_0_1_wf : ScatterDims.WF S50000 S800000x1 S800000 [] [0] [0] 1
  gather_S50000_S800000x1_S800000_n_0_n_n_0_1_1_wf : GatherDims.WF S50000 S800000x1 S800000 [] [0] [] [0] [] 1 ![1]
  dot_S5000x128_S128x128_S5000x128_1_0_0_1_n_n_wf : DotDims.WF S5000x128 S128x128 S5000x128 [1] [0] [0] [1] [] []
  gather_S50000x128_S800000x1_S800000x128_1_0_n_n_0_1_1128_wf : GatherDims.WF S50000x128 S800000x1 S800000x128 [1] [0] [] [0] [] 1 ![1, 128]
  scatter_S50000x128_S800000x1_S800000x128_1_0_0_1_wf : ScatterDims.WF S50000x128 S800000x1 S800000x128 [1] [0] [0] 1
  gather_S100000x128_S800000x1_S800000x128_1_0_n_n_0_1_1128_wf : GatherDims.WF S100000x128 S800000x1 S800000x128 [1] [0] [] [0] [] 1 ![1, 128]
  scatter_S100000x128_S800000x1_S800000x128_1_0_0_1_wf : ScatterDims.WF S100000x128 S800000x1 S800000x128 [1] [0] [0] 1
  gather_S50000x128_S100000x1_S100000x128_1_0_n_n_0_1_1128_wf : GatherDims.WF S50000x128 S100000x1 S100000x128 [1] [0] [] [0] [] 1 ![1, 128]
  scatter_S50000_S100000x1_S100000_n_0_0_1_wf : ScatterDims.WF S50000 S100000x1 S100000 [] [0] [0] 1
  scatter_S50000x128_S100000x1_S100000x128_1_0_0_1_wf : ScatterDims.WF S50000x128 S100000x1 S100000x128 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x128.size a ≤ S50000x128.size a
  hwx0_0 : ∀ i : grid0.Coords, EltTy.bits .f32 = 32 ∨ (Rect.block (s := S50000x128) S5000x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x128.size a ≤ S128x128.size a
  hwx0_1 : ∀ i : grid0.Coords, EltTy.bits .f32 = 32 ∨ (Rect.block (s := S128x128) S128x128.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x128.size a ≤ S1x128.size a
  hwx0_2 : ∀ i : grid0.Coords, EltTy.bits .f32 = 32 ∨ (Rect.block (s := S1x128) S1x128.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S5000x128.size a ≤ S50000x128.size a
  hwx0_3 : ∀ i : grid0.Coords, EltTy.bits .bf16 = 32 ∨ (Rect.block (s := S50000x128) S5000x128.size (cc0_transform_3 i) (hinb0_3 i)).WholeWords (EltTy.packing .bf16)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x128.size a ≤ S50000x128.size a
  hwx1_0 : ∀ i : grid1.Coords, EltTy.bits .f32 = 32 ∨ (Rect.block (s := S50000x128) S5000x128.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S1x1x128.size a ≤ S2x1x128.size a
  hwx1_1 : ∀ i : grid1.Coords, EltTy.bits .f32 = 32 ∨ (Rect.block (s := S2x1x128) S1x1x128.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S1x1x128.size a ≤ S2x1x128.size a
  hwx1_2 : ∀ i : grid1.Coords, EltTy.bits .f32 = 32 ∨ (Rect.block (s := S2x1x128) S1x1x128.size (cc1_transform_2 i) (hinb1_2 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S10000x128.size a ≤ S50000x128.size a
  hwx2_0 : ∀ i : grid2.Coords, EltTy.bits .f32 = 32 ∨ (Rect.block (s := S50000x128) S10000x128.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S1x128.size a ≤ S1x128.size a
  hwx2_1 : ∀ i : grid2.Coords, EltTy.bits .f32 = 32 ∨ (Rect.block (s := S1x128) S1x128.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S1x128.size a ≤ S1x128.size a
  hwx2_2 : ∀ i : grid2.Coords, EltTy.bits .f32 = 32 ∨ (Rect.block (s := S1x128) S1x128.size (cc2_transform_2 i) (hinb2_2 i)).WholeWords (EltTy.packing .f32)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S1x128.size a ≤ S1x128.size a
  hwx2_3 : ∀ i : grid2.Coords, EltTy.bits .f32 = 32 ∨ (Rect.block (s := S1x128) S1x128.size (cc2_transform_3 i) (hinb2_3 i)).WholeWords (EltTy.packing .f32)
  hstage2_4 : ∀ j, (stage2_4 j).IsWhole
  nbuf2_4 : grid2.bufCount reads2_4 true = 1
  hreads2_4 : ∀ i i' : grid2.Coords, (∀ a, reads2_4 a = true → i a = i' a) → cc2_transform_4 i = cc2_transform_4 i'
  hinb2_4 : ∀ (i : grid2.Coords) a, (cc2_transform_4 i a + 1) * S1x128.size a ≤ S1x128.size a
  hwx2_4 : ∀ i : grid2.Coords, EltTy.bits .f32 = 32 ∨ (Rect.block (s := S1x128) S1x128.size (cc2_transform_4 i) (hinb2_4 i)).WholeWords (EltTy.packing .f32)
  hstage2_5 : ∀ j, (stage2_5 j).IsWhole
  nbuf2_5 : grid2.bufCount reads2_5 true = 1
  hreads2_5 : ∀ i i' : grid2.Coords, (∀ a, reads2_5 a = true → i a = i' a) → cc2_transform_5 i = cc2_transform_5 i'
  hinb2_5 : ∀ (i : grid2.Coords) a, (cc2_transform_5 i a + 1) * S1x128.size a ≤ S1x128.size a
  hwx2_5 : ∀ i : grid2.Coords, EltTy.bits .f32 = 32 ∨ (Rect.block (s := S1x128) S1x128.size (cc2_transform_5 i) (hinb2_5 i)).WholeWords (EltTy.packing .f32)
  hstage2_6 : ∀ j, (stage2_6 j).IsWhole
  nbuf2_6 : grid2.bufCount reads2_6 false = 2
  hreads2_6 : ∀ i i' : grid2.Coords, (∀ a, reads2_6 a = true → i a = i' a) → cc2_transform_6 i = cc2_transform_6 i'
  hinb2_6 : ∀ (i : grid2.Coords) a, (cc2_transform_6 i a + 1) * S10000x128.size a ≤ S50000x128.size a
  hwx2_6 : ∀ i : grid2.Coords, EltTy.bits .f32 = 32 ∨ (Rect.block (s := S50000x128) S10000x128.size (cc2_transform_6 i) (hinb2_6 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S5000x128.size a ≤ S100000x128.size a
  hwx3_0 : ∀ i : grid3.Coords, EltTy.bits .f32 = 32 ∨ (Rect.block (s := S100000x128) S5000x128.size (cc3_transform_0 i) (hinb3_0 i)).WholeWords (EltTy.packing .f32)
  hstage3_1 : ∀ j, (stage3_1 j).IsWhole
  nbuf3_1 : grid3.bufCount reads3_1 true = 1
  hreads3_1 : ∀ i i' : grid3.Coords, (∀ a, reads3_1 a = true → i a = i' a) → cc3_transform_1 i = cc3_transform_1 i'
  hinb3_1 : ∀ (i : grid3.Coords) a, (cc3_transform_1 i a + 1) * S128x128.size a ≤ S128x128.size a
  hwx3_1 : ∀ i : grid3.Coords, EltTy.bits .f32 = 32 ∨ (Rect.block (s := S128x128) S128x128.size (cc3_transform_1 i) (hinb3_1 i)).WholeWords (EltTy.packing .f32)
  hstage3_2 : ∀ j, (stage3_2 j).IsWhole
  nbuf3_2 : grid3.bufCount reads3_2 true = 1
  hreads3_2 : ∀ i i' : grid3.Coords, (∀ a, reads3_2 a = true → i a = i' a) → cc3_transform_2 i = cc3_transform_2 i'
  hinb3_2 : ∀ (i : grid3.Coords) a, (cc3_transform_2 i a + 1) * S1x128.size a ≤ S1x128.size a
  hwx3_2 : ∀ i : grid3.Coords, EltTy.bits .f32 = 32 ∨ (Rect.block (s := S1x128) S1x128.size (cc3_transform_2 i) (hinb3_2 i)).WholeWords (EltTy.packing .f32)
  hstage3_3 : ∀ j, (stage3_3 j).IsWhole
  nbuf3_3 : grid3.bufCount reads3_3 false = 2
  hreads3_3 : ∀ i i' : grid3.Coords, (∀ a, reads3_3 a = true → i a = i' a) → cc3_transform_3 i = cc3_transform_3 i'
  hinb3_3 : ∀ (i : grid3.Coords) a, (cc3_transform_3 i a + 1) * S5000x128.size a ≤ S100000x128.size a
  hwx3_3 : ∀ i : grid3.Coords, EltTy.bits .bf16 = 32 ∨ (Rect.block (s := S100000x128) S5000x128.size (cc3_transform_3 i) (hinb3_3 i)).WholeWords (EltTy.packing .bf16)
  hrank4 : 0 < grid4.rank
  hstage4_0 : ∀ j, (stage4_0 j).IsWhole
  nbuf4_0 : grid4.bufCount reads4_0 false = 2
  hreads4_0 : ∀ i i' : grid4.Coords, (∀ a, reads4_0 a = true → i a = i' a) → cc4_transform_0 i = cc4_transform_0 i'
  hinb4_0 : ∀ (i : grid4.Coords) a, (cc4_transform_0 i a + 1) * S5000x128.size a ≤ S100000x128.size a
  hwx4_0 : ∀ i : grid4.Coords, EltTy.bits .f32 = 32 ∨ (Rect.block (s := S100000x128) S5000x128.size (cc4_transform_0 i) (hinb4_0 i)).WholeWords (EltTy.packing .f32)
  hstage4_1 : ∀ j, (stage4_1 j).IsWhole
  nbuf4_1 : grid4.bufCount reads4_1 false = 2
  hreads4_1 : ∀ i i' : grid4.Coords, (∀ a, reads4_1 a = true → i a = i' a) → cc4_transform_1 i = cc4_transform_1 i'
  hinb4_1 : ∀ (i : grid4.Coords) a, (cc4_transform_1 i a + 1) * S1x1x128.size a ≤ S2x1x128.size a
  hwx4_1 : ∀ i : grid4.Coords, EltTy.bits .f32 = 32 ∨ (Rect.block (s := S2x1x128) S1x1x128.size (cc4_transform_1 i) (hinb4_1 i)).WholeWords (EltTy.packing .f32)
  hstage4_2 : ∀ j, (stage4_2 j).IsWhole
  nbuf4_2 : grid4.bufCount reads4_2 false = 2
  hreads4_2 : ∀ i i' : grid4.Coords, (∀ a, reads4_2 a = true → i a = i' a) → cc4_transform_2 i = cc4_transform_2 i'
  hinb4_2 : ∀ (i : grid4.Coords) a, (cc4_transform_2 i a + 1) * S1x1x128.size a ≤ S2x1x128.size a
  hwx4_2 : ∀ i : grid4.Coords, EltTy.bits .f32 = 32 ∨ (Rect.block (s := S2x1x128) S1x1x128.size (cc4_transform_2 i) (hinb4_2 i)).WholeWords (EltTy.packing .f32)
  hrank5 : 0 < grid5.rank
  hstage5_0 : ∀ j, (stage5_0 j).IsWhole
  nbuf5_0 : grid5.bufCount reads5_0 false = 2
  hreads5_0 : ∀ i i' : grid5.Coords, (∀ a, reads5_0 a = true → i a = i' a) → cc5_transform_0 i = cc5_transform_0 i'
  hinb5_0 : ∀ (i : grid5.Coords) a, (cc5_transform_0 i a + 1) * S10000x128.size a ≤ S100000x128.size a
  hwx5_0 : ∀ i : grid5.Coords, EltTy.bits .f32 = 32 ∨ (Rect.block (s := S100000x128) S10000x128.size (cc5_transform_0 i) (hinb5_0 i)).WholeWords (EltTy.packing .f32)
  hstage5_1 : ∀ j, (stage5_1 j).IsWhole
  nbuf5_1 : grid5.bufCount reads5_1 true = 1
  hreads5_1 : ∀ i i' : grid5.Coords, (∀ a, reads5_1 a = true → i a = i' a) → cc5_transform_1 i = cc5_transform_1 i'
  hinb5_1 : ∀ (i : grid5.Coords) a, (cc5_transform_1 i a + 1) * S1x128.size a ≤ S1x128.size a
  hwx5_1 : ∀ i : grid5.Coords, EltTy.bits .f32 = 32 ∨ (Rect.block (s := S1x128) S1x128.size (cc5_transform_1 i) (hinb5_1 i)).WholeWords (EltTy.packing .f32)
  hstage5_2 : ∀ j, (stage5_2 j).IsWhole
  nbuf5_2 : grid5.bufCount reads5_2 true = 1
  hreads5_2 : ∀ i i' : grid5.Coords, (∀ a, reads5_2 a = true → i a = i' a) → cc5_transform_2 i = cc5_transform_2 i'
  hinb5_2 : ∀ (i : grid5.Coords) a, (cc5_transform_2 i a + 1) * S1x128.size a ≤ S1x128.size a
  hwx5_2 : ∀ i : grid5.Coords, EltTy.bits .f32 = 32 ∨ (Rect.block (s := S1x128) S1x128.size (cc5_transform_2 i) (hinb5_2 i)).WholeWords (EltTy.packing .f32)
  hstage5_3 : ∀ j, (stage5_3 j).IsWhole
  nbuf5_3 : grid5.bufCount reads5_3 true = 1
  hreads5_3 : ∀ i i' : grid5.Coords, (∀ a, reads5_3 a = true → i a = i' a) → cc5_transform_3 i = cc5_transform_3 i'
  hinb5_3 : ∀ (i : grid5.Coords) a, (cc5_transform_3 i a + 1) * S1x128.size a ≤ S1x128.size a
  hwx5_3 : ∀ i : grid5.Coords, EltTy.bits .f32 = 32 ∨ (Rect.block (s := S1x128) S1x128.size (cc5_transform_3 i) (hinb5_3 i)).WholeWords (EltTy.packing .f32)
  hstage5_4 : ∀ j, (stage5_4 j).IsWhole
  nbuf5_4 : grid5.bufCount reads5_4 true = 1
  hreads5_4 : ∀ i i' : grid5.Coords, (∀ a, reads5_4 a = true → i a = i' a) → cc5_transform_4 i = cc5_transform_4 i'
  hinb5_4 : ∀ (i : grid5.Coords) a, (cc5_transform_4 i a + 1) * S1x128.size a ≤ S1x128.size a
  hwx5_4 : ∀ i : grid5.Coords, EltTy.bits .f32 = 32 ∨ (Rect.block (s := S1x128) S1x128.size (cc5_transform_4 i) (hinb5_4 i)).WholeWords (EltTy.packing .f32)
  hstage5_5 : ∀ j, (stage5_5 j).IsWhole
  nbuf5_5 : grid5.bufCount reads5_5 true = 1
  hreads5_5 : ∀ i i' : grid5.Coords, (∀ a, reads5_5 a = true → i a = i' a) → cc5_transform_5 i = cc5_transform_5 i'
  hinb5_5 : ∀ (i : grid5.Coords) a, (cc5_transform_5 i a + 1) * S1x128.size a ≤ S1x128.size a
  hwx5_5 : ∀ i : grid5.Coords, EltTy.bits .f32 = 32 ∨ (Rect.block (s := S1x128) S1x128.size (cc5_transform_5 i) (hinb5_5 i)).WholeWords (EltTy.packing .f32)
  hstage5_6 : ∀ j, (stage5_6 j).IsWhole
  nbuf5_6 : grid5.bufCount reads5_6 false = 2
  hreads5_6 : ∀ i i' : grid5.Coords, (∀ a, reads5_6 a = true → i a = i' a) → cc5_transform_6 i = cc5_transform_6 i'
  hinb5_6 : ∀ (i : grid5.Coords) a, (cc5_transform_6 i a + 1) * S10000x128.size a ≤ S100000x128.size a
  hwx5_6 : ∀ i : grid5.Coords, EltTy.bits .f32 = 32 ∨ (Rect.block (s := S100000x128) S10000x128.size (cc5_transform_6 i) (hinb5_6 i)).WholeWords (EltTy.packing .f32)
  hstage5_7 : ∀ j, (stage5_7 j).IsWhole
  nbuf5_7 : grid5.bufCount reads5_7 false = 2
  hreads5_7 : ∀ i i' : grid5.Coords, (∀ a, reads5_7 a = true → i a = i' a) → cc5_transform_7 i = cc5_transform_7 i'
  hinb5_7 : ∀ (i : grid5.Coords) a, (cc5_transform_7 i a + 1) * S10000x128.size a ≤ S100000x128.size a
  hwx5_7 : ∀ i : grid5.Coords, EltTy.bits .f32 = 32 ∨ (Rect.block (s := S100000x128) S10000x128.size (cc5_transform_7 i) (hinb5_7 i)).WholeWords (EltTy.packing .f32)
  hrank6 : 0 < grid6.rank
  hstage6_0 : ∀ j, (stage6_0 j).IsWhole
  nbuf6_0 : grid6.bufCount reads6_0 false = 2
  hreads6_0 : ∀ i i' : grid6.Coords, (∀ a, reads6_0 a = true → i a = i' a) → cc6_transform_0 i = cc6_transform_0 i'
  hinb6_0 : ∀ (i : grid6.Coords) a, (cc6_transform_0 i a + 1) * S10000x128.size a ≤ S50000x128.size a
  hwx6_0 : ∀ i : grid6.Coords, EltTy.bits .f32 = 32 ∨ (Rect.block (s := S50000x128) S10000x128.size (cc6_transform_0 i) (hinb6_0 i)).WholeWords (EltTy.packing .f32)
  hstage6_1 : ∀ j, (stage6_1 j).IsWhole
  nbuf6_1 : grid6.bufCount reads6_1 false = 2
  hreads6_1 : ∀ i i' : grid6.Coords, (∀ a, reads6_1 a = true → i a = i' a) → cc6_transform_1 i = cc6_transform_1 i'
  hinb6_1 : ∀ (i : grid6.Coords) a, (cc6_transform_1 i a + 1) * S10000x128.size a ≤ S50000x128.size a
  hwx6_1 : ∀ i : grid6.Coords, EltTy.bits .f32 = 32 ∨ (Rect.block (s := S50000x128) S10000x128.size (cc6_transform_1 i) (hinb6_1 i)).WholeWords (EltTy.packing .f32)
  hstage6_2 : ∀ j, (stage6_2 j).IsWhole
  nbuf6_2 : grid6.bufCount reads6_2 false = 2
  hreads6_2 : ∀ i i' : grid6.Coords, (∀ a, reads6_2 a = true → i a = i' a) → cc6_transform_2 i = cc6_transform_2 i'
  hinb6_2 : ∀ (i : grid6.Coords) a, (cc6_transform_2 i a + 1) * S10000x128.size a ≤ S50000x128.size a
  hwx6_2 : ∀ i : grid6.Coords, EltTy.bits .f32 = 32 ∨ (Rect.block (s := S50000x128) S10000x128.size (cc6_transform_2 i) (hinb6_2 i)).WholeWords (EltTy.packing .f32)

variable [Facts₀]

def scatter_S50000_S800000x1_S800000_n_0_0_1 : ScatterDims S50000 S800000x1 S800000 where
  updateWindowDims := []
  insertedWindowDims := [0]
  scatterDimsToOperandDims := [0]
  indexVectorDim := 1
  wf := scatter_S50000_S800000x1_S800000_n_0_0_1_wf
def gather_S50000_S800000x1_S800000_n_0_n_n_0_1_1 : GatherDims S50000 S800000x1 S800000 where
  offsetDims := []
  collapsedSliceDims := [0]
  operandBatchingDims := []
  startIndicesBatchingDims := []
  startIndexMap := [0]
  indexVectorDim := 1
  sliceSizes := ![1]
  wf := gather_S50000_S800000x1_S800000_n_0_n_n_0_1_1_wf
def dot_S5000x128_S128x128_S5000x128_1_0_0_1_n_n : DotDims S5000x128 S128x128 S5000x128 where
  lhsContracting := [1]
  rhsContracting := [0]
  lhsNonContracting := [0]
  rhsNonContracting := [1]
  lhsBatch := []
  rhsBatch := []
  wf := dot_S5000x128_S128x128_S5000x128_1_0_0_1_n_n_wf
def gather_S50000x128_S800000x1_S800000x128_1_0_n_n_0_1_1128 : GatherDims S50000x128 S800000x1 S800000x128 where
  offsetDims := [1]
  collapsedSliceDims := [0]
  operandBatchingDims := []
  startIndicesBatchingDims := []
  startIndexMap := [0]
  indexVectorDim := 1
  sliceSizes := ![1, 128]
  wf := gather_S50000x128_S800000x1_S800000x128_1_0_n_n_0_1_1128_wf
def scatter_S50000x128_S800000x1_S800000x128_1_0_0_1 : ScatterDims S50000x128 S800000x1 S800000x128 where
  updateWindowDims := [1]
  insertedWindowDims := [0]
  scatterDimsToOperandDims := [0]
  indexVectorDim := 1
  wf := scatter_S50000x128_S800000x1_S800000x128_1_0_0_1_wf
def gather_S100000x128_S800000x1_S800000x128_1_0_n_n_0_1_1128 : GatherDims S100000x128 S800000x1 S800000x128 where
  offsetDims := [1]
  collapsedSliceDims := [0]
  operandBatchingDims := []
  startIndicesBatchingDims := []
  startIndexMap := [0]
  indexVectorDim := 1
  sliceSizes := ![1, 128]
  wf := gather_S100000x128_S800000x1_S800000x128_1_0_n_n_0_1_1128_wf
def scatter_S100000x128_S800000x1_S800000x128_1_0_0_1 : ScatterDims S100000x128 S800000x1 S800000x128 where
  updateWindowDims := [1]
  insertedWindowDims := [0]
  scatterDimsToOperandDims := [0]
  indexVectorDim := 1
  wf := scatter_S100000x128_S800000x1_S800000x128_1_0_0_1_wf
def gather_S50000x128_S100000x1_S100000x128_1_0_n_n_0_1_1128 : GatherDims S50000x128 S100000x1 S100000x128 where
  offsetDims := [1]
  collapsedSliceDims := [0]
  operandBatchingDims := []
  startIndicesBatchingDims := []
  startIndexMap := [0]
  indexVectorDim := 1
  sliceSizes := ![1, 128]
  wf := gather_S50000x128_S100000x1_S100000x128_1_0_n_n_0_1_1128_wf
def scatter_S50000_S100000x1_S100000_n_0_0_1 : ScatterDims S50000 S100000x1 S100000 where
  updateWindowDims := []
  insertedWindowDims := [0]
  scatterDimsToOperandDims := [0]
  indexVectorDim := 1
  wf := scatter_S50000_S100000x1_S100000_n_0_0_1_wf
def scatter_S50000x128_S100000x1_S100000x128_1_0_0_1 : ScatterDims S50000x128 S100000x1 S100000x128 where
  updateWindowDims := [1]
  insertedWindowDims := [0]
  scatterDimsToOperandDims := [0]
  indexVectorDim := 1
  wf := scatter_S50000x128_S100000x1_S100000x128_1_0_0_1_wf

abbrev win0_0 : Pipeline.Window sig grid0 :=
  Pipeline.Window.ofSpec (Memref.whole main_arg0) S5000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v29) S128x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v30) S1x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v31) S5000x128.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev win1_0 : Pipeline.Window sig grid1 :=
  Pipeline.Window.ofSpec (Memref.whole main_v45) S5000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v46_0) S1x1x128.size cc1_transform_1 reads1_1 true false 2 stage1_1 sem1_1
    hrank1 hreads1_1 hinb1_1 nbuf1_1 (Memref.isWhole_whole _) hwx1_1 hstage1_1

abbrev win1_2 : Pipeline.Window sig grid1 :=
  Pipeline.Window.ofSpec (Memref.whole main_v46_1) S1x1x128.size cc1_transform_2 reads1_2 true false 2 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

abbrev win2_0 : Pipeline.Window sig grid2 :=
  Pipeline.Window.ofSpec (Memref.whole main_v45) S10000x128.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v50) S1x128.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v59) S1x128.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v60) S1x128.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_v61) S1x128.size cc2_transform_4 reads2_4 false true 1 stage2_4 sem2_4
    hrank2 hreads2_4 hinb2_4 nbuf2_4 (Memref.isWhole_whole _) hwx2_4 hstage2_4

abbrev win2_5 : Pipeline.Window sig grid2 :=
  Pipeline.Window.ofSpec (Memref.whole main_v62) S1x128.size cc2_transform_5 reads2_5 false true 1 stage2_5 sem2_5
    hrank2 hreads2_5 hinb2_5 nbuf2_5 (Memref.isWhole_whole _) hwx2_5 hstage2_5

abbrev win2_6 : Pipeline.Window sig grid2 :=
  Pipeline.Window.ofSpec (Memref.whole main_v63) S10000x128.size cc2_transform_6 reads2_6 true false 2 stage2_6 sem2_6
    hrank2 hreads2_6 hinb2_6 nbuf2_6 (Memref.isWhole_whole _) hwx2_6 hstage2_6

abbrev win2 : Fin 7 → Pipeline.Window sig grid2 := fun | 0 => win2_0 | 1 => win2_1 | 2 => win2_2 | 3 => win2_3 | 4 => win2_4 | 5 => win2_5 | 6 => win2_6 | ⟨_ + 7, h⟩ => absurd h (Nat.not_lt.2 (Nat.le_add_left _ _))
abbrev spec2 : Fin 7 → Pipeline.WinSpec sig grid2.rank := fun w => (win2 w).toWinSpec

abbrev win3_0 : Pipeline.Window sig grid3 :=
  Pipeline.Window.ofSpec (Memref.whole main_arg3) S5000x128.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v64) S128x128.size cc3_transform_1 reads3_1 false true 1 stage3_1 sem3_1
    hrank3 hreads3_1 hinb3_1 nbuf3_1 (Memref.isWhole_whole _) hwx3_1 hstage3_1

abbrev win3_2 : Pipeline.Window sig grid3 :=
  Pipeline.Window.ofSpec (Memref.whole main_v65) S1x128.size cc3_transform_2 reads3_2 false true 1 stage3_2 sem3_2
    hrank3 hreads3_2 hinb3_2 nbuf3_2 (Memref.isWhole_whole _) hwx3_2 hstage3_2

abbrev win3_3 : Pipeline.Window sig grid3 :=
  Pipeline.Window.ofSpec (Memref.whole main_v66) S5000x128.size cc3_transform_3 reads3_3 true false 2 stage3_3 sem3_3
    hrank3 hreads3_3 hinb3_3 nbuf3_3 (Memref.isWhole_whole _) hwx3_3 hstage3_3

abbrev win3 : Fin 4 → Pipeline.Window sig grid3 := fun | 0 => win3_0 | 1 => win3_1 | 2 => win3_2 | 3 => win3_3 | ⟨_ + 4, h⟩ => absurd h (Nat.not_lt.2 (Nat.le_add_left _ _))
abbrev spec3 : Fin 4 → Pipeline.WinSpec sig grid3.rank := fun w => (win3 w).toWinSpec

abbrev win4_0 : Pipeline.Window sig grid4 :=
  Pipeline.Window.ofSpec (Memref.whole main_v84) S5000x128.size cc4_transform_0 reads4_0 false false 2 stage4_0 sem4_0
    hrank4 hreads4_0 hinb4_0 nbuf4_0 (Memref.isWhole_whole _) hwx4_0 hstage4_0

abbrev win4_1 : Pipeline.Window sig grid4 :=
  Pipeline.Window.ofSpec (Memref.whole main_v85_0) S1x1x128.size cc4_transform_1 reads4_1 true false 2 stage4_1 sem4_1
    hrank4 hreads4_1 hinb4_1 nbuf4_1 (Memref.isWhole_whole _) hwx4_1 hstage4_1

abbrev win4_2 : Pipeline.Window sig grid4 :=
  Pipeline.Window.ofSpec (Memref.whole main_v85_1) S1x1x128.size cc4_transform_2 reads4_2 true false 2 stage4_2 sem4_2
    hrank4 hreads4_2 hinb4_2 nbuf4_2 (Memref.isWhole_whole _) hwx4_2 hstage4_2

abbrev win4 : Fin 3 → Pipeline.Window sig grid4 := fun | 0 => win4_0 | 1 => win4_1 | 2 => win4_2 | ⟨_ + 3, h⟩ => absurd h (Nat.not_lt.2 (Nat.le_add_left _ _))
abbrev spec4 : Fin 3 → Pipeline.WinSpec sig grid4.rank := fun w => (win4 w).toWinSpec

abbrev win5_0 : Pipeline.Window sig grid5 :=
  Pipeline.Window.ofSpec (Memref.whole main_v84) S10000x128.size cc5_transform_0 reads5_0 false false 2 stage5_0 sem5_0
    hrank5 hreads5_0 hinb5_0 nbuf5_0 (Memref.isWhole_whole _) hwx5_0 hstage5_0

abbrev win5_1 : Pipeline.Window sig grid5 :=
  Pipeline.Window.ofSpec (Memref.whole main_v89) S1x128.size cc5_transform_1 reads5_1 false true 1 stage5_1 sem5_1
    hrank5 hreads5_1 hinb5_1 nbuf5_1 (Memref.isWhole_whole _) hwx5_1 hstage5_1

abbrev win5_2 : Pipeline.Window sig grid5 :=
  Pipeline.Window.ofSpec (Memref.whole main_v98) S1x128.size cc5_transform_2 reads5_2 false true 1 stage5_2 sem5_2
    hrank5 hreads5_2 hinb5_2 nbuf5_2 (Memref.isWhole_whole _) hwx5_2 hstage5_2

abbrev win5_3 : Pipeline.Window sig grid5 :=
  Pipeline.Window.ofSpec (Memref.whole main_v106) S1x128.size cc5_transform_3 reads5_3 false true 1 stage5_3 sem5_3
    hrank5 hreads5_3 hinb5_3 nbuf5_3 (Memref.isWhole_whole _) hwx5_3 hstage5_3

abbrev win5_4 : Pipeline.Window sig grid5 :=
  Pipeline.Window.ofSpec (Memref.whole main_v107) S1x128.size cc5_transform_4 reads5_4 false true 1 stage5_4 sem5_4
    hrank5 hreads5_4 hinb5_4 nbuf5_4 (Memref.isWhole_whole _) hwx5_4 hstage5_4

abbrev win5_5 : Pipeline.Window sig grid5 :=
  Pipeline.Window.ofSpec (Memref.whole main_v108) S1x128.size cc5_transform_5 reads5_5 false true 1 stage5_5 sem5_5
    hrank5 hreads5_5 hinb5_5 nbuf5_5 (Memref.isWhole_whole _) hwx5_5 hstage5_5

abbrev win5_6 : Pipeline.Window sig grid5 :=
  Pipeline.Window.ofSpec (Memref.whole main_v105) S10000x128.size cc5_transform_6 reads5_6 false false 2 stage5_6 sem5_6
    hrank5 hreads5_6 hinb5_6 nbuf5_6 (Memref.isWhole_whole _) hwx5_6 hstage5_6

abbrev win5_7 : Pipeline.Window sig grid5 :=
  Pipeline.Window.ofSpec (Memref.whole main_v109) S10000x128.size cc5_transform_7 reads5_7 true false 2 stage5_7 sem5_7
    hrank5 hreads5_7 hinb5_7 nbuf5_7 (Memref.isWhole_whole _) hwx5_7 hstage5_7

abbrev win5 : Fin 8 → Pipeline.Window sig grid5 := fun | 0 => win5_0 | 1 => win5_1 | 2 => win5_2 | 3 => win5_3 | 4 => win5_4 | 5 => win5_5 | 6 => win5_6 | 7 => win5_7 | ⟨_ + 8, h⟩ => absurd h (Nat.not_lt.2 (Nat.le_add_left _ _))
abbrev spec5 : Fin 8 → Pipeline.WinSpec sig grid5.rank := fun w => (win5 w).toWinSpec

abbrev win6_0 : Pipeline.Window sig grid6 :=
  Pipeline.Window.ofSpec (Memref.whole main_v63) S10000x128.size cc6_transform_0 reads6_0 false false 2 stage6_0 sem6_0
    hrank6 hreads6_0 hinb6_0 nbuf6_0 (Memref.isWhole_whole _) hwx6_0 hstage6_0

abbrev win6_1 : Pipeline.Window sig grid6 :=
  Pipeline.Window.ofSpec (Memref.whole main_v121) S10000x128.size cc6_transform_1 reads6_1 false false 2 stage6_1 sem6_1
    hrank6 hreads6_1 hinb6_1 nbuf6_1 (Memref.isWhole_whole _) hwx6_1 hstage6_1

abbrev win6_2 : Pipeline.Window sig grid6 :=
  Pipeline.Window.ofSpec (Memref.whole main_v122) S10000x128.size cc6_transform_2 reads6_2 true false 2 stage6_2 sem6_2
    hrank6 hreads6_2 hinb6_2 nbuf6_2 (Memref.isWhole_whole _) hwx6_2 hstage6_2

abbrev win6 : Fin 3 → Pipeline.Window sig grid6 := fun | 0 => win6_0 | 1 => win6_1 | 2 => win6_2 | ⟨_ + 3, h⟩ => absurd h (Nat.not_lt.2 (Nat.le_add_left _ _))
abbrev spec6 : Fin 3 → Pipeline.WinSpec sig grid6.rank := fun w => (win6 w).toWinSpec

class Facts : Prop extends Facts₀ where

variable [Facts]
-- ==== ReferenceIdeal.lean ====
abbrev S50000x128 : Shape := ⟨2, ![50000, 128]⟩
abbrev S2x800000 : Shape := ⟨2, ![2, 800000]⟩
abbrev S800000 : Shape := ⟨1, ![800000]⟩
abbrev S100000x128 : Shape := ⟨2, ![100000, 128]⟩
abbrev S100000 : Shape := ⟨1, ![100000]⟩
abbrev S128x128 : Shape := ⟨2, ![128, 128]⟩
abbrev S128 : Shape := ⟨1, ![128]⟩
abbrev S1x800000 : Shape := ⟨2, ![1, 800000]⟩
abbrev S_ : Shape := ⟨0, ![]⟩
abbrev S50000 : Shape := ⟨1, ![50000]⟩
abbrev S800000x1 : Shape := ⟨2, ![800000, 1]⟩
abbrev S1x128 : Shape := ⟨2, ![1, 128]⟩
abbrev S800000x128 : Shape := ⟨2, ![800000, 128]⟩
abbrev S100000x1 : Shape := ⟨2, ![100000, 1]⟩
abbrev S50000x1 : Shape := ⟨2, ![50000, 1]⟩

abbrev nBuf : Space → Nat
  | .hbm => 200
  | .vmem => 0
  | .smem => 0
  | _ => 0

abbrev hbmTy0_0 (i : Nat) : BufTy := match i % 128 with
  | 0 => ⟨S50000x128, .f32⟩
  | 1 => ⟨S2x800000, .i32⟩
  | 2 => ⟨S800000, .f32⟩
  | 3 => ⟨S100000x128, .f32⟩
  | 4 => ⟨S2x800000, .i32⟩
  | 5 => ⟨S800000, .f32⟩
  | 6 => ⟨S100000, .i32⟩
  | 7 => ⟨S128x128, .f32⟩
  | 8 => ⟨S128, .f32⟩
  | 9 => ⟨S128x128, .f32⟩
  | 10 => ⟨S128, .f32⟩
  | 11 => ⟨S128, .f32⟩
  | 12 => ⟨S128, .f32⟩
  | 13 => ⟨S128, .f32⟩
  | 14 => ⟨S128, .f32⟩
  | 15 => ⟨S128, .f32⟩
  | 16 => ⟨S128, .f32⟩
  | 17 => ⟨S1x800000, .i32⟩
  | 18 => ⟨S800000, .i32⟩
  | 19 => ⟨S1x800000, .i32⟩
  | 20 => ⟨S800000, .i32⟩
  | 21 => ⟨S_, .f32⟩
  | 22 => ⟨S50000, .f32⟩
  | 23 => ⟨S800000x1, .i32⟩
  | 24 => ⟨S50000, .f32⟩
  | 25 => ⟨S_, .f32⟩
  | 26 => ⟨S50000, .f32⟩
  | 27 => ⟨S50000, .i1⟩
  | 28 => ⟨S_, .f32⟩
  | 29 => ⟨S50000, .f32⟩
  | 30 => ⟨S50000, .f32⟩
  | 31 => ⟨S50000, .f32⟩
  | 32 => ⟨S50000, .f32⟩
  | 33 => ⟨S_, .i32⟩
  | 34 => ⟨S800000, .i32⟩
  | 35 => ⟨S800000, .i1⟩
  | 36 => ⟨S_, .i32⟩
  | 37 => ⟨S800000, .i32⟩
  | 38 => ⟨S800000, .i32⟩
  | 39 => ⟨S800000, .i32⟩
  | 40 => ⟨S800000x1, .i32⟩
  | 41 => ⟨S800000, .f32⟩
  | 42 => ⟨S800000, .f32⟩
  | 43 => ⟨S_, .i32⟩
  | 44 => ⟨S800000, .i32⟩
  | 45 => ⟨S800000, .i1⟩
  | 46 => ⟨S_, .i32⟩
  | 47 => ⟨S800000, .i32⟩
  | 48 => ⟨S800000, .i32⟩
  | 49 => ⟨S800000, .i32⟩
  | 50 => ⟨S800000x1, .i32⟩
  | 51 => ⟨S800000, .f32⟩
  | 52 => ⟨S800000, .f32⟩
  | 53 => ⟨S128x128, .f32⟩
  | 54 => ⟨S50000x128, .f32⟩
  | 55 => ⟨S1x128, .f32⟩
  | 56 => ⟨S50000x128, .f32⟩
  | 57 => ⟨S50000x128, .f32⟩
  | 58 => ⟨S_, .i32⟩
  | 59 => ⟨S800000, .i32⟩
  | 60 => ⟨S800000, .i1⟩
  | 61 => ⟨S_, .i32⟩
  | 62 => ⟨S800000, .i32⟩
  | 63 => ⟨S800000, .i32⟩
  | 64 => ⟨S800000, .i32⟩
  | 65 => ⟨S800000x1, .i32⟩
  | 66 => ⟨S800000x128, .f32⟩
  | 67 => ⟨S800000x1, .f32⟩
  | 68 => ⟨S800000x128, .f32⟩
  | 69 => ⟨S800000x128, .f32⟩
  | 70 => ⟨S_, .f32⟩
  | 71 => ⟨S50000x128, .f32⟩
  | 72 => ⟨S800000x1, .i32⟩
  | 73 => ⟨S50000x128, .f32⟩
  | 74 => ⟨S_, .f32⟩
  | 75 => ⟨S128, .f32⟩
  | 76 => ⟨S_, .f32⟩
  | 77 => ⟨S128, .f32⟩
  | 78 => ⟨S128, .f32⟩
  | 79 => ⟨S128, .f32⟩
  | 80 => ⟨S1x128, .f32⟩
  | 81 => ⟨S50000x128, .f32⟩
  | 82 => ⟨S50000x128, .f32⟩
  | 83 => ⟨S50000x128, .f32⟩
  | 84 => ⟨S_, .f32⟩
  | 85 => ⟨S128, .f32⟩
  | 86 => ⟨S_, .f32⟩
  | 87 => ⟨S128, .f32⟩
  | 88 => ⟨S128, .f32⟩
  | 89 => ⟨S1x128, .f32⟩
  | 90 => ⟨S50000x128, .f32⟩
  | 91 => ⟨S50000x128, .f32⟩
  | 92 => ⟨S_, .f32⟩
  | 93 => ⟨S128, .f32⟩
  | 94 => ⟨S128, .f32⟩
  | 95 => ⟨S128, .f32⟩
  | 96 => ⟨S1x128, .f32⟩
  | 97 => ⟨S50000x128, .f32⟩
  | 98 => ⟨S50000x128, .f32⟩
  | 99 => ⟨S1x128, .f32⟩
  | 100 => ⟨S50000x128, .f32⟩
  | 101 => ⟨S50000x128, .f32⟩
  | 102 => ⟨S_, .f32⟩
  | 103 => ⟨S50000x128, .f32⟩
  | 104 => ⟨S50000x128, .f32⟩
  | 105 => ⟨S128x128, .f32⟩
  | 106 => ⟨S100000x128, .f32⟩
  | 107 => ⟨S1x128, .f32⟩
  | 108 => ⟨S100000x128, .f32⟩
  | 109 => ⟨S100000x128, .f32⟩
  | 110 => ⟨S1x800000, .i32⟩
  | 111 => ⟨S800000, .i32⟩
  | 112 => ⟨S1x800000, .i32⟩
  | 113 => ⟨S800000, .i32⟩
  | 114 => ⟨S_, .i32⟩
  | 115 => ⟨S800000, .i32⟩
  | 116 => ⟨S800000, .i1⟩
  | 117 => ⟨S_, .i32⟩
  | 118 => ⟨S800000, .i32⟩
  | 119 => ⟨S800000, .i32⟩
  | 120 => ⟨S800000, .i32⟩
  | 121 => ⟨S800000x1, .i32⟩
  | 122 => ⟨S800000x128, .f32⟩
  | 123 => ⟨S800000x1, .f32⟩
  | 124 => ⟨S800000x128, .f32⟩
  | 125 => ⟨S800000x128, .f32⟩
  | 126 => ⟨S_, .f32⟩
  | 127 => ⟨S100000x128, .f32⟩
  | _ => ⟨S50000x128, .f32⟩

abbrev hbmTy0_1 (i : Nat) : BufTy := match i % 128 with
  | 0 => ⟨S800000x1, .i32⟩
  | 1 => ⟨S100000x128, .f32⟩
  | 2 => ⟨S_, .f32⟩
  | 3 => ⟨S128, .f32⟩
  | 4 => ⟨S_, .f32⟩
  | 5 => ⟨S128, .f32⟩
  | 6 => ⟨S128, .f32⟩
  | 7 => ⟨S128, .f32⟩
  | 8 => ⟨S1x128, .f32⟩
  | 9 => ⟨S100000x128, .f32⟩
  | 10 => ⟨S100000x128, .f32⟩
  | 11 => ⟨S100000x128, .f32⟩
  | 12 => ⟨S_, .f32⟩
  | 13 => ⟨S128, .f32⟩
  | 14 => ⟨S_, .f32⟩
  | 15 => ⟨S128, .f32⟩
  | 16 => ⟨S128, .f32⟩
  | 17 => ⟨S1x128, .f32⟩
  | 18 => ⟨S100000x128, .f32⟩
  | 19 => ⟨S100000x128, .f32⟩
  | 20 => ⟨S_, .f32⟩
  | 21 => ⟨S128, .f32⟩
  | 22 => ⟨S128, .f32⟩
  | 23 => ⟨S128, .f32⟩
  | 24 => ⟨S1x128, .f32⟩
  | 25 => ⟨S100000x128, .f32⟩
  | 26 => ⟨S100000x128, .f32⟩
  | 27 => ⟨S1x128, .f32⟩
  | 28 => ⟨S100000x128, .f32⟩
  | 29 => ⟨S100000x128, .f32⟩
  | 30 => ⟨S_, .f32⟩
  | 31 => ⟨S100000x128, .f32⟩
  | 32 => ⟨S100000x128, .f32⟩
  | 33 => ⟨S_, .f32⟩
  | 34 => ⟨S100000x128, .f32⟩
  | 35 => ⟨S100000x128, .f32⟩
  | 36 => ⟨S_, .i32⟩
  | 37 => ⟨S100000, .i32⟩
  | 38 => ⟨S100000, .i1⟩
  | 39 => ⟨S_, .i32⟩
  | 40 => ⟨S100000, .i32⟩
  | 41 => ⟨S100000, .i32⟩
  | 42 => ⟨S100000, .i32⟩
  | 43 => ⟨S100000x1, .i32⟩
  | 44 => ⟨S100000x128, .f32⟩
  | 45 => ⟨S_, .f32⟩
  | 46 => ⟨S100000x128, .f32⟩
  | 47 => ⟨S100000x128, .f32⟩
  | 48 => ⟨S100000x128, .f32⟩
  | 49 => ⟨S_, .f32⟩
  | 50 => ⟨S50000x128, .f32⟩
  | 51 => ⟨S100000x1, .i32⟩
  | 52 => ⟨S50000x128, .f32⟩
  | 53 => ⟨S_, .f32⟩
  | 54 => ⟨S100000, .f32⟩
  | 55 => ⟨S_, .f32⟩
  | 56 => ⟨S50000, .f32⟩
  | 57 => ⟨S100000x1, .i32⟩
  | 58 => ⟨S50000, .f32⟩
  | 59 => ⟨S_, .f32⟩
  | 60 => ⟨S50000, .f32⟩
  | 61 => ⟨S50000, .f32⟩
  | 62 => ⟨S50000x1, .f32⟩
  | 63 => ⟨S50000x128, .f32⟩
  | 64 => ⟨S50000x128, .f32⟩
  | 65 => ⟨S_, .f32⟩
  | 66 => ⟨S50000x128, .f32⟩
  | 67 => ⟨S50000x128, .f32⟩
  | 68 => ⟨S_, .f32⟩
  | 69 => ⟨S50000x128, .f32⟩
  | 70 => ⟨S50000x128, .f32⟩
  | 71 => ⟨S50000x128, .f32⟩
  | _ => ⟨S50000x128, .f32⟩

abbrev hbmTy (i : Nat) : BufTy := match i / 128 with
  | 0 => hbmTy0_0 i
  | 1 => hbmTy0_1 i
  | _ => ⟨S50000x128, .f32⟩

abbrev bufTy : (tb : Table) → Fin (tcTables nBuf tb) → BufTy
  | .hbm, ⟨i, _⟩ => hbmTy i
  | _, _ => ⟨S50000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_v0 : Ref sig .tc := ⟨.hbm, 17, rfl⟩
abbrev main_v1 : Ref sig .tc := ⟨.hbm, 18, rfl⟩
abbrev main_v2 : Ref sig .tc := ⟨.hbm, 19, rfl⟩
abbrev main_v3 : Ref sig .tc := ⟨.hbm, 20, rfl⟩
abbrev main_cst : Ref sig .tc := ⟨.hbm, 21, rfl⟩
abbrev main_v4 : Ref sig .tc := ⟨.hbm, 22, rfl⟩
abbrev main_v5 : Ref sig .tc := ⟨.hbm, 23, rfl⟩
abbrev main_v6 : Ref sig .tc := ⟨.hbm, 24, rfl⟩
abbrev main_cst_0 : Ref sig .tc := ⟨.hbm, 25, rfl⟩
abbrev main_v7 : Ref sig .tc := ⟨.hbm, 26, rfl⟩
abbrev main_v8 : Ref sig .tc := ⟨.hbm, 27, rfl⟩
abbrev main_cst_1 : Ref sig .tc := ⟨.hbm, 28, rfl⟩
abbrev main_v9 : Ref sig .tc := ⟨.hbm, 29, rfl⟩
abbrev main_v10 : Ref sig .tc := ⟨.hbm, 30, rfl⟩
abbrev main_v11 : Ref sig .tc := ⟨.hbm, 31, rfl⟩
abbrev main_v12 : Ref sig .tc := ⟨.hbm, 32, rfl⟩
abbrev main_c : Ref sig .tc := ⟨.hbm, 33, rfl⟩
abbrev main_v13 : Ref sig .tc := ⟨.hbm, 34, rfl⟩
abbrev main_v14 : Ref sig .tc := ⟨.hbm, 35, rfl⟩
abbrev main_c_2 : Ref sig .tc := ⟨.hbm, 36, rfl⟩
abbrev main_v15 : Ref sig .tc := ⟨.hbm, 37, rfl⟩
abbrev main_v16 : Ref sig .tc := ⟨.hbm, 38, rfl⟩
abbrev main_v17 : Ref sig .tc := ⟨.hbm, 39, rfl⟩
abbrev main_v18 : Ref sig .tc := ⟨.hbm, 40, rfl⟩
abbrev main_v19 : Ref sig .tc := ⟨.hbm, 41, rfl⟩
abbrev main_v20 : Ref sig .tc := ⟨.hbm, 42, rfl⟩
abbrev main_c_3 : Ref sig .tc := ⟨.hbm, 43, rfl⟩
abbrev main_v21 : Ref sig .tc := ⟨.hbm, 44, rfl⟩
abbrev main_v22 : Ref sig .tc := ⟨.hbm, 45, rfl⟩
abbrev main_c_4 : Ref sig .tc := ⟨.hbm, 46, rfl⟩
abbrev main_v23 : Ref sig .tc := ⟨.hbm, 47, rfl⟩
abbrev main_v24 : Ref sig .tc := ⟨.hbm, 48, rfl⟩
abbrev main_v25 : Ref sig .tc := ⟨.hbm, 49, rfl⟩
abbrev main_v26 : Ref sig .tc := ⟨.hbm, 50, rfl⟩
abbrev main_v27 : Ref sig .tc := ⟨.hbm, 51, rfl⟩
abbrev main_v28 : Ref sig .tc := ⟨.hbm, 52, rfl⟩
abbrev main_v29 : Ref sig .tc := ⟨.hbm, 53, rfl⟩
abbrev main_v30 : Ref sig .tc := ⟨.hbm, 54, rfl⟩
abbrev main_v31 : Ref sig .tc := ⟨.hbm, 55, rfl⟩
abbrev main_v32 : Ref sig .tc := ⟨.hbm, 56, rfl⟩
abbrev main_v33 : Ref sig .tc := ⟨.hbm, 57, rfl⟩
abbrev main_c_5 : Ref sig .tc := ⟨.hbm, 58, rfl⟩
abbrev main_v34 : Ref sig .tc := ⟨.hbm, 59, rfl⟩
abbrev main_v35 : Ref sig .tc := ⟨.hbm, 60, rfl⟩
abbrev main_c_6 : Ref sig .tc := ⟨.hbm, 61, rfl⟩
abbrev main_v36 : Ref sig .tc := ⟨.hbm, 62, rfl⟩
abbrev main_v37 : Ref sig .tc := ⟨.hbm, 63, rfl⟩
abbrev main_v38 : Ref sig .tc := ⟨.hbm, 64, rfl⟩
abbrev main_v39 : Ref sig .tc := ⟨.hbm, 65, rfl⟩
abbrev main_v40 : Ref sig .tc := ⟨.hbm, 66, rfl⟩
abbrev main_v41 : Ref sig .tc := ⟨.hbm, 67, rfl⟩
abbrev main_v42 : Ref sig .tc := ⟨.hbm, 68, rfl⟩
abbrev main_v43 : Ref sig .tc := ⟨.hbm, 69, rfl⟩
abbrev main_cst_7 : Ref sig .tc := ⟨.hbm, 70, rfl⟩
abbrev main_v44 : Ref sig .tc := ⟨.hbm, 71, rfl⟩
abbrev main_v45 : Ref sig .tc := ⟨.hbm, 72, rfl⟩
abbrev main_v46 : Ref sig .tc := ⟨.hbm, 73, rfl⟩
abbrev main_cst_8 : Ref sig .tc := ⟨.hbm, 74, rfl⟩
abbrev main_v47 : Ref sig .tc := ⟨.hbm, 75, rfl⟩
abbrev main_cst_9 : Ref sig .tc := ⟨.hbm, 76, rfl⟩
abbrev main_v48 : Ref sig .tc := ⟨.hbm, 77, rfl⟩
abbrev main_v49 : Ref sig .tc := ⟨.hbm, 78, rfl⟩
abbrev main_v50 : Ref sig .tc := ⟨.hbm, 79, rfl⟩
abbrev main_v51 : Ref sig .tc := ⟨.hbm, 80, rfl⟩
abbrev main_v52 : Ref sig .tc := ⟨.hbm, 81, rfl⟩
abbrev main_v53 : Ref sig .tc := ⟨.hbm, 82, rfl⟩
abbrev main_v54 : Ref sig .tc := ⟨.hbm, 83, rfl⟩
abbrev main_cst_10 : Ref sig .tc := ⟨.hbm, 84, rfl⟩
abbrev main_v55 : Ref sig .tc := ⟨.hbm, 85, rfl⟩
abbrev main_cst_11 : Ref sig .tc := ⟨.hbm, 86, rfl⟩
abbrev main_v56 : Ref sig .tc := ⟨.hbm, 87, rfl⟩
abbrev main_v57 : Ref sig .tc := ⟨.hbm, 88, rfl⟩
abbrev main_v58 : Ref sig .tc := ⟨.hbm, 89, rfl⟩
abbrev main_v59 : Ref sig .tc := ⟨.hbm, 90, rfl⟩
abbrev main_v60 : Ref sig .tc := ⟨.hbm, 91, rfl⟩
abbrev main_cst_12 : Ref sig .tc := ⟨.hbm, 92, rfl⟩
abbrev main_v61 : Ref sig .tc := ⟨.hbm, 93, rfl⟩
abbrev main_v62 : Ref sig .tc := ⟨.hbm, 94, rfl⟩
abbrev main_v63 : Ref sig .tc := ⟨.hbm, 95, rfl⟩
abbrev main_v64 : Ref sig .tc := ⟨.hbm, 96, rfl⟩
abbrev main_v65 : Ref sig .tc := ⟨.hbm, 97, rfl⟩
abbrev main_v66 : Ref sig .tc := ⟨.hbm, 98, rfl⟩
abbrev main_v67 : Ref sig .tc := ⟨.hbm, 99, rfl⟩
abbrev main_v68 : Ref sig .tc := ⟨.hbm, 100, rfl⟩
abbrev main_v69 : Ref sig .tc := ⟨.hbm, 101, rfl⟩
abbrev main_call1_cst : Ref sig .tc := ⟨.hbm, 102, rfl⟩
abbrev main_call1_v0 : Ref sig .tc := ⟨.hbm, 103, rfl⟩
abbrev main_v70 : Ref sig .tc := ⟨.hbm, 104, rfl⟩
abbrev main_v71 : Ref sig .tc := ⟨.hbm, 105, rfl⟩
abbrev main_v72 : Ref sig .tc := ⟨.hbm, 106, rfl⟩
abbrev main_v73 : Ref sig .tc := ⟨.hbm, 107, rfl⟩
abbrev main_v74 : Ref sig .tc := ⟨.hbm, 108, rfl⟩
abbrev main_v75 : Ref sig .tc := ⟨.hbm, 109, rfl⟩
abbrev main_v76 : Ref sig .tc := ⟨.hbm, 110, rfl⟩
abbrev main_v77 : Ref sig .tc := ⟨.hbm, 111, rfl⟩
abbrev main_v78 : Ref sig .tc := ⟨.hbm, 112, rfl⟩
abbrev main_v79 : Ref sig .tc := ⟨.hbm, 113, rfl⟩
abbrev main_c_13 : Ref sig .tc := ⟨.hbm, 114, rfl⟩
abbrev main_v80 : Ref sig .tc := ⟨.hbm, 115, rfl⟩
abbrev main_v81 : Ref sig .tc := ⟨.hbm, 116, rfl⟩
abbrev main_c_14 : Ref sig .tc := ⟨.hbm, 117, rfl⟩
abbrev main_v82 : Ref sig .tc := ⟨.hbm, 118, rfl⟩
abbrev main_v83 : Ref sig .tc := ⟨.hbm, 119, rfl⟩
abbrev main_v84 : Ref sig .tc := ⟨.hbm, 120, rfl⟩
abbrev main_v85 : Ref sig .tc := ⟨.hbm, 121, rfl⟩
abbrev main_v86 : Ref sig .tc := ⟨.hbm, 122, rfl⟩
abbrev main_v87 : Ref sig .tc := ⟨.hbm, 123, rfl⟩
abbrev main_v88 : Ref sig .tc := ⟨.hbm, 124, rfl⟩
abbrev main_v89 : Ref sig .tc := ⟨.hbm, 125, rfl⟩
abbrev main_cst_15 : Ref sig .tc := ⟨.hbm, 126, rfl⟩
abbrev main_v90 : Ref sig .tc := ⟨.hbm, 127, rfl⟩
abbrev main_v91 : Ref sig .tc := ⟨.hbm, 128, rfl⟩
abbrev main_v92 : Ref sig .tc := ⟨.hbm, 129, rfl⟩
abbrev main_cst_16 : Ref sig .tc := ⟨.hbm, 130, rfl⟩
abbrev main_v93 : Ref sig .tc := ⟨.hbm, 131, rfl⟩
abbrev main_cst_17 : Ref sig .tc := ⟨.hbm, 132, rfl⟩
abbrev main_v94 : Ref sig .tc := ⟨.hbm, 133, rfl⟩
abbrev main_v95 : Ref sig .tc := ⟨.hbm, 134, rfl⟩
abbrev main_v96 : Ref sig .tc := ⟨.hbm, 135, rfl⟩
abbrev main_v97 : Ref sig .tc := ⟨.hbm, 136, rfl⟩
abbrev main_v98 : Ref sig .tc := ⟨.hbm, 137, rfl⟩
abbrev main_v99 : Ref sig .tc := ⟨.hbm, 138, rfl⟩
abbrev main_v100 : Ref sig .tc := ⟨.hbm, 139, rfl⟩
abbrev main_cst_18 : Ref sig .tc := ⟨.hbm, 140, rfl⟩
abbrev main_v101 : Ref sig .tc := ⟨.hbm, 141, rfl⟩
abbrev main_cst_19 : Ref sig .tc := ⟨.hbm, 142, rfl⟩
abbrev main_v102 : Ref sig .tc := ⟨.hbm, 143, rfl⟩
abbrev main_v103 : Ref sig .tc := ⟨.hbm, 144, rfl⟩
abbrev main_v104 : Ref sig .tc := ⟨.hbm, 145, rfl⟩
abbrev main_v105 : Ref sig .tc := ⟨.hbm, 146, rfl⟩
abbrev main_v106 : Ref sig .tc := ⟨.hbm, 147, rfl⟩
abbrev main_cst_20 : Ref sig .tc := ⟨.hbm, 148, rfl⟩
abbrev main_v107 : Ref sig .tc := ⟨.hbm, 149, rfl⟩
abbrev main_v108 : Ref sig .tc := ⟨.hbm, 150, rfl⟩
abbrev main_v109 : Ref sig .tc := ⟨.hbm, 151, rfl⟩
abbrev main_v110 : Ref sig .tc := ⟨.hbm, 152, rfl⟩
abbrev main_v111 : Ref sig .tc := ⟨.hbm, 153, rfl⟩
abbrev main_v112 : Ref sig .tc := ⟨.hbm, 154, rfl⟩
abbrev main_v113 : Ref sig .tc := ⟨.hbm, 155, rfl⟩
abbrev main_v114 : Ref sig .tc := ⟨.hbm, 156, rfl⟩
abbrev main_v115 : Ref sig .tc := ⟨.hbm, 157, rfl⟩
abbrev main_call2_cst : Ref sig .tc := ⟨.hbm, 158, rfl⟩
abbrev main_call2_v0 : Ref sig .tc := ⟨.hbm, 159, rfl⟩
abbrev main_v116 : Ref sig .tc := ⟨.hbm, 160, rfl⟩
abbrev main_cst_21 : Ref sig .tc := ⟨.hbm, 161, rfl⟩
abbrev main_v117 : Ref sig .tc := ⟨.hbm, 162, rfl⟩
abbrev main_v118 : Ref sig .tc := ⟨.hbm, 163, rfl⟩
abbrev main_c_22 : Ref sig .tc := ⟨.hbm, 164, rfl⟩
abbrev main_v119 : Ref sig .tc := ⟨.hbm, 165, rfl⟩
abbrev main_v120 : Ref sig .tc := ⟨.hbm, 166, rfl⟩
abbrev main_c_23 : Ref sig .tc := ⟨.hbm, 167, rfl⟩
abbrev main_v121 : Ref sig .tc := ⟨.hbm, 168, rfl⟩
abbrev main_v122 : Ref sig .tc := ⟨.hbm, 169, rfl⟩
abbrev main_v123 : Ref sig .tc := ⟨.hbm, 170, rfl⟩
abbrev main_v124 : Ref sig .tc := ⟨.hbm, 171, rfl⟩
abbrev main_v125 : Ref sig .tc := ⟨.hbm, 172, rfl⟩
abbrev main_cst_24 : Ref sig .tc := ⟨.hbm, 173, rfl⟩
abbrev main_v126 : Ref sig .tc := ⟨.hbm, 174, rfl⟩
abbrev main_v127 : Ref sig .tc := ⟨.hbm, 175, rfl⟩
abbrev main_v128 : Ref sig .tc := ⟨.hbm, 176, rfl⟩
abbrev main_cst_25 : Ref sig .tc := ⟨.hbm, 177, rfl⟩
abbrev main_v129 : Ref sig .tc := ⟨.hbm, 178, rfl⟩
abbrev main_v130 : Ref sig .tc := ⟨.hbm, 179, rfl⟩
abbrev main_v131 : Ref sig .tc := ⟨.hbm, 180, rfl⟩
abbrev main_cst_26 : Ref sig .tc := ⟨.hbm, 181, rfl⟩
abbrev main_v132 : Ref sig .tc := ⟨.hbm, 182, rfl⟩
abbrev main_cst_27 : Ref sig .tc := ⟨.hbm, 183, rfl⟩
abbrev main_v133 : Ref sig .tc := ⟨.hbm, 184, rfl⟩
abbrev main_v134 : Ref sig .tc := ⟨.hbm, 185, rfl⟩
abbrev main_v135 : Ref sig .tc := ⟨.hbm, 186, rfl⟩
abbrev main_cst_28 : Ref sig .tc := ⟨.hbm, 187, rfl⟩
abbrev main_v136 : Ref sig .tc := ⟨.hbm, 188, rfl⟩
abbrev main_v137 : Ref sig .tc := ⟨.hbm, 189, rfl⟩
abbrev main_v138 : Ref sig .tc := ⟨.hbm, 190, rfl⟩
abbrev main_v139 : Ref sig .tc := ⟨.hbm, 191, rfl⟩
abbrev main_v140 : Ref sig .tc := ⟨.hbm, 192, rfl⟩
abbrev main_cst_29 : Ref sig .tc := ⟨.hbm, 193, rfl⟩
abbrev main_v141 : Ref sig .tc := ⟨.hbm, 194, rfl⟩
abbrev main_v142 : Ref sig .tc := ⟨.hbm, 195, rfl⟩
abbrev main_cst_30 : Ref sig .tc := ⟨.hbm, 196, rfl⟩
abbrev main_v143 : Ref sig .tc := ⟨.hbm, 197, rfl⟩
abbrev main_v144 : Ref sig .tc := ⟨.hbm, 198, rfl⟩
abbrev main_v145 : Ref sig .tc := ⟨.hbm, 199, rfl⟩

abbrev nD : Nat := 1
abbrev τ : Topo := Topo.v7x

variable {F : FTy → Type} [FloatOps F]

class Facts₀ : Prop where
  slices_S2x800000_S1x800000_0_0 : S2x800000.Slices ![0, 0] S1x800000
  shapeCasts_S1x800000_S800000 : S1x800000.ShapeCasts S800000
  slices_S2x800000_S1x800000_1_0 : S2x800000.Slices ![1, 0] S1x800000
  bcast_S_S50000 : S_.BroadcastsInDim S50000 (![] : Fin 0 → Fin S50000.rank)
  bcast_S800000_S800000x1_0 : S800000.BroadcastsInDim S800000x1 (![0] : Fin 1 → Fin S800000x1.rank)
  bcast_S_S800000 : S_.BroadcastsInDim S800000 (![] : Fin 0 → Fin S800000.rank)
  transposes_S128x128_S128x128_1_0 : S128x128.Transposes [1, 0] S128x128
  bcast_S128_S1x128_1 : S128.BroadcastsInDim S1x128 (![1] : Fin 1 → Fin S1x128.rank)
  bcast_S1x128_S50000x128_0_1 : S1x128.BroadcastsInDim S50000x128 (![0, 1] : Fin 2 → Fin S50000x128.rank)
  bcast_S800000x1_S800000x128_0_1 : S800000x1.BroadcastsInDim S800000x128 (![0, 1] : Fin 2 → Fin S800000x128.rank)
  bcast_S_S50000x128 : S_.BroadcastsInDim S50000x128 (![] : Fin 0 → Fin S50000x128.rank)
  reducesTo_S50000x128_S128_d0 : S50000x128.ReducesTo [0] S128
  h_S_ : 0 < S_.numel
  bcast_S_S128 : S_.BroadcastsInDim S128 (![] : Fin 0 → Fin S128.rank)
  bcast_S1x128_S100000x128_0_1 : S1x128.BroadcastsInDim S100000x128 (![0, 1] : Fin 2 → Fin S100000x128.rank)
  bcast_S_S100000x128 : S_.BroadcastsInDim S100000x128 (![] : Fin 0 → Fin S100000x128.rank)
  reducesTo_S100000x128_S128_d0 : S100000x128.ReducesTo [0] S128
  bcast_S_S100000 : S_.BroadcastsInDim S100000 (![] : Fin 0 → Fin S100000.rank)
  bcast_S100000_S100000x1_0 : S100000.BroadcastsInDim S100000x1 (![0] : Fin 1 → Fin S100000x1.rank)
  bcast_S50000_S50000x1_0 : S50000.BroadcastsInDim S50000x1 (![0] : Fin 1 → Fin S50000x1.rank)
  bcast_S50000x1_S50000x128_0_1 : S50000x1.BroadcastsInDim S50000x128 (![0, 1] : Fin 2 → Fin S50000x128.rank)
  scatter_S50000_S800000x1_S800000_n_0_0_1_wf : ScatterDims.WF S50000 S800000x1 S800000 [] [0] [0] 1
  gather_S50000_S800000x1_S800000_n_0_n_n_0_1_1_wf : GatherDims.WF S50000 S800000x1 S800000 [] [0] [] [0] [] 1 ![1]
  dot_S50000x128_S128x128_S50000x128_1_0_0_1_n_n_wf : DotDims.WF S50000x128 S128x128 S50000x128 [1] [0] [0] [1] [] []
  gather_S50000x128_S800000x1_S800000x128_1_0_n_n_0_1_1128_wf : GatherDims.WF S50000x128 S800000x1 S800000x128 [1] [0] [] [0] [] 1 ![1, 128]
  scatter_S50000x128_S800000x1_S800000x128_1_0_0_1_wf : ScatterDims.WF S50000x128 S800000x1 S800000x128 [1] [0] [0] 1
  dot_S100000x128_S128x128_S100000x128_1_0_0_1_n_n_wf : DotDims.WF S100000x128 S128x128 S100000x128 [1] [0] [0] [1] [] []
  gather_S100000x128_S800000x1_S800000x128_1_0_n_n_0_1_1128_wf : GatherDims.WF S100000x128 S800000x1 S800000x128 [1] [0] [] [0] [] 1 ![1, 128]
  scatter_S100000x128_S800000x1_S800000x128_1_0_0_1_wf : ScatterDims.WF S100000x128 S800000x1 S800000x128 [1] [0] [0] 1
  gather_S50000x128_S100000x1_S100000x128_1_0_n_n_0_1_1128_wf : GatherDims.WF S50000x128 S100000x1 S100000x128 [1] [0] [] [0] [] 1 ![1, 128]
  scatter_S50000x128_S100000x1_S100000x128_1_0_0_1_wf : ScatterDims.WF S50000x128 S100000x1 S100000x128 [1] [0] [0] 1
  scatter_S50000_S100000x1_S100000_n_0_0_1_wf : ScatterDims.WF S50000 S100000x1 S100000 [] [0] [0] 1

variable [Facts₀]

def scatter_S50000_S800000x1_S800000_n_0_0_1 : ScatterDims S50000 S800000x1 S800000 where
  updateWindowDims := []
  insertedWindowDims := [0]
  scatterDimsToOperandDims := [0]
  indexVectorDim := 1
  wf := scatter_S50000_S800000x1_S800000_n_0_0_1_wf
def gather_S50000_S800000x1_S800000_n_0_n_n_0_1_1 : GatherDims S50000 S800000x1 S800000 where
  offsetDims := []
  collapsedSliceDims := [0]
  operandBatchingDims := []
  startIndicesBatchingDims := []
  startIndexMap := [0]
  indexVectorDim := 1
  sliceSizes := ![1]
  wf := gather_S50000_S800000x1_S800000_n_0_n_n_0_1_1_wf
def dot_S50000x128_S128x128_S50000x128_1_0_0_1_n_n : DotDims S50000x128 S128x128 S50000x128 where
  lhsContracting := [1]
  rhsContracting := [0]
  lhsNonContracting := [0]
  rhsNonContracting := [1]
  lhsBatch := []
  rhsBatch := []
  wf := dot_S50000x128_S128x128_S50000x128_1_0_0_1_n_n_wf
def gather_S50000x128_S800000x1_S800000x128_1_0_n_n_0_1_1128 : GatherDims S50000x128 S800000x1 S800000x128 where
  offsetDims := [1]
  collapsedSliceDims := [0]
  operandBatchingDims := []
  startIndicesBatchingDims := []
  startIndexMap := [0]
  indexVectorDim := 1
  sliceSizes := ![1, 128]
  wf := gather_S50000x128_S800000x1_S800000x128_1_0_n_n_0_1_1128_wf
def scatter_S50000x128_S800000x1_S800000x128_1_0_0_1 : ScatterDims S50000x128 S800000x1 S800000x128 where
  updateWindowDims := [1]
  insertedWindowDims := [0]
  scatterDimsToOperandDims := [0]
  indexVectorDim := 1
  wf := scatter_S50000x128_S800000x1_S800000x128_1_0_0_1_wf
def dot_S100000x128_S128x128_S100000x128_1_0_0_1_n_n : DotDims S100000x128 S128x128 S100000x128 where
  lhsContracting := [1]
  rhsContracting := [0]
  lhsNonContracting := [0]
  rhsNonContracting := [1]
  lhsBatch := []
  rhsBatch := []
  wf := dot_S100000x128_S128x128_S100000x128_1_0_0_1_n_n_wf
def gather_S100000x128_S800000x1_S800000x128_1_0_n_n_0_1_1128 : GatherDims S100000x128 S800000x1 S800000x128 where
  offsetDims := [1]
  collapsedSliceDims := [0]
  operandBatchingDims := []
  startIndicesBatchingDims := []
  startIndexMap := [0]
  indexVectorDim := 1
  sliceSizes := ![1, 128]
  wf := gather_S100000x128_S800000x1_S800000x128_1_0_n_n_0_1_1128_wf
def scatter_S100000x128_S800000x1_S800000x128_1_0_0_1 : ScatterDims S100000x128 S800000x1 S800000x128 where
  updateWindowDims := [1]
  insertedWindowDims := [0]
  scatterDimsToOperandDims := [0]
  indexVectorDim := 1
  wf := scatter_S100000x128_S800000x1_S800000x128_1_0_0_1_wf
def gather_S50000x128_S100000x1_S100000x128_1_0_n_n_0_1_1128 : GatherDims S50000x128 S100000x1 S100000x128 where
  offsetDims := [1]
  collapsedSliceDims := [0]
  operandBatchingDims := []
  startIndicesBatchingDims := []
  startIndexMap := [0]
  indexVectorDim := 1
  sliceSizes := ![1, 128]
  wf := gather_S50000x128_S100000x1_S100000x128_1_0_n_n_0_1_1128_wf
def scatter_S50000x128_S100000x1_S100000x128_1_0_0_1 : ScatterDims S50000x128 S100000x1 S100000x128 where
  updateWindowDims := [1]
  insertedWindowDims := [0]
  scatterDimsToOperandDims := [0]
  indexVectorDim := 1
  wf := scatter_S50000x128_S100000x1_S100000x128_1_0_0_1_wf
def scatter_S50000_S100000x1_S100000_n_0_0_1 : ScatterDims S50000 S100000x1 S100000 where
  updateWindowDims := []
  insertedWindowDims := [0]
  scatterDimsToOperandDims := [0]
  indexVectorDim := 1
  wf := scatter_S50000_S100000x1_S100000_n_0_0_1_wf

class Facts : Prop extends Facts₀ where

variable [Facts]
-- ==== Proof.KRun.lean ====
/-
  The kernel program's run with its two results NAMED. The program is seven pipelined regions among stretches of host
  operations; every weakly fair execution terminates without a fault, and in the final state each unscoped buffer holds the
  last fold of the boundary contents: a stretch of host operations applies its operations' pure terms to the contents
  before it, a region replaces its output arrays by what its grid points wrote back and keeps every other buffer. So the
  two result buffers end at that fold's values, and the argument arrays end as launched.
-/
import proofs.«128412_j31044023616094_2_alg».proof.Proof.Gen.KernelIdeal.Frame

set_option maxRecDepth 16384

noncomputable section

namespace Cert.KernelIdeal.KRun

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution of the kernel program terminates without a fault; the two result buffers end at the
    last boundary's contents (the fold through the host stretches and the regions' write-backs), the arguments as launched. -/
theorem run_named : θ_run defs (onTc (τ := τ) (main (F := F))) ⟨m, fun _ => 0, ρ⟩ (fun r => ∀ c : Dev nD,
      r.2.mem ((c.tc : Thread nD τ).loc main_v122) = W16 m ρ c (Proc.devRef .tc main_v122)
      ∧ r.2.mem ((c.tc : Thread nD τ).loc main_v109) = W16 m ρ c (Proc.devRef .tc main_v109)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W16 m ρ c b)
    (hfin := fun c s' => by
      iintro ⟨⟨Hh, -⟩, HSI⟩
      unfold StableHlo.held
      imodintro
      iapply (pointsTo_read_all (Pipeline.ucRefs τ sig) (fun b => (((c : Thread nD τ)).1, b)) (W16 m ρ c) s')
      isplitl [Hh] <;> iassumption)
    (hQ := fun s h c =>
      ⟨h c _ (mem_uc main_v122 (by decide)),
       h c _ (mem_uc main_v109 (by decide)),
       (h c _ (mem_uc main_arg0 (by decide))).trans (W16_main_arg0 m ρ c),
       (h c _ (mem_uc main_arg1 (by decide))).trans (W16_main_arg1 m ρ c),
       (h c _ (mem_uc main_arg2 (by decide))).trans (W16_main_arg2 m ρ c),
       (h c _ (mem_uc main_arg3 (by decide))).trans (W16_main_arg3 m ρ c),
       (h c _ (mem_uc main_arg4 (by decide))).trans (W16_main_arg4 m ρ c),
       (h c _ (mem_uc main_arg5 (by decide))).trans (W16_main_arg5 m ρ c),
       (h c _ (mem_uc main_arg6 (by decide))).trans (W16_main_arg6 m ρ c),
       (h c _ (mem_uc main_arg7 (by decide))).trans (W16_main_arg7 m ρ c),
       (h c _ (mem_uc main_arg8 (by decide))).trans (W16_main_arg8 m ρ c),
       (h c _ (mem_uc main_arg9 (by decide))).trans (W16_main_arg9 m ρ c),
       (h c _ (mem_uc main_arg10 (by decide))).trans (W16_main_arg10 m ρ c),
       (h c _ (mem_uc main_arg11 (by decide))).trans (W16_main_arg11 m ρ c),
       (h c _ (mem_uc main_arg12 (by decide))).trans (W16_main_arg12 m ρ c),
       (h c _ (mem_uc main_arg13 (by decide))).trans (W16_main_arg13 m ρ c),
       (h c _ (mem_uc main_arg14 (by decide))).trans (W16_main_arg14 m ρ c),
       (h c _ (mem_uc main_arg15 (by decide))).trans (W16_main_arg15 m ρ c),
       (h c _ (mem_uc main_arg16 (by decide))).trans (W16_main_arg16 m ρ c)⟩)

end Cert.KernelIdeal.KRun

end
-- ==== Proof.KHost.lean ====
/-
  The kernel program's host stretches as pure functions. Between its regions the program runs lines of host operations;
  what a stretch leaves in a buffer is a composed term of what the buffers it reads held before it. The terms are named
  here after what they compute — the edge normalisation d(row)·w·d(col) with d = rsqrt of the bumped weighted degree, the
  gather-weight-scatter aggregation out[row] += val·x[col], a column mean and the variance by the identity
  sumsq/n + mean²·c·(c − 2), the gather of rows by an index vector, the scatter-mean back — and each stretch lemma says
  which named term a buffer holds after the stretch, over an arbitrary valuation before it.
-/
import proofs.«128412_j31044023616094_2_alg».proof.Proof.Gen.KernelIdeal.Launch
import Idealize.ShloMosaic.Lib.StableHlo.Run

set_option maxRecDepth 16384

noncomputable section

namespace Cert.KernelIdeal.KHost

open Cert.KernelIdeal Cert.KernelIdeal.Gen Idealize.ShloMosaic Idealize.ShloMosaic.TcCoe Idealize.SL.Sem Idealize.ShloMosaic.StableHlo

variable {F : FTy → Type} [FloatOps F]

/-- Operations run one line after another are the two lines run as one. -/
theorem after_append (l₁ l₂ : List (HloOp τ sig (Elt F))) (V : Valuation τ sig (Elt F)) :
    StableHlo.after (l₁ ++ l₂) V = StableHlo.after l₂ (StableHlo.after l₁ V) := by
  induction l₁ generalizing V with
  | nil => rfl
  | cons op l ih => exact ih _

/-! ## The named terms -/

/-- Row 0 of a [2, E] index array: the edges' target rows. -/
def rowsOf (a : IVec S2x800000 32) : IVec S800000 32 :=
  shapeCast S800000 (extractStridedSlice S1x800000 ![0, 0] a slices_S2x800000_S1x800000_0_0) shapeCasts_S1x800000_S800000
/-- Row 1 of a [2, E] index array: the edges' source columns. -/
def colsOf (a : IVec S2x800000 32) : IVec S800000 32 :=
  shapeCast S800000 (extractStridedSlice S1x800000 ![1, 0] a slices_S2x800000_S1x800000_1_0) shapeCasts_S1x800000_S800000
/-- A negative index counts from the end: add the extent `n` to it. -/
def wrapIdx (n : BitVec 32) (ix : IVec S800000 32) : IVec S800000 32 :=
  select (cmpi .slt ix (broadcastInDim S800000 ![] bcast_S_S800000 (constantI S_ 32 0#32)))
    (addi ix (broadcastInDim S800000 ![] bcast_S_S800000 (constantI S_ 32 n))) ix
/-- The same on the [M] index vector of the copies. -/
def wrapIdxM (ix : IVec S100000 32) : IVec S100000 32 :=
  select (cmpi .slt ix (broadcastInDim S100000 ![] bcast_S_S100000 (constantI S_ 32 0#32)))
    (addi ix (broadcastInDim S100000 ![] bcast_S_S100000 (constantI S_ 32 50000#32))) ix

/-- The weighted degree of every node: the edge weights summed by target row. -/
def degOf (a1 : IVec S2x800000 32) (a2 : FVec F S800000 .f32) : FVec F S50000 .f32 :=
  Host.scatterAdd scatter_S50000_S800000x1_S800000_n_0_0_1 (broadcastInDim S50000 ![] bcast_S_S50000 (constant S_ .f32 0x00000000#32))
    (broadcastInDim S800000x1 ![0] bcast_S800000_S800000x1_0 (rowsOf a1)) a2
/-- A degree below one half is bumped by one. -/
def degFix (d : FVec F S50000 .f32) : FVec F S50000 .f32 :=
  select (cmpf .olt d (broadcastInDim S50000 ![] bcast_S_S50000 (constant S_ .f32 0x3F000000#32)))
    (addf d (broadcastInDim S50000 ![] bcast_S_S50000 (constant S_ .f32 0x3F800000#32))) d
/-- d = rsqrt of the bumped degree. -/
def dinvOf (a1 : IVec S2x800000 32) (a2 : FVec F S800000 .f32) : FVec F S50000 .f32 := Host.rsqrt (degFix (degOf a1 a2))
/-- The normalised edge value d(row)·w·d(col). -/
def valOf (a1 : IVec S2x800000 32) (a2 : FVec F S800000 .f32) : FVec F S800000 .f32 :=
  mulf (mulf (Host.gather gather_S50000_S800000x1_S800000_n_0_n_n_0_1_1 (dinvOf a1 a2)
      (broadcastInDim S800000x1 ![0] bcast_S800000_S800000x1_0 (wrapIdx 50000#32 (rowsOf a1)))) a2)
    (Host.gather gather_S50000_S800000x1_S800000_n_0_n_n_0_1_1 (dinvOf a1 a2)
      (broadcastInDim S800000x1 ![0] bcast_S800000_S800000x1_0 (wrapIdx 50000#32 (colsOf a1))))

/-- The base aggregation out[row] += val · x[col] over the N = 50000 nodes, x the projected features. -/
def spmmB (bx : FVec F S50000x128 .bf16) (rows cols : IVec S800000 32) (val : FVec F S800000 .f32) : FVec F S50000x128 .f32 :=
  Host.scatterAdd scatter_S50000x128_S800000x1_S800000x128_1_0_0_1
    (broadcastInDim S50000x128 ![] bcast_S_S50000x128 (constant S_ .f32 0x00000000#32))
    (broadcastInDim S800000x1 ![0] bcast_S800000_S800000x1_0 rows)
    (mulf (extf .f32 (Host.gather gather_S50000x128_S800000x1_S800000x128_1_0_n_n_0_1_1128 bx
        (broadcastInDim S800000x1 ![0] bcast_S800000_S800000x1_0 (wrapIdx 50000#32 cols))) bitsLt_bf16_f32)
      (broadcastInDim S800000x128 ![0, 1] bcast_S800000x1_S800000x128_0_1 (broadcastInDim S800000x1 ![0] bcast_S800000_S800000x1_0 val)))
/-- The local aggregation over the M = 100000 copies. -/
def spmmL (lx : FVec F S100000x128 .bf16) (a4 : IVec S2x800000 32) (a5 : FVec F S800000 .f32) : FVec F S100000x128 .f32 :=
  Host.scatterAdd scatter_S100000x128_S800000x1_S800000x128_1_0_0_1
    (broadcastInDim S100000x128 ![] bcast_S_S100000x128 (constant S_ .f32 0x00000000#32))
    (broadcastInDim S800000x1 ![0] bcast_S800000_S800000x1_0 (rowsOf a4))
    (mulf (extf .f32 (Host.gather gather_S100000x128_S800000x1_S800000x128_1_0_n_n_0_1_1128 lx
        (broadcastInDim S800000x1 ![0] bcast_S800000_S800000x1_0 (wrapIdx 100000#32 (colsOf a4)))) bitsLt_bf16_f32)
      (broadcastInDim S800000x128 ![0, 1] bcast_S800000x1_S800000x128_0_1 (broadcastInDim S800000x1 ![0] bcast_S800000_S800000x1_0 a5)))

/-- The two halves' partial sums added and divided by the count `n` (a float word): a column mean. -/
def meanK (n : BitVec 32) (s : FVec F S2x1x128 .f32) : FVec F S1x128 .f32 :=
  Host.divf (Host.reduceAdd s (constant S_ .f32 0x00000000#32) reducesTo_S2x1x128_S1x128_d0 h_S_)
    (broadcastInDim S1x128 ![] bcast_S_S1x128 (constant S_ .f32 n))
/-- The variance by the identity sumsq/n + mean²·c·(c − 2). -/
def varK (n : BitVec 32) (s sq : FVec F S2x1x128 .f32) (c : FVec F S128 .f32) : FVec F S1x128 .f32 :=
  addf (meanK n sq)
    (mulf (mulf (mulf (meanK n s) (meanK n s)) (shapeCast S1x128 c shapeCasts_S128_S1x128))
      (subf (shapeCast S1x128 c shapeCasts_S128_S1x128) (broadcastInDim S1x128 ![] bcast_S_S1x128 (constant S_ .f32 0x40000000#32))))

/-- The base features gathered by the copies' index vector. -/
def gatherBase (h : FVec F S50000x128 .f32) (a6 : IVec S100000 32) : FVec F S100000x128 .f32 :=
  Host.gather gather_S50000x128_S100000x1_S100000x128_1_0_n_n_0_1_1128 h
    (broadcastInDim S100000x1 ![0] bcast_S100000_S100000x1_0 (wrapIdxM a6))
/-- The copies' rows averaged back onto their originals: summed by original and divided by max(count, 1). -/
def msgToBase (lm : FVec F S100000x128 .f32) (a6 : IVec S100000 32) : FVec F S50000x128 .f32 :=
  Host.divf
    (Host.scatterAdd scatter_S50000x128_S100000x1_S100000x128_1_0_0_1
      (broadcastInDim S50000x128 ![] bcast_S_S50000x128 (constant S_ .f32 0x00000000#32))
      (broadcastInDim S100000x1 ![0] bcast_S100000_S100000x1_0 a6) lm)
    (broadcastInDim S50000x128 ![0, 1] bcast_S50000x1_S50000x128_0_1 (broadcastInDim S50000x1 ![0] bcast_S50000_S50000x1_0
      (maximumf
        (Host.scatterAdd scatter_S50000_S100000x1_S100000_n_0_0_1 (broadcastInDim S50000 ![] bcast_S_S50000 (constant S_ .f32 0x00000000#32))
          (broadcastInDim S100000x1 ![0] bcast_S100000_S100000x1_0 a6)
          (broadcastInDim S100000 ![] bcast_S_S100000 (constant S_ .f32 0x3F800000#32)))
        (broadcastInDim S50000 ![] bcast_S_S50000 (constant S_ .f32 0x3F800000#32)))))

/-! ## What each stretch leaves, over an arbitrary valuation before it -/

variable (Wv : Valuation τ sig (Elt F))

/-- The three opening lines as one. -/
abbrev ops0 : List (HloOp τ sig (Elt F)) := hostOps0 ++ (hostOps0_1 ++ hostOps0_2)

set_option maxHeartbeats 16000000 in
theorem s0_rows : StableHlo.after ops0 Wv (Proc.devRef .tc main_v1) = rowsOf (Wv (Proc.devRef .tc main_arg1)) := by
  simp only [ops0, List.cons_append, List.nil_append]; after_results_simp <;> rfl
set_option maxHeartbeats 16000000 in
theorem s0_cols : StableHlo.after ops0 Wv (Proc.devRef .tc main_v3) = colsOf (Wv (Proc.devRef .tc main_arg1)) := by
  simp only [ops0, List.cons_append, List.nil_append]; after_results_simp <;> rfl
set_option maxHeartbeats 16000000 in
theorem s0_val : StableHlo.after ops0 Wv (Proc.devRef .tc main_v28) = valOf (Wv (Proc.devRef .tc main_arg1)) (Wv (Proc.devRef .tc main_arg2)) := by
  simp only [ops0, List.cons_append, List.nil_append]; after_results_simp <;> rfl
set_option maxHeartbeats 16000000 in
theorem s0_wt : StableHlo.after ops0 Wv (Proc.devRef .tc main_v29) = transpose S128x128 [1, 0] (Wv (Proc.devRef .tc main_arg7)) transposes_S128x128_S128x128_1_0 := by
  simp only [ops0, List.cons_append, List.nil_append]; after_results_simp <;> rfl
set_option maxHeartbeats 16000000 in
theorem s0_b2 : StableHlo.after ops0 Wv (Proc.devRef .tc main_v30) = shapeCast S1x128 (Wv (Proc.devRef .tc main_arg8)) shapeCasts_S128_S1x128 := by
  simp only [ops0, List.cons_append, List.nil_append]; after_results_simp <;> rfl
set_option maxHeartbeats 16000000 in
theorem s0_x : StableHlo.after ops0 Wv (Proc.devRef .tc main_arg0) = Wv (Proc.devRef .tc main_arg0) := by
  simp only [ops0, List.cons_append, List.nil_append]; after_results_simp <;> rfl

end Cert.KernelIdeal.KHost

end
-- ==== Proof.KHostA.lean ====
/-
  What the host stretches before regions 1, 2 and 3 leave: the base aggregation from the projected features; the column mean and the variance from the two halves' partial sums, with the norm's three row parameters laid out as rows; the local weights transposed.
-/
import proofs.«128412_j31044023616094_2_alg».proof.Proof.KHost

set_option maxRecDepth 16384

noncomputable section

namespace Cert.KernelIdeal.KHost

open Cert.KernelIdeal Cert.KernelIdeal.Gen Idealize.ShloMosaic Idealize.ShloMosaic.TcCoe Idealize.SL.Sem Idealize.ShloMosaic.StableHlo

variable {F : FTy → Type} [FloatOps F]
variable (Wv : Valuation τ sig (Elt F))

set_option maxHeartbeats 16000000 in
theorem s1_agg : StableHlo.after hostOps1 Wv (Proc.devRef .tc main_v45) = spmmB (Wv (Proc.devRef .tc main_v31)) (Wv (Proc.devRef .tc main_v1)) (Wv (Proc.devRef .tc main_v3)) (Wv (Proc.devRef .tc main_v28)) := by
  after_results_simp <;> rfl
set_option maxHeartbeats 16000000 in
theorem s2_mean : StableHlo.after hostOps2 Wv (Proc.devRef .tc main_v50) = meanK 0x47435000#32 (Wv (Proc.devRef .tc main_v46_0)) := by
  after_results_simp <;> rfl
set_option maxHeartbeats 16000000 in
theorem s2_var : StableHlo.after hostOps2 Wv (Proc.devRef .tc main_v59) = varK 0x47435000#32 (Wv (Proc.devRef .tc main_v46_0)) (Wv (Proc.devRef .tc main_v46_1)) (Wv (Proc.devRef .tc main_arg13)) := by
  after_results_simp <;> rfl
set_option maxHeartbeats 16000000 in
theorem s2_w : StableHlo.after hostOps2 Wv (Proc.devRef .tc main_v60) = shapeCast S1x128 (Wv (Proc.devRef .tc main_arg11)) shapeCasts_S128_S1x128 := by
  after_results_simp <;> rfl
set_option maxHeartbeats 16000000 in
theorem s2_b : StableHlo.after hostOps2 Wv (Proc.devRef .tc main_v61) = shapeCast S1x128 (Wv (Proc.devRef .tc main_arg12)) shapeCasts_S128_S1x128 := by
  after_results_simp <;> rfl
set_option maxHeartbeats 16000000 in
theorem s2_ms : StableHlo.after hostOps2 Wv (Proc.devRef .tc main_v62) = shapeCast S1x128 (Wv (Proc.devRef .tc main_arg13)) shapeCasts_S128_S1x128 := by
  after_results_simp <;> rfl
set_option maxHeartbeats 16000000 in
theorem s2_agg : StableHlo.after hostOps2 Wv (Proc.devRef .tc main_v45) = (Wv (Proc.devRef .tc main_v45)) := by
  after_results_simp <;> rfl
set_option maxHeartbeats 16000000 in
theorem s3_wt : StableHlo.after hostOps3 Wv (Proc.devRef .tc main_v64) = transpose S128x128 [1, 0] (Wv (Proc.devRef .tc main_arg9)) transposes_S128x128_S128x128_1_0 := by
  after_results_simp <;> rfl
set_option maxHeartbeats 16000000 in
theorem s3_b2 : StableHlo.after hostOps3 Wv (Proc.devRef .tc main_v65) = shapeCast S1x128 (Wv (Proc.devRef .tc main_arg10)) shapeCasts_S128_S1x128 := by
  after_results_simp <;> rfl
set_option maxHeartbeats 16000000 in
theorem s3_x : StableHlo.after hostOps3 Wv (Proc.devRef .tc main_arg3) = (Wv (Proc.devRef .tc main_arg3)) := by
  after_results_simp <;> rfl

end Cert.KernelIdeal.KHost

end
-- ==== Proof.KHostB.lean ====
/-
  What the host stretches before regions 4, 5 and 6 leave: the local aggregation; the local column mean and variance, the base features gathered by the copies' index vector, the local norm's row parameters; the copies averaged back onto their originals.
-/
import proofs.«128412_j31044023616094_2_alg».proof.Proof.KHost

set_option maxRecDepth 16384

noncomputable section

namespace Cert.KernelIdeal.KHost

open Cert.KernelIdeal Cert.KernelIdeal.Gen Idealize.ShloMosaic Idealize.ShloMosaic.TcCoe Idealize.SL.Sem Idealize.ShloMosaic.StableHlo

variable {F : FTy → Type} [FloatOps F]
variable (Wv : Valuation τ sig (Elt F))

set_option maxHeartbeats 16000000 in
theorem s4_agg : StableHlo.after hostOps4 Wv (Proc.devRef .tc main_v84) = spmmL (Wv (Proc.devRef .tc main_v66)) (Wv (Proc.devRef .tc main_arg4)) (Wv (Proc.devRef .tc main_arg5)) := by
  after_results_simp <;> rfl
set_option maxHeartbeats 16000000 in
theorem s5_mean : StableHlo.after hostOps5 Wv (Proc.devRef .tc main_v89) = meanK 0x47C35000#32 (Wv (Proc.devRef .tc main_v85_0)) := by
  after_results_simp <;> rfl
set_option maxHeartbeats 16000000 in
theorem s5_var : StableHlo.after hostOps5 Wv (Proc.devRef .tc main_v98) = varK 0x47C35000#32 (Wv (Proc.devRef .tc main_v85_0)) (Wv (Proc.devRef .tc main_v85_1)) (Wv (Proc.devRef .tc main_arg16)) := by
  after_results_simp <;> rfl
set_option maxHeartbeats 16000000 in
theorem s5_gath : StableHlo.after hostOps5 Wv (Proc.devRef .tc main_v105) = gatherBase (Wv (Proc.devRef .tc main_v63)) (Wv (Proc.devRef .tc main_arg6)) := by
  after_results_simp <;> rfl
set_option maxHeartbeats 16000000 in
theorem s5_w : StableHlo.after hostOps5 Wv (Proc.devRef .tc main_v106) = shapeCast S1x128 (Wv (Proc.devRef .tc main_arg14)) shapeCasts_S128_S1x128 := by
  after_results_simp <;> rfl
set_option maxHeartbeats 16000000 in
theorem s5_b : StableHlo.after hostOps5 Wv (Proc.devRef .tc main_v107) = shapeCast S1x128 (Wv (Proc.devRef .tc main_arg15)) shapeCasts_S128_S1x128 := by
  after_results_simp <;> rfl
set_option maxHeartbeats 16000000 in
theorem s5_ms : StableHlo.after hostOps5 Wv (Proc.devRef .tc main_v108) = shapeCast S1x128 (Wv (Proc.devRef .tc main_arg16)) shapeCasts_S128_S1x128 := by
  after_results_simp <;> rfl
set_option maxHeartbeats 16000000 in
theorem s5_agg : StableHlo.after hostOps5 Wv (Proc.devRef .tc main_v84) = (Wv (Proc.devRef .tc main_v84)) := by
  after_results_simp <;> rfl
set_option maxHeartbeats 16000000 in
theorem s6_msg : StableHlo.after hostOps6 Wv (Proc.devRef .tc main_v121) = msgToBase (Wv (Proc.devRef .tc main_v109)) (Wv (Proc.devRef .tc main_arg6)) := by
  after_results_simp <;> rfl
set_option maxHeartbeats 16000000 in
theorem s6_h : StableHlo.after hostOps6 Wv (Proc.devRef .tc main_v63) = (Wv (Proc.devRef .tc main_v63)) := by
  after_results_simp <;> rfl

end Cert.KernelIdeal.KHost

end
-- ==== Proof.KKeep.lean ====
/-
  What each item of the kernel program leaves unchanged. A stretch of host operations rewrites only the buffers its
  operations name as results; a region rewrites only its windows' arrays. So a buffer that a stretch does not write and
  that is no window of a region holds after it what it held before: these are the facts by which a value computed early
  (the edge rows, the aggregated features, an argument array) is still there when a later item reads it.
-/
import proofs.«128412_j31044023616094_2_alg».proof.Proof.Gen.KernelIdeal.Frame

set_option maxRecDepth 16384

noncomputable section

namespace Cert.KernelIdeal.KKeep

open Cert.KernelIdeal Cert.KernelIdeal.Gen Idealize.ShloMosaic Idealize.ShloMosaic.TcCoe Idealize.SL.Sem Idealize.ShloMosaic.StableHlo

variable {F : FTy → Type} [FloatOps F]

/-! ## The references each stretch writes -/

/-- The references `hostOps0`'s operations write. -/
abbrev hostOps0_W : List (Ref sig .tc) := [main_v0, main_v1, main_v2, main_v3, main_cst, main_v4, main_v5, main_v6, main_cst_0, main_v7, main_v8, main_cst_1, main_v9, main_v10]
theorem hostOps0_writes : (hostOps0 : List (HloOp τ sig (Elt F))).Forall fun op => op.writes ⊆ (hostOps0_W.map (Proc.devRef (τ := τ) .tc)).toFinset := by
  simp only [hostOps0, List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]
  repeat' apply And.intro
  all_goals exact List.mem_map_of_mem (by decide)
/-- The references `hostOps0_1`'s operations write. -/
abbrev hostOps0_1_W : List (Ref sig .tc) := [main_v11]
theorem hostOps0_1_writes : (hostOps0_1 : List (HloOp τ sig (Elt F))).Forall fun op => op.writes ⊆ (hostOps0_1_W.map (Proc.devRef (τ := τ) .tc)).toFinset := by
  simp only [hostOps0_1, List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]
  repeat' apply And.intro
  all_goals exact List.mem_map_of_mem (by decide)
/-- The references `hostOps0_2`'s operations write. -/
abbrev hostOps0_2_W : List (Ref sig .tc) := [main_v12, main_c, main_v13, main_v14, main_c_2, main_v15, main_v16, main_v17, main_v18, main_v19, main_v20, main_c_3, main_v21, main_v22, main_c_4, main_v23, main_v24, main_v25, main_v26, main_v27, main_v28, main_v29, main_v30]
theorem hostOps0_2_writes : (hostOps0_2 : List (HloOp τ sig (Elt F))).Forall fun op => op.writes ⊆ (hostOps0_2_W.map (Proc.devRef (τ := τ) .tc)).toFinset := by
  simp only [hostOps0_2, List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]
  repeat' apply And.intro
  all_goals exact List.mem_map_of_mem (by decide)
/-- The references `hostOps1`'s operations write. -/
abbrev hostOps1_W : List (Ref sig .tc) := [main_c_5, main_v32, main_v33, main_c_6, main_v34, main_v35, main_v36, main_v37, main_v38, main_v39, main_v40, main_v41, main_v42, main_cst_7, main_v43, main_v44, main_v45]
theorem hostOps1_writes : (hostOps1 : List (HloOp τ sig (Elt F))).Forall fun op => op.writes ⊆ (hostOps1_W.map (Proc.devRef (τ := τ) .tc)).toFinset := by
  simp only [hostOps1, List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]
  repeat' apply And.intro
  all_goals exact List.mem_map_of_mem (by decide)
/-- The references `hostOps2`'s operations write. -/
abbrev hostOps2_W : List (Ref sig .tc) := [main_cst_8, main_v47, main_cst_9, main_v48, main_cst_10, main_v49, main_v50, main_v51, main_cst_11, main_v52, main_v53, main_v54, main_v55, main_cst_12, main_v56, main_v57, main_v58, main_v59, main_v60, main_v61, main_v62]
theorem hostOps2_writes : (hostOps2 : List (HloOp τ sig (Elt F))).Forall fun op => op.writes ⊆ (hostOps2_W.map (Proc.devRef (τ := τ) .tc)).toFinset := by
  simp only [hostOps2, List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]
  repeat' apply And.intro
  all_goals exact List.mem_map_of_mem (by decide)
/-- The references `hostOps3`'s operations write. -/
abbrev hostOps3_W : List (Ref sig .tc) := [main_v64, main_v65]
theorem hostOps3_writes : (hostOps3 : List (HloOp τ sig (Elt F))).Forall fun op => op.writes ⊆ (hostOps3_W.map (Proc.devRef (τ := τ) .tc)).toFinset := by
  simp only [hostOps3, List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]
  repeat' apply And.intro
  all_goals exact List.mem_map_of_mem (by decide)
/-- The references `hostOps4`'s operations write. -/
abbrev hostOps4_W : List (Ref sig .tc) := [main_v67, main_v68, main_v69, main_v70, main_c_13, main_v71, main_v72, main_c_14, main_v73, main_v74, main_v75, main_v76, main_v77, main_v78, main_v79, main_v80, main_v81, main_cst_15, main_v82, main_v83, main_v84]
theorem hostOps4_writes : (hostOps4 : List (HloOp τ sig (Elt F))).Forall fun op => op.writes ⊆ (hostOps4_W.map (Proc.devRef (τ := τ) .tc)).toFinset := by
  simp only [hostOps4, List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]
  repeat' apply And.intro
  all_goals exact List.mem_map_of_mem (by decide)
/-- The references `hostOps5`'s operations write. -/
abbrev hostOps5_W : List (Ref sig .tc) := [main_cst_16, main_v86, main_cst_17, main_v87, main_cst_18, main_v88, main_v89, main_v90, main_cst_19, main_v91, main_v92, main_v93, main_v94, main_cst_20, main_v95, main_v96, main_v97, main_v98, main_c_21, main_v99, main_v100, main_c_22, main_v101, main_v102, main_v103, main_v104, main_v105, main_v106, main_v107, main_v108]
theorem hostOps5_writes : (hostOps5 : List (HloOp τ sig (Elt F))).Forall fun op => op.writes ⊆ (hostOps5_W.map (Proc.devRef (τ := τ) .tc)).toFinset := by
  simp only [hostOps5, List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]
  repeat' apply And.intro
  all_goals exact List.mem_map_of_mem (by decide)
/-- The references `hostOps6`'s operations write. -/
abbrev hostOps6_W : List (Ref sig .tc) := [main_cst_23, main_v110, main_cst_24, main_v111, main_v112, main_v113, main_cst_25, main_v114, main_v115, main_v116, main_cst_26, main_v117, main_v118, main_v119, main_v120, main_v121]
theorem hostOps6_writes : (hostOps6 : List (HloOp τ sig (Elt F))).Forall fun op => op.writes ⊆ (hostOps6_W.map (Proc.devRef (τ := τ) .tc)).toFinset := by
  simp only [hostOps6, List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]
  repeat' apply And.intro
  all_goals exact List.mem_map_of_mem (by decide)

variable (m : (ℓ : Loc nD τ sig) → Buf (Elt F) ℓ) (ρ : Dev nD → PrngReg)

/-! ## A stretch keeps what it does not write -/

theorem W1_of (c : Dev nD) (r : Ref sig .tc) (h : r ∉ hostOps0_W) : W1 m ρ c (Proc.devRef .tc r) = W0 m ρ c (Proc.devRef .tc r) :=
  StableHlo.after_of_writes_sub hostOps0 _ hostOps0_writes h
theorem W2_of (c : Dev nD) (r : Ref sig .tc) (h : r ∉ hostOps0_1_W) : W2 m ρ c (Proc.devRef .tc r) = W1 m ρ c (Proc.devRef .tc r) :=
  StableHlo.after_of_writes_sub hostOps0_1 _ hostOps0_1_writes h
theorem W3_of (c : Dev nD) (r : Ref sig .tc) (h : r ∉ hostOps0_2_W) : W3 m ρ c (Proc.devRef .tc r) = W2 m ρ c (Proc.devRef .tc r) :=
  StableHlo.after_of_writes_sub hostOps0_2 _ hostOps0_2_writes h
theorem W5_of (c : Dev nD) (r : Ref sig .tc) (h : r ∉ hostOps1_W) : W5 m ρ c (Proc.devRef .tc r) = W4 m ρ c (Proc.devRef .tc r) :=
  StableHlo.after_of_writes_sub hostOps1 _ hostOps1_writes h
theorem W7_of (c : Dev nD) (r : Ref sig .tc) (h : r ∉ hostOps2_W) : W7 m ρ c (Proc.devRef .tc r) = W6 m ρ c (Proc.devRef .tc r) :=
  StableHlo.after_of_writes_sub hostOps2 _ hostOps2_writes h
theorem W9_of (c : Dev nD) (r : Ref sig .tc) (h : r ∉ hostOps3_W) : W9 m ρ c (Proc.devRef .tc r) = W8 m ρ c (Proc.devRef .tc r) :=
  StableHlo.after_of_writes_sub hostOps3 _ hostOps3_writes h
theorem W11_of (c : Dev nD) (r : Ref sig .tc) (h : r ∉ hostOps4_W) : W11 m ρ c (Proc.devRef .tc r) = W10 m ρ c (Proc.devRef .tc r) :=
  StableHlo.after_of_writes_sub hostOps4 _ hostOps4_writes h
theorem W13_of (c : Dev nD) (r : Ref sig .tc) (h : r ∉ hostOps5_W) : W13 m ρ c (Proc.devRef .tc r) = W12 m ρ c (Proc.devRef .tc r) :=
  StableHlo.after_of_writes_sub hostOps5 _ hostOps5_writes h
theorem W15_of (c : Dev nD) (r : Ref sig .tc) (h : r ∉ hostOps6_W) : W15 m ρ c (Proc.devRef .tc r) = W14 m ρ c (Proc.devRef .tc r) :=
  StableHlo.after_of_writes_sub hostOps6 _ hostOps6_writes h

/-! ## A region keeps its input windows' arrays -/

theorem W6_in0 (c : Dev nD) : W6 m ρ c (Proc.devRef .tc (Pipeline.arrRef spec1 0)) = V5 m ρ c (Pipeline.arrRef spec1 0) :=
  (W6_arr m ρ c 0).trans (((dat1 (V5 m ρ) c).arrAt_in 0 rfl _).trans (A_eq1 (V5 m ρ) c 0))
theorem W8_in0 (c : Dev nD) : W8 m ρ c (Proc.devRef .tc (Pipeline.arrRef spec2 0)) = V7 m ρ c (Pipeline.arrRef spec2 0) :=
  (W8_arr m ρ c 0).trans (((dat2 (V7 m ρ) c).arrAt_in 0 rfl _).trans (A_eq2 (V7 m ρ) c 0))
theorem W12_in0 (c : Dev nD) : W12 m ρ c (Proc.devRef .tc (Pipeline.arrRef spec4 0)) = V11 m ρ c (Pipeline.arrRef spec4 0) :=
  (W12_arr m ρ c 0).trans (((dat4 (V11 m ρ) c).arrAt_in 0 rfl _).trans (A_eq4 (V11 m ρ) c 0))
theorem W14_in0 (c : Dev nD) : W14 m ρ c (Proc.devRef .tc (Pipeline.arrRef spec5 0)) = V13 m ρ c (Pipeline.arrRef spec5 0) :=
  (W14_arr m ρ c 0).trans (((dat5 (V13 m ρ) c).arrAt_in 0 rfl _).trans (A_eq5 (V13 m ρ) c 0))
theorem W14_in6 (c : Dev nD) : W14 m ρ c (Proc.devRef .tc (Pipeline.arrRef spec5 6)) = V13 m ρ c (Pipeline.arrRef spec5 6) :=
  (W14_arr m ρ c 6).trans (((dat5 (V13 m ρ) c).arrAt_in 6 rfl _).trans (A_eq5 (V13 m ρ) c 6))
theorem W16_in0 (c : Dev nD) : W16 m ρ c (Proc.devRef .tc (Pipeline.arrRef spec6 0)) = V15 m ρ c (Pipeline.arrRef spec6 0) :=
  (W16_arr m ρ c 0).trans (((dat6 (V15 m ρ) c).arrAt_in 0 rfl _).trans (A_eq6 (V15 m ρ) c 0))
theorem W16_in1 (c : Dev nD) : W16 m ρ c (Proc.devRef .tc (Pipeline.arrRef spec6 1)) = V15 m ρ c (Pipeline.arrRef spec6 1) :=
  (W16_arr m ρ c 1).trans (((dat6 (V15 m ρ) c).arrAt_in 1 rfl _).trans (A_eq6 (V15 m ρ) c 1))

end Cert.KernelIdeal.KKeep

end
-- ==== Proof.Lin0.lean ====
/-
  Region 0 (y = x·Wt + b on row blocks of 5000): the closed form of its output array. The body's arithmetic read at
  an index (the matrix product into a zero accumulator as a sum over the one contracted axis, the one-row bias broadcast
  down the rows, the format changes the identity on extended reals); the block a point writes back as a block of ONE
  function `lin` of the three input arrays; every row r lies in the block of point r / 5000; hence the array after the
  region is `lin` of the input arrays, entry by entry.
-/
import proofs.«128412_j31044023616094_2_alg».proof.Proof.Gen.KernelIdeal.Frame
import Idealize.ShloMosaic.PureOps.Ideal
import Idealize.ShloMosaic.PureOps.Ideal.Laws
import Idealize.ShloMosaic.Lib.ValueIdx
import Idealize.ShloMosaic.Lib.Pipeline.Value
import Idealize.ShloMosaic.Lib.ValueLayout

noncomputable section

namespace Cert.KernelIdeal.Lin0

open Cert.KernelIdeal Cert.KernelIdeal.Gen Idealize.ShloMosaic Idealize.ShloMosaic.TcCoe Idealize.SL.Sem Idealize.ShloMosaic.ValueIdx

variable (V : (c : Dev nD) → (b : Ref sig .tc) → Buf (Elt Ideal) ((c : Thread nD τ).loc b))

/-- The left operand's index at output index `i` and contraction index `r`: the output's row … -/
theorem lhs_row (i : S5000x128.Idx) (r : dot_S5000x128_S128x128_S5000x128_1_0_0_1_n_n.contr.Idx) :
    (dot_S5000x128_S128x128_S5000x128_1_0_0_1_n_n.lhsIdx i r 0).val = (i 0).val := by
  unfold DotDims.lhsIdx
  rw [dif_neg (show ¬(0 : Fin S5000x128.rank) ∈ dot_S5000x128_S128x128_S5000x128_1_0_0_1_n_n.lhsBatch by decide), dif_pos (show (0 : Fin S5000x128.rank) ∈ dot_S5000x128_S128x128_S5000x128_1_0_0_1_n_n.lhsNonContracting by decide)]
  rfl
/-- … and the contracted coordinate. -/
theorem lhs_col (i : S5000x128.Idx) (r : dot_S5000x128_S128x128_S5000x128_1_0_0_1_n_n.contr.Idx) :
    (dot_S5000x128_S128x128_S5000x128_1_0_0_1_n_n.lhsIdx i r 1).val = (r ⟨0, by decide⟩).val :=
  dot_S5000x128_S128x128_S5000x128_1_0_0_1_n_n.lhsIdx_val_of_single rfl i r
/-- The right operand's index: the contracted coordinate … -/
theorem rhs_row (i : S5000x128.Idx) (r : dot_S5000x128_S128x128_S5000x128_1_0_0_1_n_n.contr.Idx) :
    (dot_S5000x128_S128x128_S5000x128_1_0_0_1_n_n.rhsIdx i r 0).val = (r ⟨0, by decide⟩).val :=
  dot_S5000x128_S128x128_S5000x128_1_0_0_1_n_n.rhsIdx_val_of_single rfl i r
/-- … and the output's column. -/
theorem rhs_col (i : S5000x128.Idx) (r : dot_S5000x128_S128x128_S5000x128_1_0_0_1_n_n.contr.Idx) :
    (dot_S5000x128_S128x128_S5000x128_1_0_0_1_n_n.rhsIdx i r 1).val = (i 1).val := by
  unfold DotDims.rhsIdx
  rw [dif_neg (show ¬(1 : Fin S128x128.rank) ∈ dot_S5000x128_S128x128_S5000x128_1_0_0_1_n_n.rhsBatch by decide), dif_pos (show (1 : Fin S128x128.rank) ∈ dot_S5000x128_S128x128_S5000x128_1_0_0_1_n_n.rhsNonContracting by decide)]
  rfl

/-- The matrix product into a zero accumulator, read at (p, q): the sum over the one contracted axis of the
    products of row p of the left operand and column q of the right one. -/
theorem matmul_zero_apply (a : FVec Ideal S5000x128 .bf16) (b : FVec Ideal S128x128 .bf16) (p : Fin 5000) (q : Fin 128) :
    matmul dot_S5000x128_S128x128_S5000x128_1_0_0_1_n_n none a b (constant (F := Ideal) S5000x128 .f32 0x00000000#32) (ix2 p q)
      = ∑ k : Fin 128, a (ix2 p k) * b (ix2 k q) := by
  refine (Ideal.matmul_constant_zero_apply dot_S5000x128_S128x128_S5000x128_1_0_0_1_n_n none a b (ix2 p q)).trans ?_
  rw [← Equiv.sum_comp (contrEquiv1 dot_S5000x128_S128x128_S5000x128_1_0_0_1_n_n 128 rfl rfl).symm]
  refine Finset.sum_congr rfl fun k _ => ?_
  have hk := contrEquiv1_symm_val dot_S5000x128_S128x128_S5000x128_1_0_0_1_n_n 128 rfl rfl k
  have el : dot_S5000x128_S128x128_S5000x128_1_0_0_1_n_n.lhsIdx (ix2 p q) ((contrEquiv1 dot_S5000x128_S128x128_S5000x128_1_0_0_1_n_n 128 rfl rfl).symm k) = ix2 p k := funext fun ax => Fin.ext (by
    match ax with
    | ⟨0, _⟩ => exact lhs_row _ _
    | ⟨1, _⟩ => exact (lhs_col _ _).trans hk)
  have er : dot_S5000x128_S128x128_S5000x128_1_0_0_1_n_n.rhsIdx (ix2 p q) ((contrEquiv1 dot_S5000x128_S128x128_S5000x128_1_0_0_1_n_n 128 rfl rfl).symm k) = ix2 k q := funext fun ax => Fin.ext (by
    match ax with
    | ⟨0, _⟩ => exact (rhs_row _ _).trans hk
    | ⟨1, _⟩ => exact rhs_col _ _)
  rw [el, er]

/-- The body's arithmetic read at (p, q): row p of the first block times column q of the weights, summed over
    the contracted axis, plus the one-row bias at q (the format changes are the identity on extended reals, the
    same-shape casts the identity, the row broadcast reads its one row). -/
theorem pay_apply (x0 : Vec Ideal S5000x128 .f32) (x1 : Vec Ideal S128x128 .f32) (x2 : Vec Ideal S1x128 .f32)
    (p : Fin 5000) (q : Fin 128) :
    k0_pay1 x0 x1 x2 (ix2 p q) = (∑ k : Fin 128, x0 (ix2 p k) * x1 (ix2 k q)) + x2 (ix2 0 q) := by
  unfold k0_pay1
  refine (truncf_apply _ bitsLt_bf16_f32 (ix2 p q)).trans ?_
  refine (addf_apply _ _ (ix2 p q)).trans ?_
  refine congrArg₂ (· + ·) ?_ ?_
  · refine (matmul_zero_apply _ _ p q).trans ?_
    refine Finset.sum_congr rfl fun k _ => ?_
    rw [shapeCast_self]
    rfl
  · refine (broadcastTo_1b_ab_apply _ broadcasts_S1x128_S5000x128 p q).trans ?_
    rw [shapeCast_self]

theorem hz : (![0, 0] : Fin 2 → Nat) = fun _ => 0 := funext fun a => by fin_cases a <;> rfl

/-- The region's result as ONE function of its three input arrays: row (i 0) of the first times column (i 1)
    of the second, summed over the contracted axis, plus the one-row third at (i 1). -/
def lin (x : S50000x128.Idx → EReal) (w : S128x128.Idx → EReal) (b : S1x128.Idx → EReal) : S50000x128.Idx → EReal :=
  fun i => (∑ k : Fin 128, x (ix2 (⟨(i 0).val, idx2_lt0 i⟩ : Fin 50000) k) * w (ix2 k (⟨(i 1).val, idx2_lt1 i⟩ : Fin 128)))
    + b (ix2 (0 : Fin 1) (⟨(i 1).val, idx2_lt1 i⟩ : Fin 128))

/-- The printed index maps, decided over the grid: the first input's and the output's blocks move down the rows
    with the point, the weights' and the bias's stay at block (0, 0). -/
theorem idx_facts : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = t.val ∧ win0_3.index t (1 : Fin 2) = 0 :=
  (by decide +kernel : ∀ t : Fin grid0.N, _)

/-- The first input's block at point t is rows 5000 t … 5000 t + 4999 of its array. -/
theorem read_x (c : Dev nD) (t : Fin cfg0.N) (y : S5000x128.Idx) (i : S50000x128.Idx)
    (h0 : (i 0).val = t.val * 5000 + (y 0).val) (h1 : (i 1).val = (y 1).val) :
    (iblk0 V c 0 t : Vec Ideal S5000x128 .f32) y = (V c (Pipeline.arrRef spec0 0) : S50000x128.Idx → EReal) i := by
  obtain ⟨e0, e1, -⟩ := idx_facts t
  unfold iblk0
  rw [View.read_apply]
  show V c (Pipeline.arrRef spec0 0) _ = V c (Pipeline.arrRef spec0 0) _
  refine congrArg _ (funext fun a => Fin.ext ?_)
  match a with
  | ⟨0, _⟩ => show win0_0.index t (0 : Fin 2) * 5000 + 1 * (y 0).val = (i 0).val; rw [e0, h0]; omega
  | ⟨1, _⟩ => show win0_0.index t (1 : Fin 2) * 128 + 1 * (y 1).val = (i 1).val; rw [e1, h1]; omega

/-- The weights' block at every point is the whole array. -/
theorem read_w (c : Dev nD) (t : Fin cfg0.N) (y : S128x128.Idx) (i : S128x128.Idx)
    (h0 : (i 0).val = (y 0).val) (h1 : (i 1).val = (y 1).val) :
    (iblk0 V c 1 t : Vec Ideal S128x128 .f32) y = (V c (Pipeline.arrRef spec0 1) : S128x128.Idx → EReal) i := by
  obtain ⟨-, -, e0, e1, -⟩ := idx_facts t
  unfold iblk0
  rw [View.read_apply]
  show V c (Pipeline.arrRef spec0 1) _ = V c (Pipeline.arrRef spec0 1) _
  refine congrArg _ (funext fun a => Fin.ext ?_)
  match a with
  | ⟨0, _⟩ => show win0_1.index t (0 : Fin 2) * 128 + 1 * (y 0).val = (i 0).val; rw [e0, h0]; omega
  | ⟨1, _⟩ => show win0_1.index t (1 : Fin 2) * 128 + 1 * (y 1).val = (i 1).val; rw [e1, h1]; omega

/-- The bias's block at every point is the whole one-row array. -/
theorem read_b (c : Dev nD) (t : Fin cfg0.N) (y : S1x128.Idx) (i : S1x128.Idx)
    (h0 : (i 0).val = (y 0).val) (h1 : (i 1).val = (y 1).val) :
    (iblk0 V c 2 t : Vec Ideal S1x128 .f32) y = (V c (Pipeline.arrRef spec0 2) : S1x128.Idx → EReal) i := by
  obtain ⟨-, -, -, -, e0, e1, -⟩ := idx_facts t
  unfold iblk0
  rw [View.read_apply]
  show V c (Pipeline.arrRef spec0 2) _ = V c (Pipeline.arrRef spec0 2) _
  refine congrArg _ (funext fun a => Fin.ext ?_)
  match a with
  | ⟨0, _⟩ => show win0_2.index t (0 : Fin 2) * 1 + 1 * (y 0).val = (i 0).val; rw [e0, h0]; omega
  | ⟨1, _⟩ => show win0_2.index t (1 : Fin 2) * 128 + 1 * (y 1).val = (i 1).val; rw [e1, h1]; omega

set_option maxHeartbeats 400000 in
/-- WHAT POINT t WRITES BACK is block t of `lin` of the three arrays as the region finds them. -/
theorem flushed_eq (c : Dev nD) (t : Fin cfg0.N) :
    (dat0 (F := Ideal) V c).flushed 3 t = ((cfg0.win 3).blk t).view.read (Elt Ideal)
      (lin (V c (Pipeline.arrRef spec0 0)) (V c (Pipeline.arrRef spec0 1)) (V c (Pipeline.arrRef spec0 2))) := by
  show (cfg0.win 3).cut (grid0.coords t) ((dat0 V c).after 3 t) = _
  rw [after0_3]
  unfold out0_3
  rw [View.canon_unit_zero hz]
  simp only [View.ld_unit_zero (S := S5000x128) hz, View.ld_unit_zero (S := S128x128) hz, View.ld_unit_zero (S := S1x128) hz]
  funext j
  obtain ⟨p, q, rfl⟩ : ∃ (p : Fin 5000) (q : Fin 128), j = ix2 p q := ⟨j 0, j 1, eq_ix2 j⟩
  obtain ⟨-, -, -, -, -, -, e0, e1⟩ := idx_facts t
  show k0_pay1 (iblk0 V c 0 t) (iblk0 V c 1 t) (iblk0 V c 2 t) (ix2 p q)
    = lin (V c (Pipeline.arrRef spec0 0)) (V c (Pipeline.arrRef spec0 1)) (V c (Pipeline.arrRef spec0 2)) (((cfg0.win 3).blk t).view.emb (ix2 p q))
  have h0 : ((((cfg0.win 3).blk t).view.emb (ix2 p q)) 0).val = t.val * 5000 + p.val := by
    show win0_3.index t (0 : Fin 2) * 5000 + 1 * p.val = _; rw [e0]; omega
  have h1 : ((((cfg0.win 3).blk t).view.emb (ix2 p q)) 1).val = q.val := by
    show win0_3.index t (1 : Fin 2) * 128 + 1 * q.val = _; rw [e1]; omega
  refine (pay_apply (iblk0 V c 0 t) (iblk0 V c 1 t) (iblk0 V c 2 t) p q).trans ?_
  unfold lin
  refine congrArg₂ (· + ·) (Finset.sum_congr rfl fun k _ => congrArg₂ (· * ·) ?_ ?_) ?_
  · exact read_x V c t (ix2 p k) _ h0 rfl
  · exact read_w V c t (ix2 k q) _ rfl h1
  · exact read_b V c t (ix2 0 q) _ rfl h1

/-- An index of the array is in point t's block iff each coordinate is in the block's range on its axis. -/
theorem mem_blk (t : Fin cfg0.N) (i : S50000x128.Idx) :
    i ∈ ((cfg0.win 3).blk t).view.set ↔ ∀ a : Fin 2, win0_3.index t a * S5000x128.size a ≤ (i a).val ∧ (i a).val < win0_3.index t a * S5000x128.size a + S5000x128.size a := by
  show i ∈ ((View.whole main_v31).slice (win0_3.rect t)).set ↔ _
  rw [View.set_slice_whole, Rect.mem_set_unit]
  exact Iff.rfl

/-- Every row r of the array is in the block of point r / 5000. -/
theorem cover (i : S50000x128.Idx) : ∃ t : Fin cfg0.N, (cfg0.win 3).flush t = true ∧ i ∈ ((cfg0.win 3).blk t).view.set := by
  have hi0 : (i 0).val < 50000 := idx2_lt0 i
  have hi1 : (i 1).val < 128 := idx2_lt1 i
  have hN : cfg0.N = 10 := N_0
  obtain ⟨t, ht⟩ : ∃ t : Fin cfg0.N, t.val = (i 0).val / 5000 := ⟨⟨(i 0).val / 5000, by rw [hN]; omega⟩, rfl⟩
  obtain ⟨-, -, -, -, -, -, e0, e1⟩ := idx_facts t
  refine ⟨t, flush0_3 t, ?_⟩
  rw [mem_blk]
  intro a
  match a with
  | ⟨0, _⟩ => show win0_3.index t (0 : Fin 2) * 5000 ≤ (i 0).val ∧ (i 0).val < win0_3.index t (0 : Fin 2) * 5000 + 5000; rw [e0, ht]; omega
  | ⟨1, _⟩ => show win0_3.index t (1 : Fin 2) * 128 ≤ (i 1).val ∧ (i 1).val < win0_3.index t (1 : Fin 2) * 128 + 128; rw [e1]; omega

/-- THE ARRAY after the region: `lin` of the three input arrays as the region finds them. -/
theorem arr_eq (c : Dev nD) : (dat0 (F := Ideal) V c).arrAt 3 cfg0.N
    = lin (V c (Pipeline.arrRef spec0 0)) (V c (Pipeline.arrRef spec0 1)) (V c (Pipeline.arrRef spec0 2)) :=
  (dat0 (F := Ideal) V c).arrAt_eq_of_cover 3 _ (fun t _ => flushed_eq V c t) cover

/-- `lin` read at (p, q). -/
theorem lin_apply (x : S50000x128.Idx → EReal) (w : S128x128.Idx → EReal) (b : S1x128.Idx → EReal) (p : Fin 50000) (q : Fin 128) :
    lin x w b (ix2 p q) = (∑ k : Fin 128, x (ix2 p k) * w (ix2 k q)) + b (ix2 0 q) := rfl

/-- Entry (p, q) of the output array after the region: row p of the first input array times column q of the
    weights, summed over the contracted axis, plus the bias at q (the three arrays named `x`, `w`, `b` as
    extended-real functions of their indices). -/
theorem final (c : Dev nD) (p : Fin 50000) (q : Fin 128)
    (x : S50000x128.Idx → EReal) (w : S128x128.Idx → EReal) (b : S1x128.Idx → EReal)
    (hx : x = V c (Pipeline.arrRef spec0 0)) (hw : w = V c (Pipeline.arrRef spec0 1)) (hb : b = V c (Pipeline.arrRef spec0 2)) :
    (dat0 (F := Ideal) V c).arrAt 3 cfg0.N (ix2 p q)
      = (∑ k : Fin 128, x (ix2 p k) * w (ix2 k q)) + b (ix2 0 q) := by
  subst hx hw hb
  rw [arr_eq]
  rfl

end Cert.KernelIdeal.Lin0

end
-- ==== Proof.KVal.lean ====
/-
  The kernel program's values, boundary by boundary. Following the fold of the boundary contents — a host stretch applies
  its named term to what the buffers held before it, a region replaces its output arrays by its closed form of its input
  arrays and keeps the rest — each buffer a later item reads is expressed as a function of the argument arrays alone.
-/
import proofs.«128412_j31044023616094_2_alg».proof.Proof.KHostA
import proofs.«128412_j31044023616094_2_alg».proof.Proof.KHostB
import proofs.«128412_j31044023616094_2_alg».proof.Proof.KKeep
import proofs.«128412_j31044023616094_2_alg».proof.Proof.Lin0
import Idealize.ShloMosaic.PureOps.Ideal

set_option maxRecDepth 16384

noncomputable section

namespace Cert.KernelIdeal.KVal

open Cert.KernelIdeal Cert.KernelIdeal.Gen Cert.KernelIdeal.KHost Cert.KernelIdeal.KKeep
open Idealize.ShloMosaic Idealize.ShloMosaic.TcCoe Idealize.SL.Sem Idealize.ShloMosaic.StableHlo

variable (m : (ℓ : Loc nD τ sig) → Buf (Elt Ideal) ℓ) (ρ : Dev nD → PrngReg) (c : Dev nD)

/-- An argument array as launched. -/
abbrev arg (r : Ref sig .tc) : Buf (Elt Ideal) ((c : Thread nD τ).loc r) := W0 m ρ c (Proc.devRef .tc r)

/-- The three opening lines are one stretch. -/
theorem W3_eq : W3 m ρ c = StableHlo.after (ops0 (F := Ideal)) (W0 m ρ c) := by
  show StableHlo.after hostOps0_2 (StableHlo.after hostOps0_1 (StableHlo.after hostOps0 (W0 m ρ c))) = _
  rw [ops0, after_append, after_append]

theorem W3_rows : W3 m ρ c (Proc.devRef .tc main_v1) = rowsOf (arg m ρ c main_arg1) := by
  rw [W3_eq]; exact s0_rows _
theorem W3_cols : W3 m ρ c (Proc.devRef .tc main_v3) = colsOf (arg m ρ c main_arg1) := by
  rw [W3_eq]; exact s0_cols _
theorem W3_val : W3 m ρ c (Proc.devRef .tc main_v28) = valOf (F := Ideal) (arg m ρ c main_arg1) (arg m ρ c main_arg2) := by
  rw [W3_eq]; exact s0_val _
theorem W3_wt : W3 m ρ c (Proc.devRef .tc main_v29) = transpose S128x128 [1, 0] (arg m ρ c main_arg7) transposes_S128x128_S128x128_1_0 := by
  rw [W3_eq]; exact s0_wt _
theorem W3_b2 : W3 m ρ c (Proc.devRef .tc main_v30) = shapeCast S1x128 (arg m ρ c main_arg8) shapeCasts_S128_S1x128 := by
  rw [W3_eq]; exact s0_b2 _
theorem W3_x : W3 m ρ c (Proc.devRef .tc main_arg0) = arg m ρ c main_arg0 := by
  rw [W3_eq]; exact s0_x _

/-- The projected base features: region 0's output array. -/
def bxK : S50000x128.Idx → EReal :=
  Lin0.lin (arg m ρ c main_arg0) (transpose S128x128 [1, 0] (arg m ρ c main_arg7) transposes_S128x128_S128x128_1_0)
    (shapeCast S1x128 (arg m ρ c main_arg8) shapeCasts_S128_S1x128)

theorem W4_bx : W4 m ρ c (Proc.devRef .tc main_v31) = bxK m ρ c := by
  refine (W4_arr m ρ c 3).trans ((Lin0.arr_eq (V3 m ρ) c).trans ?_)
  unfold bxK
  rw [← W3_x m ρ c, ← W3_wt m ρ c, ← W3_b2 m ρ c]

/-- The aggregated base features: what the stretch before region 1 leaves. -/
def aggBK : S50000x128.Idx → EReal :=
  spmmB (F := Ideal) (bxK m ρ c) (rowsOf (arg m ρ c main_arg1)) (colsOf (arg m ρ c main_arg1)) (valOf (F := Ideal) (arg m ρ c main_arg1) (arg m ρ c main_arg2))

theorem W5_agg : W5 m ρ c (Proc.devRef .tc main_v45) = aggBK m ρ c := by
  refine (s1_agg (W4 m ρ c)).trans ?_
  unfold aggBK
  rw [W4_bx, W4_of_ne m ρ c main_v1 (by decide), W4_of_ne m ρ c main_v3 (by decide), W4_of_ne m ρ c main_v28 (by decide),
    W3_rows, W3_cols, W3_val]

end Cert.KernelIdeal.KVal

end
-- ==== Proof.Lin3.lean ====
/-
  Region 3 (y = x·Wt + b on row blocks of 5000): the closed form of its output array. The body's arithmetic read at
  an index (the matrix product into a zero accumulator as a sum over the one contracted axis, the one-row bias broadcast
  down the rows, the format changes the identity on extended reals); the block a point writes back as a block of ONE
  function `lin` of the three input arrays; every row r lies in the block of point r / 5000; hence the array after the
  region is `lin` of the input arrays, entry by entry.
-/
import proofs.«128412_j31044023616094_2_alg».proof.Proof.Gen.KernelIdeal.Frame
import Idealize.ShloMosaic.PureOps.Ideal
import Idealize.ShloMosaic.PureOps.Ideal.Laws
import Idealize.ShloMosaic.Lib.ValueIdx
import Idealize.ShloMosaic.Lib.Pipeline.Value
import Idealize.ShloMosaic.Lib.ValueLayout

noncomputable section

namespace Cert.KernelIdeal.Lin3

open Cert.KernelIdeal Cert.KernelIdeal.Gen Idealize.ShloMosaic Idealize.ShloMosaic.TcCoe Idealize.SL.Sem Idealize.ShloMosaic.ValueIdx

variable (V : (c : Dev nD) → (b : Ref sig .tc) → Buf (Elt Ideal) ((c : Thread nD τ).loc b))

/-- The left operand's index at output index `i` and contraction index `r`: the output's row … -/
theorem lhs_row (i : S5000x128.Idx) (r : dot_S5000x128_S128x128_S5000x128_1_0_0_1_n_n.contr.Idx) :
    (dot_S5000x128_S128x128_S5000x128_1_0_0_1_n_n.lhsIdx i r 0).val = (i 0).val := by
  unfold DotDims.lhsIdx
  rw [dif_neg (show ¬(0 : Fin S5000x128.rank) ∈ dot_S5000x128_S128x128_S5000x128_1_0_0_1_n_n.lhsBatch by decide), dif_pos (show (0 : Fin S5000x128.rank) ∈ dot_S5000x128_S128x128_S5000x128_1_0_0_1_n_n.lhsNonContracting by decide)]
  rfl
/-- … and the contracted coordinate. -/
theorem lhs_col (i : S5000x128.Idx) (r : dot_S5000x128_S128x128_S5000x128_1_0_0_1_n_n.contr.Idx) :
    (dot_S5000x128_S128x128_S5000x128_1_0_0_1_n_n.lhsIdx i r 1).val = (r ⟨0, by decide⟩).val :=
  dot_S5000x128_S128x128_S5000x128_1_0_0_1_n_n.lhsIdx_val_of_single rfl i r
/-- The right operand's index: the contracted coordinate … -/
theorem rhs_row (i : S5000x128.Idx) (r : dot_S5000x128_S128x128_S5000x128_1_0_0_1_n_n.contr.Idx) :
    (dot_S5000x128_S128x128_S5000x128_1_0_0_1_n_n.rhsIdx i r 0).val = (r ⟨0, by decide⟩).val :=
  dot_S5000x128_S128x128_S5000x128_1_0_0_1_n_n.rhsIdx_val_of_single rfl i r
/-- … and the output's column. -/
theorem rhs_col (i : S5000x128.Idx) (r : dot_S5000x128_S128x128_S5000x128_1_0_0_1_n_n.contr.Idx) :
    (dot_S5000x128_S128x128_S5000x128_1_0_0_1_n_n.rhsIdx i r 1).val = (i 1).val := by
  unfold DotDims.rhsIdx
  rw [dif_neg (show ¬(1 : Fin S128x128.rank) ∈ dot_S5000x128_S128x128_S5000x128_1_0_0_1_n_n.rhsBatch by decide), dif_pos (show (1 : Fin S128x128.rank) ∈ dot_S5000x128_S128x128_S5000x128_1_0_0_1_n_n.rhsNonContracting by decide)]
  rfl

/-- The matrix product into a zero accumulator, read at (p, q): the sum over the one contracted axis of the
    products of row p of the left operand and column q of the right one. -/
theorem matmul_zero_apply (a : FVec Ideal S5000x128 .bf16) (b : FVec Ideal S128x128 .bf16) (p : Fin 5000) (q : Fin 128) :
    matmul dot_S5000x128_S128x128_S5000x128_1_0_0_1_n_n none a b (constant (F := Ideal) S5000x128 .f32 0x00000000#32) (ix2 p q)
      = ∑ k : Fin 128, a (ix2 p k) * b (ix2 k q) := by
  refine (Ideal.matmul_constant_zero_apply dot_S5000x128_S128x128_S5000x128_1_0_0_1_n_n none a b (ix2 p q)).trans ?_
  rw [← Equiv.sum_comp (contrEquiv1 dot_S5000x128_S128x128_S5000x128_1_0_0_1_n_n 128 rfl rfl).symm]
  refine Finset.sum_congr rfl fun k _ => ?_
  have hk := contrEquiv1_symm_val dot_S5000x128_S128x128_S5000x128_1_0_0_1_n_n 128 rfl rfl k
  have el : dot_S5000x128_S128x128_S5000x128_1_0_0_1_n_n.lhsIdx (ix2 p q) ((contrEquiv1 dot_S5000x128_S128x128_S5000x128_1_0_0_1_n_n 128 rfl rfl).symm k) = ix2 p k := funext fun ax => Fin.ext (by
    match ax with
    | ⟨0, _⟩ => exact lhs_row _ _
    | ⟨1, _⟩ => exact (lhs_col _ _).trans hk)
  have er : dot_S5000x128_S128x128_S5000x128_1_0_0_1_n_n.rhsIdx (ix2 p q) ((contrEquiv1 dot_S5000x128_S128x128_S5000x128_1_0_0_1_n_n 128 rfl rfl).symm k) = ix2 k q := funext fun ax => Fin.ext (by
    match ax with
    | ⟨0, _⟩ => exact (rhs_row _ _).trans hk
    | ⟨1, _⟩ => exact rhs_col _ _)
  rw [el, er]

/-- The body's arithmetic read at (p, q): row p of the first block times column q of the weights, summed over
    the contracted axis, plus the one-row bias at q (the format changes are the identity on extended reals, the
    same-shape casts the identity, the row broadcast reads its one row). -/
theorem pay_apply (x0 : Vec Ideal S5000x128 .f32) (x1 : Vec Ideal S128x128 .f32) (x2 : Vec Ideal S1x128 .f32)
    (p : Fin 5000) (q : Fin 128) :
    k3_pay1 x0 x1 x2 (ix2 p q) = (∑ k : Fin 128, x0 (ix2 p k) * x1 (ix2 k q)) + x2 (ix2 0 q) := by
  unfold k3_pay1
  refine (truncf_apply _ bitsLt_bf16_f32 (ix2 p q)).trans ?_
  refine (addf_apply _ _ (ix2 p q)).trans ?_
  refine congrArg₂ (· + ·) ?_ ?_
  · refine (matmul_zero_apply _ _ p q).trans ?_
    refine Finset.sum_congr rfl fun k _ => ?_
    rw [shapeCast_self]
    rfl
  · refine (broadcastTo_1b_ab_apply _ broadcasts_S1x128_S5000x128 p q).trans ?_
    rw [shapeCast_self]

theorem hz : (![0, 0] : Fin 2 → Nat) = fun _ => 0 := funext fun a => by fin_cases a <;> rfl

/-- The region's result as ONE function of its three input arrays: row (i 0) of the first times column (i 1)
    of the second, summed over the contracted axis, plus the one-row third at (i 1). -/
def lin (x : S100000x128.Idx → EReal) (w : S128x128.Idx → EReal) (b : S1x128.Idx → EReal) : S100000x128.Idx → EReal :=
  fun i => (∑ k : Fin 128, x (ix2 (⟨(i 0).val, idx2_lt0 i⟩ : Fin 100000) k) * w (ix2 k (⟨(i 1).val, idx2_lt1 i⟩ : Fin 128)))
    + b (ix2 (0 : Fin 1) (⟨(i 1).val, idx2_lt1 i⟩ : Fin 128))

/-- The printed index maps, decided over the grid: the first input's and the output's blocks move down the rows
    with the point, the weights' and the bias's stay at block (0, 0). -/
theorem idx_facts : ∀ t : Fin cfg3.N, win3_0.index t (0 : Fin 2) = t.val ∧ win3_0.index t (1 : Fin 2) = 0
    ∧ win3_1.index t (0 : Fin 2) = 0 ∧ win3_1.index t (1 : Fin 2) = 0
    ∧ win3_2.index t (0 : Fin 2) = 0 ∧ win3_2.index t (1 : Fin 2) = 0
    ∧ win3_3.index t (0 : Fin 2) = t.val ∧ win3_3.index t (1 : Fin 2) = 0 :=
  (by decide +kernel : ∀ t : Fin grid3.N, _)

/-- The first input's block at point t is rows 5000 t … 5000 t + 4999 of its array. -/
theorem read_x (c : Dev nD) (t : Fin cfg3.N) (y : S5000x128.Idx) (i : S100000x128.Idx)
    (h0 : (i 0).val = t.val * 5000 + (y 0).val) (h1 : (i 1).val = (y 1).val) :
    (iblk3 V c 0 t : Vec Ideal S5000x128 .f32) y = (V c (Pipeline.arrRef spec3 0) : S100000x128.Idx → EReal) i := by
  obtain ⟨e0, e1, -⟩ := idx_facts t
  unfold iblk3
  rw [View.read_apply]
  show V c (Pipeline.arrRef spec3 0) _ = V c (Pipeline.arrRef spec3 0) _
  refine congrArg _ (funext fun a => Fin.ext ?_)
  match a with
  | ⟨0, _⟩ => show win3_0.index t (0 : Fin 2) * 5000 + 1 * (y 0).val = (i 0).val; rw [e0, h0]; omega
  | ⟨1, _⟩ => show win3_0.index t (1 : Fin 2) * 128 + 1 * (y 1).val = (i 1).val; rw [e1, h1]; omega

/-- The weights' block at every point is the whole array. -/
theorem read_w (c : Dev nD) (t : Fin cfg3.N) (y : S128x128.Idx) (i : S128x128.Idx)
    (h0 : (i 0).val = (y 0).val) (h1 : (i 1).val = (y 1).val) :
    (iblk3 V c 1 t : Vec Ideal S128x128 .f32) y = (V c (Pipeline.arrRef spec3 1) : S128x128.Idx → EReal) i := by
  obtain ⟨-, -, e0, e1, -⟩ := idx_facts t
  unfold iblk3
  rw [View.read_apply]
  show V c (Pipeline.arrRef spec3 1) _ = V c (Pipeline.arrRef spec3 1) _
  refine congrArg _ (funext fun a => Fin.ext ?_)
  match a with
  | ⟨0, _⟩ => show win3_1.index t (0 : Fin 2) * 128 + 1 * (y 0).val = (i 0).val; rw [e0, h0]; omega
  | ⟨1, _⟩ => show win3_1.index t (1 : Fin 2) * 128 + 1 * (y 1).val = (i 1).val; rw [e1, h1]; omega

/-- The bias's block at every point is the whole one-row array. -/
theorem read_b (c : Dev nD) (t : Fin cfg3.N) (y : S1x128.Idx) (i : S1x128.Idx)
    (h0 : (i 0).val = (y 0).val) (h1 : (i 1).val = (y 1).val) :
    (iblk3 V c 2 t : Vec Ideal S1x128 .f32) y = (V c (Pipeline.arrRef spec3 2) : S1x128.Idx → EReal) i := by
  obtain ⟨-, -, -, -, e0, e1, -⟩ := idx_facts t
  unfold iblk3
  rw [View.read_apply]
  show V c (Pipeline.arrRef spec3 2) _ = V c (Pipeline.arrRef spec3 2) _
  refine congrArg _ (funext fun a => Fin.ext ?_)
  match a with
  | ⟨0, _⟩ => show win3_2.index t (0 : Fin 2) * 1 + 1 * (y 0).val = (i 0).val; rw [e0, h0]; omega
  | ⟨1, _⟩ => show win3_2.index t (1 : Fin 2) * 128 + 1 * (y 1).val = (i 1).val; rw [e1, h1]; omega

set_option maxHeartbeats 400000 in
/-- WHAT POINT t WRITES BACK is block t of `lin` of the three arrays as the region finds them. -/
theorem flushed_eq (c : Dev nD) (t : Fin cfg3.N) :
    (dat3 (F := Ideal) V c).flushed 3 t = ((cfg3.win 3).blk t).view.read (Elt Ideal)
      (lin (V c (Pipeline.arrRef spec3 0)) (V c (Pipeline.arrRef spec3 1)) (V c (Pipeline.arrRef spec3 2))) := by
  show (cfg3.win 3).cut (grid3.coords t) ((dat3 V c).after 3 t) = _
  rw [after3_3]
  unfold out3_3
  rw [View.canon_unit_zero hz]
  simp only [View.ld_unit_zero (S := S5000x128) hz, View.ld_unit_zero (S := S128x128) hz, View.ld_unit_zero (S := S1x128) hz]
  funext j
  obtain ⟨p, q, rfl⟩ : ∃ (p : Fin 5000) (q : Fin 128), j = ix2 p q := ⟨j 0, j 1, eq_ix2 j⟩
  obtain ⟨-, -, -, -, -, -, e0, e1⟩ := idx_facts t
  show k3_pay1 (iblk3 V c 0 t) (iblk3 V c 1 t) (iblk3 V c 2 t) (ix2 p q)
    = lin (V c (Pipeline.arrRef spec3 0)) (V c (Pipeline.arrRef spec3 1)) (V c (Pipeline.arrRef spec3 2)) (((cfg3.win 3).blk t).view.emb (ix2 p q))
  have h0 : ((((cfg3.win 3).blk t).view.emb (ix2 p q)) 0).val = t.val * 5000 + p.val := by
    show win3_3.index t (0 : Fin 2) * 5000 + 1 * p.val = _; rw [e0]; omega
  have h1 : ((((cfg3.win 3).blk t).view.emb (ix2 p q)) 1).val = q.val := by
    show win3_3.index t (1 : Fin 2) * 128 + 1 * q.val = _; rw [e1]; omega
  refine (pay_apply (iblk3 V c 0 t) (iblk3 V c 1 t) (iblk3 V c 2 t) p q).trans ?_
  unfold lin
  refine congrArg₂ (· + ·) (Finset.sum_congr rfl fun k _ => congrArg₂ (· * ·) ?_ ?_) ?_
  · exact read_x V c t (ix2 p k) _ h0 rfl
  · exact read_w V c t (ix2 k q) _ rfl h1
  · exact read_b V c t (ix2 0 q) _ rfl h1

/-- An index of the array is in point t's block iff each coordinate is in the block's range on its axis. -/
theorem mem_blk (t : Fin cfg3.N) (i : S100000x128.Idx) :
    i ∈ ((cfg3.win 3).blk t).view.set ↔ ∀ a : Fin 2, win3_3.index t a * S5000x128.size a ≤ (i a).val ∧ (i a).val < win3_3.index t a * S5000x128.size a + S5000x128.size a := by
  show i ∈ ((View.whole main_v66).slice (win3_3.rect t)).set ↔ _
  rw [View.set_slice_whole, Rect.mem_set_unit]
  exact Iff.rfl

/-- Every row r of the array is in the block of point r / 5000. -/
theorem cover (i : S100000x128.Idx) : ∃ t : Fin cfg3.N, (cfg3.win 3).flush t = true ∧ i ∈ ((cfg3.win 3).blk t).view.set := by
  have hi0 : (i 0).val < 100000 := idx2_lt0 i
  have hi1 : (i 1).val < 128 := idx2_lt1 i
  have hN : cfg3.N = 20 := N_3
  obtain ⟨t, ht⟩ : ∃ t : Fin cfg3.N, t.val = (i 0).val / 5000 := ⟨⟨(i 0).val / 5000, by rw [hN]; omega⟩, rfl⟩
  obtain ⟨-, -, -, -, -, -, e0, e1⟩ := idx_facts t
  refine ⟨t, flush3_3 t, ?_⟩
  rw [mem_blk]
  intro a
  match a with
  | ⟨0, _⟩ => show win3_3.index t (0 : Fin 2) * 5000 ≤ (i 0).val ∧ (i 0).val < win3_3.index t (0 : Fin 2) * 5000 + 5000; rw [e0, ht]; omega
  | ⟨1, _⟩ => show win3_3.index t (1 : Fin 2) * 128 ≤ (i 1).val ∧ (i 1).val < win3_3.index t (1 : Fin 2) * 128 + 128; rw [e1]; omega

/-- THE ARRAY after the region: `lin` of the three input arrays as the region finds them. -/
theorem arr_eq (c : Dev nD) : (dat3 (F := Ideal) V c).arrAt 3 cfg3.N
    = lin (V c (Pipeline.arrRef spec3 0)) (V c (Pipeline.arrRef spec3 1)) (V c (Pipeline.arrRef spec3 2)) :=
  (dat3 (F := Ideal) V c).arrAt_eq_of_cover 3 _ (fun t _ => flushed_eq V c t) cover

/-- `lin` read at (p, q). -/
theorem lin_apply (x : S100000x128.Idx → EReal) (w : S128x128.Idx → EReal) (b : S1x128.Idx → EReal) (p : Fin 100000) (q : Fin 128) :
    lin x w b (ix2 p q) = (∑ k : Fin 128, x (ix2 p k) * w (ix2 k q)) + b (ix2 0 q) := rfl

/-- Entry (p, q) of the output array after the region: row p of the first input array times column q of the
    weights, summed over the contracted axis, plus the bias at q (the three arrays named `x`, `w`, `b` as
    extended-real functions of their indices). -/
theorem final (c : Dev nD) (p : Fin 100000) (q : Fin 128)
    (x : S100000x128.Idx → EReal) (w : S128x128.Idx → EReal) (b : S1x128.Idx → EReal)
    (hx : x = V c (Pipeline.arrRef spec3 0)) (hw : w = V c (Pipeline.arrRef spec3 1)) (hb : b = V c (Pipeline.arrRef spec3 2)) :
    (dat3 (F := Ideal) V c).arrAt 3 cfg3.N (ix2 p q)
      = (∑ k : Fin 128, x (ix2 p k) * w (ix2 k q)) + b (ix2 0 q) := by
  subst hx hw hb
  rw [arr_eq]
  rfl

end Cert.KernelIdeal.Lin3

end
-- ==== Proof.Stats1.lean ====
import proofs.«128412_j31044023616094_2_alg».proof.Proof.Gen.KernelIdeal.Frame
import Idealize.ShloMosaic.PureOps.Ideal
import Idealize.ShloMosaic.PureOps.Ideal.Laws
import Idealize.ShloMosaic.Lib.ValueIdx
import Idealize.ShloMosaic.Lib.Pipeline.Value
import Idealize.ShloMosaic.Lib.ValueLayout
import Idealize.ShloMosaic.Lib.Tactic

/-!
  The column statistics of a [R,128] array accumulated over a grid (2, T): half `p` of the rows is summed, block of
  5000 rows by block, into row `p` of a [2,1,128] array (and the squares into a second one). Read over the extended
  reals: after the last point of half `p`, row `p` holds the sum over that half's rows, so the two rows together add
  up to the sum over all rows. Addition of extended reals is commutative and associative, so no finiteness is used.
-/

noncomputable section

namespace Cert.KernelIdeal.Stats1

open Cert.KernelIdeal Cert.KernelIdeal.Gen Idealize.ShloMosaic Idealize.ShloMosaic.TcCoe Idealize.SL.Sem Idealize.ShloMosaic.ValueIdx

theorem hz3 : (![0, 0, 0] : Fin 3 → Nat) = fun _ => 0 := funext fun a => by fin_cases a <;> rfl
theorem hz2 : (![0, 0] : Fin 2 → Nat) = fun _ => 0 := funext fun a => by fin_cases a <;> rfl

section Pieces
variable {F : FTy → Type} [FloatOps F]

/-- Case B, output 1: the one covering store's payload over the whole-buffer reads. -/
theorem out_B_1 (c : Dev nD) (i : grid1.Coords) (a2 : Memref sig .tc .vmem S5000x128 .f32) (h2 : a2.IsWhole)
    (a3 : Memref sig .tc .vmem S1x1x128 .f32) (h3 : a3.IsWhole) (a4 : Memref sig .tc .vmem S1x1x128 .f32) (h4 : a4.IsWhole)
    (hc : ¬cond1_0 i) (x : Vec F S5000x128 .f32) (xo1 xo2 : Vec F S1x1x128 .f32) :
    out1_B_1 c i a2 h2 a3 h3 a4 h4 hc x xo1 xo2 = k1_pay4 x xo1 := by
  unfold out1_B_1
  rw [View.read_writes_eq_canon _ _ _ (cover1_B_1 c i a2 h2 a3 h3 a4 h4 hc x xo1 xo2)]
  unfold kernelRun1_B
  dsimp only
  rw [View.canon_unit_zero hz3]
  simp only [View.readAt_eq_ld, h2.read_unread, h3.read_unread, View.ld_unit_zero (S := S5000x128) hz2,
    View.ld_unit_zero (S := S1x1x128) hz3]

/-- Case B, output 2. -/
theorem out_B_2 (c : Dev nD) (i : grid1.Coords) (a2 : Memref sig .tc .vmem S5000x128 .f32) (h2 : a2.IsWhole)
    (a3 : Memref sig .tc .vmem S1x1x128 .f32) (h3 : a3.IsWhole) (a4 : Memref sig .tc .vmem S1x1x128 .f32) (h4 : a4.IsWhole)
    (hc : ¬cond1_0 i) (x : Vec F S5000x128 .f32) (xo1 xo2 : Vec F S1x1x128 .f32) :
    out1_B_2 c i a2 h2 a3 h3 a4 h4 hc x xo1 xo2 = k1_pay5 x xo2 := by
  unfold out1_B_2
  rw [View.read_writes_eq_canon _ _ _ (cover1_B_2 c i a2 h2 a3 h3 a4 h4 hc x xo1 xo2)]
  unfold kernelRun1_B
  dsimp only
  rw [View.canon_unit_zero hz3]
  simp only [View.readAt_eq_ld, h2.read_unread, h4.read_unread, View.ld_unit_zero (S := S5000x128) hz2,
    View.ld_unit_zero (S := S1x1x128) hz3]

/-- Case A, output 1: the zero block is stored, read back, and the block's sum added to it. -/
theorem out_A_1 (c : Dev nD) (i : grid1.Coords) (a2 : Memref sig .tc .vmem S5000x128 .f32) (h2 : a2.IsWhole)
    (a3 : Memref sig .tc .vmem S1x1x128 .f32) (h3 : a3.IsWhole) (a4 : Memref sig .tc .vmem S1x1x128 .f32) (h4 : a4.IsWhole)
    (hc : cond1_0 i) (x : Vec F S5000x128 .f32) :
    out1_A_1 c i a2 h2 a3 h3 a4 h4 hc x = k1_pay4 x k1_pay1 := by
  unfold out1_A_1
  rw [View.read_writes_eq_canon _ _ _ (cover1_A_1 c i a2 h2 a3 h3 a4 h4 hc x)]
  unfold kernelRun1_A
  dsimp only
  sl_unfold_words
  rw [View.canon_cons_unit_zero (S := S1x1x128) hz3, View.readCov_unit_zero (S := S1x1x128) _ hz3]
  simp only [View.readAt_eq_ld, h2.read_unread, View.ld_unit_zero (S := S5000x128) hz2]

/-- Case A, output 2. -/
theorem out_A_2 (c : Dev nD) (i : grid1.Coords) (a2 : Memref sig .tc .vmem S5000x128 .f32) (h2 : a2.IsWhole)
    (a3 : Memref sig .tc .vmem S1x1x128 .f32) (h3 : a3.IsWhole) (a4 : Memref sig .tc .vmem S1x1x128 .f32) (h4 : a4.IsWhole)
    (hc : cond1_0 i) (x : Vec F S5000x128 .f32) :
    out1_A_2 c i a2 h2 a3 h3 a4 h4 hc x = k1_pay5 x k1_pay2 := by
  unfold out1_A_2
  rw [View.read_writes_eq_canon _ _ _ (cover1_A_2 c i a2 h2 a3 h3 a4 h4 hc x)]
  unfold kernelRun1_A
  dsimp only
  sl_unfold_words
  rw [View.canon_cons_unit_zero (S := S1x1x128) hz3, View.readCov_unit_zero (S := S1x1x128) _ hz3]
  simp only [View.readAt_eq_ld, h2.read_unread, View.ld_unit_zero (S := S5000x128) hz2]
end Pieces

/-! ## The payloads at an index, over the extended reals -/

/-- A sum over axis 0 of a [5000,128] block, at lane `q`: the sum over the 5000 rows. -/
theorem laneSum_apply (v : FVec Ideal S5000x128 .f32) (h : S5000x128.Reduces [0] S128) (hφ : FKind.Formats .f32)
    (hacc : (0x00000000#32 : BitVec 32) = 0x00000000#32) (q : Fin 128) :
    multiReduction (F := Ideal) .add [0] S128 v 0x00000000#32 h hφ hacc (ix1 q) = ∑ r : Fin 5000, v (ix2 r q) := by
  refine (Ideal.multiReduction_add_single v 0x00000000#32 h hφ hacc (ix1 q)).trans ?_
  exact Finset.sum_congr rfl fun r _ => congrArg v (funext fun a => by match a with | ⟨0, _⟩ => rfl | ⟨1, _⟩ => rfl)

/-- A [128] vector viewed [1,1,128] reads lane `q` at (0,0,q). -/
theorem lift3_apply (v : S128.Idx → EReal) (h1 : S128.ShapeCasts S1x128) (h2 : S1x128.ShapeCasts S1x1x128) (q : Fin 128) :
    shapeCast S1x1x128 (shapeCast S1x128 v h1) h2 (ix3 0 0 q) = v (ix1 q) := by
  refine (shapeCast_addUnit_apply ![1, 128] (shapeCast S1x128 v h1) h2 (ix3 0 0 q)).trans ?_
  refine (shapeCast_addUnit_apply ![128] v h1 _).trans ?_
  exact congrArg v (funext fun a => by match a with | ⟨0, _⟩ => rfl)

/-- The running sum's step: what was there plus the block's lane sum. -/
theorem pay4_apply (x : Vec Ideal S5000x128 .f32) (xo : Vec Ideal S1x1x128 .f32) (q : Fin 128) :
    k1_pay4 x xo (ix3 0 0 q) = xo (ix3 0 0 q) + ∑ r : Fin 5000, x (ix2 r q) := by
  unfold k1_pay4 k1_pay3
  dsimp only
  rw [shapeCast_self, shapeCast_self]
  refine (addf_apply _ _ _).trans ?_
  refine congrArg (xo (ix3 0 0 q) + ·) ?_
  refine (lift3_apply _ _ _ q).trans ?_
  exact laneSum_apply x _ _ _ q

/-- The running sum of squares' step. -/
theorem pay5_apply (x : Vec Ideal S5000x128 .f32) (xo : Vec Ideal S1x1x128 .f32) (q : Fin 128) :
    k1_pay5 x xo (ix3 0 0 q) = xo (ix3 0 0 q) + ∑ r : Fin 5000, x (ix2 r q) * x (ix2 r q) := by
  unfold k1_pay5 k1_pay3
  dsimp only
  rw [shapeCast_self, shapeCast_self]
  refine (addf_apply _ _ _).trans ?_
  refine congrArg (xo (ix3 0 0 q) + ·) ?_
  refine (lift3_apply _ _ _ q).trans ?_
  exact laneSum_apply (mulf x x) _ _ _ q

/-- The reset block is zero everywhere. -/
theorem pay1_apply (y : S1x1x128.Idx) : k1_pay1 (F := Ideal) y = 0 := by
  unfold k1_pay1
  exact Ideal.ofBits_zero_f32
theorem pay2_apply (y : S1x1x128.Idx) : k1_pay2 (F := Ideal) y = 0 := by
  unfold k1_pay2
  exact Ideal.ofBits_zero_f32

/-! ## The input block at a point, and its lane sums as ranges of rows -/

variable (V : (c : Dev nD) → (b : Ref sig .tc) → Buf (Elt Ideal) ((c : Thread nD τ).loc b))

/-- The input window's block index at point `t` is (t, 0): decided over the grid. -/
theorem idx_in : ∀ t : Fin cfg1.N, win1_0.index t (0 : Fin 2) = t.val ∧ win1_0.index t (1 : Fin 2) = 0 :=
  (by decide +kernel : ∀ t : Fin grid1.N, win1_0.index t (0 : Fin 2) = t.val ∧ win1_0.index t (1 : Fin 2) = 0)

/-- Row `r` of the block at point `t` is row `5000 t + r` of the array. -/
theorem iblk_apply (c : Dev nD) (t : Fin cfg1.N) (r : Fin 5000) (q : Fin 128) (h : t.val * 5000 + r.val < 50000) :
    (iblk1 V c 0 t : Vec Ideal S5000x128 .f32) (ix2 r q)
      = (V c (Pipeline.arrRef spec1 0) : S50000x128.Idx → EReal) (ix2 ⟨t.val * 5000 + r.val, h⟩ q) := by
  unfold iblk1
  rw [View.read_apply]
  show (V c (Pipeline.arrRef spec1 0) : S50000x128.Idx → EReal) (((cfg1.win 0).blk t).view.emb (ix2 r q)) = _
  refine congrArg (V c (Pipeline.arrRef spec1 0) : S50000x128.Idx → EReal) ?_
  obtain ⟨e0, e1⟩ := idx_in t
  funext a; apply Fin.ext
  match a with
  | ⟨0, _⟩ => show win1_0.index t (0 : Fin 2) * 5000 + 1 * r.val = t.val * 5000 + r.val; rw [e0]; omega
  | ⟨1, _⟩ => show win1_0.index t (1 : Fin 2) * 128 + 1 * q.val = q.val; rw [e1]; omega

/-- Lane `q` of a [50000,128] array as a sequence of rows, zero past the last row. -/
def rowAt (φ : S50000x128.Idx → EReal) (q : Fin 128) (k : ℕ) : EReal :=
  if h : k < 50000 then φ (ix2 ⟨k, h⟩ q) else 0

/-- A sum over the rows of the block at point `t` is the sum over rows 5000 t … 5000 t + 4999 of the array. -/
theorem blockSum (φ : S50000x128.Idx → EReal) (t : ℕ) (ht : t < 10) (q : Fin 128) (f : Fin 5000 → EReal)
    (hf : ∀ (r : Fin 5000) (h : t * 5000 + r.val < 50000), f r = φ (ix2 ⟨t * 5000 + r.val, h⟩ q)) :
    ∑ r : Fin 5000, f r = ∑ k ∈ Finset.Ico (t * 5000) ((t + 1) * 5000), rowAt φ q k := by
  rw [Finset.sum_Ico_eq_sum_range, show (t + 1) * 5000 - t * 5000 = 5000 by omega,
    ← Fin.sum_univ_eq_sum_range (fun k => rowAt φ q (t * 5000 + k)) 5000]
  refine Finset.sum_congr rfl fun r _ => ?_
  have h : t * 5000 + r.val < 50000 := by have := r.isLt; omega
  rw [hf r h]; unfold rowAt; rw [dif_pos h]

/-! ## What the carried blocks hold after each point -/

/-- The region's input array. -/
abbrev X (c : Dev nD) : S50000x128.Idx → EReal := V c (Pipeline.arrRef spec1 0)
/-- Its elementwise square. -/
abbrev XX (c : Dev nD) : S50000x128.Idx → EReal := fun i => X V c i * X V c i

/-- At the first point of a half the blocks are reset and take the point's block sums. -/
theorem step_A (c : Dev nD) (t : Fin cfg1.N) (h0 : t.val % 5 = 0) (q : Fin 128) :
    (outsAt1 V c t.val t.isLt).1 (ix3 0 0 q) = ∑ k ∈ Finset.Ico (t.val * 5000) ((t.val + 1) * 5000), rowAt (X V c) q k
    ∧ (outsAt1 V c t.val t.isLt).2 (ix3 0 0 q) = ∑ k ∈ Finset.Ico (t.val * 5000) ((t.val + 1) * 5000), rowAt (XX V c) q k := by
  have hN : t.val < 10 := lt_of_lt_of_eq t.isLt (show cfg1.N = 10 from N_1)
  rw [outsAt1_A V c t h0]
  dsimp only
  refine ⟨?_, ?_⟩
  · refine (congrFun (out_A_1 c (grid1.coords t) (ms1_0 t) (hs1_0 t) (ms1_1 t) (hs1_1 t) (ms1_2 t) (hs1_2 t) ((hcond1_0 t).mpr h0) (iblk1 V c 0 t)) (ix3 0 0 q)).trans ?_
    refine (pay4_apply _ _ q).trans ?_
    rw [pay1_apply, zero_add]
    exact blockSum (X V c) t.val hN q _ (fun r h => iblk_apply V c t r q h)
  · refine (congrFun (out_A_2 c (grid1.coords t) (ms1_0 t) (hs1_0 t) (ms1_1 t) (hs1_1 t) (ms1_2 t) (hs1_2 t) ((hcond1_0 t).mpr h0) (iblk1 V c 0 t)) (ix3 0 0 q)).trans ?_
    refine (pay5_apply _ _ q).trans ?_
    rw [pay2_apply, zero_add]
    exact blockSum (XX V c) t.val hN q _ (fun r h => by rw [iblk_apply V c t r q h])

/-- At every other point the point's block sums are added to what the point before left. -/
theorem step_B (c : Dev nD) (t : Fin cfg1.N) (h0 : ¬t.val % 5 = 0) (q : Fin 128) :
    (outsAt1 V c t.val t.isLt).1 (ix3 0 0 q)
      = (outsAt1 V c (t.val - 1) (Nat.lt_of_le_of_lt (Nat.sub_le _ _) t.isLt)).1 (ix3 0 0 q)
        + ∑ k ∈ Finset.Ico (t.val * 5000) ((t.val + 1) * 5000), rowAt (X V c) q k
    ∧ (outsAt1 V c t.val t.isLt).2 (ix3 0 0 q)
      = (outsAt1 V c (t.val - 1) (Nat.lt_of_le_of_lt (Nat.sub_le _ _) t.isLt)).2 (ix3 0 0 q)
        + ∑ k ∈ Finset.Ico (t.val * 5000) ((t.val + 1) * 5000), rowAt (XX V c) q k := by
  have hN : t.val < 10 := lt_of_lt_of_eq t.isLt (show cfg1.N = 10 from N_1)
  rw [outsAt1_B V c t h0]
  dsimp only
  refine ⟨?_, ?_⟩
  · refine (congrFun (out_B_1 c (grid1.coords t) (ms1_0 t) (hs1_0 t) (ms1_1 t) (hs1_1 t) (ms1_2 t) (hs1_2 t) (fun h => h0 ((hcond1_0 t).mp h)) (iblk1 V c 0 t) _ _) (ix3 0 0 q)).trans ?_
    refine (pay4_apply _ _ q).trans ?_
    exact congrArg (_ + ·) (blockSum (X V c) t.val hN q _ (fun r h => iblk_apply V c t r q h))
  · refine (congrFun (out_B_2 c (grid1.coords t) (ms1_0 t) (hs1_0 t) (ms1_1 t) (hs1_1 t) (ms1_2 t) (hs1_2 t) (fun h => h0 ((hcond1_0 t).mp h)) (iblk1 V c 0 t) _ _) (ix3 0 0 q)).trans ?_
    refine (pay5_apply _ _ q).trans ?_
    exact congrArg (_ + ·) (blockSum (XX V c) t.val hN q _ (fun r h => by rw [iblk_apply V c t r q h]))

/-- After point `n` the carried blocks hold the sums over the rows of the half seen so far:
    rows 25000 (n / 5) … 5000 (n + 1) - 1. -/
theorem outsAt_eq (c : Dev nD) (q : Fin 128) : ∀ (n : ℕ) (h : n < cfg1.N),
    (outsAt1 V c n h).1 (ix3 0 0 q) = ∑ k ∈ Finset.Ico (n / 5 * 25000) ((n + 1) * 5000), rowAt (X V c) q k
    ∧ (outsAt1 V c n h).2 (ix3 0 0 q) = ∑ k ∈ Finset.Ico (n / 5 * 25000) ((n + 1) * 5000), rowAt (XX V c) q k
  | 0, h => step_A V c ⟨0, h⟩ rfl q
  | n + 1, h => by
    by_cases h0 : (n + 1) % 5 = 0
    · have e : (n + 1) / 5 * 25000 = (n + 1) * 5000 := by omega
      rw [e]
      exact step_A V c ⟨n + 1, h⟩ h0 q
    · have ih := outsAt_eq c q n (Nat.lt_of_succ_lt h)
      obtain ⟨s1, s2⟩ := step_B V c ⟨n + 1, h⟩ h0 q
      have hd : (n + 1) / 5 = n / 5 := by omega
      have hle1 : n / 5 * 25000 ≤ (n + 1) * 5000 := by omega
      have hle2 : (n + 1) * 5000 ≤ (n + 1 + 1) * 5000 := by omega
      refine ⟨s1.trans ?_, s2.trans ?_⟩
      · show (outsAt1 V c n (Nat.lt_of_succ_lt h)).1 (ix3 0 0 q) + ∑ k ∈ Finset.Ico ((n + 1) * 5000) ((n + 1 + 1) * 5000), rowAt (X V c) q k = _
        rw [ih.1, hd, Finset.sum_Ico_consecutive _ hle1 hle2]
      · show (outsAt1 V c n (Nat.lt_of_succ_lt h)).2 (ix3 0 0 q) + ∑ k ∈ Finset.Ico ((n + 1) * 5000) ((n + 1 + 1) * 5000), rowAt (XX V c) q k = _
        rw [ih.2, hd, Finset.sum_Ico_consecutive _ hle1 hle2]

/-! ## From the carried blocks to the output arrays -/

/-- Half `p`'s sum over its 25000 rows, lane `q`. -/
def half (φ : S50000x128.Idx → EReal) (p : Fin 2) (q : Fin 128) : EReal :=
  ∑ k ∈ Finset.Ico (p.val * 25000) ((p.val + 1) * 25000), rowAt φ q k

/-- What a [2,1,128] output array ends holding: entry (p, 0, q) is half `p`'s sum at lane `q`. -/
def halves (φ : S50000x128.Idx → EReal) : S2x1x128.Idx → EReal := fun i => half φ (i 0) (i 2)

/-- The output windows' block index at point `t` is (t / 5, 0, 0): decided over the grid. -/
theorem idx_out : ∀ t : Fin cfg1.N,
    (win1_1.index t (0 : Fin 3) = t.val / 5 ∧ win1_1.index t (1 : Fin 3) = 0 ∧ win1_1.index t (2 : Fin 3) = 0)
    ∧ (win1_2.index t (0 : Fin 3) = t.val / 5 ∧ win1_2.index t (1 : Fin 3) = 0 ∧ win1_2.index t (2 : Fin 3) = 0) :=
  (by decide +kernel : ∀ t : Fin grid1.N,
    (win1_1.index t (0 : Fin 3) = t.val / 5 ∧ win1_1.index t (1 : Fin 3) = 0 ∧ win1_1.index t (2 : Fin 3) = 0)
    ∧ (win1_2.index t (0 : Fin 3) = t.val / 5 ∧ win1_2.index t (1 : Fin 3) = 0 ∧ win1_2.index t (2 : Fin 3) = 0))

/-- The last point of a half writes back that half's whole sum. -/
theorem flushed1_eq (c : Dev nD) (t : Fin cfg1.N) (hf : (cfg1.win 1).flush t = true) :
    (dat1 V c).flushed 1 t = ((cfg1.win 1).blk t).view.read (Elt Ideal) (halves (X V c)) := by
  have hN : t.val < 10 := lt_of_lt_of_eq t.isLt (show cfg1.N = 10 from N_1)
  have h4 : t.val % 5 = 4 := (flush1_1 t).mp hf
  obtain ⟨⟨e0, e1, e2⟩, -⟩ := idx_out t
  show (cfg1.win 1).cut (grid1.coords t) ((dat1 V c).after 1 t) = _
  rw [after1_1]
  have key : ∀ y : S1x1x128.Idx, (outsAt1 V c t.val t.isLt).1 y = halves (X V c) (((cfg1.win 1).blk t).view.emb y) := by
    intro y
    obtain ⟨a, b, q, rfl⟩ : ∃ (a : Fin 1) (b : Fin 1) (q : Fin 128), y = ix3 a b q := ⟨y 0, y 1, y 2, eq_ix3 y⟩
    obtain rfl : a = 0 := Subsingleton.elim _ _
    obtain rfl : b = 0 := Subsingleton.elim _ _
    have hp : t.val / 5 < 2 := by omega
    have hemb : ((cfg1.win 1).blk t).view.emb (ix3 (0 : Fin 1) (0 : Fin 1) q) = (ix3 (⟨t.val / 5, hp⟩ : Fin 2) (0 : Fin 1) q : S2x1x128.Idx) := by
      funext a; apply Fin.ext
      match a with
      | ⟨0, _⟩ => show win1_1.index t (0 : Fin 3) * 1 + 1 * 0 = t.val / 5; rw [e0]; omega
      | ⟨1, _⟩ => show win1_1.index t (1 : Fin 3) * 1 + 1 * 0 = 0; rw [e1]
      | ⟨2, _⟩ => show win1_1.index t (2 : Fin 3) * 128 + 1 * q.val = q.val; rw [e2]; omega
    rw [hemb, (outsAt_eq V c q t.val t.isLt).1]
    show _ = ∑ k ∈ Finset.Ico (t.val / 5 * 25000) ((t.val / 5 + 1) * 25000), rowAt (X V c) q k
    rw [show (t.val + 1) * 5000 = (t.val / 5 + 1) * 25000 by omega]
  funext y
  rw [View.read_apply]
  exact key y

theorem flushed2_eq (c : Dev nD) (t : Fin cfg1.N) (hf : (cfg1.win 2).flush t = true) :
    (dat1 V c).flushed 2 t = ((cfg1.win 2).blk t).view.read (Elt Ideal) (halves (XX V c)) := by
  have hN : t.val < 10 := lt_of_lt_of_eq t.isLt (show cfg1.N = 10 from N_1)
  have h4 : t.val % 5 = 4 := (flush1_2 t).mp hf
  obtain ⟨-, e0, e1, e2⟩ := idx_out t
  show (cfg1.win 2).cut (grid1.coords t) ((dat1 V c).after 2 t) = _
  rw [after1_2]
  have key : ∀ y : S1x1x128.Idx, (outsAt1 V c t.val t.isLt).2 y = halves (XX V c) (((cfg1.win 2).blk t).view.emb y) := by
    intro y
    obtain ⟨a, b, q, rfl⟩ : ∃ (a : Fin 1) (b : Fin 1) (q : Fin 128), y = ix3 a b q := ⟨y 0, y 1, y 2, eq_ix3 y⟩
    obtain rfl : a = 0 := Subsingleton.elim _ _
    obtain rfl : b = 0 := Subsingleton.elim _ _
    have hp : t.val / 5 < 2 := by omega
    have hemb : ((cfg1.win 2).blk t).view.emb (ix3 (0 : Fin 1) (0 : Fin 1) q) = (ix3 (⟨t.val / 5, hp⟩ : Fin 2) (0 : Fin 1) q : S2x1x128.Idx) := by
      funext a; apply Fin.ext
      match a with
      | ⟨0, _⟩ => show win1_2.index t (0 : Fin 3) * 1 + 1 * 0 = t.val / 5; rw [e0]; omega
      | ⟨1, _⟩ => show win1_2.index t (1 : Fin 3) * 1 + 1 * 0 = 0; rw [e1]
      | ⟨2, _⟩ => show win1_2.index t (2 : Fin 3) * 128 + 1 * q.val = q.val; rw [e2]; omega
    rw [hemb, (outsAt_eq V c q t.val t.isLt).2]
    show _ = ∑ k ∈ Finset.Ico (t.val / 5 * 25000) ((t.val / 5 + 1) * 25000), rowAt (XX V c) q k
    rw [show (t.val + 1) * 5000 = (t.val / 5 + 1) * 25000 by omega]
  funext y
  rw [View.read_apply]
  exact key y

/-- An index of an output array is in point `t`'s block iff each coordinate is in the block's range on its axis. -/
theorem mem_blk1 (t : Fin cfg1.N) (i : S2x1x128.Idx) :
    i ∈ ((cfg1.win 1).blk t).view.set ↔ ∀ a : Fin 3, win1_1.index t a * S1x1x128.size a ≤ (i a).val ∧ (i a).val < win1_1.index t a * S1x1x128.size a + S1x1x128.size a := by
  show i ∈ ((View.whole main_v46_0).slice (win1_1.rect t)).set ↔ _
  rw [View.set_slice_whole, Rect.mem_set_unit]
  exact Iff.rfl
theorem mem_blk2 (t : Fin cfg1.N) (i : S2x1x128.Idx) :
    i ∈ ((cfg1.win 2).blk t).view.set ↔ ∀ a : Fin 3, win1_2.index t a * S1x1x128.size a ≤ (i a).val ∧ (i a).val < win1_2.index t a * S1x1x128.size a + S1x1x128.size a := by
  show i ∈ ((View.whole main_v46_1).slice (win1_2.rect t)).set ↔ _
  rw [View.set_slice_whole, Rect.mem_set_unit]
  exact Iff.rfl

/-- Row `p` of an output array is written back by the last point of half `p`, point 5 p + 4. -/
theorem cover1 (i : S2x1x128.Idx) : ∃ t : Fin cfg1.N, (cfg1.win 1).flush t = true ∧ i ∈ ((cfg1.win 1).blk t).view.set := by
  have hi0 : (i 0).val < 2 := (i 0).isLt
  have hi1 : (i 1).val < 1 := (i 1).isLt
  have hi2 : (i 2).val < 128 := (i 2).isLt
  have hN : cfg1.N = 10 := N_1
  let t : Fin cfg1.N := ⟨(i 0).val * 5 + 4, by rw [hN]; omega⟩
  have htv : t.val = (i 0).val * 5 + 4 := rfl
  obtain ⟨⟨e0, e1, e2⟩, -⟩ := idx_out t
  refine ⟨t, (flush1_1 t).mpr (by rw [htv]; omega), ?_⟩
  rw [mem_blk1]
  intro a
  match a with
  | ⟨0, _⟩ => show win1_1.index t (0 : Fin 3) * 1 ≤ (i 0).val ∧ (i 0).val < win1_1.index t (0 : Fin 3) * 1 + 1; rw [e0, htv]; omega
  | ⟨1, _⟩ => show win1_1.index t (1 : Fin 3) * 1 ≤ (i 1).val ∧ (i 1).val < win1_1.index t (1 : Fin 3) * 1 + 1; rw [e1]; omega
  | ⟨2, _⟩ => show win1_1.index t (2 : Fin 3) * 128 ≤ (i 2).val ∧ (i 2).val < win1_1.index t (2 : Fin 3) * 128 + 128; rw [e2]; omega

theorem cover2 (i : S2x1x128.Idx) : ∃ t : Fin cfg1.N, (cfg1.win 2).flush t = true ∧ i ∈ ((cfg1.win 2).blk t).view.set := by
  have hi0 : (i 0).val < 2 := (i 0).isLt
  have hi1 : (i 1).val < 1 := (i 1).isLt
  have hi2 : (i 2).val < 128 := (i 2).isLt
  have hN : cfg1.N = 10 := N_1
  let t : Fin cfg1.N := ⟨(i 0).val * 5 + 4, by rw [hN]; omega⟩
  have htv : t.val = (i 0).val * 5 + 4 := rfl
  obtain ⟨-, e0, e1, e2⟩ := idx_out t
  refine ⟨t, (flush1_2 t).mpr (by rw [htv]; omega), ?_⟩
  rw [mem_blk2]
  intro a
  match a with
  | ⟨0, _⟩ => show win1_2.index t (0 : Fin 3) * 1 ≤ (i 0).val ∧ (i 0).val < win1_2.index t (0 : Fin 3) * 1 + 1; rw [e0, htv]; omega
  | ⟨1, _⟩ => show win1_2.index t (1 : Fin 3) * 1 ≤ (i 1).val ∧ (i 1).val < win1_2.index t (1 : Fin 3) * 1 + 1; rw [e1]; omega
  | ⟨2, _⟩ => show win1_2.index t (2 : Fin 3) * 128 ≤ (i 2).val ∧ (i 2).val < win1_2.index t (2 : Fin 3) * 128 + 128; rw [e2]; omega

/-- The output arrays after the region: the two halves' sums, and the two halves' sums of squares. -/
theorem final_sum (c : Dev nD) : (dat1 (F := Ideal) V c).arrAt 1 cfg1.N = halves (X V c) :=
  (dat1 V c).arrAt_eq_of_cover 1 (halves (X V c)) (flushed1_eq V c) cover1
theorem final_sq (c : Dev nD) : (dat1 (F := Ideal) V c).arrAt 2 cfg1.N = halves (XX V c) :=
  (dat1 V c).arrAt_eq_of_cover 2 (halves (XX V c)) (flushed2_eq V c) cover2

/-! ## The two halves together: the sum over all 50000 rows -/

theorem half_add (φ : S50000x128.Idx → EReal) (q : Fin 128) :
    half φ 0 q + half φ 1 q = ∑ r : Fin 50000, φ (ix2 r q) := by
  unfold half
  show ∑ k ∈ Finset.Ico (0 * 25000) ((0 + 1) * 25000), rowAt φ q k + ∑ k ∈ Finset.Ico (1 * 25000) ((1 + 1) * 25000), rowAt φ q k = _
  rw [Finset.sum_Ico_consecutive _ (by omega) (by omega), show (0 : ℕ) * 25000 = 0 by omega, show ((1 : ℕ) + 1) * 25000 = 50000 by omega,
    ← Finset.range_eq_Ico, ← Fin.sum_univ_eq_sum_range (fun k => rowAt φ q k) 50000]
  refine Finset.sum_congr rfl fun r _ => ?_
  unfold rowAt; rw [dif_pos r.isLt]

/-- The two output arrays after the region, as functions on [2,1,128]. -/
abbrev sumArr (c : Dev nD) : S2x1x128.Idx → EReal := (dat1 (F := Ideal) V c).arrAt 1 cfg1.N
abbrev sqArr (c : Dev nD) : S2x1x128.Idx → EReal := (dat1 (F := Ideal) V c).arrAt 2 cfg1.N

/-- The two rows of the first output add up to the sum over all 50000 rows of the input, lane by lane. -/
theorem total_sum (c : Dev nD) (q : Fin 128) :
    sumArr V c (ix3 0 0 q) + sumArr V c (ix3 1 0 q) = ∑ r : Fin 50000, X V c (ix2 r q) := by
  unfold sumArr
  rw [final_sum V c]
  exact half_add (X V c) q

/-- The two rows of the second output add up to the sum of squares over all 50000 rows, lane by lane. -/
theorem total_sq (c : Dev nD) (q : Fin 128) :
    sqArr V c (ix3 0 0 q) + sqArr V c (ix3 1 0 q) = ∑ r : Fin 50000, X V c (ix2 r q) * X V c (ix2 r q) := by
  unfold sqArr
  rw [final_sq V c]
  exact half_add (XX V c) q

end Cert.KernelIdeal.Stats1

end
-- ==== Proof.Stats4.lean ====
import proofs.«128412_j31044023616094_2_alg».proof.Proof.Gen.KernelIdeal.Frame
import Idealize.ShloMosaic.PureOps.Ideal
import Idealize.ShloMosaic.PureOps.Ideal.Laws
import Idealize.ShloMosaic.Lib.ValueIdx
import Idealize.ShloMosaic.Lib.Pipeline.Value
import Idealize.ShloMosaic.Lib.ValueLayout
import Idealize.ShloMosaic.Lib.Tactic

/-!
  The column statistics of a [R,128] array accumulated over a grid (2, T): half `p` of the rows is summed, block of
  5000 rows by block, into row `p` of a [2,1,128] array (and the squares into a second one). Read over the extended
  reals: after the last point of half `p`, row `p` holds the sum over that half's rows, so the two rows together add
  up to the sum over all rows. Addition of extended reals is commutative and associative, so no finiteness is used.
-/

noncomputable section

namespace Cert.KernelIdeal.Stats4

open Cert.KernelIdeal Cert.KernelIdeal.Gen Idealize.ShloMosaic Idealize.ShloMosaic.TcCoe Idealize.SL.Sem Idealize.ShloMosaic.ValueIdx

theorem hz3 : (![0, 0, 0] : Fin 3 → Nat) = fun _ => 0 := funext fun a => by fin_cases a <;> rfl
theorem hz2 : (![0, 0] : Fin 2 → Nat) = fun _ => 0 := funext fun a => by fin_cases a <;> rfl

section Pieces
variable {F : FTy → Type} [FloatOps F]

/-- Case B, output 1: the one covering store's payload over the whole-buffer reads. -/
theorem out_B_1 (c : Dev nD) (i : grid4.Coords) (a2 : Memref sig .tc .vmem S5000x128 .f32) (h2 : a2.IsWhole)
    (a3 : Memref sig .tc .vmem S1x1x128 .f32) (h3 : a3.IsWhole) (a4 : Memref sig .tc .vmem S1x1x128 .f32) (h4 : a4.IsWhole)
    (hc : ¬cond4_0 i) (x : Vec F S5000x128 .f32) (xo1 xo2 : Vec F S1x1x128 .f32) :
    out4_B_1 c i a2 h2 a3 h3 a4 h4 hc x xo1 xo2 = k4_pay4 x xo1 := by
  unfold out4_B_1
  rw [View.read_writes_eq_canon _ _ _ (cover4_B_1 c i a2 h2 a3 h3 a4 h4 hc x xo1 xo2)]
  unfold kernelRun4_B
  dsimp only
  rw [View.canon_unit_zero hz3]
  simp only [View.readAt_eq_ld, h2.read_unread, h3.read_unread, View.ld_unit_zero (S := S5000x128) hz2,
    View.ld_unit_zero (S := S1x1x128) hz3]

/-- Case B, output 2. -/
theorem out_B_2 (c : Dev nD) (i : grid4.Coords) (a2 : Memref sig .tc .vmem S5000x128 .f32) (h2 : a2.IsWhole)
    (a3 : Memref sig .tc .vmem S1x1x128 .f32) (h3 : a3.IsWhole) (a4 : Memref sig .tc .vmem S1x1x128 .f32) (h4 : a4.IsWhole)
    (hc : ¬cond4_0 i) (x : Vec F S5000x128 .f32) (xo1 xo2 : Vec F S1x1x128 .f32) :
    out4_B_2 c i a2 h2 a3 h3 a4 h4 hc x xo1 xo2 = k4_pay5 x xo2 := by
  unfold out4_B_2
  rw [View.read_writes_eq_canon _ _ _ (cover4_B_2 c i a2 h2 a3 h3 a4 h4 hc x xo1 xo2)]
  unfold kernelRun4_B
  dsimp only
  rw [View.canon_unit_zero hz3]
  simp only [View.readAt_eq_ld, h2.read_unread, h4.read_unread, View.ld_unit_zero (S := S5000x128) hz2,
    View.ld_unit_zero (S := S1x1x128) hz3]

/-- Case A, output 1: the zero block is stored, read back, and the block's sum added to it. -/
theorem out_A_1 (c : Dev nD) (i : grid4.Coords) (a2 : Memref sig .tc .vmem S5000x128 .f32) (h2 : a2.IsWhole)
    (a3 : Memref sig .tc .vmem S1x1x128 .f32) (h3 : a3.IsWhole) (a4 : Memref sig .tc .vmem S1x1x128 .f32) (h4 : a4.IsWhole)
    (hc : cond4_0 i) (x : Vec F S5000x128 .f32) :
    out4_A_1 c i a2 h2 a3 h3 a4 h4 hc x = k4_pay4 x k4_pay1 := by
  unfold out4_A_1
  rw [View.read_writes_eq_canon _ _ _ (cover4_A_1 c i a2 h2 a3 h3 a4 h4 hc x)]
  unfold kernelRun4_A
  dsimp only
  sl_unfold_words
  rw [View.canon_cons_unit_zero (S := S1x1x128) hz3, View.readCov_unit_zero (S := S1x1x128) _ hz3]
  simp only [View.readAt_eq_ld, h2.read_unread, View.ld_unit_zero (S := S5000x128) hz2]

/-- Case A, output 2. -/
theorem out_A_2 (c : Dev nD) (i : grid4.Coords) (a2 : Memref sig .tc .vmem S5000x128 .f32) (h2 : a2.IsWhole)
    (a3 : Memref sig .tc .vmem S1x1x128 .f32) (h3 : a3.IsWhole) (a4 : Memref sig .tc .vmem S1x1x128 .f32) (h4 : a4.IsWhole)
    (hc : cond4_0 i) (x : Vec F S5000x128 .f32) :
    out4_A_2 c i a2 h2 a3 h3 a4 h4 hc x = k4_pay5 x k4_pay2 := by
  unfold out4_A_2
  rw [View.read_writes_eq_canon _ _ _ (cover4_A_2 c i a2 h2 a3 h3 a4 h4 hc x)]
  unfold kernelRun4_A
  dsimp only
  sl_unfold_words
  rw [View.canon_cons_unit_zero (S := S1x1x128) hz3, View.readCov_unit_zero (S := S1x1x128) _ hz3]
  simp only [View.readAt_eq_ld, h2.read_unread, View.ld_unit_zero (S := S5000x128) hz2]
end Pieces

/-! ## The payloads at an index, over the extended reals -/

/-- A sum over axis 0 of a [5000,128] block, at lane `q`: the sum over the 5000 rows. -/
theorem laneSum_apply (v : FVec Ideal S5000x128 .f32) (h : S5000x128.Reduces [0] S128) (hφ : FKind.Formats .f32)
    (hacc : (0x00000000#32 : BitVec 32) = 0x00000000#32) (q : Fin 128) :
    multiReduction (F := Ideal) .add [0] S128 v 0x00000000#32 h hφ hacc (ix1 q) = ∑ r : Fin 5000, v (ix2 r q) := by
  refine (Ideal.multiReduction_add_single v 0x00000000#32 h hφ hacc (ix1 q)).trans ?_
  exact Finset.sum_congr rfl fun r _ => congrArg v (funext fun a => by match a with | ⟨0, _⟩ => rfl | ⟨1, _⟩ => rfl)

/-- A [128] vector viewed [1,1,128] reads lane `q` at (0,0,q). -/
theorem lift3_apply (v : S128.Idx → EReal) (h1 : S128.ShapeCasts S1x128) (h2 : S1x128.ShapeCasts S1x1x128) (q : Fin 128) :
    shapeCast S1x1x128 (shapeCast S1x128 v h1) h2 (ix3 0 0 q) = v (ix1 q) := by
  refine (shapeCast_addUnit_apply ![1, 128] (shapeCast S1x128 v h1) h2 (ix3 0 0 q)).trans ?_
  refine (shapeCast_addUnit_apply ![128] v h1 _).trans ?_
  exact congrArg v (funext fun a => by match a with | ⟨0, _⟩ => rfl)

/-- The running sum's step: what was there plus the block's lane sum. -/
theorem pay4_apply (x : Vec Ideal S5000x128 .f32) (xo : Vec Ideal S1x1x128 .f32) (q : Fin 128) :
    k4_pay4 x xo (ix3 0 0 q) = xo (ix3 0 0 q) + ∑ r : Fin 5000, x (ix2 r q) := by
  unfold k4_pay4 k4_pay3
  dsimp only
  rw [shapeCast_self, shapeCast_self]
  refine (addf_apply _ _ _).trans ?_
  refine congrArg (xo (ix3 0 0 q) + ·) ?_
  refine (lift3_apply _ _ _ q).trans ?_
  exact laneSum_apply x _ _ _ q

/-- The running sum of squares' step. -/
theorem pay5_apply (x : Vec Ideal S5000x128 .f32) (xo : Vec Ideal S1x1x128 .f32) (q : Fin 128) :
    k4_pay5 x xo (ix3 0 0 q) = xo (ix3 0 0 q) + ∑ r : Fin 5000, x (ix2 r q) * x (ix2 r q) := by
  unfold k4_pay5 k4_pay3
  dsimp only
  rw [shapeCast_self, shapeCast_self]
  refine (addf_apply _ _ _).trans ?_
  refine congrArg (xo (ix3 0 0 q) + ·) ?_
  refine (lift3_apply _ _ _ q).trans ?_
  exact laneSum_apply (mulf x x) _ _ _ q

/-- The reset block is zero everywhere. -/
theorem pay1_apply (y : S1x1x128.Idx) : k4_pay1 (F := Ideal) y = 0 := by
  unfold k4_pay1
  exact Ideal.ofBits_zero_f32
theorem pay2_apply (y : S1x1x128.Idx) : k4_pay2 (F := Ideal) y = 0 := by
  unfold k4_pay2
  exact Ideal.ofBits_zero_f32

/-! ## The input block at a point, and its lane sums as ranges of rows -/

variable (V : (c : Dev nD) → (b : Ref sig .tc) → Buf (Elt Ideal) ((c : Thread nD τ).loc b))

/-- The input window's block index at point `t` is (t, 0): decided over the grid. -/
theorem idx_in : ∀ t : Fin cfg4.N, win4_0.index t (0 : Fin 2) = t.val ∧ win4_0.index t (1 : Fin 2) = 0 :=
  (by decide +kernel : ∀ t : Fin grid4.N, win4_0.index t (0 : Fin 2) = t.val ∧ win4_0.index t (1 : Fin 2) = 0)

/-- Row `r` of the block at point `t` is row `5000 t + r` of the array. -/
theorem iblk_apply (c : Dev nD) (t : Fin cfg4.N) (r : Fin 5000) (q : Fin 128) (h : t.val * 5000 + r.val < 100000) :
    (iblk4 V c 0 t : Vec Ideal S5000x128 .f32) (ix2 r q)
      = (V c (Pipeline.arrRef spec4 0) : S100000x128.Idx → EReal) (ix2 ⟨t.val * 5000 + r.val, h⟩ q) := by
  unfold iblk4
  rw [View.read_apply]
  show (V c (Pipeline.arrRef spec4 0) : S100000x128.Idx → EReal) (((cfg4.win 0).blk t).view.emb (ix2 r q)) = _
  refine congrArg (V c (Pipeline.arrRef spec4 0) : S100000x128.Idx → EReal) ?_
  obtain ⟨e0, e1⟩ := idx_in t
  funext a; apply Fin.ext
  match a with
  | ⟨0, _⟩ => show win4_0.index t (0 : Fin 2) * 5000 + 1 * r.val = t.val * 5000 + r.val; rw [e0]; omega
  | ⟨1, _⟩ => show win4_0.index t (1 : Fin 2) * 128 + 1 * q.val = q.val; rw [e1]; omega

/-- Lane `q` of a [100000,128] array as a sequence of rows, zero past the last row. -/
def rowAt (φ : S100000x128.Idx → EReal) (q : Fin 128) (k : ℕ) : EReal :=
  if h : k < 100000 then φ (ix2 ⟨k, h⟩ q) else 0

/-- A sum over the rows of the block at point `t` is the sum over rows 5000 t … 5000 t + 4999 of the array. -/
theorem blockSum (φ : S100000x128.Idx → EReal) (t : ℕ) (ht : t < 20) (q : Fin 128) (f : Fin 5000 → EReal)
    (hf : ∀ (r : Fin 5000) (h : t * 5000 + r.val < 100000), f r = φ (ix2 ⟨t * 5000 + r.val, h⟩ q)) :
    ∑ r : Fin 5000, f r = ∑ k ∈ Finset.Ico (t * 5000) ((t + 1) * 5000), rowAt φ q k := by
  rw [Finset.sum_Ico_eq_sum_range, show (t + 1) * 5000 - t * 5000 = 5000 by omega,
    ← Fin.sum_univ_eq_sum_range (fun k => rowAt φ q (t * 5000 + k)) 5000]
  refine Finset.sum_congr rfl fun r _ => ?_
  have h : t * 5000 + r.val < 100000 := by have := r.isLt; omega
  rw [hf r h]; unfold rowAt; rw [dif_pos h]

/-! ## What the carried blocks hold after each point -/

/-- The region's input array. -/
abbrev X (c : Dev nD) : S100000x128.Idx → EReal := V c (Pipeline.arrRef spec4 0)
/-- Its elementwise square. -/
abbrev XX (c : Dev nD) : S100000x128.Idx → EReal := fun i => X V c i * X V c i

/-- At the first point of a half the blocks are reset and take the point's block sums. -/
theorem step_A (c : Dev nD) (t : Fin cfg4.N) (h0 : t.val % 10 = 0) (q : Fin 128) :
    (outsAt4 V c t.val t.isLt).1 (ix3 0 0 q) = ∑ k ∈ Finset.Ico (t.val * 5000) ((t.val + 1) * 5000), rowAt (X V c) q k
    ∧ (outsAt4 V c t.val t.isLt).2 (ix3 0 0 q) = ∑ k ∈ Finset.Ico (t.val * 5000) ((t.val + 1) * 5000), rowAt (XX V c) q k := by
  have hN : t.val < 20 := lt_of_lt_of_eq t.isLt (show cfg4.N = 20 from N_4)
  rw [outsAt4_A V c t h0]
  dsimp only
  refine ⟨?_, ?_⟩
  · refine (congrFun (out_A_1 c (grid4.coords t) (ms4_0 t) (hs4_0 t) (ms4_1 t) (hs4_1 t) (ms4_2 t) (hs4_2 t) ((hcond4_0 t).mpr h0) (iblk4 V c 0 t)) (ix3 0 0 q)).trans ?_
    refine (pay4_apply _ _ q).trans ?_
    rw [pay1_apply, zero_add]
    exact blockSum (X V c) t.val hN q _ (fun r h => iblk_apply V c t r q h)
  · refine (congrFun (out_A_2 c (grid4.coords t) (ms4_0 t) (hs4_0 t) (ms4_1 t) (hs4_1 t) (ms4_2 t) (hs4_2 t) ((hcond4_0 t).mpr h0) (iblk4 V c 0 t)) (ix3 0 0 q)).trans ?_
    refine (pay5_apply _ _ q).trans ?_
    rw [pay2_apply, zero_add]
    exact blockSum (XX V c) t.val hN q _ (fun r h => by rw [iblk_apply V c t r q h])

/-- At every other point the point's block sums are added to what the point before left. -/
theorem step_B (c : Dev nD) (t : Fin cfg4.N) (h0 : ¬t.val % 10 = 0) (q : Fin 128) :
    (outsAt4 V c t.val t.isLt).1 (ix3 0 0 q)
      = (outsAt4 V c (t.val - 1) (Nat.lt_of_le_of_lt (Nat.sub_le _ _) t.isLt)).1 (ix3 0 0 q)
        + ∑ k ∈ Finset.Ico (t.val * 5000) ((t.val + 1) * 5000), rowAt (X V c) q k
    ∧ (outsAt4 V c t.val t.isLt).2 (ix3 0 0 q)
      = (outsAt4 V c (t.val - 1) (Nat.lt_of_le_of_lt (Nat.sub_le _ _) t.isLt)).2 (ix3 0 0 q)
        + ∑ k ∈ Finset.Ico (t.val * 5000) ((t.val + 1) * 5000), rowAt (XX V c) q k := by
  have hN : t.val < 20 := lt_of_lt_of_eq t.isLt (show cfg4.N = 20 from N_4)
  rw [outsAt4_B V c t h0]
  dsimp only
  refine ⟨?_, ?_⟩
  · refine (congrFun (out_B_1 c (grid4.coords t) (ms4_0 t) (hs4_0 t) (ms4_1 t) (hs4_1 t) (ms4_2 t) (hs4_2 t) (fun h => h0 ((hcond4_0 t).mp h)) (iblk4 V c 0 t) _ _) (ix3 0 0 q)).trans ?_
    refine (pay4_apply _ _ q).trans ?_
    exact congrArg (_ + ·) (blockSum (X V c) t.val hN q _ (fun r h => iblk_apply V c t r q h))
  · refine (congrFun (out_B_2 c (grid4.coords t) (ms4_0 t) (hs4_0 t) (ms4_1 t) (hs4_1 t) (ms4_2 t) (hs4_2 t) (fun h => h0 ((hcond4_0 t).mp h)) (iblk4 V c 0 t) _ _) (ix3 0 0 q)).trans ?_
    refine (pay5_apply _ _ q).trans ?_
    exact congrArg (_ + ·) (blockSum (XX V c) t.val hN q _ (fun r h => by rw [iblk_apply V c t r q h]))

/-- After point `n` the carried blocks hold the sums over the rows of the half seen so far:
    rows 50000 (n / 10) … 5000 (n + 1) - 1. -/
theorem outsAt_eq (c : Dev nD) (q : Fin 128) : ∀ (n : ℕ) (h : n < cfg4.N),
    (outsAt4 V c n h).1 (ix3 0 0 q) = ∑ k ∈ Finset.Ico (n / 10 * 50000) ((n + 1) * 5000), rowAt (X V c) q k
    ∧ (outsAt4 V c n h).2 (ix3 0 0 q) = ∑ k ∈ Finset.Ico (n / 10 * 50000) ((n + 1) * 5000), rowAt (XX V c) q k
  | 0, h => step_A V c ⟨0, h⟩ rfl q
  | n + 1, h => by
    by_cases h0 : (n + 1) % 10 = 0
    · have e : (n + 1) / 10 * 50000 = (n + 1) * 5000 := by omega
      rw [e]
      exact step_A V c ⟨n + 1, h⟩ h0 q
    · have ih := outsAt_eq c q n (Nat.lt_of_succ_lt h)
      obtain ⟨s1, s2⟩ := step_B V c ⟨n + 1, h⟩ h0 q
      have hd : (n + 1) / 10 = n / 10 := by omega
      have hle1 : n / 10 * 50000 ≤ (n + 1) * 5000 := by omega
      have hle2 : (n + 1) * 5000 ≤ (n + 1 + 1) * 5000 := by omega
      refine ⟨s1.trans ?_, s2.trans ?_⟩
      · show (outsAt4 V c n (Nat.lt_of_succ_lt h)).1 (ix3 0 0 q) + ∑ k ∈ Finset.Ico ((n + 1) * 5000) ((n + 1 + 1) * 5000), rowAt (X V c) q k = _
        rw [ih.1, hd, Finset.sum_Ico_consecutive _ hle1 hle2]
      · show (outsAt4 V c n (Nat.lt_of_succ_lt h)).2 (ix3 0 0 q) + ∑ k ∈ Finset.Ico ((n + 1) * 5000) ((n + 1 + 1) * 5000), rowAt (XX V c) q k = _
        rw [ih.2, hd, Finset.sum_Ico_consecutive _ hle1 hle2]

/-! ## From the carried blocks to the output arrays -/

/-- Half `p`'s sum over its 50000 rows, lane `q`. -/
def half (φ : S100000x128.Idx → EReal) (p : Fin 2) (q : Fin 128) : EReal :=
  ∑ k ∈ Finset.Ico (p.val * 50000) ((p.val + 1) * 50000), rowAt φ q k

/-- What a [2,1,128] output array ends holding: entry (p, 0, q) is half `p`'s sum at lane `q`. -/
def halves (φ : S100000x128.Idx → EReal) : S2x1x128.Idx → EReal := fun i => half φ (i 0) (i 2)

/-- The output windows' block index at point `t` is (t / 10, 0, 0): decided over the grid. -/
theorem idx_out : ∀ t : Fin cfg4.N,
    (win4_1.index t (0 : Fin 3) = t.val / 10 ∧ win4_1.index t (1 : Fin 3) = 0 ∧ win4_1.index t (2 : Fin 3) = 0)
    ∧ (win4_2.index t (0 : Fin 3) = t.val / 10 ∧ win4_2.index t (1 : Fin 3) = 0 ∧ win4_2.index t (2 : Fin 3) = 0) :=
  (by decide +kernel : ∀ t : Fin grid4.N,
    (win4_1.index t (0 : Fin 3) = t.val / 10 ∧ win4_1.index t (1 : Fin 3) = 0 ∧ win4_1.index t (2 : Fin 3) = 0)
    ∧ (win4_2.index t (0 : Fin 3) = t.val / 10 ∧ win4_2.index t (1 : Fin 3) = 0 ∧ win4_2.index t (2 : Fin 3) = 0))

/-- The last point of a half writes back that half's whole sum. -/
theorem flushed1_eq (c : Dev nD) (t : Fin cfg4.N) (hf : (cfg4.win 1).flush t = true) :
    (dat4 V c).flushed 1 t = ((cfg4.win 1).blk t).view.read (Elt Ideal) (halves (X V c)) := by
  have hN : t.val < 20 := lt_of_lt_of_eq t.isLt (show cfg4.N = 20 from N_4)
  have h4 : t.val % 10 = 9 := (flush4_1 t).mp hf
  obtain ⟨⟨e0, e1, e2⟩, -⟩ := idx_out t
  show (cfg4.win 1).cut (grid4.coords t) ((dat4 V c).after 1 t) = _
  rw [after4_1]
  have key : ∀ y : S1x1x128.Idx, (outsAt4 V c t.val t.isLt).1 y = halves (X V c) (((cfg4.win 1).blk t).view.emb y) := by
    intro y
    obtain ⟨a, b, q, rfl⟩ : ∃ (a : Fin 1) (b : Fin 1) (q : Fin 128), y = ix3 a b q := ⟨y 0, y 1, y 2, eq_ix3 y⟩
    obtain rfl : a = 0 := Subsingleton.elim _ _
    obtain rfl : b = 0 := Subsingleton.elim _ _
    have hp : t.val / 10 < 2 := by omega
    have hemb : ((cfg4.win 1).blk t).view.emb (ix3 (0 : Fin 1) (0 : Fin 1) q) = (ix3 (⟨t.val / 10, hp⟩ : Fin 2) (0 : Fin 1) q : S2x1x128.Idx) := by
      funext a; apply Fin.ext
      match a with
      | ⟨0, _⟩ => show win4_1.index t (0 : Fin 3) * 1 + 1 * 0 = t.val / 10; rw [e0]; omega
      | ⟨1, _⟩ => show win4_1.index t (1 : Fin 3) * 1 + 1 * 0 = 0; rw [e1]
      | ⟨2, _⟩ => show win4_1.index t (2 : Fin 3) * 128 + 1 * q.val = q.val; rw [e2]; omega
    rw [hemb, (outsAt_eq V c q t.val t.isLt).1]
    show _ = ∑ k ∈ Finset.Ico (t.val / 10 * 50000) ((t.val / 10 + 1) * 50000), rowAt (X V c) q k
    rw [show (t.val + 1) * 5000 = (t.val / 10 + 1) * 50000 by omega]
  funext y
  rw [View.read_apply]
  exact key y

theorem flushed2_eq (c : Dev nD) (t : Fin cfg4.N) (hf : (cfg4.win 2).flush t = true) :
    (dat4 V c).flushed 2 t = ((cfg4.win 2).blk t).view.read (Elt Ideal) (halves (XX V c)) := by
  have hN : t.val < 20 := lt_of_lt_of_eq t.isLt (show cfg4.N = 20 from N_4)
  have h4 : t.val % 10 = 9 := (flush4_2 t).mp hf
  obtain ⟨-, e0, e1, e2⟩ := idx_out t
  show (cfg4.win 2).cut (grid4.coords t) ((dat4 V c).after 2 t) = _
  rw [after4_2]
  have key : ∀ y : S1x1x128.Idx, (outsAt4 V c t.val t.isLt).2 y = halves (XX V c) (((cfg4.win 2).blk t).view.emb y) := by
    intro y
    obtain ⟨a, b, q, rfl⟩ : ∃ (a : Fin 1) (b : Fin 1) (q : Fin 128), y = ix3 a b q := ⟨y 0, y 1, y 2, eq_ix3 y⟩
    obtain rfl : a = 0 := Subsingleton.elim _ _
    obtain rfl : b = 0 := Subsingleton.elim _ _
    have hp : t.val / 10 < 2 := by omega
    have hemb : ((cfg4.win 2).blk t).view.emb (ix3 (0 : Fin 1) (0 : Fin 1) q) = (ix3 (⟨t.val / 10, hp⟩ : Fin 2) (0 : Fin 1) q : S2x1x128.Idx) := by
      funext a; apply Fin.ext
      match a with
      | ⟨0, _⟩ => show win4_2.index t (0 : Fin 3) * 1 + 1 * 0 = t.val / 10; rw [e0]; omega
      | ⟨1, _⟩ => show win4_2.index t (1 : Fin 3) * 1 + 1 * 0 = 0; rw [e1]
      | ⟨2, _⟩ => show win4_2.index t (2 : Fin 3) * 128 + 1 * q.val = q.val; rw [e2]; omega
    rw [hemb, (outsAt_eq V c q t.val t.isLt).2]
    show _ = ∑ k ∈ Finset.Ico (t.val / 10 * 50000) ((t.val / 10 + 1) * 50000), rowAt (XX V c) q k
    rw [show (t.val + 1) * 5000 = (t.val / 10 + 1) * 50000 by omega]
  funext y
  rw [View.read_apply]
  exact key y

/-- An index of an output array is in point `t`'s block iff each coordinate is in the block's range on its axis. -/
theorem mem_blk1 (t : Fin cfg4.N) (i : S2x1x128.Idx) :
    i ∈ ((cfg4.win 1).blk t).view.set ↔ ∀ a : Fin 3, win4_1.index t a * S1x1x128.size a ≤ (i a).val ∧ (i a).val < win4_1.index t a * S1x1x128.size a + S1x1x128.size a := by
  show i ∈ ((View.whole main_v85_0).slice (win4_1.rect t)).set ↔ _
  rw [View.set_slice_whole, Rect.mem_set_unit]
  exact Iff.rfl
theorem mem_blk2 (t : Fin cfg4.N) (i : S2x1x128.Idx) :
    i ∈ ((cfg4.win 2).blk t).view.set ↔ ∀ a : Fin 3, win4_2.index t a * S1x1x128.size a ≤ (i a).val ∧ (i a).val < win4_2.index t a * S1x1x128.size a + S1x1x128.size a := by
  show i ∈ ((View.whole main_v85_1).slice (win4_2.rect t)).set ↔ _
  rw [View.set_slice_whole, Rect.mem_set_unit]
  exact Iff.rfl

/-- Row `p` of an output array is written back by the last point of half `p`, point 10 p + 9. -/
theorem cover1 (i : S2x1x128.Idx) : ∃ t : Fin cfg4.N, (cfg4.win 1).flush t = true ∧ i ∈ ((cfg4.win 1).blk t).view.set := by
  have hi0 : (i 0).val < 2 := (i 0).isLt
  have hi1 : (i 1).val < 1 := (i 1).isLt
  have hi2 : (i 2).val < 128 := (i 2).isLt
  have hN : cfg4.N = 20 := N_4
  let t : Fin cfg4.N := ⟨(i 0).val * 10 + 9, by rw [hN]; omega⟩
  have htv : t.val = (i 0).val * 10 + 9 := rfl
  obtain ⟨⟨e0, e1, e2⟩, -⟩ := idx_out t
  refine ⟨t, (flush4_1 t).mpr (by rw [htv]; omega), ?_⟩
  rw [mem_blk1]
  intro a
  match a with
  | ⟨0, _⟩ => show win4_1.index t (0 : Fin 3) * 1 ≤ (i 0).val ∧ (i 0).val < win4_1.index t (0 : Fin 3) * 1 + 1; rw [e0, htv]; omega
  | ⟨1, _⟩ => show win4_1.index t (1 : Fin 3) * 1 ≤ (i 1).val ∧ (i 1).val < win4_1.index t (1 : Fin 3) * 1 + 1; rw [e1]; omega
  | ⟨2, _⟩ => show win4_1.index t (2 : Fin 3) * 128 ≤ (i 2).val ∧ (i 2).val < win4_1.index t (2 : Fin 3) * 128 + 128; rw [e2]; omega

theorem cover2 (i : S2x1x128.Idx) : ∃ t : Fin cfg4.N, (cfg4.win 2).flush t = true ∧ i ∈ ((cfg4.win 2).blk t).view.set := by
  have hi0 : (i 0).val < 2 := (i 0).isLt
  have hi1 : (i 1).val < 1 := (i 1).isLt
  have hi2 : (i 2).val < 128 := (i 2).isLt
  have hN : cfg4.N = 20 := N_4
  let t : Fin cfg4.N := ⟨(i 0).val * 10 + 9, by rw [hN]; omega⟩
  have htv : t.val = (i 0).val * 10 + 9 := rfl
  obtain ⟨-, e0, e1, e2⟩ := idx_out t
  refine ⟨t, (flush4_2 t).mpr (by rw [htv]; omega), ?_⟩
  rw [mem_blk2]
  intro a
  match a with
  | ⟨0, _⟩ => show win4_2.index t (0 : Fin 3) * 1 ≤ (i 0).val ∧ (i 0).val < win4_2.index t (0 : Fin 3) * 1 + 1; rw [e0, htv]; omega
  | ⟨1, _⟩ => show win4_2.index t (1 : Fin 3) * 1 ≤ (i 1).val ∧ (i 1).val < win4_2.index t (1 : Fin 3) * 1 + 1; rw [e1]; omega
  | ⟨2, _⟩ => show win4_2.index t (2 : Fin 3) * 128 ≤ (i 2).val ∧ (i 2).val < win4_2.index t (2 : Fin 3) * 128 + 128; rw [e2]; omega

/-- The output arrays after the region: the two halves' sums, and the two halves' sums of squares. -/
theorem final_sum (c : Dev nD) : (dat4 (F := Ideal) V c).arrAt 1 cfg4.N = halves (X V c) :=
  (dat4 V c).arrAt_eq_of_cover 1 (halves (X V c)) (flushed1_eq V c) cover1
theorem final_sq (c : Dev nD) : (dat4 (F := Ideal) V c).arrAt 2 cfg4.N = halves (XX V c) :=
  (dat4 V c).arrAt_eq_of_cover 2 (halves (XX V c)) (flushed2_eq V c) cover2

/-! ## The two halves together: the sum over all 100000 rows -/

theorem half_add (φ : S100000x128.Idx → EReal) (q : Fin 128) :
    half φ 0 q + half φ 1 q = ∑ r : Fin 100000, φ (ix2 r q) := by
  unfold half
  show ∑ k ∈ Finset.Ico (0 * 50000) ((0 + 1) * 50000), rowAt φ q k + ∑ k ∈ Finset.Ico (1 * 50000) ((1 + 1) * 50000), rowAt φ q k = _
  rw [Finset.sum_Ico_consecutive _ (by omega) (by omega), show (0 : ℕ) * 50000 = 0 by omega, show ((1 : ℕ) + 1) * 50000 = 100000 by omega,
    ← Finset.range_eq_Ico, ← Fin.sum_univ_eq_sum_range (fun k => rowAt φ q k) 100000]
  refine Finset.sum_congr rfl fun r _ => ?_
  unfold rowAt; rw [dif_pos r.isLt]

/-- The two output arrays after the region, as functions on [2,1,128]. -/
abbrev sumArr (c : Dev nD) : S2x1x128.Idx → EReal := (dat4 (F := Ideal) V c).arrAt 1 cfg4.N
abbrev sqArr (c : Dev nD) : S2x1x128.Idx → EReal := (dat4 (F := Ideal) V c).arrAt 2 cfg4.N

/-- The two rows of the first output add up to the sum over all 100000 rows of the input, lane by lane. -/
theorem total_sum (c : Dev nD) (q : Fin 128) :
    sumArr V c (ix3 0 0 q) + sumArr V c (ix3 1 0 q) = ∑ r : Fin 100000, X V c (ix2 r q) := by
  unfold sumArr
  rw [final_sum V c]
  exact half_add (X V c) q

/-- The two rows of the second output add up to the sum of squares over all 100000 rows, lane by lane. -/
theorem total_sq (c : Dev nD) (q : Fin 128) :
    sqArr V c (ix3 0 0 q) + sqArr V c (ix3 1 0 q) = ∑ r : Fin 100000, X V c (ix2 r q) * X V c (ix2 r q) := by
  unfold sqArr
  rw [final_sq V c]
  exact half_add (XX V c) q

end Cert.KernelIdeal.Stats4

end
-- ==== Proof.Norm2.lean ====
import proofs.«128412_j31044023616094_2_alg».proof.Proof.Gen.KernelIdeal.Frame
import Idealize.ShloMosaic.Lib.ValueIdx
import Idealize.ShloMosaic.Lib.Pipeline.Value
import Idealize.ShloMosaic.Lib.ValueLayout
import Idealize.ShloMosaic.PureOps.Ideal
import Idealize.ShloMosaic.PureOps.Ideal.Laws

noncomputable section

namespace Cert.KernelIdeal.Norm2

open Cert.KernelIdeal Cert.KernelIdeal.Gen Idealize.ShloMosaic Idealize.ShloMosaic.TcCoe Idealize.SL.Sem Idealize.ShloMosaic.ValueIdx

variable (V : (c : Dev nD) → (b : Ref sig .tc) → Buf (Elt Ideal) ((c : Thread nD τ).loc b))

/-- The zero offsets of a whole-block access, however spelt. -/
theorem hz : (![0, 0] : Fin 2 → Nat) = fun _ => 0 := funext fun a => by fin_cases a <;> rfl

/-! The region's arrays as it finds them, by role: the [50000,128] array and the five [1,128] rows. -/

/-- The array to normalise. -/
abbrev xs (c : Dev nD) : S50000x128.Idx → EReal := V c (Pipeline.arrRef spec2 0)
/-- The row of means. -/
abbrev mean (c : Dev nD) : S1x128.Idx → EReal := V c (Pipeline.arrRef spec2 1)
/-- The row of variances. -/
abbrev var (c : Dev nD) : S1x128.Idx → EReal := V c (Pipeline.arrRef spec2 2)
/-- The row of scales. -/
abbrev scale (c : Dev nD) : S1x128.Idx → EReal := V c (Pipeline.arrRef spec2 3)
/-- The row of shifts. -/
abbrev shift (c : Dev nD) : S1x128.Idx → EReal := V c (Pipeline.arrRef spec2 4)
/-- The row that scales the means. -/
abbrev ms (c : Dev nD) : S1x128.Idx → EReal := V c (Pipeline.arrRef spec2 5)

/-- One element of the normalised, scaled, shifted and rectified block: w · (x − ms · mean) · rsqrt(var + eps) + bias, cut below at 0. -/
def nrm (x mean var w bias ms : EReal) : EReal :=
  max ((w * (x - ms * mean)) * Ideal.rsqrt (var + Ideal.ofBits .f32 0x3727C5AC#32) + bias) 0

/-- The body's payload at an index: the block's element against the five row parameters at its column. -/
theorem pay_apply (x : Vec Ideal S10000x128 .f32) (mean var w bias ms : Vec Ideal S1x128 .f32) (p : Fin 10000) (q : Fin 128) :
    k2_pay1 x mean var w bias ms (ix2 p q)
      = nrm (x (ix2 p q)) (mean (ix2 (0 : Fin 1) q)) (var (ix2 (0 : Fin 1) q)) (w (ix2 (0 : Fin 1) q)) (bias (ix2 (0 : Fin 1) q)) (ms (ix2 (0 : Fin 1) q)) := by
  unfold k2_pay1
  simp only [shapeCast_self]
  simp only [maximumf_apply, addf_apply, mulf_apply, subf_apply, broadcast_apply, broadcastTo_1b_ab_apply]
  unfold nrm
  show max (w (ix2 (0 : Fin 1) q) * (x (ix2 p q) - ms (ix2 (0 : Fin 1) q) * mean (ix2 (0 : Fin 1) q)) * Ideal.rsqrt (var (ix2 (0 : Fin 1) q) + Ideal.ofBits .f32 0x3727C5AC#32) + bias (ix2 (0 : Fin 1) q)) (Ideal.ofBits .f32 0x00000000#32) = _
  rw [Ideal.ofBits_zero_f32]

/-- The parameter row's index under an index of the array: row 0, the same column. -/
def col (i : S50000x128.Idx) : S1x128.Idx := ix2 (0 : Fin 1) (⟨(i 1).val, idx2_lt1 i⟩ : Fin 128)

/-- What the output array ends holding, index by index: the first array's element normalised against the five rows at its column. -/
def normed (c : Dev nD) : S50000x128.Idx → Elt Ideal .f32 := fun i =>
  nrm (xs V c i) (mean V c (col i)) (var V c (col i)) (scale V c (col i)) (shift V c (col i)) (ms V c (col i))

/-! The printed index maps, decided over the grid: the array windows' block at point t is row block t, column block 0;
    every row parameter's one block is at the origin. -/

theorem idx_arr : ∀ t : Fin cfg2.N, win2_0.index t (0 : Fin 2) = t.val ∧ win2_0.index t (1 : Fin 2) = 0
    ∧ win2_6.index t (0 : Fin 2) = t.val ∧ win2_6.index t (1 : Fin 2) = 0 :=
  (by decide +kernel : ∀ t : Fin grid2.N, _)
theorem idx_par1 : ∀ t : Fin cfg2.N, win2_1.index t (0 : Fin 2) = 0 ∧ win2_1.index t (1 : Fin 2) = 0 :=
  (by decide +kernel : ∀ t : Fin grid2.N, _)
theorem idx_par2 : ∀ t : Fin cfg2.N, win2_2.index t (0 : Fin 2) = 0 ∧ win2_2.index t (1 : Fin 2) = 0 :=
  (by decide +kernel : ∀ t : Fin grid2.N, _)
theorem idx_par3 : ∀ t : Fin cfg2.N, win2_3.index t (0 : Fin 2) = 0 ∧ win2_3.index t (1 : Fin 2) = 0 :=
  (by decide +kernel : ∀ t : Fin grid2.N, _)
theorem idx_par4 : ∀ t : Fin cfg2.N, win2_4.index t (0 : Fin 2) = 0 ∧ win2_4.index t (1 : Fin 2) = 0 :=
  (by decide +kernel : ∀ t : Fin grid2.N, _)
theorem idx_par5 : ∀ t : Fin cfg2.N, win2_5.index t (0 : Fin 2) = 0 ∧ win2_5.index t (1 : Fin 2) = 0 :=
  (by decide +kernel : ∀ t : Fin grid2.N, _)

/-- The array's block at point t, read at a block index: the array at row t · 10000 + the block's row. -/
theorem blk0_apply (c : Dev nD) (t : Fin cfg2.N) (y : S10000x128.Idx) (i : S50000x128.Idx)
    (h0 : (i 0).val = t.val * 10000 + (y 0).val) (h1 : (i 1).val = (y 1).val) :
    (iblk2 V c 0 t : Vec Ideal S10000x128 .f32) y = (V c (Pipeline.arrRef spec2 0) : S50000x128.Idx → Elt Ideal .f32) i := by
  obtain ⟨e0, e1, -⟩ := idx_arr t
  unfold iblk2
  rw [View.read_apply]
  show (V c (Pipeline.arrRef spec2 0) : S50000x128.Idx → Elt Ideal .f32) (((cfg2.win 0).blk t).view.emb y) = (V c (Pipeline.arrRef spec2 0) : S50000x128.Idx → Elt Ideal .f32) i
  refine congrArg _ (funext fun a => Fin.ext ?_)
  match a with
  | ⟨0, _⟩ => show win2_0.index t 0 * 10000 + 1 * (y 0).val = (i 0).val; rw [e0, h0]; omega
  | ⟨1, _⟩ => show win2_0.index t 1 * 128 + 1 * (y 1).val = (i 1).val; rw [e1, h1]; omega

/-- The mean row's staged block at any point, read at an index: the row itself (its one block sits at the origin). -/
theorem par1_apply (c : Dev nD) (t : Fin cfg2.N) (y k : S1x128.Idx) (h1 : (k 1).val = (y 1).val) :
    (iblk2 V c 1 t : Vec Ideal S1x128 .f32) y = (V c (Pipeline.arrRef spec2 1) : S1x128.Idx → Elt Ideal .f32) k := by
  obtain ⟨e0, e1⟩ := idx_par1 t
  have hy : (y 0).val < 1 := (y 0).isLt
  have hk : (k 0).val < 1 := (k 0).isLt
  unfold iblk2
  rw [View.read_apply]
  show (V c (Pipeline.arrRef spec2 1) : S1x128.Idx → Elt Ideal .f32) (((cfg2.win 1).blk t).view.emb y) = (V c (Pipeline.arrRef spec2 1) : S1x128.Idx → Elt Ideal .f32) k
  refine congrArg _ (funext fun a => Fin.ext ?_)
  match a with
  | ⟨0, _⟩ => show win2_1.index t 0 * 1 + 1 * (y 0).val = (k 0).val; rw [e0]; omega
  | ⟨1, _⟩ => show win2_1.index t 1 * 128 + 1 * (y 1).val = (k 1).val; rw [e1, h1]; omega

/-- The variance row's staged block at any point, read at an index: the row itself (its one block sits at the origin). -/
theorem par2_apply (c : Dev nD) (t : Fin cfg2.N) (y k : S1x128.Idx) (h1 : (k 1).val = (y 1).val) :
    (iblk2 V c 2 t : Vec Ideal S1x128 .f32) y = (V c (Pipeline.arrRef spec2 2) : S1x128.Idx → Elt Ideal .f32) k := by
  obtain ⟨e0, e1⟩ := idx_par2 t
  have hy : (y 0).val < 1 := (y 0).isLt
  have hk : (k 0).val < 1 := (k 0).isLt
  unfold iblk2
  rw [View.read_apply]
  show (V c (Pipeline.arrRef spec2 2) : S1x128.Idx → Elt Ideal .f32) (((cfg2.win 2).blk t).view.emb y) = (V c (Pipeline.arrRef spec2 2) : S1x128.Idx → Elt Ideal .f32) k
  refine congrArg _ (funext fun a => Fin.ext ?_)
  match a with
  | ⟨0, _⟩ => show win2_2.index t 0 * 1 + 1 * (y 0).val = (k 0).val; rw [e0]; omega
  | ⟨1, _⟩ => show win2_2.index t 1 * 128 + 1 * (y 1).val = (k 1).val; rw [e1, h1]; omega

/-- The scale row's staged block at any point, read at an index: the row itself (its one block sits at the origin). -/
theorem par3_apply (c : Dev nD) (t : Fin cfg2.N) (y k : S1x128.Idx) (h1 : (k 1).val = (y 1).val) :
    (iblk2 V c 3 t : Vec Ideal S1x128 .f32) y = (V c (Pipeline.arrRef spec2 3) : S1x128.Idx → Elt Ideal .f32) k := by
  obtain ⟨e0, e1⟩ := idx_par3 t
  have hy : (y 0).val < 1 := (y 0).isLt
  have hk : (k 0).val < 1 := (k 0).isLt
  unfold iblk2
  rw [View.read_apply]
  show (V c (Pipeline.arrRef spec2 3) : S1x128.Idx → Elt Ideal .f32) (((cfg2.win 3).blk t).view.emb y) = (V c (Pipeline.arrRef spec2 3) : S1x128.Idx → Elt Ideal .f32) k
  refine congrArg _ (funext fun a => Fin.ext ?_)
  match a with
  | ⟨0, _⟩ => show win2_3.index t 0 * 1 + 1 * (y 0).val = (k 0).val; rw [e0]; omega
  | ⟨1, _⟩ => show win2_3.index t 1 * 128 + 1 * (y 1).val = (k 1).val; rw [e1, h1]; omega

/-- The shift row's staged block at any point, read at an index: the row itself (its one block sits at the origin). -/
theorem par4_apply (c : Dev nD) (t : Fin cfg2.N) (y k : S1x128.Idx) (h1 : (k 1).val = (y 1).val) :
    (iblk2 V c 4 t : Vec Ideal S1x128 .f32) y = (V c (Pipeline.arrRef spec2 4) : S1x128.Idx → Elt Ideal .f32) k := by
  obtain ⟨e0, e1⟩ := idx_par4 t
  have hy : (y 0).val < 1 := (y 0).isLt
  have hk : (k 0).val < 1 := (k 0).isLt
  unfold iblk2
  rw [View.read_apply]
  show (V c (Pipeline.arrRef spec2 4) : S1x128.Idx → Elt Ideal .f32) (((cfg2.win 4).blk t).view.emb y) = (V c (Pipeline.arrRef spec2 4) : S1x128.Idx → Elt Ideal .f32) k
  refine congrArg _ (funext fun a => Fin.ext ?_)
  match a with
  | ⟨0, _⟩ => show win2_4.index t 0 * 1 + 1 * (y 0).val = (k 0).val; rw [e0]; omega
  | ⟨1, _⟩ => show win2_4.index t 1 * 128 + 1 * (y 1).val = (k 1).val; rw [e1, h1]; omega

/-- The mean-scale row's staged block at any point, read at an index: the row itself (its one block sits at the origin). -/
theorem par5_apply (c : Dev nD) (t : Fin cfg2.N) (y k : S1x128.Idx) (h1 : (k 1).val = (y 1).val) :
    (iblk2 V c 5 t : Vec Ideal S1x128 .f32) y = (V c (Pipeline.arrRef spec2 5) : S1x128.Idx → Elt Ideal .f32) k := by
  obtain ⟨e0, e1⟩ := idx_par5 t
  have hy : (y 0).val < 1 := (y 0).isLt
  have hk : (k 0).val < 1 := (k 0).isLt
  unfold iblk2
  rw [View.read_apply]
  show (V c (Pipeline.arrRef spec2 5) : S1x128.Idx → Elt Ideal .f32) (((cfg2.win 5).blk t).view.emb y) = (V c (Pipeline.arrRef spec2 5) : S1x128.Idx → Elt Ideal .f32) k
  refine congrArg _ (funext fun a => Fin.ext ?_)
  match a with
  | ⟨0, _⟩ => show win2_5.index t 0 * 1 + 1 * (y 0).val = (k 0).val; rw [e0]; omega
  | ⟨1, _⟩ => show win2_5.index t 1 * 128 + 1 * (y 1).val = (k 1).val; rw [e1, h1]; omega

/-- Equal arguments, equal elements. -/
theorem nrm_congr {x x' mean mean' var var' w w' bias bias' ms ms' : EReal} (h0 : x = x') (h1 : mean = mean') (h2 : var = var')
    (h3 : w = w') (h4 : bias = bias') (h5 : ms = ms') : nrm x mean var w bias ms = nrm x' mean' var' w' bias' ms' := by
  subst h0 h1 h2 h3 h4 h5; rfl

/-- What point t writes back is block t of the normalised array. -/
theorem flushed_eq (c : Dev nD) (t : Fin cfg2.N) :
    (dat2 (F := Ideal) V c).flushed 6 t = ((cfg2.win 6).blk t).view.read (Elt Ideal) (normed V c) := by
  show (cfg2.win 6).cut (grid2.coords t) ((dat2 V c).after 6 t) = _
  rw [after2_6]
  unfold out2_6
  rw [View.canon_unit_zero hz]
  simp only [View.ld_unit_zero (S := S10000x128) hz, View.ld_unit_zero (S := S1x128) hz]
  funext j
  obtain ⟨-, -, e0, e1⟩ := idx_arr t
  have hj0 : (j 0).val < 10000 := (j 0).isLt
  have hj1 : (j 1).val < 128 := (j 1).isLt
  have hpq : (win2 6).xinj (grid2.coords t) j = ix2 (⟨(j 0).val, hj0⟩ : Fin 10000) (⟨(j 1).val, hj1⟩ : Fin 128) := by
    funext a; match a with | ⟨0, _⟩ => rfl | ⟨1, _⟩ => rfl
  have h0 : ((((cfg2.win 6).blk t).view.emb j) 0).val = t.val * 10000 + (j 0).val := by
    show win2_6.index t 0 * 10000 + 1 * (j 0).val = _; rw [e0]; omega
  have h1 : ((((cfg2.win 6).blk t).view.emb j) 1).val = (j 1).val := by
    show win2_6.index t 1 * 128 + 1 * (j 1).val = _; rw [e1]; omega
  show k2_pay1 (iblk2 V c 0 t) (iblk2 V c 1 t) (iblk2 V c 2 t) (iblk2 V c 3 t) (iblk2 V c 4 t) (iblk2 V c 5 t) ((win2 6).xinj (grid2.coords t) j)
      = normed V c (((cfg2.win 6).blk t).view.emb j)
  refine (congrArg (k2_pay1 (iblk2 V c 0 t) (iblk2 V c 1 t) (iblk2 V c 2 t) (iblk2 V c 3 t) (iblk2 V c 4 t) (iblk2 V c 5 t)) hpq).trans ?_
  refine (pay_apply (iblk2 V c 0 t) (iblk2 V c 1 t) (iblk2 V c 2 t) (iblk2 V c 3 t) (iblk2 V c 4 t) (iblk2 V c 5 t) ⟨(j 0).val, hj0⟩ ⟨(j 1).val, hj1⟩).trans ?_
  exact nrm_congr
    (blk0_apply V c t (ix2 ⟨(j 0).val, hj0⟩ ⟨(j 1).val, hj1⟩) (((cfg2.win 6).blk t).view.emb j) h0 h1)
    (par1_apply V c t (ix2 (0 : Fin 1) ⟨(j 1).val, hj1⟩) (col (((cfg2.win 6).blk t).view.emb j)) h1)
    (par2_apply V c t (ix2 (0 : Fin 1) ⟨(j 1).val, hj1⟩) (col (((cfg2.win 6).blk t).view.emb j)) h1)
    (par3_apply V c t (ix2 (0 : Fin 1) ⟨(j 1).val, hj1⟩) (col (((cfg2.win 6).blk t).view.emb j)) h1)
    (par4_apply V c t (ix2 (0 : Fin 1) ⟨(j 1).val, hj1⟩) (col (((cfg2.win 6).blk t).view.emb j)) h1)
    (par5_apply V c t (ix2 (0 : Fin 1) ⟨(j 1).val, hj1⟩) (col (((cfg2.win 6).blk t).view.emb j)) h1)

/-- An index of the array is in point t's block iff each coordinate is in the block's range on its axis. -/
theorem mem_blk (t : Fin cfg2.N) (i : S50000x128.Idx) :
    i ∈ ((cfg2.win 6).blk t).view.set ↔ ∀ a : Fin 2, win2_6.index t a * S10000x128.size a ≤ (i a).val ∧ (i a).val < win2_6.index t a * S10000x128.size a + S10000x128.size a := by
  show i ∈ ((View.whole main_v63).slice (win2_6.rect t)).set ↔ _
  rw [View.set_slice_whole, Rect.mem_set_unit]
  exact Iff.rfl

/-- Every row of the array lies in the block of the point its row index divided by the block height names. -/
theorem cover (i : S50000x128.Idx) : ∃ t : Fin cfg2.N, (cfg2.win 6).flush t = true ∧ i ∈ ((cfg2.win 6).blk t).view.set := by
  have hi0 : (i 0).val < 50000 := (i 0).isLt
  have hi1 : (i 1).val < 128 := (i 1).isLt
  have hN : grid2.N = 5 := N_2
  let t : Fin cfg2.N := ⟨(i 0).val / 10000, by show (i 0).val / 10000 < grid2.N; omega⟩
  obtain ⟨-, -, e0, e1⟩ := idx_arr t
  refine ⟨t, flush2_6 t, ?_⟩
  rw [mem_blk]
  intro a
  match a with
  | ⟨0, _⟩ => show win2_6.index t 0 * 10000 ≤ (i 0).val ∧ (i 0).val < win2_6.index t 0 * 10000 + 10000; rw [e0]; show (i 0).val / 10000 * 10000 ≤ (i 0).val ∧ (i 0).val < (i 0).val / 10000 * 10000 + 10000; omega
  | ⟨1, _⟩ => show win2_6.index t 1 * 128 ≤ (i 1).val ∧ (i 1).val < win2_6.index t 1 * 128 + 128; rw [e1]; omega

/-- The output array after the region: the normalised array. -/
theorem final_eq (c : Dev nD) : (dat2 (F := Ideal) V c).arrAt 6 cfg2.N = normed V c :=
  (dat2 (F := Ideal) V c).arrAt_eq_of_cover 6 (normed V c) (fun t _ => flushed_eq V c t) cover

/-- Element by element. -/
theorem final (c : Dev nD) (p : Fin 50000) (q : Fin 128) :
    ((dat2 (F := Ideal) V c).arrAt 6 cfg2.N : S50000x128.Idx → Elt Ideal .f32) (ix2 p q)
      = max ((scale V c (ix2 (0 : Fin 1) q) * (xs V c (ix2 p q) - ms V c (ix2 (0 : Fin 1) q) * mean V c (ix2 (0 : Fin 1) q)))
            * Ideal.rsqrt (var V c (ix2 (0 : Fin 1) q) + Ideal.ofBits .f32 0x3727C5AC#32)
          + shift V c (ix2 (0 : Fin 1) q)) 0 :=
  congrFun (final_eq V c) (ix2 p q)

/-! The same, as ONE function of six arrays. -/

/-- The normalisation of an array against five rows, index by index. -/
def norm (x : S50000x128.Idx → EReal) (mean var w bias ms : S1x128.Idx → EReal) : S50000x128.Idx → EReal := fun i =>
  max ((w (col i) * (x i - ms (col i) * mean (col i))) * Ideal.rsqrt (var (col i) + Ideal.ofBits .f32 0x3727C5AC#32) + bias (col i)) 0

/-- The output array after the region is the normalisation of the region's first array against its five rows. -/
theorem arr_eq (c : Dev nD) : (dat2 (F := Ideal) V c).arrAt 6 cfg2.N
    = norm (V c (Pipeline.arrRef spec2 0)) (V c (Pipeline.arrRef spec2 1)) (V c (Pipeline.arrRef spec2 2)) (V c (Pipeline.arrRef spec2 3))
        (V c (Pipeline.arrRef spec2 4)) (V c (Pipeline.arrRef spec2 5)) :=
  final_eq V c

/-- The normalisation read at row p, column q. -/
theorem norm_apply (x : S50000x128.Idx → EReal) (mean var w bias ms : S1x128.Idx → EReal) (p : Fin 50000) (q : Fin 128) :
    norm x mean var w bias ms (ix2 p q)
      = max ((w (ix2 (0 : Fin 1) q) * (x (ix2 p q) - ms (ix2 (0 : Fin 1) q) * mean (ix2 (0 : Fin 1) q)))
            * Ideal.rsqrt (var (ix2 (0 : Fin 1) q) + Ideal.ofBits .f32 0x3727C5AC#32) + bias (ix2 (0 : Fin 1) q)) 0 := rfl

end Cert.KernelIdeal.Norm2

end
-- ==== Proof.KVal2.lean ====
/-
  The kernel program's values, continued: the two halves' column sums and sums of squares of the aggregated base features,
  the mean and the variance the host lines form from them, the normalised base features, and the same for the local
  graph up to its aggregation and its column statistics.
-/
import proofs.«128412_j31044023616094_2_alg».proof.Proof.KVal
import proofs.«128412_j31044023616094_2_alg».proof.Proof.Lin3
import proofs.«128412_j31044023616094_2_alg».proof.Proof.Stats1
import proofs.«128412_j31044023616094_2_alg».proof.Proof.Stats4
import proofs.«128412_j31044023616094_2_alg».proof.Proof.Norm2

set_option maxRecDepth 16384

noncomputable section

namespace Cert.KernelIdeal.KVal

open Cert.KernelIdeal Cert.KernelIdeal.Gen Cert.KernelIdeal.KHost Cert.KernelIdeal.KKeep
open Idealize.ShloMosaic Idealize.ShloMosaic.TcCoe Idealize.SL.Sem Idealize.ShloMosaic.StableHlo

variable (m : (ℓ : Loc nD τ sig) → Buf (Elt Ideal) ℓ) (ρ : Dev nD → PrngReg) (c : Dev nD)

/-! ## A buffer nothing writes holds its launch contents at every boundary -/

theorem W3_arg (r : Ref sig .tc) (h0 : r ∉ hostOps0_W) (h01 : r ∉ hostOps0_1_W) (h02 : r ∉ hostOps0_2_W) :
    W3 m ρ c (Proc.devRef .tc r) = W0 m ρ c (Proc.devRef .tc r) :=
  (W3_of m ρ c r h02).trans ((W2_of m ρ c r h01).trans (W1_of m ρ c r h0))
theorem W6_arg (r : Ref sig .tc) (h0 : r ∉ hostOps0_W) (h01 : r ∉ hostOps0_1_W) (h02 : r ∉ hostOps0_2_W)
    (hr0 : ∀ w, Pipeline.arrRef spec0 w ≠ r) (h1 : r ∉ hostOps1_W) (hr1 : ∀ w, Pipeline.arrRef spec1 w ≠ r) :
    W6 m ρ c (Proc.devRef .tc r) = W0 m ρ c (Proc.devRef .tc r) :=
  (W6_of_ne m ρ c r hr1).trans ((W5_of m ρ c r h1).trans ((W4_of_ne m ρ c r hr0).trans (W3_arg m ρ c r h0 h01 h02)))
theorem W8_arg (r : Ref sig .tc) (h0 : r ∉ hostOps0_W) (h01 : r ∉ hostOps0_1_W) (h02 : r ∉ hostOps0_2_W)
    (hr0 : ∀ w, Pipeline.arrRef spec0 w ≠ r) (h1 : r ∉ hostOps1_W) (hr1 : ∀ w, Pipeline.arrRef spec1 w ≠ r)
    (h2 : r ∉ hostOps2_W) (hr2 : ∀ w, Pipeline.arrRef spec2 w ≠ r) :
    W8 m ρ c (Proc.devRef .tc r) = W0 m ρ c (Proc.devRef .tc r) :=
  (W8_of_ne m ρ c r hr2).trans ((W7_of m ρ c r h2).trans (W6_arg m ρ c r h0 h01 h02 hr0 h1 hr1))
theorem W10_arg (r : Ref sig .tc) (h0 : r ∉ hostOps0_W) (h01 : r ∉ hostOps0_1_W) (h02 : r ∉ hostOps0_2_W)
    (hr0 : ∀ w, Pipeline.arrRef spec0 w ≠ r) (h1 : r ∉ hostOps1_W) (hr1 : ∀ w, Pipeline.arrRef spec1 w ≠ r)
    (h2 : r ∉ hostOps2_W) (hr2 : ∀ w, Pipeline.arrRef spec2 w ≠ r) (h3 : r ∉ hostOps3_W) (hr3 : ∀ w, Pipeline.arrRef spec3 w ≠ r) :
    W10 m ρ c (Proc.devRef .tc r) = W0 m ρ c (Proc.devRef .tc r) :=
  (W10_of_ne m ρ c r hr3).trans ((W9_of m ρ c r h3).trans (W8_arg m ρ c r h0 h01 h02 hr0 h1 hr1 h2 hr2))
theorem W12_arg (r : Ref sig .tc) (h0 : r ∉ hostOps0_W) (h01 : r ∉ hostOps0_1_W) (h02 : r ∉ hostOps0_2_W)
    (hr0 : ∀ w, Pipeline.arrRef spec0 w ≠ r) (h1 : r ∉ hostOps1_W) (hr1 : ∀ w, Pipeline.arrRef spec1 w ≠ r)
    (h2 : r ∉ hostOps2_W) (hr2 : ∀ w, Pipeline.arrRef spec2 w ≠ r) (h3 : r ∉ hostOps3_W) (hr3 : ∀ w, Pipeline.arrRef spec3 w ≠ r)
    (h4 : r ∉ hostOps4_W) (hr4 : ∀ w, Pipeline.arrRef spec4 w ≠ r) :
    W12 m ρ c (Proc.devRef .tc r) = W0 m ρ c (Proc.devRef .tc r) :=
  (W12_of_ne m ρ c r hr4).trans ((W11_of m ρ c r h4).trans (W10_arg m ρ c r h0 h01 h02 hr0 h1 hr1 h2 hr2 h3 hr3))
theorem W14_arg (r : Ref sig .tc) (h0 : r ∉ hostOps0_W) (h01 : r ∉ hostOps0_1_W) (h02 : r ∉ hostOps0_2_W)
    (hr0 : ∀ w, Pipeline.arrRef spec0 w ≠ r) (h1 : r ∉ hostOps1_W) (hr1 : ∀ w, Pipeline.arrRef spec1 w ≠ r)
    (h2 : r ∉ hostOps2_W) (hr2 : ∀ w, Pipeline.arrRef spec2 w ≠ r) (h3 : r ∉ hostOps3_W) (hr3 : ∀ w, Pipeline.arrRef spec3 w ≠ r)
    (h4 : r ∉ hostOps4_W) (hr4 : ∀ w, Pipeline.arrRef spec4 w ≠ r) (h5 : r ∉ hostOps5_W) (hr5 : ∀ w, Pipeline.arrRef spec5 w ≠ r) :
    W14 m ρ c (Proc.devRef .tc r) = W0 m ρ c (Proc.devRef .tc r) :=
  (W14_of_ne m ρ c r hr5).trans ((W13_of m ρ c r h5).trans (W12_arg m ρ c r h0 h01 h02 hr0 h1 hr1 h2 hr2 h3 hr3 h4 hr4))

/-! ## Region 1: the two halves' sums of the aggregated base features -/

theorem W6_sum : W6 m ρ c (Proc.devRef .tc main_v46_0) = Stats1.halves (aggBK m ρ c) := by
  refine (W6_arr m ρ c 1).trans ((Stats1.final_sum (V5 m ρ) c).trans ?_)
  rw [← W5_agg m ρ c]
theorem W6_sq : W6 m ρ c (Proc.devRef .tc main_v46_1) = Stats1.halves (fun i => aggBK m ρ c i * aggBK m ρ c i) := by
  refine (W6_arr m ρ c 2).trans ((Stats1.final_sq (V5 m ρ) c).trans ?_)
  rw [← W5_agg m ρ c]
theorem W6_agg : W6 m ρ c (Proc.devRef .tc main_v45) = aggBK m ρ c :=
  (W6_in0 m ρ c).trans (W5_agg m ρ c)

/-! ## The stretch before region 2: the mean, the variance, the norm's row parameters -/

/-- The base column mean as the kernel program forms it. -/
def meanBK : S1x128.Idx → EReal := meanK (F := Ideal) 0x47435000#32 (Stats1.halves (aggBK m ρ c))
/-- The base variance as the kernel program forms it. -/
def varBK : S1x128.Idx → EReal :=
  varK (F := Ideal) 0x47435000#32 (Stats1.halves (aggBK m ρ c)) (Stats1.halves (fun i => aggBK m ρ c i * aggBK m ρ c i)) (arg m ρ c main_arg13)

theorem W7_mean : W7 m ρ c (Proc.devRef .tc main_v50) = meanBK m ρ c := by
  refine (s2_mean (W6 m ρ c)).trans ?_
  unfold meanBK; rw [W6_sum]
theorem W7_var : W7 m ρ c (Proc.devRef .tc main_v59) = varBK m ρ c := by
  refine (s2_var (W6 m ρ c)).trans ?_
  unfold varBK; rw [W6_sum, W6_sq, W6_arg m ρ c main_arg13 (by decide) (by decide) (by decide) (by decide) (by decide) (by decide)]
theorem W7_w : W7 m ρ c (Proc.devRef .tc main_v60) = shapeCast S1x128 (arg m ρ c main_arg11) shapeCasts_S128_S1x128 := by
  refine (s2_w (W6 m ρ c)).trans ?_
  rw [W6_arg m ρ c main_arg11 (by decide) (by decide) (by decide) (by decide) (by decide) (by decide)]
theorem W7_b : W7 m ρ c (Proc.devRef .tc main_v61) = shapeCast S1x128 (arg m ρ c main_arg12) shapeCasts_S128_S1x128 := by
  refine (s2_b (W6 m ρ c)).trans ?_
  rw [W6_arg m ρ c main_arg12 (by decide) (by decide) (by decide) (by decide) (by decide) (by decide)]
theorem W7_ms : W7 m ρ c (Proc.devRef .tc main_v62) = shapeCast S1x128 (arg m ρ c main_arg13) shapeCasts_S128_S1x128 := by
  refine (s2_ms (W6 m ρ c)).trans ?_
  rw [W6_arg m ρ c main_arg13 (by decide) (by decide) (by decide) (by decide) (by decide) (by decide)]
theorem W7_agg : W7 m ρ c (Proc.devRef .tc main_v45) = aggBK m ρ c :=
  (s2_agg (W6 m ρ c)).trans (W6_agg m ρ c)

/-! ## Region 2: the normalised base features -/

/-- The normalised, rectified base features: region 2's output array. -/
def baseHK : S50000x128.Idx → EReal :=
  Norm2.norm (aggBK m ρ c) (meanBK m ρ c) (varBK m ρ c) (shapeCast S1x128 (arg m ρ c main_arg11) shapeCasts_S128_S1x128)
    (shapeCast S1x128 (arg m ρ c main_arg12) shapeCasts_S128_S1x128) (shapeCast S1x128 (arg m ρ c main_arg13) shapeCasts_S128_S1x128)

theorem W8_h : W8 m ρ c (Proc.devRef .tc main_v63) = baseHK m ρ c := by
  refine (W8_arr m ρ c 6).trans ((Norm2.arr_eq (V7 m ρ) c).trans ?_)
  unfold baseHK
  rw [← W7_var m ρ c, ← W7_mean m ρ c, ← W7_agg m ρ c, ← W7_w m ρ c, ← W7_b m ρ c, ← W7_ms m ρ c]

/-! ## The local graph: projection, aggregation, the halves' sums -/

theorem W9_wt : W9 m ρ c (Proc.devRef .tc main_v64) = transpose S128x128 [1, 0] (arg m ρ c main_arg9) transposes_S128x128_S128x128_1_0 := by
  refine (s3_wt (W8 m ρ c)).trans ?_
  rw [W8_arg m ρ c main_arg9 (by decide) (by decide) (by decide) (by decide) (by decide) (by decide) (by decide) (by decide)]
theorem W9_b2 : W9 m ρ c (Proc.devRef .tc main_v65) = shapeCast S1x128 (arg m ρ c main_arg10) shapeCasts_S128_S1x128 := by
  refine (s3_b2 (W8 m ρ c)).trans ?_
  rw [W8_arg m ρ c main_arg10 (by decide) (by decide) (by decide) (by decide) (by decide) (by decide) (by decide) (by decide)]
theorem W9_x : W9 m ρ c (Proc.devRef .tc main_arg3) = arg m ρ c main_arg3 :=
  (s3_x (W8 m ρ c)).trans (W8_arg m ρ c main_arg3 (by decide) (by decide) (by decide) (by decide) (by decide) (by decide) (by decide) (by decide))

/-- The projected local features: region 3's output array. -/
def lxK : S100000x128.Idx → EReal :=
  Lin3.lin (arg m ρ c main_arg3) (transpose S128x128 [1, 0] (arg m ρ c main_arg9) transposes_S128x128_S128x128_1_0)
    (shapeCast S1x128 (arg m ρ c main_arg10) shapeCasts_S128_S1x128)

theorem W10_lx : W10 m ρ c (Proc.devRef .tc main_v66) = lxK m ρ c := by
  refine (W10_arr m ρ c 3).trans ((Lin3.arr_eq (V9 m ρ) c).trans ?_)
  unfold lxK
  rw [← W9_x m ρ c, ← W9_wt m ρ c, ← W9_b2 m ρ c]

/-- The aggregated local features. -/
def aggLK : S100000x128.Idx → EReal := spmmL (F := Ideal) (lxK m ρ c) (arg m ρ c main_arg4) (arg m ρ c main_arg5)

theorem W11_agg : W11 m ρ c (Proc.devRef .tc main_v84) = aggLK m ρ c := by
  refine (s4_agg (W10 m ρ c)).trans ?_
  unfold aggLK
  rw [W10_lx, W10_arg m ρ c main_arg4 (by decide) (by decide) (by decide) (by decide) (by decide) (by decide) (by decide) (by decide) (by decide) (by decide), W10_arg m ρ c main_arg5 (by decide) (by decide) (by decide) (by decide) (by decide) (by decide) (by decide) (by decide) (by decide) (by decide)]

theorem W12_sum : W12 m ρ c (Proc.devRef .tc main_v85_0) = Stats4.halves (aggLK m ρ c) := by
  refine (W12_arr m ρ c 1).trans ((Stats4.final_sum (V11 m ρ) c).trans ?_)
  rw [← W11_agg m ρ c]
theorem W12_sq : W12 m ρ c (Proc.devRef .tc main_v85_1) = Stats4.halves (fun i => aggLK m ρ c i * aggLK m ρ c i) := by
  refine (W12_arr m ρ c 2).trans ((Stats4.final_sq (V11 m ρ) c).trans ?_)
  rw [← W11_agg m ρ c]
theorem W12_agg : W12 m ρ c (Proc.devRef .tc main_v84) = aggLK m ρ c :=
  (W12_in0 m ρ c).trans (W11_agg m ρ c)

/-- The normalised base features are still there when the copies' gather reads them. -/
theorem W12_h : W12 m ρ c (Proc.devRef .tc main_v63) = baseHK m ρ c :=
  (W12_of_ne m ρ c main_v63 (by decide)).trans ((W11_of m ρ c main_v63 (by decide)).trans
    ((W10_of_ne m ρ c main_v63 (by decide)).trans ((W9_of m ρ c main_v63 (by decide)).trans (W8_h m ρ c))))

end Cert.KernelIdeal.KVal

end
-- ==== Proof.Fused5.lean ====
import proofs.«128412_j31044023616094_2_alg».proof.Proof.Gen.KernelIdeal.Frame
import Idealize.ShloMosaic.Lib.ValueIdx
import Idealize.ShloMosaic.Lib.Pipeline.Value
import Idealize.ShloMosaic.Lib.ValueLayout
import Idealize.ShloMosaic.PureOps.Ideal
import Idealize.ShloMosaic.PureOps.Ideal.Laws

noncomputable section

namespace Cert.KernelIdeal.Fused5

open Cert.KernelIdeal Cert.KernelIdeal.Gen Idealize.ShloMosaic Idealize.ShloMosaic.TcCoe Idealize.SL.Sem Idealize.ShloMosaic.ValueIdx

variable (V : (c : Dev nD) → (b : Ref sig .tc) → Buf (Elt Ideal) ((c : Thread nD τ).loc b))

/-- The zero offsets of a whole-block access, however spelt. -/
theorem hz : (![0, 0] : Fin 2 → Nat) = fun _ => 0 := funext fun a => by fin_cases a <;> rfl

/-! The region's arrays as it finds them, by role: the two [100000,128] arrays and the five [1,128] rows. -/

/-- The array to normalise. -/
abbrev xs (c : Dev nD) : S100000x128.Idx → EReal := V c (Pipeline.arrRef spec5 0)
/-- The row of means. -/
abbrev mean (c : Dev nD) : S1x128.Idx → EReal := V c (Pipeline.arrRef spec5 1)
/-- The row of variances. -/
abbrev var (c : Dev nD) : S1x128.Idx → EReal := V c (Pipeline.arrRef spec5 2)
/-- The row of scales. -/
abbrev scale (c : Dev nD) : S1x128.Idx → EReal := V c (Pipeline.arrRef spec5 3)
/-- The row of shifts. -/
abbrev shift (c : Dev nD) : S1x128.Idx → EReal := V c (Pipeline.arrRef spec5 4)
/-- The row that scales the means. -/
abbrev ms (c : Dev nD) : S1x128.Idx → EReal := V c (Pipeline.arrRef spec5 5)
/-- The array mixed in after the normalisation. -/
abbrev gs (c : Dev nD) : S100000x128.Idx → EReal := V c (Pipeline.arrRef spec5 6)

/-- One element of the normalised, scaled, shifted and rectified block: w · (x − ms · mean) · rsqrt(var + eps) + bias, cut below at 0. -/
def nrm (x mean var w bias ms : EReal) : EReal :=
  max ((w * (x - ms * mean)) * Ideal.rsqrt (var + Ideal.ofBits .f32 0x3727C5AC#32) + bias) 0

/-- The mix of a normalised element and an element of the second array, with the two fixed weights. -/
def mix (n g : EReal) : EReal := Ideal.ofBits .f32 0x3F4CCCCD#32 * n + Ideal.ofBits .f32 0x3E4CCCCD#32 * g

/-- The body's payload at an index: the block's element normalised against the five row parameters at its column, mixed with the
    second block's element. -/
theorem pay_apply (x : Vec Ideal S10000x128 .f32) (mean var w bias ms : Vec Ideal S1x128 .f32) (g : Vec Ideal S10000x128 .f32) (p : Fin 10000) (q : Fin 128) :
    k5_pay1 x mean var w bias ms g (ix2 p q)
      = mix (nrm (x (ix2 p q)) (mean (ix2 (0 : Fin 1) q)) (var (ix2 (0 : Fin 1) q)) (w (ix2 (0 : Fin 1) q)) (bias (ix2 (0 : Fin 1) q)) (ms (ix2 (0 : Fin 1) q)))
          (g (ix2 p q)) := by
  unfold k5_pay1
  simp only [shapeCast_self]
  simp only [maximumf_apply, addf_apply, mulf_apply, subf_apply, broadcast_apply, broadcastTo_1b_ab_apply]
  unfold mix nrm
  show Ideal.ofBits .f32 0x3F4CCCCD#32 * max (w (ix2 (0 : Fin 1) q) * (x (ix2 p q) - ms (ix2 (0 : Fin 1) q) * mean (ix2 (0 : Fin 1) q)) * Ideal.rsqrt (var (ix2 (0 : Fin 1) q) + Ideal.ofBits .f32 0x3727C5AC#32) + bias (ix2 (0 : Fin 1) q)) (Ideal.ofBits .f32 0x00000000#32)
      + Ideal.ofBits .f32 0x3E4CCCCD#32 * g (ix2 p q) = _
  rw [Ideal.ofBits_zero_f32]

/-- The parameter row's index under an index of the array: row 0, the same column. -/
def col (i : S100000x128.Idx) : S1x128.Idx := ix2 (0 : Fin 1) (⟨(i 1).val, idx2_lt1 i⟩ : Fin 128)

/-- What the output array ends holding, index by index: the first array's element normalised against the five rows at its column,
    mixed with the second array's element. -/
def fusedArr (c : Dev nD) : S100000x128.Idx → Elt Ideal .f32 := fun i =>
  mix (nrm (xs V c i) (mean V c (col i)) (var V c (col i)) (scale V c (col i)) (shift V c (col i)) (ms V c (col i))) (gs V c i)

/-! The printed index maps, decided over the grid: the array windows' block at point t is row block t, column block 0;
    every row parameter's one block is at the origin. -/

theorem idx_arr : ∀ t : Fin cfg5.N, win5_0.index t (0 : Fin 2) = t.val ∧ win5_0.index t (1 : Fin 2) = 0
    ∧ win5_7.index t (0 : Fin 2) = t.val ∧ win5_7.index t (1 : Fin 2) = 0 :=
  (by decide +kernel : ∀ t : Fin grid5.N, _)
theorem idx_arr6 : ∀ t : Fin cfg5.N, win5_6.index t (0 : Fin 2) = t.val ∧ win5_6.index t (1 : Fin 2) = 0 :=
  (by decide +kernel : ∀ t : Fin grid5.N, _)
theorem idx_par1 : ∀ t : Fin cfg5.N, win5_1.index t (0 : Fin 2) = 0 ∧ win5_1.index t (1 : Fin 2) = 0 :=
  (by decide +kernel : ∀ t : Fin grid5.N, _)
theorem idx_par2 : ∀ t : Fin cfg5.N, win5_2.index t (0 : Fin 2) = 0 ∧ win5_2.index t (1 : Fin 2) = 0 :=
  (by decide +kernel : ∀ t : Fin grid5.N, _)
theorem idx_par3 : ∀ t : Fin cfg5.N, win5_3.index t (0 : Fin 2) = 0 ∧ win5_3.index t (1 : Fin 2) = 0 :=
  (by decide +kernel : ∀ t : Fin grid5.N, _)
theorem idx_par4 : ∀ t : Fin cfg5.N, win5_4.index t (0 : Fin 2) = 0 ∧ win5_4.index t (1 : Fin 2) = 0 :=
  (by decide +kernel : ∀ t : Fin grid5.N, _)
theorem idx_par5 : ∀ t : Fin cfg5.N, win5_5.index t (0 : Fin 2) = 0 ∧ win5_5.index t (1 : Fin 2) = 0 :=
  (by decide +kernel : ∀ t : Fin grid5.N, _)

/-- The array's block at point t, read at a block index: the array at row t · 10000 + the block's row. -/
theorem blk0_apply (c : Dev nD) (t : Fin cfg5.N) (y : S10000x128.Idx) (i : S100000x128.Idx)
    (h0 : (i 0).val = t.val * 10000 + (y 0).val) (h1 : (i 1).val = (y 1).val) :
    (iblk5 V c 0 t : Vec Ideal S10000x128 .f32) y = (V c (Pipeline.arrRef spec5 0) : S100000x128.Idx → Elt Ideal .f32) i := by
  obtain ⟨e0, e1, -⟩ := idx_arr t
  unfold iblk5
  rw [View.read_apply]
  show (V c (Pipeline.arrRef spec5 0) : S100000x128.Idx → Elt Ideal .f32) (((cfg5.win 0).blk t).view.emb y) = (V c (Pipeline.arrRef spec5 0) : S100000x128.Idx → Elt Ideal .f32) i
  refine congrArg _ (funext fun a => Fin.ext ?_)
  match a with
  | ⟨0, _⟩ => show win5_0.index t 0 * 10000 + 1 * (y 0).val = (i 0).val; rw [e0, h0]; omega
  | ⟨1, _⟩ => show win5_0.index t 1 * 128 + 1 * (y 1).val = (i 1).val; rw [e1, h1]; omega

/-- The second array's block at point t, read at a block index: the array at row t · 10000 + the block's row. -/
theorem blk6_apply (c : Dev nD) (t : Fin cfg5.N) (y : S10000x128.Idx) (i : S100000x128.Idx)
    (h0 : (i 0).val = t.val * 10000 + (y 0).val) (h1 : (i 1).val = (y 1).val) :
    (iblk5 V c 6 t : Vec Ideal S10000x128 .f32) y = (V c (Pipeline.arrRef spec5 6) : S100000x128.Idx → Elt Ideal .f32) i := by
  obtain ⟨e0, e1⟩ := idx_arr6 t
  unfold iblk5
  rw [View.read_apply]
  show (V c (Pipeline.arrRef spec5 6) : S100000x128.Idx → Elt Ideal .f32) (((cfg5.win 6).blk t).view.emb y) = (V c (Pipeline.arrRef spec5 6) : S100000x128.Idx → Elt Ideal .f32) i
  refine congrArg _ (funext fun a => Fin.ext ?_)
  match a with
  | ⟨0, _⟩ => show win5_6.index t 0 * 10000 + 1 * (y 0).val = (i 0).val; rw [e0, h0]; omega
  | ⟨1, _⟩ => show win5_6.index t 1 * 128 + 1 * (y 1).val = (i 1).val; rw [e1, h1]; omega

/-- The mean row's staged block at any point, read at an index: the row itself (its one block sits at the origin). -/
theorem par1_apply (c : Dev nD) (t : Fin cfg5.N) (y k : S1x128.Idx) (h1 : (k 1).val = (y 1).val) :
    (iblk5 V c 1 t : Vec Ideal S1x128 .f32) y = (V c (Pipeline.arrRef spec5 1) : S1x128.Idx → Elt Ideal .f32) k := by
  obtain ⟨e0, e1⟩ := idx_par1 t
  have hy : (y 0).val < 1 := (y 0).isLt
  have hk : (k 0).val < 1 := (k 0).isLt
  unfold iblk5
  rw [View.read_apply]
  show (V c (Pipeline.arrRef spec5 1) : S1x128.Idx → Elt Ideal .f32) (((cfg5.win 1).blk t).view.emb y) = (V c (Pipeline.arrRef spec5 1) : S1x128.Idx → Elt Ideal .f32) k
  refine congrArg _ (funext fun a => Fin.ext ?_)
  match a with
  | ⟨0, _⟩ => show win5_1.index t 0 * 1 + 1 * (y 0).val = (k 0).val; rw [e0]; omega
  | ⟨1, _⟩ => show win5_1.index t 1 * 128 + 1 * (y 1).val = (k 1).val; rw [e1, h1]; omega

/-- The variance row's staged block at any point, read at an index: the row itself (its one block sits at the origin). -/
theorem par2_apply (c : Dev nD) (t : Fin cfg5.N) (y k : S1x128.Idx) (h1 : (k 1).val = (y 1).val) :
    (iblk5 V c 2 t : Vec Ideal S1x128 .f32) y = (V c (Pipeline.arrRef spec5 2) : S1x128.Idx → Elt Ideal .f32) k := by
  obtain ⟨e0, e1⟩ := idx_par2 t
  have hy : (y 0).val < 1 := (y 0).isLt
  have hk : (k 0).val < 1 := (k 0).isLt
  unfold iblk5
  rw [View.read_apply]
  show (V c (Pipeline.arrRef spec5 2) : S1x128.Idx → Elt Ideal .f32) (((cfg5.win 2).blk t).view.emb y) = (V c (Pipeline.arrRef spec5 2) : S1x128.Idx → Elt Ideal .f32) k
  refine congrArg _ (funext fun a => Fin.ext ?_)
  match a with
  | ⟨0, _⟩ => show win5_2.index t 0 * 1 + 1 * (y 0).val = (k 0).val; rw [e0]; omega
  | ⟨1, _⟩ => show win5_2.index t 1 * 128 + 1 * (y 1).val = (k 1).val; rw [e1, h1]; omega

/-- The scale row's staged block at any point, read at an index: the row itself (its one block sits at the origin). -/
theorem par3_apply (c : Dev nD) (t : Fin cfg5.N) (y k : S1x128.Idx) (h1 : (k 1).val = (y 1).val) :
    (iblk5 V c 3 t : Vec Ideal S1x128 .f32) y = (V c (Pipeline.arrRef spec5 3) : S1x128.Idx → Elt Ideal .f32) k := by
  obtain ⟨e0, e1⟩ := idx_par3 t
  have hy : (y 0).val < 1 := (y 0).isLt
  have hk : (k 0).val < 1 := (k 0).isLt
  unfold iblk5
  rw [View.read_apply]
  show (V c (Pipeline.arrRef spec5 3) : S1x128.Idx → Elt Ideal .f32) (((cfg5.win 3).blk t).view.emb y) = (V c (Pipeline.arrRef spec5 3) : S1x128.Idx → Elt Ideal .f32) k
  refine congrArg _ (funext fun a => Fin.ext ?_)
  match a with
  | ⟨0, _⟩ => show win5_3.index t 0 * 1 + 1 * (y 0).val = (k 0).val; rw [e0]; omega
  | ⟨1, _⟩ => show win5_3.index t 1 * 128 + 1 * (y 1).val = (k 1).val; rw [e1, h1]; omega

/-- The shift row's staged block at any point, read at an index: the row itself (its one block sits at the origin). -/
theorem par4_apply (c : Dev nD) (t : Fin cfg5.N) (y k : S1x128.Idx) (h1 : (k 1).val = (y 1).val) :
    (iblk5 V c 4 t : Vec Ideal S1x128 .f32) y = (V c (Pipeline.arrRef spec5 4) : S1x128.Idx → Elt Ideal .f32) k := by
  obtain ⟨e0, e1⟩ := idx_par4 t
  have hy : (y 0).val < 1 := (y 0).isLt
  have hk : (k 0).val < 1 := (k 0).isLt
  unfold iblk5
  rw [View.read_apply]
  show (V c (Pipeline.arrRef spec5 4) : S1x128.Idx → Elt Ideal .f32) (((cfg5.win 4).blk t).view.emb y) = (V c (Pipeline.arrRef spec5 4) : S1x128.Idx → Elt Ideal .f32) k
  refine congrArg _ (funext fun a => Fin.ext ?_)
  match a with
  | ⟨0, _⟩ => show win5_4.index t 0 * 1 + 1 * (y 0).val = (k 0).val; rw [e0]; omega
  | ⟨1, _⟩ => show win5_4.index t 1 * 128 + 1 * (y 1).val = (k 1).val; rw [e1, h1]; omega

/-- The mean-scale row's staged block at any point, read at an index: the row itself (its one block sits at the origin). -/
theorem par5_apply (c : Dev nD) (t : Fin cfg5.N) (y k : S1x128.Idx) (h1 : (k 1).val = (y 1).val) :
    (iblk5 V c 5 t : Vec Ideal S1x128 .f32) y = (V c (Pipeline.arrRef spec5 5) : S1x128.Idx → Elt Ideal .f32) k := by
  obtain ⟨e0, e1⟩ := idx_par5 t
  have hy : (y 0).val < 1 := (y 0).isLt
  have hk : (k 0).val < 1 := (k 0).isLt
  unfold iblk5
  rw [View.read_apply]
  show (V c (Pipeline.arrRef spec5 5) : S1x128.Idx → Elt Ideal .f32) (((cfg5.win 5).blk t).view.emb y) = (V c (Pipeline.arrRef spec5 5) : S1x128.Idx → Elt Ideal .f32) k
  refine congrArg _ (funext fun a => Fin.ext ?_)
  match a with
  | ⟨0, _⟩ => show win5_5.index t 0 * 1 + 1 * (y 0).val = (k 0).val; rw [e0]; omega
  | ⟨1, _⟩ => show win5_5.index t 1 * 128 + 1 * (y 1).val = (k 1).val; rw [e1, h1]; omega

/-- Equal arguments, equal elements. -/
theorem nrm_congr {x x' mean mean' var var' w w' bias bias' ms ms' : EReal} (h0 : x = x') (h1 : mean = mean') (h2 : var = var')
    (h3 : w = w') (h4 : bias = bias') (h5 : ms = ms') : nrm x mean var w bias ms = nrm x' mean' var' w' bias' ms' := by
  subst h0 h1 h2 h3 h4 h5; rfl

/-- What point t writes back is block t of the normalised and mixed array. -/
theorem flushed_eq (c : Dev nD) (t : Fin cfg5.N) :
    (dat5 (F := Ideal) V c).flushed 7 t = ((cfg5.win 7).blk t).view.read (Elt Ideal) (fusedArr V c) := by
  show (cfg5.win 7).cut (grid5.coords t) ((dat5 V c).after 7 t) = _
  rw [after5_7]
  unfold out5_7
  rw [View.canon_unit_zero hz]
  simp only [View.ld_unit_zero (S := S10000x128) hz, View.ld_unit_zero (S := S1x128) hz]
  funext j
  obtain ⟨-, -, e0, e1⟩ := idx_arr t
  have hj0 : (j 0).val < 10000 := (j 0).isLt
  have hj1 : (j 1).val < 128 := (j 1).isLt
  have hpq : (win5 7).xinj (grid5.coords t) j = ix2 (⟨(j 0).val, hj0⟩ : Fin 10000) (⟨(j 1).val, hj1⟩ : Fin 128) := by
    funext a; match a with | ⟨0, _⟩ => rfl | ⟨1, _⟩ => rfl
  have h0 : ((((cfg5.win 7).blk t).view.emb j) 0).val = t.val * 10000 + (j 0).val := by
    show win5_7.index t 0 * 10000 + 1 * (j 0).val = _; rw [e0]; omega
  have h1 : ((((cfg5.win 7).blk t).view.emb j) 1).val = (j 1).val := by
    show win5_7.index t 1 * 128 + 1 * (j 1).val = _; rw [e1]; omega
  show k5_pay1 (iblk5 V c 0 t) (iblk5 V c 1 t) (iblk5 V c 2 t) (iblk5 V c 3 t) (iblk5 V c 4 t) (iblk5 V c 5 t) (iblk5 V c 6 t) ((win5 7).xinj (grid5.coords t) j)
      = fusedArr V c (((cfg5.win 7).blk t).view.emb j)
  refine (congrArg (k5_pay1 (iblk5 V c 0 t) (iblk5 V c 1 t) (iblk5 V c 2 t) (iblk5 V c 3 t) (iblk5 V c 4 t) (iblk5 V c 5 t) (iblk5 V c 6 t)) hpq).trans ?_
  refine (pay_apply (iblk5 V c 0 t) (iblk5 V c 1 t) (iblk5 V c 2 t) (iblk5 V c 3 t) (iblk5 V c 4 t) (iblk5 V c 5 t) (iblk5 V c 6 t) ⟨(j 0).val, hj0⟩ ⟨(j 1).val, hj1⟩).trans ?_
  refine congrArg₂ mix ?_ (blk6_apply V c t (ix2 ⟨(j 0).val, hj0⟩ ⟨(j 1).val, hj1⟩) (((cfg5.win 7).blk t).view.emb j) h0 h1)
  exact nrm_congr
    (blk0_apply V c t (ix2 ⟨(j 0).val, hj0⟩ ⟨(j 1).val, hj1⟩) (((cfg5.win 7).blk t).view.emb j) h0 h1)
    (par1_apply V c t (ix2 (0 : Fin 1) ⟨(j 1).val, hj1⟩) (col (((cfg5.win 7).blk t).view.emb j)) h1)
    (par2_apply V c t (ix2 (0 : Fin 1) ⟨(j 1).val, hj1⟩) (col (((cfg5.win 7).blk t).view.emb j)) h1)
    (par3_apply V c t (ix2 (0 : Fin 1) ⟨(j 1).val, hj1⟩) (col (((cfg5.win 7).blk t).view.emb j)) h1)
    (par4_apply V c t (ix2 (0 : Fin 1) ⟨(j 1).val, hj1⟩) (col (((cfg5.win 7).blk t).view.emb j)) h1)
    (par5_apply V c t (ix2 (0 : Fin 1) ⟨(j 1).val, hj1⟩) (col (((cfg5.win 7).blk t).view.emb j)) h1)

/-- An index of the array is in point t's block iff each coordinate is in the block's range on its axis. -/
theorem mem_blk (t : Fin cfg5.N) (i : S100000x128.Idx) :
    i ∈ ((cfg5.win 7).blk t).view.set ↔ ∀ a : Fin 2, win5_7.index t a * S10000x128.size a ≤ (i a).val ∧ (i a).val < win5_7.index t a * S10000x128.size a + S10000x128.size a := by
  show i ∈ ((View.whole main_v109).slice (win5_7.rect t)).set ↔ _
  rw [View.set_slice_whole, Rect.mem_set_unit]
  exact Iff.rfl

/-- Every row of the array lies in the block of the point its row index divided by the block height names. -/
theorem cover (i : S100000x128.Idx) : ∃ t : Fin cfg5.N, (cfg5.win 7).flush t = true ∧ i ∈ ((cfg5.win 7).blk t).view.set := by
  have hi0 : (i 0).val < 100000 := (i 0).isLt
  have hi1 : (i 1).val < 128 := (i 1).isLt
  have hN : grid5.N = 10 := N_5
  let t : Fin cfg5.N := ⟨(i 0).val / 10000, by show (i 0).val / 10000 < grid5.N; omega⟩
  obtain ⟨-, -, e0, e1⟩ := idx_arr t
  refine ⟨t, flush5_7 t, ?_⟩
  rw [mem_blk]
  intro a
  match a with
  | ⟨0, _⟩ => show win5_7.index t 0 * 10000 ≤ (i 0).val ∧ (i 0).val < win5_7.index t 0 * 10000 + 10000; rw [e0]; show (i 0).val / 10000 * 10000 ≤ (i 0).val ∧ (i 0).val < (i 0).val / 10000 * 10000 + 10000; omega
  | ⟨1, _⟩ => show win5_7.index t 1 * 128 ≤ (i 1).val ∧ (i 1).val < win5_7.index t 1 * 128 + 128; rw [e1]; omega

/-- The output array after the region: the normalised and mixed array. -/
theorem final_eq (c : Dev nD) : (dat5 (F := Ideal) V c).arrAt 7 cfg5.N = fusedArr V c :=
  (dat5 (F := Ideal) V c).arrAt_eq_of_cover 7 (fusedArr V c) (fun t _ => flushed_eq V c t) cover

/-- Element by element. -/
theorem final (c : Dev nD) (p : Fin 100000) (q : Fin 128) :
    ((dat5 (F := Ideal) V c).arrAt 7 cfg5.N : S100000x128.Idx → Elt Ideal .f32) (ix2 p q)
      = Ideal.ofBits .f32 0x3F4CCCCD#32
          * max ((scale V c (ix2 (0 : Fin 1) q) * (xs V c (ix2 p q) - ms V c (ix2 (0 : Fin 1) q) * mean V c (ix2 (0 : Fin 1) q)))
                * Ideal.rsqrt (var V c (ix2 (0 : Fin 1) q) + Ideal.ofBits .f32 0x3727C5AC#32)
              + shift V c (ix2 (0 : Fin 1) q)) 0
        + Ideal.ofBits .f32 0x3E4CCCCD#32 * gs V c (ix2 p q) :=
  congrFun (final_eq V c) (ix2 p q)

/-! The same, as ONE function of seven arrays. -/

/-- The normalisation of an array against five rows, mixed with a second array, index by index. -/
def fused (x : S100000x128.Idx → EReal) (mean var w bias ms : S1x128.Idx → EReal) (g : S100000x128.Idx → EReal) : S100000x128.Idx → EReal := fun i =>
  Ideal.ofBits .f32 0x3F4CCCCD#32
      * max ((w (col i) * (x i - ms (col i) * mean (col i))) * Ideal.rsqrt (var (col i) + Ideal.ofBits .f32 0x3727C5AC#32) + bias (col i)) 0
    + Ideal.ofBits .f32 0x3E4CCCCD#32 * g i

/-- The output array after the region is that function of the region's seven input arrays. -/
theorem arr_eq (c : Dev nD) : (dat5 (F := Ideal) V c).arrAt 7 cfg5.N
    = fused (V c (Pipeline.arrRef spec5 0)) (V c (Pipeline.arrRef spec5 1)) (V c (Pipeline.arrRef spec5 2)) (V c (Pipeline.arrRef spec5 3))
        (V c (Pipeline.arrRef spec5 4)) (V c (Pipeline.arrRef spec5 5)) (V c (Pipeline.arrRef spec5 6)) :=
  final_eq V c

/-- It read at row p, column q. -/
theorem fused_apply (x : S100000x128.Idx → EReal) (mean var w bias ms : S1x128.Idx → EReal) (g : S100000x128.Idx → EReal) (p : Fin 100000) (q : Fin 128) :
    fused x mean var w bias ms g (ix2 p q)
      = Ideal.ofBits .f32 0x3F4CCCCD#32
          * max ((w (ix2 (0 : Fin 1) q) * (x (ix2 p q) - ms (ix2 (0 : Fin 1) q) * mean (ix2 (0 : Fin 1) q)))
                * Ideal.rsqrt (var (ix2 (0 : Fin 1) q) + Ideal.ofBits .f32 0x3727C5AC#32) + bias (ix2 (0 : Fin 1) q)) 0
        + Ideal.ofBits .f32 0x3E4CCCCD#32 * g (ix2 p q) := rfl

end Cert.KernelIdeal.Fused5

end
-- ==== Proof.Mix6.lean ====
import proofs.«128412_j31044023616094_2_alg».proof.Proof.Gen.KernelIdeal.Frame
import Idealize.ShloMosaic.Lib.ValueIdx
import Idealize.ShloMosaic.Lib.Pipeline.Value
import Idealize.ShloMosaic.Lib.ValueLayout
import Idealize.ShloMosaic.PureOps.Ideal
import Idealize.ShloMosaic.PureOps.Ideal.Laws

noncomputable section

namespace Cert.KernelIdeal.Mix6

open Cert.KernelIdeal Cert.KernelIdeal.Gen Idealize.ShloMosaic Idealize.ShloMosaic.TcCoe Idealize.SL.Sem Idealize.ShloMosaic.ValueIdx

variable (V : (c : Dev nD) → (b : Ref sig .tc) → Buf (Elt Ideal) ((c : Thread nD τ).loc b))

/-- The zero offsets of a whole-block access, however spelt. -/
theorem hz : (![0, 0] : Fin 2 → Nat) = fun _ => 0 := funext fun a => by fin_cases a <;> rfl

/-- The body's payload at an index: the two blocks mixed with the two fixed weights. -/
theorem pay_apply (x0 x1 : Vec Ideal S10000x128 .f32) (j : S10000x128.Idx) :
    k6_pay1 x0 x1 j = Ideal.ofBits .f32 0x3F4CCCCD#32 * x0 j + Ideal.ofBits .f32 0x3E4CCCCD#32 * x1 j := by
  unfold k6_pay1
  rw [shapeCast_self, shapeCast_self]
  rfl

/-- The mix of the two input arrays, index by index: what the output array ends holding. -/
def mix (c : Dev nD) : S50000x128.Idx → Elt Ideal .f32 := fun i =>
  Ideal.ofBits .f32 0x3F4CCCCD#32 * (V c (Pipeline.arrRef spec6 0) : S50000x128.Idx → Elt Ideal .f32) i
    + Ideal.ofBits .f32 0x3E4CCCCD#32 * (V c (Pipeline.arrRef spec6 1) : S50000x128.Idx → Elt Ideal .f32) i

/-- The printed index maps, decided over the grid: every window's block at point t is row block t, column block 0. -/
theorem idx_facts : ∀ t : Fin cfg6.N, win6_0.index t (0 : Fin 2) = t.val ∧ win6_0.index t (1 : Fin 2) = 0
    ∧ win6_1.index t (0 : Fin 2) = t.val ∧ win6_1.index t (1 : Fin 2) = 0
    ∧ win6_2.index t (0 : Fin 2) = t.val ∧ win6_2.index t (1 : Fin 2) = 0 :=
  (by decide +kernel : ∀ t : Fin grid6.N, _)

/-- The first input's block at point t, read at a block index: the array at row t · 10000 + the block's row. -/
theorem blk0_apply (c : Dev nD) (t : Fin cfg6.N) (y : S10000x128.Idx) (i : S50000x128.Idx)
    (h0 : (i 0).val = t.val * 10000 + (y 0).val) (h1 : (i 1).val = (y 1).val) :
    (iblk6 V c 0 t : Vec Ideal S10000x128 .f32) y = (V c (Pipeline.arrRef spec6 0) : S50000x128.Idx → Elt Ideal .f32) i := by
  obtain ⟨e0, e1, -⟩ := idx_facts t
  unfold iblk6
  rw [View.read_apply]
  show (V c (Pipeline.arrRef spec6 0) : S50000x128.Idx → Elt Ideal .f32) (((cfg6.win 0).blk t).view.emb y) = (V c (Pipeline.arrRef spec6 0) : S50000x128.Idx → Elt Ideal .f32) i
  refine congrArg _ (funext fun a => Fin.ext ?_)
  match a with
  | ⟨0, _⟩ => show win6_0.index t 0 * 10000 + 1 * (y 0).val = (i 0).val; rw [e0, h0]; omega
  | ⟨1, _⟩ => show win6_0.index t 1 * 128 + 1 * (y 1).val = (i 1).val; rw [e1, h1]; omega

/-- The second input's block at point t, read at a block index. -/
theorem blk1_apply (c : Dev nD) (t : Fin cfg6.N) (y : S10000x128.Idx) (i : S50000x128.Idx)
    (h0 : (i 0).val = t.val * 10000 + (y 0).val) (h1 : (i 1).val = (y 1).val) :
    (iblk6 V c 1 t : Vec Ideal S10000x128 .f32) y = (V c (Pipeline.arrRef spec6 1) : S50000x128.Idx → Elt Ideal .f32) i := by
  obtain ⟨-, -, e0, e1, -⟩ := idx_facts t
  unfold iblk6
  rw [View.read_apply]
  show (V c (Pipeline.arrRef spec6 1) : S50000x128.Idx → Elt Ideal .f32) (((cfg6.win 1).blk t).view.emb y) = (V c (Pipeline.arrRef spec6 1) : S50000x128.Idx → Elt Ideal .f32) i
  refine congrArg _ (funext fun a => Fin.ext ?_)
  match a with
  | ⟨0, _⟩ => show win6_1.index t 0 * 10000 + 1 * (y 0).val = (i 0).val; rw [e0, h0]; omega
  | ⟨1, _⟩ => show win6_1.index t 1 * 128 + 1 * (y 1).val = (i 1).val; rw [e1, h1]; omega

/-- What point t writes back is block t of the mix of the arrays as the region finds them. -/
theorem flushed_eq (c : Dev nD) (t : Fin cfg6.N) :
    (dat6 (F := Ideal) V c).flushed 2 t = ((cfg6.win 2).blk t).view.read (Elt Ideal) (mix V c) := by
  show (cfg6.win 2).cut (grid6.coords t) ((dat6 V c).after 2 t) = _
  rw [after6_2]
  unfold out6_2
  rw [View.canon_unit_zero hz]
  simp only [View.ld_unit_zero (S := S10000x128) hz]
  funext j
  obtain ⟨-, -, -, -, e4, e5⟩ := idx_facts t
  show k6_pay1 (iblk6 V c 0 t) (iblk6 V c 1 t) ((win6 2).xinj (grid6.coords t) j) = mix V c (((cfg6.win 2).blk t).view.emb j)
  refine (pay_apply (iblk6 V c 0 t) (iblk6 V c 1 t) ((win6 2).xinj (grid6.coords t) j)).trans ?_
  have h0 : ((((cfg6.win 2).blk t).view.emb j) 0).val = t.val * 10000 + (j 0).val := by
    show win6_2.index t 0 * 10000 + 1 * (j 0).val = _; rw [e4]; omega
  have h1 : ((((cfg6.win 2).blk t).view.emb j) 1).val = (j 1).val := by
    show win6_2.index t 1 * 128 + 1 * (j 1).val = _; rw [e5]; omega
  exact congrArg₂ (fun u v : EReal => Ideal.ofBits .f32 0x3F4CCCCD#32 * u + Ideal.ofBits .f32 0x3E4CCCCD#32 * v)
    (blk0_apply V c t ((win6 2).xinj (grid6.coords t) j) (((cfg6.win 2).blk t).view.emb j) h0 h1)
    (blk1_apply V c t ((win6 2).xinj (grid6.coords t) j) (((cfg6.win 2).blk t).view.emb j) h0 h1)

/-- An index of the array is in point t's block iff each coordinate is in the block's range on its axis. -/
theorem mem_blk (t : Fin cfg6.N) (i : S50000x128.Idx) :
    i ∈ ((cfg6.win 2).blk t).view.set ↔ ∀ a : Fin 2, win6_2.index t a * S10000x128.size a ≤ (i a).val ∧ (i a).val < win6_2.index t a * S10000x128.size a + S10000x128.size a := by
  show i ∈ ((View.whole main_v122).slice (win6_2.rect t)).set ↔ _
  rw [View.set_slice_whole, Rect.mem_set_unit]
  exact Iff.rfl

/-- Every row of the array lies in the block of the point its row index divided by the block height names. -/
theorem cover (i : S50000x128.Idx) : ∃ t : Fin cfg6.N, (cfg6.win 2).flush t = true ∧ i ∈ ((cfg6.win 2).blk t).view.set := by
  have hi0 : (i 0).val < 50000 := (i 0).isLt
  have hi1 : (i 1).val < 128 := (i 1).isLt
  have hN : grid6.N = 5 := N_6
  let t : Fin cfg6.N := ⟨(i 0).val / 10000, by show (i 0).val / 10000 < grid6.N; omega⟩
  obtain ⟨-, -, -, -, e4, e5⟩ := idx_facts t
  refine ⟨t, flush6_2 t, ?_⟩
  rw [mem_blk]
  intro a
  match a with
  | ⟨0, _⟩ => show win6_2.index t 0 * 10000 ≤ (i 0).val ∧ (i 0).val < win6_2.index t 0 * 10000 + 10000; rw [e4]; show (i 0).val / 10000 * 10000 ≤ (i 0).val ∧ (i 0).val < (i 0).val / 10000 * 10000 + 10000; omega
  | ⟨1, _⟩ => show win6_2.index t 1 * 128 ≤ (i 1).val ∧ (i 1).val < win6_2.index t 1 * 128 + 128; rw [e5]; omega

/-- The output array after the region: the mix of the two input arrays as the region finds them. -/
theorem final_eq (c : Dev nD) : (dat6 (F := Ideal) V c).arrAt 2 cfg6.N = mix V c :=
  (dat6 (F := Ideal) V c).arrAt_eq_of_cover 2 (mix V c) (fun t _ => flushed_eq V c t) cover

/-- Element by element. -/
theorem final (c : Dev nD) (p : Fin 50000) (q : Fin 128) :
    ((dat6 (F := Ideal) V c).arrAt 2 cfg6.N : S50000x128.Idx → Elt Ideal .f32) (ix2 p q)
      = Ideal.ofBits .f32 0x3F4CCCCD#32 * (V c (Pipeline.arrRef spec6 0) : S50000x128.Idx → Elt Ideal .f32) (ix2 p q)
        + Ideal.ofBits .f32 0x3E4CCCCD#32 * (V c (Pipeline.arrRef spec6 1) : S50000x128.Idx → Elt Ideal .f32) (ix2 p q) :=
  congrFun (final_eq V c) (ix2 p q)

/-! The same, as ONE function of two arrays. -/

/-- The mix of two arrays with the two fixed weights, index by index. -/
def mix2 (x g : S50000x128.Idx → EReal) : S50000x128.Idx → EReal := fun i =>
  Ideal.ofBits .f32 0x3F4CCCCD#32 * x i + Ideal.ofBits .f32 0x3E4CCCCD#32 * g i

/-- The output array after the region is the mix of the region's two input arrays. -/
theorem arr_eq (c : Dev nD) : (dat6 (F := Ideal) V c).arrAt 2 cfg6.N = mix2 (V c (Pipeline.arrRef spec6 0)) (V c (Pipeline.arrRef spec6 1)) :=
  final_eq V c

/-- The mix read at an index. -/
theorem mix2_apply (x g : S50000x128.Idx → EReal) (i : S50000x128.Idx) :
    mix2 x g i = Ideal.ofBits .f32 0x3F4CCCCD#32 * x i + Ideal.ofBits .f32 0x3E4CCCCD#32 * g i := rfl

/-- The array-level mix of the region's arrays read at row p, column q. -/
theorem mix_apply (c : Dev nD) (p : Fin 50000) (q : Fin 128) :
    mix V c (ix2 p q)
      = Ideal.ofBits .f32 0x3F4CCCCD#32 * (V c (Pipeline.arrRef spec6 0) : S50000x128.Idx → Elt Ideal .f32) (ix2 p q)
        + Ideal.ofBits .f32 0x3E4CCCCD#32 * (V c (Pipeline.arrRef spec6 1) : S50000x128.Idx → Elt Ideal .f32) (ix2 p q) := rfl

end Cert.KernelIdeal.Mix6

end
-- ==== Proof.KVal3.lean ====
/-
  The kernel program's values, concluded: the local column mean and variance, the base rows gathered by the copies' index
  vector, the normalised local features mixed with them, their average back onto the originals, and the final convex mix.
-/
import proofs.«128412_j31044023616094_2_alg».proof.Proof.KVal2
import proofs.«128412_j31044023616094_2_alg».proof.Proof.Fused5
import proofs.«128412_j31044023616094_2_alg».proof.Proof.Mix6

set_option maxRecDepth 16384

noncomputable section

namespace Cert.KernelIdeal.KVal

open Cert.KernelIdeal Cert.KernelIdeal.Gen Cert.KernelIdeal.KHost Cert.KernelIdeal.KKeep
open Idealize.ShloMosaic Idealize.ShloMosaic.TcCoe Idealize.SL.Sem Idealize.ShloMosaic.StableHlo

variable (m : (ℓ : Loc nD τ sig) → Buf (Elt Ideal) ℓ) (ρ : Dev nD → PrngReg) (c : Dev nD)

/-- The local column mean as the kernel program forms it. -/
def meanLK : S1x128.Idx → EReal := meanK (F := Ideal) 0x47C35000#32 (Stats4.halves (aggLK m ρ c))
/-- The local variance as the kernel program forms it. -/
def varLK : S1x128.Idx → EReal :=
  varK (F := Ideal) 0x47C35000#32 (Stats4.halves (aggLK m ρ c)) (Stats4.halves (fun i => aggLK m ρ c i * aggLK m ρ c i)) (arg m ρ c main_arg16)
/-- The base rows the copies point at. -/
def gathK : S100000x128.Idx → EReal := gatherBase (F := Ideal) (baseHK m ρ c) (arg m ρ c main_arg6)

theorem W13_mean : W13 m ρ c (Proc.devRef .tc main_v89) = meanLK m ρ c := by
  refine (s5_mean (W12 m ρ c)).trans ?_
  unfold meanLK; rw [W12_sum]
theorem W13_var : W13 m ρ c (Proc.devRef .tc main_v98) = varLK m ρ c := by
  refine (s5_var (W12 m ρ c)).trans ?_
  unfold varLK; rw [W12_sum, W12_sq, W12_arg m ρ c main_arg16 (by decide) (by decide) (by decide) (by decide) (by decide) (by decide) (by decide) (by decide) (by decide) (by decide) (by decide) (by decide)]
theorem W13_gath : W13 m ρ c (Proc.devRef .tc main_v105) = gathK m ρ c := by
  refine (s5_gath (W12 m ρ c)).trans ?_
  unfold gathK; rw [W12_h, W12_arg m ρ c main_arg6 (by decide) (by decide) (by decide) (by decide) (by decide) (by decide) (by decide) (by decide) (by decide) (by decide) (by decide) (by decide)]
theorem W13_w : W13 m ρ c (Proc.devRef .tc main_v106) = shapeCast S1x128 (arg m ρ c main_arg14) shapeCasts_S128_S1x128 := by
  refine (s5_w (W12 m ρ c)).trans ?_
  rw [W12_arg m ρ c main_arg14 (by decide) (by decide) (by decide) (by decide) (by decide) (by decide) (by decide) (by decide) (by decide) (by decide) (by decide) (by decide)]
theorem W13_b : W13 m ρ c (Proc.devRef .tc main_v107) = shapeCast S1x128 (arg m ρ c main_arg15) shapeCasts_S128_S1x128 := by
  refine (s5_b (W12 m ρ c)).trans ?_
  rw [W12_arg m ρ c main_arg15 (by decide) (by decide) (by decide) (by decide) (by decide) (by decide) (by decide) (by decide) (by decide) (by decide) (by decide) (by decide)]
theorem W13_ms : W13 m ρ c (Proc.devRef .tc main_v108) = shapeCast S1x128 (arg m ρ c main_arg16) shapeCasts_S128_S1x128 := by
  refine (s5_ms (W12 m ρ c)).trans ?_
  rw [W12_arg m ρ c main_arg16 (by decide) (by decide) (by decide) (by decide) (by decide) (by decide) (by decide) (by decide) (by decide) (by decide) (by decide) (by decide)]
theorem W13_agg : W13 m ρ c (Proc.devRef .tc main_v84) = aggLK m ρ c :=
  (s5_agg (W12 m ρ c)).trans (W12_agg m ρ c)

/-- The mixed local features: region 5's output array, the program's second result. -/
def lmK : S100000x128.Idx → EReal :=
  Fused5.fused (aggLK m ρ c) (meanLK m ρ c) (varLK m ρ c) (shapeCast S1x128 (arg m ρ c main_arg14) shapeCasts_S128_S1x128)
    (shapeCast S1x128 (arg m ρ c main_arg15) shapeCasts_S128_S1x128) (shapeCast S1x128 (arg m ρ c main_arg16) shapeCasts_S128_S1x128)
    (gathK m ρ c)

theorem W14_lm : W14 m ρ c (Proc.devRef .tc main_v109) = lmK m ρ c := by
  refine (W14_arr m ρ c 7).trans ((Fused5.arr_eq (V13 m ρ) c).trans ?_)
  unfold lmK
  rw [← W13_var m ρ c, ← W13_mean m ρ c, ← W13_gath m ρ c, ← W13_agg m ρ c, ← W13_w m ρ c, ← W13_b m ρ c, ← W13_ms m ρ c]

/-- The copies averaged back onto their originals. -/
def msgK : S50000x128.Idx → EReal := msgToBase (F := Ideal) (lmK m ρ c) (arg m ρ c main_arg6)

theorem W15_msg : W15 m ρ c (Proc.devRef .tc main_v121) = msgK m ρ c := by
  refine (s6_msg (W14 m ρ c)).trans ?_
  unfold msgK; rw [W14_lm, W14_arg m ρ c main_arg6 (by decide) (by decide) (by decide) (by decide) (by decide) (by decide) (by decide) (by decide) (by decide) (by decide) (by decide) (by decide) (by decide) (by decide)]
theorem W15_h : W15 m ρ c (Proc.devRef .tc main_v63) = baseHK m ρ c :=
  (s6_h (W14 m ρ c)).trans ((W14_of_ne m ρ c main_v63 (by decide)).trans ((W13_of m ρ c main_v63 (by decide)).trans (W12_h m ρ c)))

/-- The program's first result: the final convex mix, region 6's output array. -/
theorem W16_out0 : W16 m ρ c (Proc.devRef .tc main_v122) = Mix6.mix2 (baseHK m ρ c) (msgK m ρ c) := by
  refine (W16_arr m ρ c 2).trans ((Mix6.arr_eq (V15 m ρ) c).trans ?_)
  rw [← W15_h m ρ c, ← W15_msg m ρ c]
/-- The program's second result is still what region 5 wrote. -/
theorem W16_out1 : W16 m ρ c (Proc.devRef .tc main_v109) = lmK m ρ c :=
  (W16_of_ne m ρ c main_v109 (by decide)).trans ((W15_of m ρ c main_v109 (by decide)).trans (W14_lm m ρ c))

end Cert.KernelIdeal.KVal

end
-- ==== Proof.RefEq.lean ====
/-
  The kernel program's host stretches and the reference's operations are the same functions. Both programs spell the edge
  normalisation, the gather-weight-scatter aggregation, the gather of base rows by the copies' index vector and the
  scatter-mean back with the same host operations, each file with its own copy of the shapes and of the gather and
  scatter dimension records; read at equal operands the named terms of the one are the stages of the other. (A change of
  float format on the way is the identity on the extended reals, and a gather only picks elements.)
-/
import proofs.«128412_j31044023616094_2_alg».proof.Proof.KHost
import proofs.«128412_j31044023616094_2_alg».proof.Proof.Gen.ReferenceIdeal.Read
import Idealize.ShloMosaic.PureOps.Ideal

set_option maxRecDepth 16384

noncomputable section

namespace Cert.RefEq

open Idealize.ShloMosaic Idealize.ShloMosaic.TcCoe Idealize.SL.Sem
open Cert.ReferenceIdeal.Read
open Cert.KernelIdeal.KHost

theorem rows_eq (a1 : IVec Cert.KernelIdeal.S2x800000 32) : rowsOf a1 = val_main_v1 (F := Ideal) a1 := by
  unfold rowsOf val_main_v1 val_main_v0; rfl
theorem cols_eq (a1 : IVec Cert.KernelIdeal.S2x800000 32) : colsOf a1 = val_main_v3 (F := Ideal) a1 := by
  unfold colsOf val_main_v3 val_main_v2; rfl

set_option maxHeartbeats 1000000 in
theorem val_eq (a1 : IVec Cert.KernelIdeal.S2x800000 32) (a2 : FVec Ideal Cert.KernelIdeal.S800000 .f32) :
    valOf (F := Ideal) a1 a2 = val_main_v28 (F := Ideal) a1 a2 := by
  unfold valOf dinvOf degFix degOf wrapIdx rowsOf colsOf
  unfold val_main_v28 val_main_v27 val_main_v26 val_main_v25 val_main_v24 val_main_v23 val_main_v22 val_main_v21 val_main_c_4 val_main_c_3
    val_main_v20 val_main_v19 val_main_v18 val_main_v17 val_main_v16 val_main_v15 val_main_v14 val_main_v13 val_main_c_2 val_main_c
    val_main_v12 val_main_v11 val_main_v10 val_main_v9 val_main_v8 val_main_v7 val_main_v6 val_main_v5 val_main_v4 val_main_v3 val_main_v2
    val_main_v1 val_main_v0 val_main_cst val_main_cst_0 val_main_cst_1
  rfl

set_option maxHeartbeats 1000000 in
theorem agg_eq (bx : Cert.KernelIdeal.S50000x128.Idx → EReal) (rows cols : IVec Cert.KernelIdeal.S800000 32) (val : FVec Ideal Cert.KernelIdeal.S800000 .f32)
    (a0 : FVec Ideal Cert.KernelIdeal.S50000x128 .f32) (a1 : IVec Cert.KernelIdeal.S2x800000 32) (a2 : FVec Ideal Cert.KernelIdeal.S800000 .f32) (a7 : FVec Ideal Cert.KernelIdeal.S128x128 .f32) (a8 : FVec Ideal Cert.KernelIdeal.S128 .f32)
    (hbx : bx = val_main_v33 (F := Ideal) a0 a7 a8) (hr : rows = val_main_v1 (F := Ideal) a1) (hc : cols = val_main_v3 (F := Ideal) a1)
    (hv : val = val_main_v28 (F := Ideal) a1 a2) :
    spmmB (F := Ideal) bx rows cols val = val_main_v46 (F := Ideal) a0 a1 a2 a7 a8 := by
  subst hbx hr hc hv
  unfold spmmB wrapIdx
  unfold val_main_v46 val_main_v45 val_main_v44 val_main_v43 val_main_v42 val_main_v41 val_main_v40 val_main_v39 val_main_v38
    val_main_v37 val_main_v36 val_main_v35 val_main_v34 val_main_c_5 val_main_c_6 val_main_cst_7
  rfl

set_option maxHeartbeats 1000000 in
theorem aggL_eq (lx : Cert.KernelIdeal.S100000x128.Idx → EReal)
    (a3 : FVec Ideal Cert.KernelIdeal.S100000x128 .f32) (a4 : IVec Cert.KernelIdeal.S2x800000 32) (a5 : FVec Ideal Cert.KernelIdeal.S800000 .f32) (a9 : FVec Ideal Cert.KernelIdeal.S128x128 .f32) (a10 : FVec Ideal Cert.KernelIdeal.S128 .f32)
    (hlx : lx = val_main_v75 (F := Ideal) a3 a9 a10) :
    spmmL (F := Ideal) lx a4 a5 = val_main_v92 (F := Ideal) a3 a4 a5 a9 a10 := by
  subst hlx
  unfold spmmL wrapIdx rowsOf colsOf
  unfold val_main_v92 val_main_v91 val_main_v90 val_main_v89 val_main_v88 val_main_v87 val_main_v86 val_main_v85 val_main_v84
    val_main_v83 val_main_v82 val_main_v81 val_main_v80 val_main_v79 val_main_v78 val_main_v77 val_main_v76 val_main_c_13 val_main_c_14 val_main_cst_15
  rfl

set_option maxHeartbeats 1000000 in
theorem gath_eq (h : Cert.KernelIdeal.S50000x128.Idx → EReal)
    (a0 : FVec Ideal Cert.KernelIdeal.S50000x128 .f32) (a1 : IVec Cert.KernelIdeal.S2x800000 32) (a2 : FVec Ideal Cert.KernelIdeal.S800000 .f32) (a6 : IVec Cert.KernelIdeal.S100000 32)
    (a7 : FVec Ideal Cert.KernelIdeal.S128x128 .f32) (a8 a11 a12 a13 : FVec Ideal Cert.KernelIdeal.S128 .f32)
    (hh : h = val_main_v70 (F := Ideal) a0 a1 a2 a7 a8 a11 a12 a13) :
    gatherBase (F := Ideal) h a6 = val_main_v125 (F := Ideal) a0 a1 a2 a6 a7 a8 a11 a12 a13 := by
  subst hh
  unfold gatherBase wrapIdxM
  unfold val_main_v125 val_main_v124 val_main_v123 val_main_v122 val_main_v121 val_main_v120 val_main_v119 val_main_c_22 val_main_c_23
  rfl

set_option maxHeartbeats 1000000 in
theorem msg_eq (lm : Cert.KernelIdeal.S100000x128.Idx → EReal) (a0 : FVec Ideal Cert.KernelIdeal.S50000x128 .f32) (a1 : IVec Cert.KernelIdeal.S2x800000 32) (a2 : FVec Ideal Cert.KernelIdeal.S800000 .f32) (a3 : FVec Ideal Cert.KernelIdeal.S100000x128 .f32) (a4 : IVec Cert.KernelIdeal.S2x800000 32) (a5 : FVec Ideal Cert.KernelIdeal.S800000 .f32) (a6 : IVec Cert.KernelIdeal.S100000 32) (a7 : FVec Ideal Cert.KernelIdeal.S128x128 .f32) (a8 : FVec Ideal Cert.KernelIdeal.S128 .f32) (a9 : FVec Ideal Cert.KernelIdeal.S128x128 .f32) (a10 a11 a12 a13 a14 a15 a16 : FVec Ideal Cert.KernelIdeal.S128 .f32)
    (hlm : lm = val_main_v128 (F := Ideal) a0 a1 a2 a3 a4 a5 a6 a7 a8 a9 a10 a11 a12 a13 a14 a15 a16) :
    msgToBase (F := Ideal) lm a6 = val_main_v140 (F := Ideal) a0 a1 a2 a3 a4 a5 a6 a7 a8 a9 a10 a11 a12 a13 a14 a15 a16 := by
  subst hlm
  unfold msgToBase
  unfold val_main_v140 val_main_v139 val_main_v138 val_main_v137 val_main_v136 val_main_v135 val_main_v134 val_main_v133 val_main_v132
    val_main_v131 val_main_v130 val_main_v129 val_main_cst_25 val_main_cst_26 val_main_cst_27 val_main_cst_28
  rfl

end Cert.RefEq

end
-- ==== Proof.MeetLin.lean ====
/-
  The first meeting point of the two programs: the linear layer y = x·Wt + b. The kernel side's closed form `lin` at the
  arrays the host hands the region (the weights transposed, the bias reshaped to one row) is, entry by entry, the
  reference's dot_general of x with the transposed weights plus the bias broadcast down the rows: both are the sum over
  the contracted axis of x (p, k) · W (q, k), plus b q.
-/
import proofs.«128412_j31044023616094_2_alg».proof.Proof.Lin0
import proofs.«128412_j31044023616094_2_alg».proof.Proof.Lin3
import proofs.«128412_j31044023616094_2_alg».proof.Proof.Gen.ReferenceIdeal.Read
import Idealize.ShloMosaic.Lib.ValueLayout

noncomputable section

namespace Cert.MeetLin

open Idealize.ShloMosaic Idealize.ShloMosaic.ValueIdx

/-- Entry (p, q) of both sides is ∑ k, a0 (p, k) · a7 (q, k) + a8 q: on the left the transposed weights read at (k, q)
    and the one-row bias at (0, q), on the right the reference's operand indices, which are these by coordinates. -/
theorem base (a0 : FVec Ideal Cert.KernelIdeal.S50000x128 .f32) (a7 : FVec Ideal Cert.KernelIdeal.S128x128 .f32) (a8 : FVec Ideal Cert.KernelIdeal.S128 .f32)
    (ht : Cert.KernelIdeal.S128x128.Transposes [1, 0] Cert.KernelIdeal.S128x128) (hs : Cert.KernelIdeal.S128.ShapeCasts Cert.KernelIdeal.S1x128) :
    Cert.KernelIdeal.Lin0.lin a0 (transpose Cert.KernelIdeal.S128x128 [1, 0] a7 ht) (shapeCast Cert.KernelIdeal.S1x128 a8 hs)
      = Cert.ReferenceIdeal.Read.val_main_v33 (F := Ideal) a0 a7 a8 := by
  funext i
  obtain ⟨p, q, rfl⟩ : ∃ (p : Fin 50000) (q : Fin 128), i = ix2 p q := ⟨i 0, i 1, eq_ix2 i⟩
  refine (Cert.KernelIdeal.Lin0.lin_apply _ _ _ p q).trans ?_
  rw [Cert.ReferenceIdeal.Read.val_main_v33_apply, Cert.ReferenceIdeal.Read.val_main_v30_apply,
    Cert.ReferenceIdeal.Read.val_main_v32_apply, Cert.ReferenceIdeal.Read.val_main_v31_apply]
  refine congrArg₂ (· + ·) (Finset.sum_congr rfl fun k _ => congrArg₂ (· * ·) ?_ ?_) ?_
  · exact congrArg a0 (funext fun a => Fin.ext (by match a with | ⟨0, _⟩ => rfl | ⟨1, _⟩ => rfl))
  · rw [Cert.ReferenceIdeal.Read.val_main_v29_apply]
    refine (transpose_ix2_apply a7 ht k q).trans ?_
    exact congrArg a7 (funext fun a => Fin.ext (by match a with | ⟨0, _⟩ => rfl | ⟨1, _⟩ => rfl))
  · refine (shapeCast_a_1a_apply a8 hs 0 q).trans ?_
    exact congrArg a8 (funext fun a => Fin.ext (by match a with | ⟨0, _⟩ => rfl))

/-- Entry (p, q) of both sides is ∑ k, a3 (p, k) · a9 (q, k) + a10 q: on the left the transposed weights read at (k, q)
    and the one-row bias at (0, q), on the right the reference's operand indices, which are these by coordinates. -/
theorem loc (a3 : FVec Ideal Cert.KernelIdeal.S100000x128 .f32) (a9 : FVec Ideal Cert.KernelIdeal.S128x128 .f32) (a10 : FVec Ideal Cert.KernelIdeal.S128 .f32)
    (ht : Cert.KernelIdeal.S128x128.Transposes [1, 0] Cert.KernelIdeal.S128x128) (hs : Cert.KernelIdeal.S128.ShapeCasts Cert.KernelIdeal.S1x128) :
    Cert.KernelIdeal.Lin3.lin a3 (transpose Cert.KernelIdeal.S128x128 [1, 0] a9 ht) (shapeCast Cert.KernelIdeal.S1x128 a10 hs)
      = Cert.ReferenceIdeal.Read.val_main_v75 (F := Ideal) a3 a9 a10 := by
  funext i
  obtain ⟨p, q, rfl⟩ : ∃ (p : Fin 100000) (q : Fin 128), i = ix2 p q := ⟨i 0, i 1, eq_ix2 i⟩
  refine (Cert.KernelIdeal.Lin3.lin_apply _ _ _ p q).trans ?_
  rw [Cert.ReferenceIdeal.Read.val_main_v75_apply, Cert.ReferenceIdeal.Read.val_main_v72_apply,
    Cert.ReferenceIdeal.Read.val_main_v74_apply, Cert.ReferenceIdeal.Read.val_main_v73_apply]
  refine congrArg₂ (· + ·) (Finset.sum_congr rfl fun k _ => congrArg₂ (· * ·) ?_ ?_) ?_
  · exact congrArg a3 (funext fun a => Fin.ext (by match a with | ⟨0, _⟩ => rfl | ⟨1, _⟩ => rfl))
  · rw [Cert.ReferenceIdeal.Read.val_main_v71_apply]
    refine (transpose_ix2_apply a9 ht k q).trans ?_
    exact congrArg a9 (funext fun a => Fin.ext (by match a with | ⟨0, _⟩ => rfl | ⟨1, _⟩ => rfl))
  · refine (shapeCast_a_1a_apply a10 hs 0 q).trans ?_
    exact congrArg a10 (funext fun a => Fin.ext (by match a with | ⟨0, _⟩ => rfl))

end Cert.MeetLin

end
-- ==== Proof.Algebra.lean ====
/- Pure mathematics on the extended reals for the equivalence of the two programs:
   which extended reals are real numbers and how that property passes through the arithmetic,
   and the variance identity  (1/n) ∑ (xᵢ - C·M)² = (1/n) ∑ xᵢ² + M²·C·(C - 2)  with  M = (1/n) ∑ xᵢ. -/
import Mathlib.Data.EReal.Inv
import Mathlib.Algebra.BigOperators.Group.Finset.Basic
import Idealize.ShloMosaic.PureOps.Ideal
import Idealize.ShloMosaic.PureOps.Ideal.Laws

noncomputable section

namespace Cert.Algebra

open Idealize.ShloMosaic
open scoped BigOperators

/-! ### Real elements of the extended reals -/

/-- An extended real is REAL when it is the image of a real number (neither infinity). -/
def IsReal (x : EReal) : Prop := ∃ r : ℝ, x = (r : EReal)

theorem isReal_coe (r : ℝ) : IsReal (r : EReal) := ⟨r, rfl⟩

theorem isReal_zero : IsReal 0 := ⟨0, EReal.coe_zero.symm⟩

theorem isReal_one : IsReal 1 := ⟨1, EReal.coe_one.symm⟩

/-- Real is: neither infinity. -/
theorem isReal_iff {x : EReal} : IsReal x ↔ x ≠ ⊤ ∧ x ≠ ⊥ := by
  constructor
  · rintro ⟨r, rfl⟩
    exact ⟨EReal.coe_ne_top r, EReal.coe_ne_bot r⟩
  · rintro ⟨h1, h2⟩
    exact ⟨x.toReal, (EReal.coe_toReal h1 h2).symm⟩

theorem IsReal.ne_top {x : EReal} (h : IsReal x) : x ≠ ⊤ := (isReal_iff.1 h).1

theorem IsReal.ne_bot {x : EReal} (h : IsReal x) : x ≠ ⊥ := (isReal_iff.1 h).2

theorem IsReal.add {x y : EReal} (hx : IsReal x) (hy : IsReal y) : IsReal (x + y) := by
  obtain ⟨a, rfl⟩ := hx
  obtain ⟨b, rfl⟩ := hy
  exact ⟨a + b, (EReal.coe_add a b).symm⟩

theorem IsReal.sub {x y : EReal} (hx : IsReal x) (hy : IsReal y) : IsReal (x - y) := by
  obtain ⟨a, rfl⟩ := hx
  obtain ⟨b, rfl⟩ := hy
  exact ⟨a - b, (EReal.coe_sub a b).symm⟩

theorem IsReal.mul {x y : EReal} (hx : IsReal x) (hy : IsReal y) : IsReal (x * y) := by
  obtain ⟨a, rfl⟩ := hx
  obtain ⟨b, rfl⟩ := hy
  exact ⟨a * b, (EReal.coe_mul a b).symm⟩

theorem IsReal.neg {x : EReal} (hx : IsReal x) : IsReal (-x) := by
  obtain ⟨a, rfl⟩ := hx
  exact ⟨-a, (EReal.coe_neg a).symm⟩

theorem IsReal.max {x y : EReal} (hx : IsReal x) (hy : IsReal y) : IsReal (max x y) := by
  rcases max_choice x y with h | h <;> rw [h] <;> assumption

theorem IsReal.min {x y : EReal} (hx : IsReal x) (hy : IsReal y) : IsReal (min x y) := by
  rcases min_choice x y with h | h <;> rw [h] <;> assumption

/-- A finite sum of real elements is real. -/
theorem isReal_sum {ι : Type*} (s : Finset ι) (f : ι → EReal) (h : ∀ i ∈ s, IsReal (f i)) :
    IsReal (∑ i ∈ s, f i) :=
  Finset.sum_induction f IsReal (fun _ _ ha hb => ha.add hb) isReal_zero h

/-- The quotient by a nonzero real of a real element is real. -/
theorem IsReal.div_coe {x : EReal} (hx : IsReal x) {y : ℝ} (hy : y ≠ 0) : IsReal (Ideal.div x (y : EReal)) := by
  rw [Ideal.div_coe hy]
  exact hx.mul (isReal_coe _)

/-- The reciprocal square root of a positive real element is real. -/
theorem IsReal.rsqrt {x : EReal} (hx : IsReal x) (hpos : 0 < x) : IsReal (Ideal.rsqrt x) := by
  obtain ⟨r, rfl⟩ := hx
  have hr : 0 < r := EReal.coe_pos.1 hpos
  rw [Ideal.rsqrt_coe, if_neg (not_lt.2 hr.le), if_neg hr.ne']
  exact isReal_coe _

/-- The coercion of a finite real sum is the sum of the coercions. -/
theorem coe_finset_sum {ι : Type*} (s : Finset ι) (f : ι → ℝ) :
    ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

/-! ### The variance identity -/

/-- The identity over the reals: with `s = ∑ fᵢ`, `n` the number of terms and `m = s / n`,
    `(∑ (fᵢ - c m)²) / n = (∑ fᵢ²) / n + m² c (c - 2)`; the cross term is `-2 c m s = -2 c m² n`
    and the constant term is `n (c m)²`. -/
theorem var_identity_real {ι : Type*} [Fintype ι] (f : ι → ℝ) (c n : ℝ) (hn : n = (Fintype.card ι : ℝ))
    (hn0 : n ≠ 0) :
    (∑ i, (f i - c * ((∑ i, f i) * (1 / n))) * (f i - c * ((∑ i, f i) * (1 / n)))) * (1 / n)
      = (∑ i, f i * f i) * (1 / n)
        + ((((∑ i, f i) * (1 / n)) * ((∑ i, f i) * (1 / n))) * c) * (c - 2) := by
  generalize hs : ∑ i, f i = s
  have h1 : ∀ i, (f i - c * (s * (1 / n))) * (f i - c * (s * (1 / n)))
      = f i * f i - (2 * (c * (s * (1 / n)))) * f i + (c * (s * (1 / n))) * (c * (s * (1 / n))) :=
    fun i => by ring
  simp_rw [h1]
  rw [Finset.sum_add_distrib, Finset.sum_sub_distrib, ← Finset.mul_sum, Finset.sum_const, Finset.card_univ,
    nsmul_eq_mul, ← hn, hs]
  field_simp
  ring

/-- THE VARIANCE IDENTITY on the extended reals, for real data: the mean of the squared deviations from
    `C` times the mean is the mean of the squares plus `M² C (C - 2)`. -/
theorem var_identity {ι : Type*} [Fintype ι] (x : ι → EReal) (hx : ∀ i, IsReal (x i))
    (C : EReal) (hC : IsReal C) (n : ℝ) (hn : n = (Fintype.card ι : ℝ)) (hn0 : n ≠ 0)
    (two : EReal) (htwo : two = ((2 : ℝ) : EReal)) :
    Ideal.div (∑ i, (x i - C * Ideal.div (∑ i, x i) (n : EReal)) * (x i - C * Ideal.div (∑ i, x i) (n : EReal)))
        (n : EReal)
      = Ideal.div (∑ i, x i * x i) (n : EReal)
        + ((Ideal.div (∑ i, x i) (n : EReal) * Ideal.div (∑ i, x i) (n : EReal)) * C) * (C - two) := by
  choose f hf using hx
  obtain ⟨c, rfl⟩ := hC
  obtain rfl : x = fun i => (f i : EReal) := funext hf
  subst htwo
  simp only [← coe_finset_sum, Ideal.div_coe hn0, ← EReal.coe_mul, ← EReal.coe_sub, ← EReal.coe_add]
  exact congrArg _ (var_identity_real f c n hn hn0)

/-- The same with each left-hand sum written as a host float sum writes it, `0 + ∑`. -/
theorem var_identity' {ι : Type*} [Fintype ι] (x : ι → EReal) (hx : ∀ i, IsReal (x i))
    (C : EReal) (hC : IsReal C) (n : ℝ) (hn : n = (Fintype.card ι : ℝ)) (hn0 : n ≠ 0)
    (two : EReal) (htwo : two = ((2 : ℝ) : EReal)) :
    Ideal.div (0 + ∑ i, (x i - C * Ideal.div (0 + ∑ i, x i) (n : EReal))
        * (x i - C * Ideal.div (0 + ∑ i, x i) (n : EReal))) (n : EReal)
      = Ideal.div (∑ i, x i * x i) (n : EReal)
        + ((Ideal.div (∑ i, x i) (n : EReal) * Ideal.div (∑ i, x i) (n : EReal)) * C) * (C - two) := by
  simp only [zero_add]
  exact var_identity x hx C hC n hn hn0 two htwo

/-! ### Real values through the host operations -/

/-- An accumulating scatter of real updates into a real element is real: the element plus a finite sum. -/
theorem isReal_hostScatterAdd {s si su : Shape} (d : ScatterDims s si su) {w : Nat} (x : s.Idx → EReal)
    (idx : IVec si w) (upd : su.Idx → EReal) (i : s.Idx) (hx : IsReal (x i)) (hu : ∀ j, IsReal (upd j)) :
    IsReal (Ideal.hostScatterAdd d x idx upd i) := by
  unfold Ideal.hostScatterAdd
  exact hx.add (isReal_sum _ _ fun j _ => hu j)

/-- An element of a contraction of real operands onto a real accumulator is real. -/
theorem isReal_matmul {sl sr so : Shape} (d : DotDims sl sr so) (lhs : sl.Idx → EReal) (rhs : sr.Idx → EReal)
    (acc : so.Idx → EReal) (j : so.Idx) (hacc : IsReal (acc j)) (hl : ∀ a, IsReal (lhs a))
    (hr : ∀ b, IsReal (rhs b)) : IsReal (Ideal.matmul d lhs rhs acc j) := by
  unfold Ideal.matmul
  exact hacc.add (isReal_sum _ _ fun k _ => (hl _).mul (hr _))

/-- An element of the host's product of real operands (the contraction onto a zero accumulator) is real. -/
theorem isReal_dotGeneral {sl sr so : Shape} {φ₁ φ₂ : FTy} (d : DotDims sl sr so) (prec : Option ContractPrecision)
    (sched : HostSchedule) (lhs : FVec Ideal sl φ₁) (rhs : FVec Ideal sr φ₂) (j : so.Idx)
    (hl : ∀ a, IsReal (lhs a)) (hr : ∀ b, IsReal (rhs b)) :
    IsReal (FloatOps.dotGeneral d prec sched lhs rhs j) := by
  rw [Ideal.dotGeneral_def]
  exact isReal_matmul d lhs rhs (fun _ => 0) j isReal_zero hl hr

/-- An element of the host's float sum of real elements from a real initial value is real. -/
theorem isReal_hostReduceAdd {s : Shape} {axes : List (Fin s.rank)} {t : Shape} (h : s.ReducesTo axes t)
    (x : s.Idx → EReal) (init : EReal) (j : t.Idx) (hinit : IsReal init) (hx : ∀ i, IsReal (x i)) :
    IsReal (Ideal.hostReduceAdd h x init j) := by
  unfold Ideal.hostReduceAdd
  exact hinit.add (isReal_sum _ _ fun i _ => hx i)

/-- An element of a lane sum of real elements is real. -/
theorem isReal_reduceAdd {s : Shape} {axes : List (Fin s.rank)} {t : Shape} (h : s.Reduces axes t)
    (x : s.Idx → EReal) (j : t.Idx) (hx : ∀ i, IsReal (x i)) : IsReal (Ideal.reduceAdd h x j) := by
  unfold Ideal.reduceAdd
  exact isReal_sum _ _ fun i _ => hx i

/-! ### The float words the programs spell, as the extended reals they denote -/

theorem ofBits_50000 : Ideal.ofBits .f32 0x47435000#32 = ((50000 : ℝ) : EReal) := by
  simp [Ideal.ofBits, Ideal.ieee, -EReal.coe_mul]; norm_num

theorem ofBits_100000 : Ideal.ofBits .f32 0x47C35000#32 = ((100000 : ℝ) : EReal) := by
  simp [Ideal.ofBits, Ideal.ieee, -EReal.coe_mul]; norm_num

theorem ofBits_two : Ideal.ofBits .f32 0x40000000#32 = ((2 : ℝ) : EReal) := by
  simp [Ideal.ofBits, Ideal.ieee, -EReal.coe_mul]; norm_num

theorem ofBits_half : Ideal.ofBits .f32 0x3F000000#32 = ((1 / 2 : ℝ) : EReal) := by
  simp [Ideal.ofBits, Ideal.ieee, -EReal.coe_mul]; norm_num

theorem ofBits_one : Ideal.ofBits .f32 0x3F800000#32 = 1 := by
  simp [Ideal.ofBits, Ideal.ieee, -EReal.coe_mul]; norm_num

theorem ofBits_one' : Ideal.ofBits .f32 0x3F800000#32 = ((1 : ℝ) : EReal) := by
  rw [ofBits_one, EReal.coe_one]

theorem ofBits_zero : Ideal.ofBits .f32 0x00000000#32 = 0 := Ideal.ofBits_zero_f32

theorem ofBits_top : Ideal.ofBits .f32 0x7F800000#32 = ⊤ := by
  simp [Ideal.ofBits, Ideal.ieee]

/-- The small positive word `0x3727C5AC` (about `10⁻⁵`): the dyadic rational `10995116 · 2⁻⁴⁰`. -/
theorem ofBits_eps : Ideal.ofBits .f32 0x3727C5AC#32 = ((10995116 * (2 : ℝ) ^ (-40 : Int) : ℝ) : EReal) := by
  simp [Ideal.ofBits, Ideal.ieee, -EReal.coe_mul]

theorem isReal_eps : IsReal (Ideal.ofBits .f32 0x3727C5AC#32) := by
  rw [ofBits_eps]; exact isReal_coe _

theorem eps_pos : 0 < Ideal.ofBits .f32 0x3727C5AC#32 := by
  rw [ofBits_eps]
  exact EReal.coe_pos.2 (by positivity)

end Cert.Algebra

end
-- ==== Proof.MeetStats.lean ====
import proofs.«128412_j31044023616094_2_alg».proof.Proof.Stats1
import proofs.«128412_j31044023616094_2_alg».proof.Proof.Stats4
import proofs.«128412_j31044023616094_2_alg».proof.Proof.KHost
import proofs.«128412_j31044023616094_2_alg».proof.Proof.Gen.ReferenceIdeal.Read
import proofs.«128412_j31044023616094_2_alg».proof.Proof.Algebra
import Idealize.ShloMosaic.PureOps.Ideal
import Idealize.ShloMosaic.PureOps.Ideal.Laws
import Idealize.ShloMosaic.Lib.ValueIdx
import Idealize.ShloMosaic.Lib.Pipeline.Value
import Idealize.ShloMosaic.Lib.ValueLayout

/-!
  Where the two programs' column statistics meet. One program holds, for an array A of n rows, the two halves' column
  sums and column sums of squares, and from them takes the mean M = (Σ A)/n and the variance as (Σ A²)/n + M²·C·(C − 2);
  the other takes the mean the same way and the variance as the mean of the squared deviations (A − C·M)². The means are
  the same term once the two halves are added into one sum. The variances are equal for real data, by expanding the
  square: the cross term is −2·C·M·ΣA = −2·C·M²·n and the constant term is n·(C·M)².
-/

noncomputable section

namespace Cert.MeetStats

open Idealize.ShloMosaic Idealize.ShloMosaic.ValueIdx
open scoped BigOperators

/-! ## The kernel program's host lines at an index -/

section Kernel
open Cert.KernelIdeal Cert.KernelIdeal.Gen Cert.KernelIdeal.KHost

/-- The host sum of a [2,1,128] array over its axis of extent 2, at lane `q`: the initial value plus the two rows. -/
theorem sum2_apply (s : FVec Ideal S2x1x128 .f32) (init : S_.Idx → EReal) (h' : S2x1x128.ReducesTo [0] S1x128)
    (hu : 0 < S_.numel) (q : Fin 128) :
    Host.reduceAdd (F := Ideal) s init h' hu (ix2 0 q) = init (Shape.Idx.first hu) + (s (ix3 0 0 q) + s (ix3 1 0 q)) := by
  unfold Host.reduceAdd
  rw [Ideal.hostReduceAdd_def, Ideal.hostReduceAdd_single h' (by decide)]
  refine congrArg (_ + ·) ?_
  refine (Fin.sum_univ_two _).trans ?_
  exact congrArg₂ (· + ·) (congrArg s (funext fun a => by match a with | ⟨0, _⟩ => rfl | ⟨1, _⟩ => rfl | ⟨2, _⟩ => rfl))
    (congrArg s (funext fun a => by match a with | ⟨0, _⟩ => rfl | ⟨1, _⟩ => rfl | ⟨2, _⟩ => rfl))

/-- A scalar constant broadcast to [1,128] is that constant everywhere. -/
theorem bcastConst_apply (b : BitVec 32) (j : S1x128.Idx) :
    broadcastInDim S1x128 ![] bcast_S_S1x128 (constant (F := Ideal) S_ .f32 b) j = Ideal.ofBits .f32 b :=
  broadcastInDim_apply _ bcast_S_S1x128 (constant (F := Ideal) S_ .f32 b) j (fun a => a.elim0) (fun a => a.elim0)

/-- A [128] vector viewed [1,128] reads lane `q` at (0,q). -/
theorem row_apply (c : S128.Idx → EReal) (h : S128.ShapeCasts S1x128) (q : Fin 128) :
    shapeCast S1x128 c h (ix2 0 q) = c (ix1 q) := by
  refine (shapeCast_addUnit_apply ![128] c h (ix2 0 q)).trans ?_
  exact congrArg c (funext fun a => by match a with | ⟨0, _⟩ => rfl)

/-- The column mean at lane `q`: the two rows' sum from zero, divided by the count. -/
theorem meanK_apply (n : BitVec 32) (s : FVec Ideal S2x1x128 .f32) (q : Fin 128) :
    meanK (F := Ideal) n s (ix2 0 q)
      = Ideal.div (0 + (s (ix3 0 0 q) + s (ix3 1 0 q))) (Ideal.ofBits .f32 n) := by
  unfold meanK
  show Ideal.div (Host.reduceAdd (F := Ideal) s (constant S_ .f32 0x00000000#32) reducesTo_S2x1x128_S1x128_d0 h_S_ (ix2 0 q))
      (broadcastInDim S1x128 ![] bcast_S_S1x128 (constant (F := Ideal) S_ .f32 n) (ix2 0 q)) = _
  rw [sum2_apply, bcastConst_apply]
  show Ideal.div (Ideal.ofBits .f32 0x00000000#32 + _) _ = _
  rw [Ideal.ofBits_zero_f32]

/-- The variance line at lane `q`. -/
theorem varK_apply (n : BitVec 32) (s sq : FVec Ideal S2x1x128 .f32) (c : FVec Ideal S128 .f32) (q : Fin 128) :
    varK (F := Ideal) n s sq c (ix2 0 q)
      = Ideal.div (0 + (sq (ix3 0 0 q) + sq (ix3 1 0 q))) (Ideal.ofBits .f32 n)
        + ((Ideal.div (0 + (s (ix3 0 0 q) + s (ix3 1 0 q))) (Ideal.ofBits .f32 n)
            * Ideal.div (0 + (s (ix3 0 0 q) + s (ix3 1 0 q))) (Ideal.ofBits .f32 n)) * c (ix1 q))
          * (c (ix1 q) - Ideal.ofBits .f32 0x40000000#32) := by
  unfold varK
  show meanK (F := Ideal) n sq (ix2 0 q)
      + ((meanK (F := Ideal) n s (ix2 0 q) * meanK (F := Ideal) n s (ix2 0 q)) * shapeCast S1x128 c shapeCasts_S128_S1x128 (ix2 0 q))
        * (shapeCast S1x128 c shapeCasts_S128_S1x128 (ix2 0 q)
            - broadcastInDim S1x128 ![] bcast_S_S1x128 (constant (F := Ideal) S_ .f32 0x40000000#32) (ix2 0 q)) = _
  rw [meanK_apply, meanK_apply, row_apply, bcastConst_apply]

end Kernel

/-! ## The reference's column statistics at an index -/

section Reference
open Cert.ReferenceIdeal Cert.ReferenceIdeal.Gen Cert.ReferenceIdeal.Read

/-- The reference's column mean at lane `q`: the column's sum from zero, divided by the count. -/
theorem ref_mean (a0 : (⟨S50000x128, .f32⟩ : BufTy).Contents (Elt Ideal)) (a1 : (⟨S2x800000, .i32⟩ : BufTy).Contents (Elt Ideal))
    (a2 : (⟨S800000, .f32⟩ : BufTy).Contents (Elt Ideal)) (a7 : (⟨S128x128, .f32⟩ : BufTy).Contents (Elt Ideal))
    (a8 : (⟨S128, .f32⟩ : BufTy).Contents (Elt Ideal)) (q : Fin 128) :
    val_main_v49 (F := Ideal) a0 a1 a2 a7 a8 (ix1 q)
      = Ideal.div (0 + ∑ k : Fin 50000, val_main_v46 (F := Ideal) a0 a1 a2 a7 a8 (ix2 k q)) (Ideal.ofBits .f32 0x47435000#32) := by
  rw [val_main_v49_apply, val_main_v47_apply, val_main_v48_apply, val_main_cst_8_apply, val_main_cst_9_apply]
  generalize val_main_v46 (F := Ideal) a0 a1 a2 a7 a8 = A
  have hs : ∑ k : Fin 50000, A (idx_main_v47 (ix1 q) k) = ∑ k : Fin 50000, A (ix2 k q) :=
    Finset.sum_congr rfl fun k _ => congrArg A (funext fun a => by match a with | ⟨0, _⟩ => rfl | ⟨1, _⟩ => rfl)
  show Ideal.div (Ideal.ofBits .f32 0x00000000#32 + ∑ k : Fin 50000, A (idx_main_v47 (ix1 q) k)) (Ideal.ofBits .f32 0x47435000#32) = _
  rw [hs, Ideal.ofBits_zero_f32]

/-- The deviation of an entry from the scaled column mean. -/
theorem ref_dev (a0 : (⟨S50000x128, .f32⟩ : BufTy).Contents (Elt Ideal)) (a1 : (⟨S2x800000, .i32⟩ : BufTy).Contents (Elt Ideal))
    (a2 : (⟨S800000, .f32⟩ : BufTy).Contents (Elt Ideal)) (a7 : (⟨S128x128, .f32⟩ : BufTy).Contents (Elt Ideal))
    (a8 : (⟨S128, .f32⟩ : BufTy).Contents (Elt Ideal))
    (a13 : (⟨S128, .f32⟩ : BufTy).Contents (Elt Ideal)) (k : Fin 50000) (q : Fin 128) :
    val_main_v53 (F := Ideal) a0 a1 a2 a7 a8 a13 (ix2 k q)
      = val_main_v46 (F := Ideal) a0 a1 a2 a7 a8 (ix2 k q) - a13 (ix1 q) * val_main_v49 (F := Ideal) a0 a1 a2 a7 a8 (ix1 q) := by
  rw [val_main_v53_apply, val_main_v52_apply, val_main_v51_apply, val_main_v50_apply]
  have e : idx_main_v51 (idx_main_v52 (ix2 k q)) = ix1 q := funext fun a => by match a with | ⟨0, _⟩ => rfl
  rw [e]
  rfl

/-- The reference's column variance at lane `q`: the mean of the squared deviations. -/
theorem ref_var (a0 : (⟨S50000x128, .f32⟩ : BufTy).Contents (Elt Ideal)) (a1 : (⟨S2x800000, .i32⟩ : BufTy).Contents (Elt Ideal))
    (a2 : (⟨S800000, .f32⟩ : BufTy).Contents (Elt Ideal)) (a7 : (⟨S128x128, .f32⟩ : BufTy).Contents (Elt Ideal))
    (a8 : (⟨S128, .f32⟩ : BufTy).Contents (Elt Ideal))
    (a13 : (⟨S128, .f32⟩ : BufTy).Contents (Elt Ideal)) (q : Fin 128) :
    val_main_v57 (F := Ideal) a0 a1 a2 a7 a8 a13 (ix1 q)
      = Ideal.div (0 + ∑ k : Fin 50000,
          (val_main_v46 (F := Ideal) a0 a1 a2 a7 a8 (ix2 k q) - a13 (ix1 q) * val_main_v49 (F := Ideal) a0 a1 a2 a7 a8 (ix1 q))
          * (val_main_v46 (F := Ideal) a0 a1 a2 a7 a8 (ix2 k q) - a13 (ix1 q) * val_main_v49 (F := Ideal) a0 a1 a2 a7 a8 (ix1 q)))
        (Ideal.ofBits .f32 0x47435000#32) := by
  rw [val_main_v57_apply, val_main_v55_apply, val_main_v56_apply, val_main_cst_10_apply, val_main_cst_11_apply]
  have hs : ∑ k : Fin 50000, val_main_v54 (F := Ideal) a0 a1 a2 a7 a8 a13 (idx_main_v55 (ix1 q) k)
      = ∑ k : Fin 50000,
          (val_main_v46 (F := Ideal) a0 a1 a2 a7 a8 (ix2 k q) - a13 (ix1 q) * val_main_v49 (F := Ideal) a0 a1 a2 a7 a8 (ix1 q))
          * (val_main_v46 (F := Ideal) a0 a1 a2 a7 a8 (ix2 k q) - a13 (ix1 q) * val_main_v49 (F := Ideal) a0 a1 a2 a7 a8 (ix1 q)) :=
    Finset.sum_congr rfl fun k _ => by
      have e : idx_main_v55 (ix1 q) k = ix2 k q := funext fun a => by match a with | ⟨0, _⟩ => rfl | ⟨1, _⟩ => rfl
      rw [e, val_main_v54_apply, ref_dev]
      rfl
  show Ideal.div (Ideal.ofBits .f32 0x00000000#32 + ∑ k : Fin 50000, val_main_v54 (F := Ideal) a0 a1 a2 a7 a8 a13 (idx_main_v55 (ix1 q) k))
      (Ideal.ofBits .f32 0x47435000#32) = _
  rw [hs, Ideal.ofBits_zero_f32]

end Reference

/-! ## The two programs' column statistics meet -/

section Meet
open Cert.ReferenceIdeal Cert.ReferenceIdeal.Gen Cert.ReferenceIdeal.Read Cert.Algebra

/-- The count of rows as a real number. -/
theorem card_rows : (50000 : ℝ) = (Fintype.card (Fin 50000) : ℝ) := by rw [Fintype.card_fin]; norm_num

/-- THE MEANS AGREE: the two halves' partial sums, added from zero and divided by the count, are the reference's column mean. -/
theorem mean_base (a0 : (⟨S50000x128, .f32⟩ : BufTy).Contents (Elt Ideal)) (a1 : (⟨S2x800000, .i32⟩ : BufTy).Contents (Elt Ideal))
    (a2 : (⟨S800000, .f32⟩ : BufTy).Contents (Elt Ideal)) (a7 : (⟨S128x128, .f32⟩ : BufTy).Contents (Elt Ideal))
    (a8 : (⟨S128, .f32⟩ : BufTy).Contents (Elt Ideal)) (q : Fin 128) :
    Cert.KernelIdeal.KHost.meanK (F := Ideal) 0x47435000#32
        (Cert.KernelIdeal.Stats1.halves (val_main_v46 (F := Ideal) a0 a1 a2 a7 a8)) (ix2 0 q)
      = val_main_v49 (F := Ideal) a0 a1 a2 a7 a8 (ix1 q) := by
  rw [meanK_apply, ref_mean]
  generalize val_main_v46 (F := Ideal) a0 a1 a2 a7 a8 = A
  show Ideal.div (0 + (Cert.KernelIdeal.Stats1.half A 0 q + Cert.KernelIdeal.Stats1.half A 1 q)) _ = _
  rw [Cert.KernelIdeal.Stats1.half_add]

/-- THE VARIANCES AGREE on real data: mean of squares plus M²·C·(C − 2) is the mean of the squared deviations from C·M. -/
theorem var_base (a0 : (⟨S50000x128, .f32⟩ : BufTy).Contents (Elt Ideal)) (a1 : (⟨S2x800000, .i32⟩ : BufTy).Contents (Elt Ideal))
    (a2 : (⟨S800000, .f32⟩ : BufTy).Contents (Elt Ideal)) (a7 : (⟨S128x128, .f32⟩ : BufTy).Contents (Elt Ideal))
    (a8 : (⟨S128, .f32⟩ : BufTy).Contents (Elt Ideal))
    (a13 : (⟨S128, .f32⟩ : BufTy).Contents (Elt Ideal))
    (hA : ∀ i, IsReal (val_main_v46 (F := Ideal) a0 a1 a2 a7 a8 i)) (h13 : ∀ i, IsReal (a13 i)) (q : Fin 128) :
    Cert.KernelIdeal.KHost.varK (F := Ideal) 0x47435000#32
        (Cert.KernelIdeal.Stats1.halves (val_main_v46 (F := Ideal) a0 a1 a2 a7 a8))
        (Cert.KernelIdeal.Stats1.halves (fun i => val_main_v46 (F := Ideal) a0 a1 a2 a7 a8 i * val_main_v46 (F := Ideal) a0 a1 a2 a7 a8 i))
        a13 (ix2 0 q)
      = val_main_v57 (F := Ideal) a0 a1 a2 a7 a8 a13 (ix1 q) := by
  rw [varK_apply, ref_var, ref_mean]
  generalize val_main_v46 (F := Ideal) a0 a1 a2 a7 a8 = A at hA ⊢
  show Ideal.div (0 + (Cert.KernelIdeal.Stats1.half (fun i => A i * A i) 0 q + Cert.KernelIdeal.Stats1.half (fun i => A i * A i) 1 q)) _
      + ((Ideal.div (0 + (Cert.KernelIdeal.Stats1.half A 0 q + Cert.KernelIdeal.Stats1.half A 1 q)) _
          * Ideal.div (0 + (Cert.KernelIdeal.Stats1.half A 0 q + Cert.KernelIdeal.Stats1.half A 1 q)) _) * a13 (ix1 q))
        * (a13 (ix1 q) - _) = _
  rw [Cert.KernelIdeal.Stats1.half_add, Cert.KernelIdeal.Stats1.half_add, ofBits_50000]
  simp only [zero_add]
  exact (var_identity (fun r : Fin 50000 => A (ix2 r q)) (fun r => hA _) (a13 (ix1 q)) (h13 _) 50000 card_rows (by norm_num)
    (Ideal.ofBits .f32 0x40000000#32) ofBits_two).symm

end Meet

/-! ## The reference's column statistics of the local graph at an index -/

section ReferenceLocal
open Cert.ReferenceIdeal Cert.ReferenceIdeal.Gen Cert.ReferenceIdeal.Read

/-- The reference's column mean at lane `q`: the column's sum from zero, divided by the count. -/
theorem ref_mean_loc (a3 : (⟨S100000x128, .f32⟩ : BufTy).Contents (Elt Ideal)) (a4 : (⟨S2x800000, .i32⟩ : BufTy).Contents (Elt Ideal))
    (a5 : (⟨S800000, .f32⟩ : BufTy).Contents (Elt Ideal)) (a9 : (⟨S128x128, .f32⟩ : BufTy).Contents (Elt Ideal))
    (a10 : (⟨S128, .f32⟩ : BufTy).Contents (Elt Ideal)) (q : Fin 128) :
    val_main_v95 (F := Ideal) a3 a4 a5 a9 a10 (ix1 q)
      = Ideal.div (0 + ∑ k : Fin 100000, val_main_v92 (F := Ideal) a3 a4 a5 a9 a10 (ix2 k q)) (Ideal.ofBits .f32 0x47C35000#32) := by
  rw [val_main_v95_apply, val_main_v93_apply, val_main_v94_apply, val_main_cst_16_apply, val_main_cst_17_apply]
  generalize val_main_v92 (F := Ideal) a3 a4 a5 a9 a10 = A
  have hs : ∑ k : Fin 100000, A (idx_main_v93 (ix1 q) k) = ∑ k : Fin 100000, A (ix2 k q) :=
    Finset.sum_congr rfl fun k _ => congrArg A (funext fun a => by match a with | ⟨0, _⟩ => rfl | ⟨1, _⟩ => rfl)
  show Ideal.div (Ideal.ofBits .f32 0x00000000#32 + ∑ k : Fin 100000, A (idx_main_v93 (ix1 q) k)) (Ideal.ofBits .f32 0x47C35000#32) = _
  rw [hs, Ideal.ofBits_zero_f32]

/-- The deviation of an entry from the scaled column mean. -/
theorem ref_dev_loc (a3 : (⟨S100000x128, .f32⟩ : BufTy).Contents (Elt Ideal)) (a4 : (⟨S2x800000, .i32⟩ : BufTy).Contents (Elt Ideal))
    (a5 : (⟨S800000, .f32⟩ : BufTy).Contents (Elt Ideal)) (a9 : (⟨S128x128, .f32⟩ : BufTy).Contents (Elt Ideal))
    (a10 : (⟨S128, .f32⟩ : BufTy).Contents (Elt Ideal))
    (a16 : (⟨S128, .f32⟩ : BufTy).Contents (Elt Ideal)) (k : Fin 100000) (q : Fin 128) :
    val_main_v99 (F := Ideal) a3 a4 a5 a9 a10 a16 (ix2 k q)
      = val_main_v92 (F := Ideal) a3 a4 a5 a9 a10 (ix2 k q) - a16 (ix1 q) * val_main_v95 (F := Ideal) a3 a4 a5 a9 a10 (ix1 q) := by
  rw [val_main_v99_apply, val_main_v98_apply, val_main_v97_apply, val_main_v96_apply]
  have e : idx_main_v97 (idx_main_v98 (ix2 k q)) = ix1 q := funext fun a => by match a with | ⟨0, _⟩ => rfl
  rw [e]
  rfl

/-- The reference's column variance at lane `q`: the mean of the squared deviations. -/
theorem ref_var_loc (a3 : (⟨S100000x128, .f32⟩ : BufTy).Contents (Elt Ideal)) (a4 : (⟨S2x800000, .i32⟩ : BufTy).Contents (Elt Ideal))
    (a5 : (⟨S800000, .f32⟩ : BufTy).Contents (Elt Ideal)) (a9 : (⟨S128x128, .f32⟩ : BufTy).Contents (Elt Ideal))
    (a10 : (⟨S128, .f32⟩ : BufTy).Contents (Elt Ideal))
    (a16 : (⟨S128, .f32⟩ : BufTy).Contents (Elt Ideal)) (q : Fin 128) :
    val_main_v103 (F := Ideal) a3 a4 a5 a9 a10 a16 (ix1 q)
      = Ideal.div (0 + ∑ k : Fin 100000,
          (val_main_v92 (F := Ideal) a3 a4 a5 a9 a10 (ix2 k q) - a16 (ix1 q) * val_main_v95 (F := Ideal) a3 a4 a5 a9 a10 (ix1 q))
          * (val_main_v92 (F := Ideal) a3 a4 a5 a9 a10 (ix2 k q) - a16 (ix1 q) * val_main_v95 (F := Ideal) a3 a4 a5 a9 a10 (ix1 q)))
        (Ideal.ofBits .f32 0x47C35000#32) := by
  rw [val_main_v103_apply, val_main_v101_apply, val_main_v102_apply, val_main_cst_18_apply, val_main_cst_19_apply]
  have hs : ∑ k : Fin 100000, val_main_v100 (F := Ideal) a3 a4 a5 a9 a10 a16 (idx_main_v101 (ix1 q) k)
      = ∑ k : Fin 100000,
          (val_main_v92 (F := Ideal) a3 a4 a5 a9 a10 (ix2 k q) - a16 (ix1 q) * val_main_v95 (F := Ideal) a3 a4 a5 a9 a10 (ix1 q))
          * (val_main_v92 (F := Ideal) a3 a4 a5 a9 a10 (ix2 k q) - a16 (ix1 q) * val_main_v95 (F := Ideal) a3 a4 a5 a9 a10 (ix1 q)) :=
    Finset.sum_congr rfl fun k _ => by
      have e : idx_main_v101 (ix1 q) k = ix2 k q := funext fun a => by match a with | ⟨0, _⟩ => rfl | ⟨1, _⟩ => rfl
      rw [e, val_main_v100_apply, ref_dev_loc]
      rfl
  show Ideal.div (Ideal.ofBits .f32 0x00000000#32 + ∑ k : Fin 100000, val_main_v100 (F := Ideal) a3 a4 a5 a9 a10 a16 (idx_main_v101 (ix1 q) k))
      (Ideal.ofBits .f32 0x47C35000#32) = _
  rw [hs, Ideal.ofBits_zero_f32]

end ReferenceLocal

/-! ## The two programs' column statistics of the local graph meet -/

section MeetLocal
open Cert.ReferenceIdeal Cert.ReferenceIdeal.Gen Cert.ReferenceIdeal.Read Cert.Algebra

/-- The count of rows as a real number. -/
theorem card_rows_loc : (100000 : ℝ) = (Fintype.card (Fin 100000) : ℝ) := by rw [Fintype.card_fin]; norm_num

/-- THE MEANS AGREE: the two halves' partial sums, added from zero and divided by the count, are the reference's column mean. -/
theorem mean_loc (a3 : (⟨S100000x128, .f32⟩ : BufTy).Contents (Elt Ideal)) (a4 : (⟨S2x800000, .i32⟩ : BufTy).Contents (Elt Ideal))
    (a5 : (⟨S800000, .f32⟩ : BufTy).Contents (Elt Ideal)) (a9 : (⟨S128x128, .f32⟩ : BufTy).Contents (Elt Ideal))
    (a10 : (⟨S128, .f32⟩ : BufTy).Contents (Elt Ideal)) (q : Fin 128) :
    Cert.KernelIdeal.KHost.meanK (F := Ideal) 0x47C35000#32
        (Cert.KernelIdeal.Stats4.halves (val_main_v92 (F := Ideal) a3 a4 a5 a9 a10)) (ix2 0 q)
      = val_main_v95 (F := Ideal) a3 a4 a5 a9 a10 (ix1 q) := by
  rw [meanK_apply, ref_mean_loc]
  generalize val_main_v92 (F := Ideal) a3 a4 a5 a9 a10 = A
  show Ideal.div (0 + (Cert.KernelIdeal.Stats4.half A 0 q + Cert.KernelIdeal.Stats4.half A 1 q)) _ = _
  rw [Cert.KernelIdeal.Stats4.half_add]

/-- THE VARIANCES AGREE on real data: mean of squares plus M²·C·(C − 2) is the mean of the squared deviations from C·M. -/
theorem var_loc (a3 : (⟨S100000x128, .f32⟩ : BufTy).Contents (Elt Ideal)) (a4 : (⟨S2x800000, .i32⟩ : BufTy).Contents (Elt Ideal))
    (a5 : (⟨S800000, .f32⟩ : BufTy).Contents (Elt Ideal)) (a9 : (⟨S128x128, .f32⟩ : BufTy).Contents (Elt Ideal))
    (a10 : (⟨S128, .f32⟩ : BufTy).Contents (Elt Ideal))
    (a16 : (⟨S128, .f32⟩ : BufTy).Contents (Elt Ideal))
    (hA : ∀ i, IsReal (val_main_v92 (F := Ideal) a3 a4 a5 a9 a10 i)) (h16 : ∀ i, IsReal (a16 i)) (q : Fin 128) :
    Cert.KernelIdeal.KHost.varK (F := Ideal) 0x47C35000#32
        (Cert.KernelIdeal.Stats4.halves (val_main_v92 (F := Ideal) a3 a4 a5 a9 a10))
        (Cert.KernelIdeal.Stats4.halves (fun i => val_main_v92 (F := Ideal) a3 a4 a5 a9 a10 i * val_main_v92 (F := Ideal) a3 a4 a5 a9 a10 i))
        a16 (ix2 0 q)
      = val_main_v103 (F := Ideal) a3 a4 a5 a9 a10 a16 (ix1 q) := by
  rw [varK_apply, ref_var_loc, ref_mean_loc]
  generalize val_main_v92 (F := Ideal) a3 a4 a5 a9 a10 = A at hA ⊢
  show Ideal.div (0 + (Cert.KernelIdeal.Stats4.half (fun i => A i * A i) 0 q + Cert.KernelIdeal.Stats4.half (fun i => A i * A i) 1 q)) _
      + ((Ideal.div (0 + (Cert.KernelIdeal.Stats4.half A 0 q + Cert.KernelIdeal.Stats4.half A 1 q)) _
          * Ideal.div (0 + (Cert.KernelIdeal.Stats4.half A 0 q + Cert.KernelIdeal.Stats4.half A 1 q)) _) * a16 (ix1 q))
        * (a16 (ix1 q) - _) = _
  rw [Cert.KernelIdeal.Stats4.half_add, Cert.KernelIdeal.Stats4.half_add, ofBits_100000]
  simp only [zero_add]
  exact (var_identity (fun r : Fin 100000 => A (ix2 r q)) (fun r => hA _) (a16 (ix1 q)) (h16 _) 100000 card_rows_loc (by norm_num)
    (Ideal.ofBits .f32 0x40000000#32) ofBits_two).symm

end MeetLocal

end Cert.MeetStats

end
-- ==== Proof.MeetPoint.lean ====
/-
  The pointwise meeting points of the two programs, entry by entry at (p, q): the normalisation
  (w · (x − ms · mean)) · rsqrt (var + eps) + bias followed by the maximum with 0; the mix 0.8 · relu + 0.2 · gathered;
  the final mix. Each left side is the expression in the order and association written; each right side is the
  reference's stage read at the index, its broadcasts of one-row and scalar operands read at their one row or entry.
-/
import proofs.«128412_j31044023616094_2_alg».proof.Proof.Gen.ReferenceIdeal.Read
import Idealize.ShloMosaic.PureOps.Ideal
import Idealize.ShloMosaic.PureOps.Ideal.Laws
import Idealize.ShloMosaic.Lib.ValueIdx
import Idealize.ShloMosaic.Lib.ValueLayout

noncomputable section

namespace Cert.MeetPoint

open Cert.ReferenceIdeal Cert.ReferenceIdeal.Read Idealize.ShloMosaic Idealize.ShloMosaic.ValueIdx

/-- The base graph's normalised, rectified entry (p, q): the reference broadcasts the weight, the scaled mean, the
    reciprocal root and the bias from their entry q down the rows, and rectifies against a zero splat on the right. -/
theorem base_h (a0 : S50000x128.Idx → EReal) (a1 : (⟨S2x800000, .i32⟩ : BufTy).Contents (Elt Ideal)) (a2 : S800000.Idx → EReal)
    (a7 : S128x128.Idx → EReal) (a8 a11 a12 a13 : S128.Idx → EReal) (MEAN VAR : S1x128.Idx → EReal)
    (hm : ∀ q : Fin 128, MEAN (ix2 0 q) = val_main_v49 (F := Ideal) a0 a1 a2 a7 a8 (ix1 q))
    (hv : ∀ q : Fin 128, VAR (ix2 0 q) = val_main_v57 (F := Ideal) a0 a1 a2 a7 a8 a13 (ix1 q))
    (hs : S128.ShapeCasts S1x128) (p : Fin 50000) (q : Fin 128) :
    max ((shapeCast S1x128 a11 hs (ix2 0 q) * (val_main_v46 (F := Ideal) a0 a1 a2 a7 a8 (ix2 p q) - shapeCast S1x128 a13 hs (ix2 0 q) * MEAN (ix2 0 q)))
          * Ideal.rsqrt (VAR (ix2 0 q) + Ideal.ofBits .f32 0x3727C5AC#32) + shapeCast S1x128 a12 hs (ix2 0 q)) 0
      = val_main_v70 (F := Ideal) a0 a1 a2 a7 a8 a11 a12 a13 (ix2 p q) := by
  rw [val_main_v70_apply, val_main_v69_apply, val_main_v66_apply, val_main_v60_apply, val_main_v59_apply, val_main_v58_apply,
    val_main_v53_apply, val_main_v52_apply, val_main_v51_apply, val_main_v50_apply,
    val_main_v65_apply, val_main_v64_apply, val_main_v63_apply, val_main_v62_apply, val_main_v61_apply, val_main_cst_12_apply,
    val_main_v68_apply, val_main_v67_apply, val_main_call1_v0_apply, val_main_call1_cst_apply]
  rw [shapeCast_a_1a_apply a11 hs 0 q, shapeCast_a_1a_apply a13 hs 0 q, shapeCast_a_1a_apply a12 hs 0 q, hm q, hv q]
  have e58 : idx_main_v58 (idx_main_v59 (ix2 p q)) = ix1 q := funext fun a => Fin.ext (by match a with | ⟨0, _⟩ => rfl)
  have e51 : idx_main_v51 (idx_main_v52 (ix2 p q)) = ix1 q := funext fun a => Fin.ext (by match a with | ⟨0, _⟩ => rfl)
  have e64 : idx_main_v64 (idx_main_v65 (ix2 p q)) = ix1 q := funext fun a => Fin.ext (by match a with | ⟨0, _⟩ => rfl)
  have e67 : idx_main_v67 (idx_main_v68 (ix2 p q)) = ix1 q := funext fun a => Fin.ext (by match a with | ⟨0, _⟩ => rfl)
  rw [e58, e51, e64, e67]
  exact congrArg (max _) Ideal.ofBits_zero_f32.symm

/-- The final mix at (p, q): 0.8 of the rectified base entry plus 0.2 of the averaged entry, the two factors the
    reference's scalar constants broadcast to every entry. -/
theorem out0 (a0 : S50000x128.Idx → EReal) (a1 : (⟨S2x800000, .i32⟩ : BufTy).Contents (Elt Ideal)) (a2 : S800000.Idx → EReal)
    (a3 : S100000x128.Idx → EReal) (a4 : (⟨S2x800000, .i32⟩ : BufTy).Contents (Elt Ideal)) (a5 : S800000.Idx → EReal)
    (a6 : (⟨S100000, .i32⟩ : BufTy).Contents (Elt Ideal)) (a7 : S128x128.Idx → EReal) (a8 : S128.Idx → EReal) (a9 : S128x128.Idx → EReal)
    (a10 a11 a12 a13 a14 a15 a16 : S128.Idx → EReal) (p : Fin 50000) (q : Fin 128) :
    Ideal.ofBits .f32 0x3F4CCCCD#32 * val_main_v70 (F := Ideal) a0 a1 a2 a7 a8 a11 a12 a13 (ix2 p q)
        + Ideal.ofBits .f32 0x3E4CCCCD#32 * val_main_v140 (F := Ideal) a0 a1 a2 a3 a4 a5 a6 a7 a8 a9 a10 a11 a12 a13 a14 a15 a16 (ix2 p q)
      = val_main_v145 (F := Ideal) a0 a1 a2 a3 a4 a5 a6 a7 a8 a9 a10 a11 a12 a13 a14 a15 a16 (ix2 p q) := by
  rw [val_main_v145_apply, val_main_v142_apply, val_main_v144_apply, val_main_v141_apply, val_main_v143_apply,
    val_main_cst_29_apply, val_main_cst_30_apply]
  rfl

/-- The local graph's entry (p, q): 0.8 of its normalised, rectified entry plus 0.2 of the gathered base row's entry
    (the gathered array kept as the reference's own stage). -/
theorem local_mixed (a0 : S50000x128.Idx → EReal) (a1 : (⟨S2x800000, .i32⟩ : BufTy).Contents (Elt Ideal)) (a2 : S800000.Idx → EReal)
    (a3 : S100000x128.Idx → EReal) (a4 : (⟨S2x800000, .i32⟩ : BufTy).Contents (Elt Ideal)) (a5 : S800000.Idx → EReal)
    (a6 : (⟨S100000, .i32⟩ : BufTy).Contents (Elt Ideal)) (a7 : S128x128.Idx → EReal) (a8 : S128.Idx → EReal) (a9 : S128x128.Idx → EReal)
    (a10 a11 a12 a13 a14 a15 a16 : S128.Idx → EReal) (MEAN VAR : S1x128.Idx → EReal)
    (hm : ∀ q : Fin 128, MEAN (ix2 0 q) = val_main_v95 (F := Ideal) a3 a4 a5 a9 a10 (ix1 q))
    (hv : ∀ q : Fin 128, VAR (ix2 0 q) = val_main_v103 (F := Ideal) a3 a4 a5 a9 a10 a16 (ix1 q))
    (hs : S128.ShapeCasts S1x128) (p : Fin 100000) (q : Fin 128) :
    Ideal.ofBits .f32 0x3F4CCCCD#32
          * max ((shapeCast S1x128 a14 hs (ix2 0 q) * (val_main_v92 (F := Ideal) a3 a4 a5 a9 a10 (ix2 p q) - shapeCast S1x128 a16 hs (ix2 0 q) * MEAN (ix2 0 q)))
              * Ideal.rsqrt (VAR (ix2 0 q) + Ideal.ofBits .f32 0x3727C5AC#32) + shapeCast S1x128 a15 hs (ix2 0 q)) 0
        + Ideal.ofBits .f32 0x3E4CCCCD#32 * val_main_v125 (F := Ideal) a0 a1 a2 a6 a7 a8 a11 a12 a13 (ix2 p q)
      = val_main_v128 (F := Ideal) a0 a1 a2 a3 a4 a5 a6 a7 a8 a9 a10 a11 a12 a13 a14 a15 a16 (ix2 p q) := by
  rw [val_main_v128_apply, val_main_v118_apply, val_main_v127_apply, val_main_v117_apply, val_main_v126_apply,
    val_main_cst_21_apply, val_main_cst_24_apply,
    val_main_v116_apply, val_main_v115_apply, val_main_v112_apply, val_main_v106_apply, val_main_v105_apply, val_main_v104_apply,
    val_main_v99_apply, val_main_v98_apply, val_main_v97_apply, val_main_v96_apply,
    val_main_v111_apply, val_main_v110_apply, val_main_v109_apply, val_main_v108_apply, val_main_v107_apply, val_main_cst_20_apply,
    val_main_v114_apply, val_main_v113_apply, val_main_call2_v0_apply, val_main_call2_cst_apply]
  rw [shapeCast_a_1a_apply a14 hs 0 q, shapeCast_a_1a_apply a16 hs 0 q, shapeCast_a_1a_apply a15 hs 0 q, hm q, hv q]
  have e104 : idx_main_v104 (idx_main_v105 (ix2 p q)) = ix1 q := funext fun a => Fin.ext (by match a with | ⟨0, _⟩ => rfl)
  have e97 : idx_main_v97 (idx_main_v98 (ix2 p q)) = ix1 q := funext fun a => Fin.ext (by match a with | ⟨0, _⟩ => rfl)
  have e110 : idx_main_v110 (idx_main_v111 (ix2 p q)) = ix1 q := funext fun a => Fin.ext (by match a with | ⟨0, _⟩ => rfl)
  have e113 : idx_main_v113 (idx_main_v114 (ix2 p q)) = ix1 q := funext fun a => Fin.ext (by match a with | ⟨0, _⟩ => rfl)
  rw [e104, e97, e110, e113]
  exact congrArg (fun z => Ideal.ofBits .f32 0x3F4CCCCD#32 * max _ z + _) Ideal.ofBits_zero_f32.symm

end Cert.MeetPoint

end
-- ==== Proof.Bridge.lean ====
/-
  The two programs compute the same arrays. In program order: the projected features are one matrix product plus bias on
  both sides; the aggregation, the gather of base rows and the scatter-mean are the same host operations at equal operands;
  the column means agree because a sum may be taken half by half; the variances agree by the one algebraic law that needs
  real entries — mean((x − c·m)²) = mean(x²) + m²·c·(c − 2) with m the mean — which is where the precondition enters: the
  aggregated features are real because every degree the reference takes the inverse square root of is positive; the three
  pointwise regions then compute the reference's own expressions, entry by entry.
-/
import proofs.«128412_j31044023616094_2_alg».proof.Proof.KVal3
import proofs.«128412_j31044023616094_2_alg».proof.Proof.RefEq
import proofs.«128412_j31044023616094_2_alg».proof.Proof.MeetLin
import proofs.«128412_j31044023616094_2_alg».proof.Proof.MeetStats
import proofs.«128412_j31044023616094_2_alg».proof.Proof.MeetPoint
import proofs.«128412_j31044023616094_2_alg».proof.Proof.Algebra

set_option maxRecDepth 16384

noncomputable section

namespace Cert.Bridge

open Cert.KernelIdeal Cert.KernelIdeal.Gen Cert.KernelIdeal.KVal
open Idealize.ShloMosaic Idealize.ShloMosaic.TcCoe Idealize.SL.Sem Idealize.ShloMosaic.ValueIdx
open Cert.ReferenceIdeal.Read Cert.Algebra

variable (m : (ℓ : Loc nD τ sig) → Buf (Elt Ideal) ℓ) (ρ : Dev nD → PrngReg) (c : Dev nD)

/-! ## The base graph -/

theorem bx_eq : bxK m ρ c = val_main_v33 (F := Ideal) (arg m ρ c main_arg0) (arg m ρ c main_arg7) (arg m ρ c main_arg8) := by
  unfold bxK; exact Cert.MeetLin.base _ _ _ _ _

theorem aggB_eq : aggBK m ρ c = val_main_v46 (F := Ideal) (arg m ρ c main_arg0) (arg m ρ c main_arg1) (arg m ρ c main_arg2) (arg m ρ c main_arg7) (arg m ρ c main_arg8) := by
  unfold aggBK
  exact Cert.RefEq.agg_eq _ _ _ _ _ _ _ _ _ (bx_eq m ρ c) (Cert.RefEq.rows_eq _) (Cert.RefEq.cols_eq _) (Cert.RefEq.val_eq _ _)

theorem meanB_at (q : Fin 128) :
    meanBK m ρ c (ix2 0 q) = val_main_v49 (F := Ideal) (arg m ρ c main_arg0) (arg m ρ c main_arg1) (arg m ρ c main_arg2) (arg m ρ c main_arg7) (arg m ρ c main_arg8) (ix1 q) := by
  unfold meanBK; rw [aggB_eq]; exact Cert.MeetStats.mean_base _ _ _ _ _ q

theorem varB_at (hB : ∀ i, IsReal (val_main_v46 (F := Ideal) (arg m ρ c main_arg0) (arg m ρ c main_arg1) (arg m ρ c main_arg2) (arg m ρ c main_arg7) (arg m ρ c main_arg8) i))
    (h13 : ∀ i, IsReal ((arg m ρ c main_arg13) i)) (q : Fin 128) :
    varBK m ρ c (ix2 0 q) = val_main_v57 (F := Ideal) (arg m ρ c main_arg0) (arg m ρ c main_arg1) (arg m ρ c main_arg2) (arg m ρ c main_arg7) (arg m ρ c main_arg8) (arg m ρ c main_arg13) (ix1 q) := by
  unfold varBK; rw [aggB_eq]; exact Cert.MeetStats.var_base _ _ _ _ _ _ hB h13 q

theorem baseH_eq (hB : ∀ i, IsReal (val_main_v46 (F := Ideal) (arg m ρ c main_arg0) (arg m ρ c main_arg1) (arg m ρ c main_arg2) (arg m ρ c main_arg7) (arg m ρ c main_arg8) i))
    (h13 : ∀ i, IsReal ((arg m ρ c main_arg13) i)) :
    baseHK m ρ c = val_main_v70 (F := Ideal) (arg m ρ c main_arg0) (arg m ρ c main_arg1) (arg m ρ c main_arg2) (arg m ρ c main_arg7) (arg m ρ c main_arg8) (arg m ρ c main_arg11) (arg m ρ c main_arg12) (arg m ρ c main_arg13) := by
  funext i
  obtain ⟨p, q, rfl⟩ : ∃ (p : Fin 50000) (q : Fin 128), i = ix2 p q := ⟨i 0, i 1, eq_ix2 i⟩
  unfold baseHK
  rw [Norm2.norm_apply, aggB_eq]
  exact Cert.MeetPoint.base_h _ _ _ _ _ _ _ _ (meanBK m ρ c) (varBK m ρ c) (meanB_at m ρ c) (varB_at m ρ c hB h13) _ p q

/-! ## The local graph -/

theorem lx_eq : lxK m ρ c = val_main_v75 (F := Ideal) (arg m ρ c main_arg3) (arg m ρ c main_arg9) (arg m ρ c main_arg10) := by
  unfold lxK; exact Cert.MeetLin.loc _ _ _ _ _

theorem aggL_eq : aggLK m ρ c = val_main_v92 (F := Ideal) (arg m ρ c main_arg3) (arg m ρ c main_arg4) (arg m ρ c main_arg5) (arg m ρ c main_arg9) (arg m ρ c main_arg10) := by
  unfold aggLK
  exact Cert.RefEq.aggL_eq _ _ _ _ _ _ (lx_eq m ρ c)

theorem meanL_at (q : Fin 128) :
    meanLK m ρ c (ix2 0 q) = val_main_v95 (F := Ideal) (arg m ρ c main_arg3) (arg m ρ c main_arg4) (arg m ρ c main_arg5) (arg m ρ c main_arg9) (arg m ρ c main_arg10) (ix1 q) := by
  unfold meanLK; rw [aggL_eq]; exact Cert.MeetStats.mean_loc _ _ _ _ _ q

theorem varL_at (hL : ∀ i, IsReal (val_main_v92 (F := Ideal) (arg m ρ c main_arg3) (arg m ρ c main_arg4) (arg m ρ c main_arg5) (arg m ρ c main_arg9) (arg m ρ c main_arg10) i))
    (h16 : ∀ i, IsReal ((arg m ρ c main_arg16) i)) (q : Fin 128) :
    varLK m ρ c (ix2 0 q) = val_main_v103 (F := Ideal) (arg m ρ c main_arg3) (arg m ρ c main_arg4) (arg m ρ c main_arg5) (arg m ρ c main_arg9) (arg m ρ c main_arg10) (arg m ρ c main_arg16) (ix1 q) := by
  unfold varLK; rw [aggL_eq]; exact Cert.MeetStats.var_loc _ _ _ _ _ _ hL h16 q

/-! ## The mixing -/

theorem gath_eq (hB : ∀ i, IsReal (val_main_v46 (F := Ideal) (arg m ρ c main_arg0) (arg m ρ c main_arg1) (arg m ρ c main_arg2) (arg m ρ c main_arg7) (arg m ρ c main_arg8) i))
    (h13 : ∀ i, IsReal ((arg m ρ c main_arg13) i)) :
    gathK m ρ c = val_main_v125 (F := Ideal) (arg m ρ c main_arg0) (arg m ρ c main_arg1) (arg m ρ c main_arg2) (arg m ρ c main_arg6) (arg m ρ c main_arg7) (arg m ρ c main_arg8) (arg m ρ c main_arg11) (arg m ρ c main_arg12) (arg m ρ c main_arg13) := by
  unfold gathK
  exact Cert.RefEq.gath_eq _ _ _ _ _ _ _ _ _ _ (baseH_eq m ρ c hB h13)

theorem lm_eq (hB : ∀ i, IsReal (val_main_v46 (F := Ideal) (arg m ρ c main_arg0) (arg m ρ c main_arg1) (arg m ρ c main_arg2) (arg m ρ c main_arg7) (arg m ρ c main_arg8) i))
    (h13 : ∀ i, IsReal ((arg m ρ c main_arg13) i))
    (hL : ∀ i, IsReal (val_main_v92 (F := Ideal) (arg m ρ c main_arg3) (arg m ρ c main_arg4) (arg m ρ c main_arg5) (arg m ρ c main_arg9) (arg m ρ c main_arg10) i))
    (h16 : ∀ i, IsReal ((arg m ρ c main_arg16) i)) :
    lmK m ρ c = val_main_v128 (F := Ideal) (arg m ρ c main_arg0) (arg m ρ c main_arg1) (arg m ρ c main_arg2) (arg m ρ c main_arg3) (arg m ρ c main_arg4) (arg m ρ c main_arg5) (arg m ρ c main_arg6) (arg m ρ c main_arg7) (arg m ρ c main_arg8) (arg m ρ c main_arg9) (arg m ρ c main_arg10) (arg m ρ c main_arg11) (arg m ρ c main_arg12) (arg m ρ c main_arg13) (arg m ρ c main_arg14) (arg m ρ c main_arg15) (arg m ρ c main_arg16) := by
  funext i
  obtain ⟨p, q, rfl⟩ : ∃ (p : Fin 100000) (q : Fin 128), i = ix2 p q := ⟨i 0, i 1, eq_ix2 i⟩
  unfold lmK
  rw [Fused5.fused_apply, aggL_eq, gath_eq m ρ c hB h13]
  exact Cert.MeetPoint.local_mixed _ _ _ _ _ _ _ _ _ _ _ _ _ _ _ _ _ (meanLK m ρ c) (varLK m ρ c) (meanL_at m ρ c) (varL_at m ρ c hL h16) _ p q

theorem msg_eq (hB : ∀ i, IsReal (val_main_v46 (F := Ideal) (arg m ρ c main_arg0) (arg m ρ c main_arg1) (arg m ρ c main_arg2) (arg m ρ c main_arg7) (arg m ρ c main_arg8) i))
    (h13 : ∀ i, IsReal ((arg m ρ c main_arg13) i))
    (hL : ∀ i, IsReal (val_main_v92 (F := Ideal) (arg m ρ c main_arg3) (arg m ρ c main_arg4) (arg m ρ c main_arg5) (arg m ρ c main_arg9) (arg m ρ c main_arg10) i))
    (h16 : ∀ i, IsReal ((arg m ρ c main_arg16) i)) :
    msgK m ρ c = val_main_v140 (F := Ideal) (arg m ρ c main_arg0) (arg m ρ c main_arg1) (arg m ρ c main_arg2) (arg m ρ c main_arg3) (arg m ρ c main_arg4) (arg m ρ c main_arg5) (arg m ρ c main_arg6) (arg m ρ c main_arg7) (arg m ρ c main_arg8) (arg m ρ c main_arg9) (arg m ρ c main_arg10) (arg m ρ c main_arg11) (arg m ρ c main_arg12) (arg m ρ c main_arg13) (arg m ρ c main_arg14) (arg m ρ c main_arg15) (arg m ρ c main_arg16) := by
  unfold msgK
  exact Cert.RefEq.msg_eq _ _ _ _ _ _ _ _ _ _ _ _ _ _ _ _ _ _ (lm_eq m ρ c hB h13 hL h16)

/-! ## The two results -/

/-- The kernel program's first result is the reference's. -/
theorem out0 (hB : ∀ i, IsReal (val_main_v46 (F := Ideal) (arg m ρ c main_arg0) (arg m ρ c main_arg1) (arg m ρ c main_arg2) (arg m ρ c main_arg7) (arg m ρ c main_arg8) i))
    (h13 : ∀ i, IsReal ((arg m ρ c main_arg13) i))
    (hL : ∀ i, IsReal (val_main_v92 (F := Ideal) (arg m ρ c main_arg3) (arg m ρ c main_arg4) (arg m ρ c main_arg5) (arg m ρ c main_arg9) (arg m ρ c main_arg10) i))
    (h16 : ∀ i, IsReal ((arg m ρ c main_arg16) i)) :
    W16 m ρ c (Proc.devRef .tc main_v122) = val_main_v145 (F := Ideal) (arg m ρ c main_arg0) (arg m ρ c main_arg1) (arg m ρ c main_arg2) (arg m ρ c main_arg3) (arg m ρ c main_arg4) (arg m ρ c main_arg5) (arg m ρ c main_arg6) (arg m ρ c main_arg7) (arg m ρ c main_arg8) (arg m ρ c main_arg9) (arg m ρ c main_arg10) (arg m ρ c main_arg11) (arg m ρ c main_arg12) (arg m ρ c main_arg13) (arg m ρ c main_arg14) (arg m ρ c main_arg15) (arg m ρ c main_arg16) := by
  refine (W16_out0 m ρ c).trans ?_
  funext i
  obtain ⟨p, q, rfl⟩ : ∃ (p : Fin 50000) (q : Fin 128), i = ix2 p q := ⟨i 0, i 1, eq_ix2 i⟩
  rw [Mix6.mix2_apply, baseH_eq m ρ c hB h13, msg_eq m ρ c hB h13 hL h16]
  exact Cert.MeetPoint.out0 _ _ _ _ _ _ _ _ _ _ _ _ _ _ _ _ _ p q

/-- The kernel program's second result is the reference's. -/
theorem out1 (hB : ∀ i, IsReal (val_main_v46 (F := Ideal) (arg m ρ c main_arg0) (arg m ρ c main_arg1) (arg m ρ c main_arg2) (arg m ρ c main_arg7) (arg m ρ c main_arg8) i))
    (h13 : ∀ i, IsReal ((arg m ρ c main_arg13) i))
    (hL : ∀ i, IsReal (val_main_v92 (F := Ideal) (arg m ρ c main_arg3) (arg m ρ c main_arg4) (arg m ρ c main_arg5) (arg m ρ c main_arg9) (arg m ρ c main_arg10) i))
    (h16 : ∀ i, IsReal ((arg m ρ c main_arg16) i)) :
    W16 m ρ c (Proc.devRef .tc main_v109) = val_main_v128 (F := Ideal) (arg m ρ c main_arg0) (arg m ρ c main_arg1) (arg m ρ c main_arg2) (arg m ρ c main_arg3) (arg m ρ c main_arg4) (arg m ρ c main_arg5) (arg m ρ c main_arg6) (arg m ρ c main_arg7) (arg m ρ c main_arg8) (arg m ρ c main_arg9) (arg m ρ c main_arg10) (arg m ρ c main_arg11) (arg m ρ c main_arg12) (arg m ρ c main_arg13) (arg m ρ c main_arg14) (arg m ρ c main_arg15) (arg m ρ c main_arg16) :=
  (W16_out1 m ρ c).trans (lm_eq m ρ c hB h13 hL h16)

end Cert.Bridge

end
-- ==== Proof.PreFacts.lean ====
/- The precondition read back as mathematics: every float input is real at every index, and the
   corrected degree  select(deg < 1/2, deg + 1, deg)  of the base graph is positive at every node, where
   deg is the scatter-sum of the edge weights over the edges' first endpoints. Each clause of the printed
   predicate is an "all" of a comparison, a conjunction of one-bit words by "and"; an "all" that is 1 has a 1
   at every index, and a comparison that is 1 is the order relation it spells. -/
import proofs.«128412_j31044023616094_2_alg».proof.Pre_finite_inputs
import proofs.«128412_j31044023616094_2_alg».proof.Proof.Algebra
import Idealize.ShloMosaic.Lib.ReduceAll
import Idealize.ShloMosaic.Lib.ValueIdx
import Idealize.ShloMosaic.PureOps.Ideal

noncomputable section

namespace Cert.PreFacts

open Idealize.ShloMosaic Idealize.ShloMosaic.ValueIdx Cert.Pre_finite_inputs Cert.Algebra

/-- The scalar shape has one index. -/
instance : Subsingleton S_.Idx := ⟨fun a b => funext fun d => d.elim0⟩

/-- A one-bit "and" of two scalar words is 1 exactly when both are. -/
theorem andi_ix (x y : IVec S_ 1) (j : S_.Idx) : andi x y j = 1#1 ↔ x j = 1#1 ∧ y j = 1#1 :=
  IntOp.andi_eq_one

theorem ofBool_eq_one (b : Bool) : BitVec.ofBool b = 1#1 ↔ b = true := by cases b <;> decide

/-- "all (|x| < +∞)" that is 1: every element of `x` is real. An extended real whose absolute value
    `max x (-x)` is below `⊤` is neither infinity. -/
theorem isReal_of_all {s : Shape} {axes : List (Fin s.rank)} (x : FVec Ideal s .f32)
    (bc : S_.BroadcastsInDim s (![] : Fin 0 → Fin s.rank)) (hr : s.ReducesTo axes S_) (hu : 0 < S_.numel)
    (e : Host.reduce IntOp.andi
        (cmpf .olt (Host.absf x) (broadcastInDim s ![] bc (constant (F := Ideal) S_ .f32 0x7F800000#32)))
        (constantI S_ 1 1#1) hr hu ix0 = 1#1) :
    ∀ i, IsReal (x i) := by
  intro i
  have h1 := Host.reduce_andi_all _ _ hr hu ix0 e i
  have h2 : Ideal.cmp .olt (max (x i) (-(x i))) (Ideal.ofBits .f32 0x7F800000#32) = 1#1 := h1
  rw [ofBits_top] at h2
  unfold Ideal.cmp at h2
  rw [ofBool_eq_one] at h2
  have h3 : max (x i) (-(x i)) < ⊤ := of_decide_eq_true h2
  rw [isReal_iff]
  constructor
  · intro hx
    rw [hx] at h3
    exact absurd h3 (by simp)
  · intro hx
    rw [hx] at h3
    exact absurd h3 (by simp)

/-- "all (x > 0)" that is 1: every element of `x` is positive. -/
theorem pos_of_all {s : Shape} {axes : List (Fin s.rank)} (x : FVec Ideal s .f32)
    (bc : S_.BroadcastsInDim s (![] : Fin 0 → Fin s.rank)) (hr : s.ReducesTo axes S_) (hu : 0 < S_.numel)
    (e : Host.reduce IntOp.andi
        (cmpf .ogt x (broadcastInDim s ![] bc (constant (F := Ideal) S_ .f32 0x00000000#32)))
        (constantI S_ 1 1#1) hr hu ix0 = 1#1) :
    ∀ i, 0 < x i := by
  intro i
  have h1 := Host.reduce_andi_all _ _ hr hu ix0 e i
  have h2 : Ideal.cmp .ogt (x i) (Ideal.ofBits .f32 0x00000000#32) = 1#1 := h1
  rw [ofBits_zero] at h2
  unfold Ideal.cmp at h2
  rw [ofBool_eq_one] at h2
  exact of_decide_eq_true h2

variable [Facts]
open Facts

/-- The corrected degree, in the printed predicate's own words: the scatter-sum `deg` of the edge weights
    `a2` at the first row of the edge list `a1`, onto zeros; then `deg + 1` where `deg < 1/2`, else `deg`. -/
def degFixed {F : FTy → Type} [FloatOps F] (main_arg1 : IVec S2x800000 32) (main_arg2 : FVec F S800000 .f32) :
    FVec F S50000 .f32 :=
  let main_v69 : IVec S1x800000 32 := (extractStridedSlice S1x800000 ![0, 0] · slices_S2x800000_S1x800000_0_0) main_arg1
  let main_v70 : IVec S800000 32 := shapeCast S800000 main_v69 shapeCasts_S1x800000_S800000
  let main_cst_26 : FVec F S_ .f32 := constant S_ .f32 0x00000000#32
  let main_v71 : FVec F S50000 .f32 := broadcastInDim S50000 ![] bcast_S_S50000 main_cst_26
  let main_v72 : IVec S800000x1 32 := broadcastInDim S800000x1 ![0] bcast_S800000_S800000x1_0 main_v70
  let main_v73 : FVec F S50000 .f32 := (fun x i u => Host.scatterAdd scatter_S50000_S800000x1_S800000_n_0_0_1 x i u) main_v71 main_v72 main_arg2
  let main_cst_27 : FVec F S_ .f32 := constant S_ .f32 0x3F000000#32
  let main_v74 : FVec F S50000 .f32 := broadcastInDim S50000 ![] bcast_S_S50000 main_cst_27
  let main_v75 : IVec S50000 1 := cmpf .olt main_v73 main_v74
  let main_cst_28 : FVec F S_ .f32 := constant S_ .f32 0x3F800000#32
  let main_v76 : FVec F S50000 .f32 := broadcastInDim S50000 ![] bcast_S_S50000 main_cst_28
  let main_v77 : FVec F S50000 .f32 := addf main_v73 main_v76
  let main_v78 : FVec F S50000 .f32 := select main_v75 main_v77 main_v73
  main_v78

/-- THE PRECONDITION DECODED: all fourteen float inputs real everywhere, the corrected degree positive everywhere. -/
theorem facts (a0 : FVec Ideal S50000x128 .f32) (a1 : IVec S2x800000 32) (a2 : FVec Ideal S800000 .f32)
    (a3 : FVec Ideal S100000x128 .f32) (a4 : IVec S2x800000 32) (a5 : FVec Ideal S800000 .f32)
    (a6 : IVec S100000 32) (a7 : FVec Ideal S128x128 .f32) (a8 : FVec Ideal S128 .f32)
    (a9 : FVec Ideal S128x128 .f32) (a10 a11 a12 a13 a14 a15 a16 : FVec Ideal S128 .f32)
    (h : Cert.Pre_finite_inputs.fn (F := Ideal) a0 a1 a2 a3 a4 a5 a6 a7 a8 a9 a10 a11 a12 a13 a14 a15 a16
      = fun _ => 1#1) :
    (∀ i, IsReal (a0 i)) ∧ (∀ i, IsReal (a2 i)) ∧ (∀ i, IsReal (a3 i)) ∧ (∀ i, IsReal (a5 i))
      ∧ (∀ i, IsReal (a7 i)) ∧ (∀ i, IsReal (a8 i)) ∧ (∀ i, IsReal (a9 i)) ∧ (∀ i, IsReal (a10 i))
      ∧ (∀ i, IsReal (a11 i)) ∧ (∀ i, IsReal (a12 i)) ∧ (∀ i, IsReal (a13 i)) ∧ (∀ i, IsReal (a14 i))
      ∧ (∀ i, IsReal (a15 i)) ∧ (∀ i, IsReal (a16 i))
      ∧ (∀ n : S50000.Idx, 0 < degFixed (F := Ideal) a1 a2 n) := by
  have e := congrFun h ix0
  unfold Cert.Pre_finite_inputs.fn Cert.Pre_finite_inputs.fn_part1 Cert.Pre_finite_inputs.fn_part2
    Cert.Pre_finite_inputs.fn_part3 Cert.Pre_finite_inputs.fn_part4 at e
  dsimp only at e
  simp only [andi_ix] at e
  obtain ⟨⟨⟨⟨⟨⟨⟨⟨⟨⟨⟨⟨⟨⟨e0, e2⟩, e3⟩, e5⟩, e7⟩, e8⟩, e9⟩, e10⟩, e11⟩, e12⟩, e13⟩, e14⟩, e15⟩, e16⟩, ed⟩ := e
  have hd := pos_of_all _ _ _ _ ed
  exact ⟨isReal_of_all a0 _ _ _ e0, isReal_of_all a2 _ _ _ e2, isReal_of_all a3 _ _ _ e3,
    isReal_of_all a5 _ _ _ e5, isReal_of_all a7 _ _ _ e7, isReal_of_all a8 _ _ _ e8,
    isReal_of_all a9 _ _ _ e9, isReal_of_all a10 _ _ _ e10, isReal_of_all a11 _ _ _ e11,
    isReal_of_all a12 _ _ _ e12, isReal_of_all a13 _ _ _ e13, isReal_of_all a14 _ _ _ e14,
    isReal_of_all a15 _ _ _ e15, isReal_of_all a16 _ _ _ e16, hd⟩

end Cert.PreFacts

end
-- ==== Proof.FinAgg.lean ====
/- The two edge aggregations of the reference are real at every index when the inputs are real and the
   corrected degree is positive: each stage is a sum, a product, a selection or a re-indexing of real values,
   and the one reciprocal square root is taken of a positive real. Also: the corrected degree that the
   precondition speaks of is the reference's own. -/
import proofs.«128412_j31044023616094_2_alg».proof.Proof.Gen.ReferenceIdeal.Read
import proofs.«128412_j31044023616094_2_alg».proof.Proof.Algebra
import proofs.«128412_j31044023616094_2_alg».proof.Proof.PreFacts

noncomputable section

namespace Cert.FinAgg

open Idealize.ShloMosaic Cert.Algebra Cert.ReferenceIdeal Cert.ReferenceIdeal.Read

/-! ### Real values through the host operations, at any shapes -/

/-- An accumulating scatter of real updates into a real array is real everywhere. -/
theorem isReal_scatterAdd {s si su : Shape} {φ : FTy} {w : Nat} (d : ScatterDims s si su) (x : FVec Ideal s φ)
    (idx : IVec si w) (upd : FVec Ideal su φ) (hx : ∀ i, IsReal (x i)) (hu : ∀ j, IsReal (upd j)) :
    ∀ i, IsReal (Host.scatterAdd d x idx upd i) :=
  fun i => isReal_hostScatterAdd d x idx upd i (hx i) hu

/-- A gather reads elements of its operand: of a real array it is real everywhere. -/
theorem isReal_gather {s si t : Shape} {w : Nat} (d : GatherDims s si t) (x : s.Idx → EReal) (idx : IVec si w)
    (hx : ∀ i, IsReal (x i)) : ∀ j, IsReal (Host.gather d x idx j) :=
  fun _ => hx _

/-! ### The corrected degree -/

/-- The corrected degree of the precondition is the reference's: the same operations on the same operands. -/
theorem degFixed_eq [Cert.Pre_finite_inputs.Facts] (a1 : IVec Cert.Pre_finite_inputs.S2x800000 32)
    (a2 : FVec Ideal Cert.Pre_finite_inputs.S800000 .f32) :
    Cert.PreFacts.degFixed (F := Ideal) a1 a2 = val_main_v11 (F := Ideal) a1 a2 := by
  unfold Cert.PreFacts.degFixed val_main_v11 val_main_v8 val_main_v10 val_main_v6 val_main_v7 val_main_v9 val_main_v4
    val_main_v5 val_main_v1 val_main_v0 val_main_cst val_main_cst_0 val_main_cst_1
  rfl

/-! ### The base graph's aggregation -/

theorem isReal_v4 : ∀ i, IsReal (val_main_v4 (F := Ideal) i) := by
  intro i
  rw [val_main_v4_apply]
  unfold val_main_cst
  rw [ValueIdx.constant_apply, ofBits_zero]
  exact isReal_zero

/-- The degree: a scatter-sum of the real edge weights onto zeros. -/
theorem isReal_v6 (x1 : IVec S2x800000 32) (x2 : FVec Ideal S800000 .f32) (h2 : ∀ i, IsReal (x2 i)) :
    ∀ i, IsReal (val_main_v6 (F := Ideal) x1 x2 i) := by
  unfold val_main_v6
  exact isReal_scatterAdd _ _ _ _ isReal_v4 h2

/-- The corrected degree: the degree, or the degree plus one. -/
theorem isReal_v11 (x1 : IVec S2x800000 32) (x2 : FVec Ideal S800000 .f32) (h2 : ∀ i, IsReal (x2 i)) :
    ∀ i, IsReal (val_main_v11 (F := Ideal) x1 x2 i) := by
  intro i
  rw [val_main_v11_apply]
  unfold Scalar.select
  split
  · rw [val_main_v10_apply, Ideal.addf_def]
    refine (isReal_v6 x1 x2 h2 i).add ?_
    rw [val_main_v9_apply]
    unfold val_main_cst_1
    rw [ValueIdx.constant_apply, ofBits_one]
    exact isReal_one
  · exact isReal_v6 x1 x2 h2 i

/-- Its reciprocal square root, where it is positive. -/
theorem isReal_v12 (x1 : IVec S2x800000 32) (x2 : FVec Ideal S800000 .f32) (h2 : ∀ i, IsReal (x2 i))
    (hpos : ∀ n, 0 < val_main_v11 (F := Ideal) x1 x2 n) : ∀ i, IsReal (val_main_v12 (F := Ideal) x1 x2 i) := by
  intro i
  rw [val_main_v12_apply, Ideal.hostUnary_rsqrt_def]
  exact (isReal_v11 x1 x2 h2 i).rsqrt (hpos i)

/-- The normalized edge weight: the product of the weight with the two endpoints' factors. -/
theorem isReal_v28 (x1 : IVec S2x800000 32) (x2 : FVec Ideal S800000 .f32) (h2 : ∀ i, IsReal (x2 i))
    (hpos : ∀ n, 0 < val_main_v11 (F := Ideal) x1 x2 n) : ∀ i, IsReal (val_main_v28 (F := Ideal) x1 x2 i) := by
  intro i
  have h12 := isReal_v12 x1 x2 h2 hpos
  rw [val_main_v28_apply, Ideal.mulf_def, val_main_v20_apply, Ideal.mulf_def]
  unfold val_main_v19 val_main_v27
  exact ((isReal_gather _ _ _ h12 i).mul (h2 i)).mul (isReal_gather _ _ _ h12 i)

/-- The projected node features: a contraction of real operands plus a real bias. -/
theorem isReal_v33 (x0 : FVec Ideal S50000x128 .f32) (x7 : FVec Ideal S128x128 .f32) (x8 : FVec Ideal S128 .f32)
    (h0 : ∀ i, IsReal (x0 i)) (h7 : ∀ i, IsReal (x7 i)) (h8 : ∀ i, IsReal (x8 i)) :
    ∀ i, IsReal (val_main_v33 (F := Ideal) x0 x7 x8 i) := by
  intro i
  rw [val_main_v33_apply, Ideal.addf_def]
  refine IsReal.add ?_ ?_
  · rw [val_main_v30_apply]
    refine isReal_sum _ _ fun k _ => (h0 _).mul ?_
    rw [val_main_v29_apply]
    exact h7 _
  · rw [val_main_v32_apply, val_main_v31_apply]
    exact h8 _

/-- The messages: gathered features times the normalized weight of their edge. -/
theorem isReal_v43 (x0 : FVec Ideal S50000x128 .f32) (x1 : IVec S2x800000 32) (x2 : FVec Ideal S800000 .f32)
    (x7 : FVec Ideal S128x128 .f32) (x8 : FVec Ideal S128 .f32)
    (h0 : ∀ i, IsReal (x0 i)) (h2 : ∀ i, IsReal (x2 i)) (h7 : ∀ i, IsReal (x7 i)) (h8 : ∀ i, IsReal (x8 i))
    (hpos : ∀ n, 0 < val_main_v11 (F := Ideal) x1 x2 n) :
    ∀ i, IsReal (val_main_v43 (F := Ideal) x0 x1 x2 x7 x8 i) := by
  intro i
  rw [val_main_v43_apply, Ideal.mulf_def]
  refine IsReal.mul ?_ ?_
  · unfold val_main_v40
    exact isReal_gather _ _ _ (isReal_v33 x0 x7 x8 h0 h7 h8) i
  · rw [val_main_v42_apply, val_main_v41_apply]
    exact isReal_v28 x1 x2 h2 hpos _

theorem isReal_v44 : ∀ i, IsReal (val_main_v44 (F := Ideal) i) := by
  intro i
  rw [val_main_v44_apply]
  unfold val_main_cst_7
  rw [ValueIdx.constant_apply, ofBits_zero]
  exact isReal_zero

/-- THE BASE AGGREGATION is real everywhere: a scatter-sum of the real messages onto zeros. -/
theorem isReal_aggB (a0 : FVec Ideal S50000x128 .f32) (a1 : IVec S2x800000 32) (a2 : FVec Ideal S800000 .f32)
    (a7 : FVec Ideal S128x128 .f32) (a8 : FVec Ideal S128 .f32)
    (h0 : ∀ i, IsReal (a0 i)) (h2 : ∀ i, IsReal (a2 i)) (h7 : ∀ i, IsReal (a7 i)) (h8 : ∀ i, IsReal (a8 i))
    (hpos : ∀ n, 0 < val_main_v11 (F := Ideal) a1 a2 n) :
    ∀ i, IsReal (val_main_v46 (F := Ideal) a0 a1 a2 a7 a8 i) := by
  unfold val_main_v46
  exact isReal_scatterAdd _ _ _ _ isReal_v44 (isReal_v43 a0 a1 a2 a7 a8 h0 h2 h7 h8 hpos)

/-! ### The local graph's aggregation -/

/-- The projected local features: a contraction of real operands plus a real bias. -/
theorem isReal_v75 (x3 : FVec Ideal S100000x128 .f32) (x9 : FVec Ideal S128x128 .f32) (x10 : FVec Ideal S128 .f32)
    (h3 : ∀ i, IsReal (x3 i)) (h9 : ∀ i, IsReal (x9 i)) (h10 : ∀ i, IsReal (x10 i)) :
    ∀ i, IsReal (val_main_v75 (F := Ideal) x3 x9 x10 i) := by
  intro i
  rw [val_main_v75_apply, Ideal.addf_def]
  refine IsReal.add ?_ ?_
  · rw [val_main_v72_apply]
    refine isReal_sum _ _ fun k _ => (h3 _).mul ?_
    rw [val_main_v71_apply]
    exact h9 _
  · rw [val_main_v74_apply, val_main_v73_apply]
    exact h10 _

/-- The local messages: gathered features times the weight of their edge. -/
theorem isReal_v89 (x3 : FVec Ideal S100000x128 .f32) (x4 : IVec S2x800000 32) (x5 : FVec Ideal S800000 .f32)
    (x9 : FVec Ideal S128x128 .f32) (x10 : FVec Ideal S128 .f32)
    (h3 : ∀ i, IsReal (x3 i)) (h5 : ∀ i, IsReal (x5 i)) (h9 : ∀ i, IsReal (x9 i)) (h10 : ∀ i, IsReal (x10 i)) :
    ∀ i, IsReal (val_main_v89 (F := Ideal) x3 x4 x5 x9 x10 i) := by
  intro i
  rw [val_main_v89_apply, Ideal.mulf_def]
  refine IsReal.mul ?_ ?_
  · unfold val_main_v86
    exact isReal_gather _ _ _ (isReal_v75 x3 x9 x10 h3 h9 h10) i
  · rw [val_main_v88_apply, val_main_v87_apply]
    exact h5 _

theorem isReal_v90 : ∀ i, IsReal (val_main_v90 (F := Ideal) i) := by
  intro i
  rw [val_main_v90_apply]
  unfold val_main_cst_15
  rw [ValueIdx.constant_apply, ofBits_zero]
  exact isReal_zero

/-- THE LOCAL AGGREGATION is real everywhere: a scatter-sum of the real messages onto zeros. -/
theorem isReal_aggL (a3 : FVec Ideal S100000x128 .f32) (a4 : IVec S2x800000 32) (a5 : FVec Ideal S800000 .f32)
    (a9 : FVec Ideal S128x128 .f32) (a10 : FVec Ideal S128 .f32)
    (h3 : ∀ i, IsReal (a3 i)) (h5 : ∀ i, IsReal (a5 i)) (h9 : ∀ i, IsReal (a9 i)) (h10 : ∀ i, IsReal (a10 i)) :
    ∀ i, IsReal (val_main_v92 (F := Ideal) a3 a4 a5 a9 a10 i) := by
  unfold val_main_v92
  exact isReal_scatterAdd _ _ _ _ isReal_v90 (isReal_v89 a3 a4 a5 a9 a10 h3 h5 h9 h10)

end Cert.FinAgg

end
-- ==== Proof.PreUse.lean ====
/- From the precondition on a launch memory to the real-ness the variance identity needs: under the
   precondition, on every device, the two edge aggregations of the input arrays are real at every index,
   and so are the two mean-scale vectors. -/
import proofs.«128412_j31044023616094_2_alg».proof.Defs
import proofs.«128412_j31044023616094_2_alg».proof.Proof.FinAgg
import proofs.«128412_j31044023616094_2_alg».proof.Proof.PreFacts

noncomputable section

namespace Cert.PreUse

open Idealize.ShloMosaic Idealize.SL.Sem Cert.Algebra Cert.ReferenceIdeal.Read

/-- Under the precondition, on device `c`: the base aggregation, the base mean scale, the local
    aggregation and the local mean scale of the memory's input arrays are real everywhere. The
    precondition gives every float input real and the corrected degree positive; the corrected degree
    is the reference's own, so its reciprocal square root is real, and the aggregations are sums of
    products of real values. -/
theorem aggs_real [Cert.Pre_finite_inputs.Facts]
    (m : (ℓ : Loc Cert.KernelIdeal.nD Cert.KernelIdeal.τ Cert.KernelIdeal.sig) → Buf (Elt Ideal) ℓ)
    (h : Cert.Pre_KernelIdeal m) (c : Dev Cert.KernelIdeal.nD) :
    (∀ i, IsReal (val_main_v46 (F := Ideal)
        (m ((c.tc : Thread Cert.KernelIdeal.nD Cert.KernelIdeal.τ).loc Cert.KernelIdeal.main_arg0))
        (m ((c.tc : Thread Cert.KernelIdeal.nD Cert.KernelIdeal.τ).loc Cert.KernelIdeal.main_arg1))
        (m ((c.tc : Thread Cert.KernelIdeal.nD Cert.KernelIdeal.τ).loc Cert.KernelIdeal.main_arg2))
        (m ((c.tc : Thread Cert.KernelIdeal.nD Cert.KernelIdeal.τ).loc Cert.KernelIdeal.main_arg7))
        (m ((c.tc : Thread Cert.KernelIdeal.nD Cert.KernelIdeal.τ).loc Cert.KernelIdeal.main_arg8)) i))
    ∧ (∀ i, IsReal ((m ((c.tc : Thread Cert.KernelIdeal.nD Cert.KernelIdeal.τ).loc Cert.KernelIdeal.main_arg13)) i))
    ∧ (∀ i, IsReal (val_main_v92 (F := Ideal)
        (m ((c.tc : Thread Cert.KernelIdeal.nD Cert.KernelIdeal.τ).loc Cert.KernelIdeal.main_arg3))
        (m ((c.tc : Thread Cert.KernelIdeal.nD Cert.KernelIdeal.τ).loc Cert.KernelIdeal.main_arg4))
        (m ((c.tc : Thread Cert.KernelIdeal.nD Cert.KernelIdeal.τ).loc Cert.KernelIdeal.main_arg5))
        (m ((c.tc : Thread Cert.KernelIdeal.nD Cert.KernelIdeal.τ).loc Cert.KernelIdeal.main_arg9))
        (m ((c.tc : Thread Cert.KernelIdeal.nD Cert.KernelIdeal.τ).loc Cert.KernelIdeal.main_arg10)) i))
    ∧ (∀ i, IsReal ((m ((c.tc : Thread Cert.KernelIdeal.nD Cert.KernelIdeal.τ).loc Cert.KernelIdeal.main_arg16)) i)) := by
  obtain ⟨h0, h2, h3, h5, h7, h8, h9, h10, _, _, h13, _, _, h16, hdeg⟩ :=
    Cert.PreFacts.facts _ _ _ _ _ _ _ _ _ _ _ _ _ _ _ _ _ (h c)
  refine ⟨?_, h13, ?_, h16⟩
  · refine Cert.FinAgg.isReal_aggB _ _ _ _ _ h0 h2 h7 h8 fun n => ?_
    have e := hdeg n
    rw [Cert.FinAgg.degFixed_eq] at e
    exact e
  · exact Cert.FinAgg.isReal_aggL _ _ _ _ _ h3 h5 h9 h10

end Cert.PreUse

end
-- ==== Proof.lean ====
/-
  The certificate of an edge-convolution layer on a base graph and a graph of copies: two linear projections, two
  gather-weight-scatter aggregations normalised by the inverse square root of the bumped weighted degree, a graph norm
  with a learnable mean scale and a rectifier on each, the copies' features mixed with their originals', averaged back,
  and a final convex mix. The kernel program does the dense parts in seven tiled regions and forms each variance as
  mean(x²) + m²·c·(c − 2) from one pass of column sums, taken in two halves; the reference forms mean((x − c·m)²) directly.

  On the extended reals the two variances agree exactly when the aggregated features are real numbers, and they are real
  exactly when no degree the reference inverts the square root of is zero or negative: that is the precondition's last
  conjunct, the reference's own domain. Everything else — the products as sums over the contracted axis, sums taken block
  by block and half by half, changes of float format — is the same function on both sides with no condition at all.

  The frames are the generated ones (the reference's is its generated run with the results dropped); the idealization
  rewrote nothing, so its record is empty; the value claim joins the kernel program's run, with its results named as the
  last boundary's contents, to the reference's run through the stage-by-stage identification of the bridge.
-/
import proofs.«128412_j31044023616094_2_alg».proof.Defs
import proofs.«128412_j31044023616094_2_alg».proof.Proof.Gen.Kernel
import proofs.«128412_j31044023616094_2_alg».proof.Proof.Gen.Kernel.Frame
import proofs.«128412_j31044023616094_2_alg».proof.Proof.Gen.KernelIdeal
import proofs.«128412_j31044023616094_2_alg».proof.Proof.Gen.KernelIdeal.Frame
import proofs.«128412_j31044023616094_2_alg».proof.Proof.Gen.ReferenceIdeal
import proofs.«128412_j31044023616094_2_alg».proof.Proof.Gen.Pre_finite_inputs
import proofs.«128412_j31044023616094_2_alg».proof.Proof.Gen.ReferenceIdeal.Run
import proofs.«128412_j31044023616094_2_alg».proof.Proof.Gen.ReferenceIdeal.Read
import proofs.«128412_j31044023616094_2_alg».proof.Proof.KRun
import proofs.«128412_j31044023616094_2_alg».proof.Proof.Bridge
import proofs.«128412_j31044023616094_2_alg».proof.Proof.PreUse
import Idealize.ShloMosaic.Adequacy
import Idealize.ShloMosaic.Init

noncomputable section

namespace Cert.Proof

open Idealize.ShloMosaic Idealize.ShloMosaic.TcCoe Idealize.SL.Sem

theorem frame_k : Cert.frame_Kernel := fun m ρ _ => Cert.Kernel.Gen.frame m ρ
theorem frame_ki : Cert.frame_KernelIdeal := fun m ρ _ => Cert.KernelIdeal.Gen.frame m ρ
theorem frame_ri : Cert.frame_ReferenceIdeal := fun m ρ _ =>
  (θ_run Cert.ReferenceIdeal.defs _ _).mono (fun _ h c => (h c).2.2) (Cert.ReferenceIdeal.Value.run (F := Ideal) m ρ)

/-- The idealization rewrote no operation: nothing to restate. -/
theorem preserves : Cert.preserves_Kernel_KernelIdeal := trivial

/-- From memories agreeing on the arguments both programs run, and their results are equal arrays of extended reals. -/
theorem algebraic : Cert.algebraic_KernelIdeal_ReferenceIdeal := by
  intro m ρ m' ρ' hpre hagree
  refine ⟨fun c => Cert.KernelIdeal.Gen.W16 m ρ c (Proc.devRef .tc Cert.KernelIdeal.main_v122),
    fun c => Cert.KernelIdeal.Gen.W16 m ρ c (Proc.devRef .tc Cert.KernelIdeal.main_v109),
    Cert.KernelIdeal.KRun.run_named m ρ, ?_⟩
  refine (θ_run Cert.ReferenceIdeal.defs _ _).mono (fun _ h c => ?_) (Cert.ReferenceIdeal.Value.run (F := Ideal) m' ρ')
  obtain ⟨hB, h13, hL, h16⟩ := Cert.PreUse.aggs_real m hpre c
  refine ⟨(h c).1.trans ?_, (h c).2.1.trans ?_, (h c).2.2⟩
  · rw [Cert.ReferenceIdeal.Read.val_main_v145_eq, (hagree c).1, (hagree c).2.1, (hagree c).2.2.1, (hagree c).2.2.2.1, (hagree c).2.2.2.2.1, (hagree c).2.2.2.2.2.1, (hagree c).2.2.2.2.2.2.1, (hagree c).2.2.2.2.2.2.2.1, (hagree c).2.2.2.2.2.2.2.2.1, (hagree c).2.2.2.2.2.2.2.2.2.1, (hagree c).2.2.2.2.2.2.2.2.2.2.1, (hagree c).2.2.2.2.2.2.2.2.2.2.2.1, (hagree c).2.2.2.2.2.2.2.2.2.2.2.2.1, (hagree c).2.2.2.2.2.2.2.2.2.2.2.2.2.1, (hagree c).2.2.2.2.2.2.2.2.2.2.2.2.2.2.1, (hagree c).2.2.2.2.2.2.2.2.2.2.2.2.2.2.2.1, (hagree c).2.2.2.2.2.2.2.2.2.2.2.2.2.2.2.2]
    exact (Cert.Bridge.out0 m ρ c hB h13 hL h16).symm
  · rw [Cert.ReferenceIdeal.Read.val_main_v128_eq, (hagree c).1, (hagree c).2.1, (hagree c).2.2.1, (hagree c).2.2.2.1, (hagree c).2.2.2.2.1, (hagree c).2.2.2.2.2.1, (hagree c).2.2.2.2.2.2.1, (hagree c).2.2.2.2.2.2.2.1, (hagree c).2.2.2.2.2.2.2.2.1, (hagree c).2.2.2.2.2.2.2.2.2.1, (hagree c).2.2.2.2.2.2.2.2.2.2.1, (hagree c).2.2.2.2.2.2.2.2.2.2.2.1, (hagree c).2.2.2.2.2.2.2.2.2.2.2.2.1, (hagree c).2.2.2.2.2.2.2.2.2.2.2.2.2.1, (hagree c).2.2.2.2.2.2.2.2.2.2.2.2.2.2.1, (hagree c).2.2.2.2.2.2.2.2.2.2.2.2.2.2.2.1, (hagree c).2.2.2.2.2.2.2.2.2.2.2.2.2.2.2.2]
    exact (Cert.Bridge.out1 m ρ c hB h13 hL h16).symm

theorem claim : Cert.Claim := ⟨Cert.Kernel.Gen.facts, Cert.KernelIdeal.Gen.facts, Cert.ReferenceIdeal.Gen.facts, Cert.Pre_finite_inputs.Gen.facts,
  frame_k, frame_ki, frame_ri, preserves, algebraic⟩

end Cert.Proof

end
